-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1200000 : Shape := ⟨2, ![2, 1200000]⟩
abbrev S256x64 : Shape := ⟨2, ![256, 64]⟩
abbrev S64x40 : Shape := ⟨2, ![64, 40]⟩
abbrev S4x64x64 : Shape := ⟨3, ![4, 64, 64]⟩
abbrev S192x64 : Shape := ⟨2, ![192, 64]⟩
abbrev S192 : Shape := ⟨1, ![192]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64x40 : S_.BroadcastsInDim S64x40 (![] : Fin 0 → Fin S64x40.rank)
  reducesTo_S64x40_S_d0_1 : S64x40.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192 .f32) (main_v33 : IVec S_ 1) : IVec S_ 1 :=
  let main_v34 : FVec F S192 .f32 := Host.absf main_arg8
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  main_v38

def fn_part1 {F : FTy → Type} [FloatOps F] (main_arg5 : FVec F S192x64 .f32) (main_arg6 : FVec F S192x64 .f32) (main_arg7 : FVec F S192 .f32) (main_arg8 : FVec F S192 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192x64 .f32 := Host.absf main_arg6
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192 .f32 := Host.absf main_arg7
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg8 main_v33

def fn {F : FTy → Type} [FloatOps F] (main_arg0 : FVec F S100000x256 .f32) (main_arg1 : IVec S2x1200000 32) (main_arg2 : FVec F S256x64 .f32) (main_arg3 : FVec F S64x40 .f32) (main_arg4 : FVec F S4x64x64 .f32) (main_arg5 : FVec F S192x64 .f32) (main_arg6 : FVec F S192x64 .f32) (main_arg7 : FVec F S192 .f32) (main_arg8 : FVec F S192 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64x40 .f32 := Host.absf main_arg3
  let main_cst_2 : FVec F S_ .f32 := constant S_ .f32 0x7F800000#32
  let main_v10 : FVec F S64x40 .f32 := broadcastInDim S64x40 ![] bcast_S_S64x40 main_cst_2
  let main_v11 : IVec S64x40 1 := cmpf .olt main_v9 main_v10
  let main_c_3 : IVec S_ 1 := constantI S_ 1 1#1
  let main_v12 : IVec S_ 1 := (fun x v => Host.reduce IntOp.andi x v reducesTo_S64x40_S_d0_1 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_arg7 main_arg8 main_v13 main_v16
-- ==== Kernel.lean ====
abbrev S100000x256 : Shape := ⟨2, ![100000, 256]⟩
abbrev S2x1200000 : Shape := ⟨2, ![2, 1200000]⟩
abbrev S256x64 : Shape := ⟨2, ![256, 64]⟩
abbrev S64x40 : Shape := ⟨2, ![64, 40]⟩
abbrev S4x64x64 : Shape := ⟨3, ![4, 64, 64]⟩
abbrev S192x64 : Shape := ⟨2, ![192, 64]⟩
abbrev S192 : Shape := ⟨1, ![192]⟩
abbrev S1x1200000 : Shape := ⟨2, ![1, 1200000]⟩
abbrev S1200000 : Shape := ⟨1, ![1200000]⟩
abbrev S100000x64 : Shape := ⟨2, ![100000, 64]⟩
abbrev S2000x256 : Shape := ⟨2, ![2000, 256]⟩
abbrev S2000x64 : Shape := ⟨2, ![2000, 64]⟩
abbrev S64x64 : Shape := ⟨2, ![64, 64]⟩
abbrev S64 : Shape := ⟨1, ![64]⟩
abbrev S1x64 : Shape := ⟨2, ![1, 64]⟩
abbrev S1x64x64 : Shape := ⟨3, ![1, 64, 64]⟩
abbrev S_ : Shape := ⟨0, ![]⟩
abbrev S1200000x1 : Shape := ⟨2, ![1200000, 1]⟩
abbrev S1200000x64 : Shape := ⟨2, ![1200000, 64]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 107
  | .vmem => 102
  | .smem => 0
  | _ => 0

abbrev bufTy : (tb : Table) → Fin (tcTables nBuf tb) → BufTy
  | .hbm, ⟨0, _⟩ => ⟨S100000x256, .f32⟩
  | .hbm, ⟨1, _⟩ => ⟨S2x1200000, .i32⟩
  | .hbm, ⟨2, _⟩ => ⟨S256x64, .f32⟩
  | .hbm, ⟨3, _⟩ => ⟨S64x40, .f32⟩
  | .hbm, ⟨4, _⟩ => ⟨S4x64x64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S100000x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64x64, .f32⟩
  | .hbm, ⟨39, _⟩ => ⟨S64x64, .f32⟩
  | .hbm, ⟨40, _⟩ => ⟨S100000x64, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S_, .f32⟩
  | .hbm, ⟨51, _⟩ => ⟨S100000x64, .f32⟩
  | .hbm, ⟨52, _⟩ => ⟨S1200000x1, .i32⟩
  | .hbm, ⟨53, _⟩ => ⟨S100000x64, .f32⟩
  | .hbm, ⟨54, _⟩ => ⟨S100000x64, .f32⟩
  | .hbm, ⟨55, _⟩ => ⟨S1x64x64, .f32⟩
  | .hbm, ⟨56, _⟩ => ⟨S64x64, .f32⟩
  | .hbm, ⟨57, _⟩ => ⟨S100000x64, .f32⟩
  | .hbm, ⟨58, _⟩ => ⟨S_, .i32⟩
  | .hbm, ⟨59, _⟩ => ⟨S1200000, .i32⟩
  | .hbm, ⟨60, _⟩ => ⟨S1200000, .i1⟩
  | .hbm, ⟨61, _⟩ => ⟨S_, .i32⟩
  | .hbm, ⟨62, _⟩ => ⟨S1200000, .i32⟩
  | .hbm, ⟨63, _⟩ => ⟨S1200000, .i32⟩
  | .hbm, ⟨64, _⟩ => ⟨S1200000, .i32⟩
  | .hbm, ⟨65, _⟩ => ⟨S1200000x1, .i32⟩
  | .hbm, ⟨66, _⟩ => ⟨S1200000x64, .f32⟩
  | .hbm, ⟨67, _⟩ => ⟨S_, .f32⟩
  | .hbm, ⟨68, _⟩ => ⟨S100000x64, .f32⟩
  | .hbm, ⟨69, _⟩ => ⟨S1200000x1, .i32⟩
  | .hbm, ⟨70, _⟩ => ⟨S100000x64, .f32⟩
  | .hbm, ⟨71, _⟩ => ⟨S100000x64, .f32⟩
  | .hbm, ⟨72, _⟩ => ⟨S1x64x64, .f32⟩
  | .hbm, ⟨73, _⟩ => ⟨S64x64, .f32⟩
  | .hbm, ⟨74, _⟩ => ⟨S100000x64, .f32⟩
  | .hbm, ⟨75, _⟩ => ⟨S_, .i32⟩
  | .hbm, ⟨76, _⟩ => ⟨S1200000, .i32⟩
  | .hbm, ⟨77, _⟩ => ⟨S1200000, .i1⟩
  | .hbm, ⟨78, _⟩ => ⟨S_, .i32⟩
  | .hbm, ⟨79, _⟩ => ⟨S1200000, .i32⟩
  | .hbm, ⟨80, _⟩ => ⟨S1200000, .i32⟩
  | .hbm, ⟨81, _⟩ => ⟨S1200000, .i32⟩
  | .hbm, ⟨82, _⟩ => ⟨S1200000x1, .i32⟩
  | .hbm, ⟨83, _⟩ => ⟨S1200000x64, .f32⟩
  | .hbm, ⟨84, _⟩ => ⟨S_, .f32⟩
  | .hbm, ⟨85, _⟩ => ⟨S100000x64, .f32⟩
  | .hbm, ⟨86, _⟩ => ⟨S1200000x1, .i32⟩
  | .hbm, ⟨87, _⟩ => ⟨S100000x64, .f32⟩
  | .hbm, ⟨88, _⟩ => ⟨S100000x64, .f32⟩
  | .hbm, ⟨89, _⟩ => ⟨S1x64x64, .f32⟩
  | .hbm, ⟨90, _⟩ => ⟨S64x64, .f32⟩
  | .hbm, ⟨91, _⟩ => ⟨S100000x64, .f32⟩
  | .hbm, ⟨92, _⟩ => ⟨S_, .i32⟩
  | .hbm, ⟨93, _⟩ => ⟨S1200000, .i32⟩
  | .hbm, ⟨94, _⟩ => ⟨S1200000, .i1⟩
  | .hbm, ⟨95, _⟩ => ⟨S_, .i32⟩
  | .hbm, ⟨96, _⟩ => ⟨S1200000, .i32⟩
  | .hbm, ⟨97, _⟩ => ⟨S1200000, .i32⟩
  | .hbm, ⟨98, _⟩ => ⟨S1200000, .i32⟩
  | .hbm, ⟨99, _⟩ => ⟨S1200000x1, .i32⟩
  | .hbm, ⟨100, _⟩ => ⟨S1200000x64, .f32⟩
  | .hbm, ⟨101, _⟩ => ⟨S_, .f32⟩
  | .hbm, ⟨102, _⟩ => ⟨S100000x64, .f32⟩
  | .hbm, ⟨103, _⟩ => ⟨S1200000x1, .i32⟩
  | .hbm, ⟨104, _⟩ => ⟨S100000x64, .f32⟩
  | .hbm, ⟨105, _⟩ => ⟨S100000x64, .f32⟩
  | .hbm, ⟨106, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S64x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S64x64, .f32⟩
  | .local _ .vmem, ⟨38, _⟩ => ⟨S64x64, .f32⟩
  | .local _ .vmem, ⟨39, _⟩ => ⟨S64x64, .f32⟩
  | .local _ .vmem, ⟨40, _⟩ => ⟨S64x64, .f32⟩
  | .local _ .vmem, ⟨41, _⟩ => ⟨S64x64, .f32⟩
  | .local _ .vmem, ⟨42, _⟩ => ⟨S64x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S64x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S64x64, .f32⟩
  | .local _ .vmem, ⟨61, _⟩ => ⟨S64x64, .f32⟩
  | .local _ .vmem, ⟨62, _⟩ => ⟨S64x64, .f32⟩
  | .local _ .vmem, ⟨63, _⟩ => ⟨S64x64, .f32⟩
  | .local _ .vmem, ⟨64, _⟩ => ⟨S64x64, .f32⟩
  | .local _ .vmem, ⟨65, _⟩ => ⟨S64x64, .f32⟩
  | .local _ .vmem, ⟨66, _⟩ => ⟨S1x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S1x64, .f32⟩
  | .local _ .vmem, ⟨71, _⟩ => ⟨S1x64, .f32⟩
  | .local _ .vmem, ⟨72, _⟩ => ⟨S2000x64, .f32⟩
  | .local _ .vmem, ⟨73, _⟩ => ⟨S2000x64, .f32⟩
  | .local _ .vmem, ⟨74, _⟩ => ⟨S2000x64, .f32⟩
  | .local _ .vmem, ⟨75, _⟩ => ⟨S2000x64, .f32⟩
  | .local _ .vmem, ⟨76, _⟩ => ⟨S64x64, .f32⟩
  | .local _ .vmem, ⟨77, _⟩ => ⟨S2000x64, .f32⟩
  | .local _ .vmem, ⟨78, _⟩ => ⟨S2000x64, .f32⟩
  | .local _ .vmem, ⟨79, _⟩ => ⟨S2000x64, .f32⟩
  | .local _ .vmem, ⟨80, _⟩ => ⟨S2000x64, .f32⟩
  | .local _ .vmem, ⟨81, _⟩ => ⟨S2000x64, .f32⟩
  | .local _ .vmem, ⟨82, _⟩ => ⟨S2000x64, .f32⟩
  | .local _ .vmem, ⟨83, _⟩ => ⟨S64x64, .f32⟩
  | .local _ .vmem, ⟨84, _⟩ => ⟨S64x64, .f32⟩
  | .local _ .vmem, ⟨85, _⟩ => ⟨S64x64, .f32⟩
  | .local _ .vmem, ⟨86, _⟩ => ⟨S64x64, .f32⟩
  | .local _ .vmem, ⟨87, _⟩ => ⟨S64x64, .f32⟩
  | .local _ .vmem, ⟨88, _⟩ => ⟨S64x64, .f32⟩
  | .local _ .vmem, ⟨89, _⟩ => ⟨S1x64, .f32⟩
  | .local _ .vmem, ⟨90, _⟩ => ⟨S1x64, .f32⟩
  | .local _ .vmem, ⟨91, _⟩ => ⟨S1x64, .f32⟩
  | .local _ .vmem, ⟨92, _⟩ => ⟨S1x64, .f32⟩
  | .local _ .vmem, ⟨93, _⟩ => ⟨S1x64, .f32⟩
  | .local _ .vmem, ⟨94, _⟩ => ⟨S1x64, .f32⟩
  | .local _ .vmem, ⟨95, _⟩ => ⟨S2000x64, .f32⟩
  | .local _ .vmem, ⟨96, _⟩ => ⟨S2000x64, .f32⟩
  | .local _ .vmem, ⟨97, _⟩ => ⟨S2000x64, .f32⟩
  | .local _ .vmem, ⟨98, _⟩ => ⟨S2000x64, .f32⟩
  | .local _ .vmem, ⟨99, _⟩ => ⟨S64x40, .f32⟩
  | .local _ .vmem, ⟨100, _⟩ => ⟨S2000x40, .f32⟩
  | .local _ .vmem, ⟨101, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_v32 : Ref sig .tc := ⟨.hbm, 42, rfl⟩
abbrev main_v33 : Ref sig .tc := ⟨.hbm, 43, rfl⟩
abbrev main_c_0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_1 : Ref sig .tc := ⟨.hbm, 58, rfl⟩
abbrev main_v46 : Ref sig .tc := ⟨.hbm, 59, rfl⟩
abbrev main_v47 : Ref sig .tc := ⟨.hbm, 60, rfl⟩
abbrev main_c_2 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_4 : Ref sig .tc := ⟨.hbm, 75, rfl⟩
abbrev main_v60 : Ref sig .tc := ⟨.hbm, 76, rfl⟩
abbrev main_v61 : Ref sig .tc := ⟨.hbm, 77, rfl⟩
abbrev main_c_5 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_6 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_7 : Ref sig .tc := ⟨.hbm, 92, rfl⟩
abbrev main_v74 : Ref sig .tc := ⟨.hbm, 93, rfl⟩
abbrev main_v75 : Ref sig .tc := ⟨.hbm, 94, rfl⟩
abbrev main_c_8 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg12_0 : Ref sig .tc := ⟨.vmem, 24, rfl⟩
abbrev cc2_stg13_0 : Ref sig .tc := ⟨.vmem, 25, rfl⟩
abbrev cc2_stg14_0 : Ref sig .tc := ⟨.vmem, 26, rfl⟩
abbrev cc2_stg14_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg8_0 : Ref sig .tc := ⟨.vmem, 43, rfl⟩
abbrev cc4_stg9_0 : Ref sig .tc := ⟨.vmem, 44, rfl⟩
abbrev cc4_stg10_0 : Ref sig .tc := ⟨.vmem, 45, rfl⟩
abbrev cc4_stg11_0 : Ref sig .tc := ⟨.vmem, 46, rfl⟩
abbrev cc4_stg12_0 : Ref sig .tc := ⟨.vmem, 47, rfl⟩
abbrev cc4_stg13_0 : Ref sig .tc := ⟨.vmem, 48, rfl⟩
abbrev cc4_stg14_0 : Ref sig .tc := ⟨.vmem, 49, rfl⟩
abbrev cc4_stg14_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg2_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg6_0 : Ref sig .tc := ⟨.vmem, 64, rfl⟩
abbrev cc6_stg7_0 : Ref sig .tc := ⟨.vmem, 65, rfl⟩
abbrev cc6_stg8_0 : Ref sig .tc := ⟨.vmem, 66, rfl⟩
abbrev cc6_stg9_0 : Ref sig .tc := ⟨.vmem, 67, rfl⟩
abbrev cc6_stg10_0 : Ref sig .tc := ⟨.vmem, 68, rfl⟩
abbrev cc6_stg11_0 : Ref sig .tc := ⟨.vmem, 69, rfl⟩
abbrev cc6_stg12_0 : Ref sig .tc := ⟨.vmem, 70, rfl⟩
abbrev cc6_stg13_0 : Ref sig .tc := ⟨.vmem, 71, rfl⟩
abbrev cc6_stg14_0 : Ref sig .tc := ⟨.vmem, 72, rfl⟩
abbrev cc6_stg14_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg2_1 : Ref sig .tc := ⟨.vmem, 78, rfl⟩
abbrev cc8_stg0_0 : Ref sig .tc := ⟨.vmem, 79, rfl⟩
abbrev cc8_stg0_1 : Ref sig .tc := ⟨.vmem, 80, rfl⟩
abbrev cc8_stg1_0 : Ref sig .tc := ⟨.vmem, 81, rfl⟩
abbrev cc8_stg1_1 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg6_0 : Ref sig .tc := ⟨.vmem, 87, rfl⟩
abbrev cc8_stg7_0 : Ref sig .tc := ⟨.vmem, 88, rfl⟩
abbrev cc8_stg8_0 : Ref sig .tc := ⟨.vmem, 89, rfl⟩
abbrev cc8_stg9_0 : Ref sig .tc := ⟨.vmem, 90, rfl⟩
abbrev cc8_stg10_0 : Ref sig .tc := ⟨.vmem, 91, rfl⟩
abbrev cc8_stg11_0 : Ref sig .tc := ⟨.vmem, 92, rfl⟩
abbrev cc8_stg12_0 : Ref sig .tc := ⟨.vmem, 93, rfl⟩
abbrev cc8_stg13_0 : Ref sig .tc := ⟨.vmem, 94, rfl⟩
abbrev cc8_stg14_0 : Ref sig .tc := ⟨.vmem, 95, rfl⟩
abbrev cc8_stg14_1 : Ref sig .tc := ⟨.vmem, 96, rfl⟩
abbrev cc9_stg0_0 : Ref sig .tc := ⟨.vmem, 97, rfl⟩
abbrev cc9_stg0_1 : Ref sig .tc := ⟨.vmem, 98, rfl⟩
abbrev cc9_stg1_0 : Ref sig .tc := ⟨.vmem, 99, rfl⟩
abbrev cc9_stg2_0 : Ref sig .tc := ⟨.vmem, 100, rfl⟩
abbrev cc9_stg2_1 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem11_0 : DmaSem sig := 23
abbrev cc2_sem12_0 : DmaSem sig := 24
abbrev cc2_sem13_0 : DmaSem sig := 25
abbrev cc2_sem14_0 : DmaSem sig := 26
abbrev cc2_sem14_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem8_0 : DmaSem sig := 43
abbrev cc4_sem9_0 : DmaSem sig := 44
abbrev cc4_sem10_0 : DmaSem sig := 45
abbrev cc4_sem11_0 : DmaSem sig := 46
abbrev cc4_sem12_0 : DmaSem sig := 47
abbrev cc4_sem13_0 : DmaSem sig := 48
abbrev cc4_sem14_0 : DmaSem sig := 49
abbrev cc4_sem14_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem2_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem6_0 : DmaSem sig := 64
abbrev cc6_sem7_0 : DmaSem sig := 65
abbrev cc6_sem8_0 : DmaSem sig := 66
abbrev cc6_sem9_0 : DmaSem sig := 67
abbrev cc6_sem10_0 : DmaSem sig := 68
abbrev cc6_sem11_0 : DmaSem sig := 69
abbrev cc6_sem12_0 : DmaSem sig := 70
abbrev cc6_sem13_0 : DmaSem sig := 71
abbrev cc6_sem14_0 : DmaSem sig := 72
abbrev cc6_sem14_1 : DmaSem sig := 73
abbrev cc7_sem0_0 : DmaSem sig := 74
abbrev cc7_sem0_1 : DmaSem sig := 75
abbrev cc7_sem1_0 : DmaSem sig := 76
abbrev cc7_sem2_0 : DmaSem sig := 77
abbrev cc7_sem2_1 : DmaSem sig := 78
abbrev cc8_sem0_0 : DmaSem sig := 79
abbrev cc8_sem0_1 : DmaSem sig := 80
abbrev cc8_sem1_0 : DmaSem sig := 81
abbrev cc8_sem1_1 : DmaSem sig := 82
abbrev cc8_sem2_0 : DmaSem sig := 83
abbrev cc8_sem3_0 : DmaSem sig := 84
abbrev cc8_sem4_0 : DmaSem sig := 85
abbrev cc8_sem5_0 : DmaSem sig := 86
abbrev cc8_sem6_0 : DmaSem sig := 87
abbrev cc8_sem7_0 : DmaSem sig := 88
abbrev cc8_sem8_0 : DmaSem sig := 89
abbrev cc8_sem9_0 : DmaSem sig := 90
abbrev cc8_sem10_0 : DmaSem sig := 91
abbrev cc8_sem11_0 : DmaSem sig := 92
abbrev cc8_sem12_0 : DmaSem sig := 93
abbrev cc8_sem13_0 : DmaSem sig := 94
abbrev cc8_sem14_0 : DmaSem sig := 95
abbrev cc8_sem14_1 : DmaSem sig := 96
abbrev cc9_sem0_0 : DmaSem sig := 97
abbrev cc9_sem0_1 : DmaSem sig := 98
abbrev cc9_sem1_0 : DmaSem sig := 99
abbrev cc9_sem2_0 : DmaSem sig := 100
abbrev cc9_sem2_1 : DmaSem sig := 101

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S2000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 2 → Memref sig .tc .vmem S2000x64 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x64 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x64 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x64 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S1x64 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 2 → Memref sig .tc .vmem S2000x64 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_14 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S64x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S64x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x64 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x64 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x64 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S1x64 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 1 → Memref sig .tc .vmem S1x64 .f32 := fun | 0 => Memref.whole cc8_stg13_0 | ⟨_ + 1, h⟩ => absurd h (Nat.not_lt.2 (Nat.le_add_left _ _))
abbrev sem8_13 : Fin 1 → DmaSem sig := fun | 0 => cc8_sem13_0 | ⟨_ + 1, h⟩ => absurd h (Nat.not_lt.2 (Nat.le_add_left _ _))
abbrev reads8_13 : Fin grid8.rank → Bool := ![false]

abbrev stage8_14 : Fin 2 → Memref sig .tc .vmem S2000x64 .f32 := fun | 0 => Memref.whole cc8_stg14_0 | 1 => Memref.whole cc8_stg14_1 | ⟨_ + 2, h⟩ => absurd h (Nat.not_lt.2 (Nat.le_add_left _ _))
abbrev sem8_14 : Fin 2 → DmaSem sig := fun | 0 => cc8_sem14_0 | 1 => cc8_sem14_1 | ⟨_ + 2, h⟩ => absurd h (Nat.not_lt.2 (Nat.le_add_left _ _))
abbrev reads8_14 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x40 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x40 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  slices_S192x64_S64x64_0_0 : S192x64.Slices ![0, 0] S64x64
  slices_S192x64_S64x64_64_0 : S192x64.Slices ![64, 0] S64x64
  slices_S192x64_S64x64_128_0 : S192x64.Slices ![128, 0] S64x64
  slices_S192_S64_0 : S192.Slices ![0] S64
  slices_S192_S64_64 : S192.Slices ![64] S64
  slices_S192_S64_128 : S192.Slices ![128] S64
  transposes_S64x64_S64x64_1_0 : S64x64.Transposes [1, 0] S64x64
  shapeCasts_S64_S1x64 : S64.ShapeCasts S1x64
  slices_S4x64x64_S1x64x64_0_0_0 : S4x64x64.Slices ![0, 0, 0] S1x64x64
  shapeCasts_S1x64x64_S64x64 : S1x64x64.ShapeCasts S64x64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  inb_S64x40_S64x40_0_0 : ∀ a, (![0, 0] : Fin 2 → Nat) a + S64x40.size a ≤ S64x40.size a
  h_S64x40 : 0 < S64x40.numel
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  dot_S2000x256_S256x64_S2000x64_1_0_0_1_n_n_wf : DotDims.WF S2000x256 S256x64 S2000x64 [1] [0] [0] [1] [] []
  dot_S2000x64_S64x64_S2000x64_1_0_0_1_n_n_wf : DotDims.WF S2000x64 S64x64 S2000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x64.size a ≤ S100000x64.size a
  hwx2_14 : ∀ i : grid2.Coords, EltTy.bits .f32 = 32 ∨ (Rect.block (s := S100000x64) S2000x64.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x64.size a ≤ S1x64.size a
  hwx4_11 : ∀ i : grid4.Coords, EltTy.bits .f32 = 32 ∨ (Rect.block (s := S1x64) S1x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x64.size a ≤ S1x64.size a
  hwx4_12 : ∀ i : grid4.Coords, EltTy.bits .f32 = 32 ∨ (Rect.block (s := S1x64) S1x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x64.size a ≤ S1x64.size a
  hwx4_13 : ∀ i : grid4.Coords, EltTy.bits .f32 = 32 ∨ (Rect.block (s := S1x64) S1x64.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S2000x64.size a ≤ S100000x64.size a
  hwx4_14 : ∀ i : grid4.Coords, EltTy.bits .f32 = 32 ∨ (Rect.block (s := S100000x64) S2000x64.size (cc4_transform_14 i) (hinb4_14 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x64.size a ≤ S64x64.size a
  hwx6_6 : ∀ i : grid6.Coords, EltTy.bits .f32 = 32 ∨ (Rect.block (s := S64x64) S64x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x64.size a ≤ S64x64.size a
  hwx6_7 : ∀ i : grid6.Coords, EltTy.bits .f32 = 32 ∨ (Rect.block (s := S64x64) S64x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x64.size a ≤ S1x64.size a
  hwx6_9 : ∀ i : grid6.Coords, EltTy.bits .f32 = 32 ∨ (Rect.block (s := S1x64) S1x64.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x64.size a ≤ S1x64.size a
  hwx6_10 : ∀ i : grid6.Coords, EltTy.bits .f32 = 32 ∨ (Rect.block (s := S1x64) S1x64.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x64.size a ≤ S1x64.size a
  hwx6_11 : ∀ i : grid6.Coords, EltTy.bits .f32 = 32 ∨ (Rect.block (s := S1x64) S1x64.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S1x64.size a ≤ S1x64.size a
  hwx6_12 : ∀ i : grid6.Coords, EltTy.bits .f32 = 32 ∨ (Rect.block (s := S1x64) S1x64.size (cc6_transform_12 i) (hinb6_12 i)).WholeWords (EltTy.packing .f32)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S1x64.size a ≤ S1x64.size a
  hwx6_13 : ∀ i : grid6.Coords, EltTy.bits .f32 = 32 ∨ (Rect.block (s := S1x64) S1x64.size (cc6_transform_13 i) (hinb6_13 i)).WholeWords (EltTy.packing .f32)
  hstage6_14 : ∀ j, (stage6_14 j).IsWhole
  nbuf6_14 : grid6.bufCount reads6_14 false = 2
  hreads6_14 : ∀ i i' : grid6.Coords, (∀ a, reads6_14 a = true → i a = i' a) → cc6_transform_14 i = cc6_transform_14 i'
  hinb6_14 : ∀ (i : grid6.Coords) a, (cc6_transform_14 i a + 1) * S2000x64.size a ≤ S100000x64.size a
  hwx6_14 : ∀ i : grid6.Coords, EltTy.bits .f32 = 32 ∨ (Rect.block (s := S100000x64) S2000x64.size (cc6_transform_14 i) (hinb6_14 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S100000x64.size a
  hwx7_2 : ∀ i : grid7.Coords, EltTy.bits .f32 = 32 ∨ (Rect.block (s := S100000x64) S2000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S100000x64.size a
  hwx8_0 : ∀ i : grid8.Coords, EltTy.bits .f32 = 32 ∨ (Rect.block (s := S100000x64) S2000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x64.size a ≤ S100000x64.size a
  hwx8_1 : ∀ i : grid8.Coords, EltTy.bits .f32 = 32 ∨ (Rect.block (s := S100000x64) S2000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S64x64.size a ≤ S64x64.size a
  hwx8_6 : ∀ i : grid8.Coords, EltTy.bits .f32 = 32 ∨ (Rect.block (s := S64x64) S64x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S64x64.size a ≤ S64x64.size a
  hwx8_7 : ∀ i : grid8.Coords, EltTy.bits .f32 = 32 ∨ (Rect.block (s := S64x64) S64x64.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x64.size a ≤ S1x64.size a
  hwx8_8 : ∀ i : grid8.Coords, EltTy.bits .f32 = 32 ∨ (Rect.block (s := S1x64) S1x64.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x64.size a ≤ S1x64.size a
  hwx8_9 : ∀ i : grid8.Coords, EltTy.bits .f32 = 32 ∨ (Rect.block (s := S1x64) S1x64.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x64.size a ≤ S1x64.size a
  hwx8_10 : ∀ i : grid8.Coords, EltTy.bits .f32 = 32 ∨ (Rect.block (s := S1x64) S1x64.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1x64.size a ≤ S1x64.size a
  hwx8_11 : ∀ i : grid8.Coords, EltTy.bits .f32 = 32 ∨ (Rect.block (s := S1x64) S1x64.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S1x64.size a ≤ S1x64.size a
  hwx8_12 : ∀ i : grid8.Coords, EltTy.bits .f32 = 32 ∨ (Rect.block (s := S1x64) S1x64.size (cc8_transform_12 i) (hinb8_12 i)).WholeWords (EltTy.packing .f32)
  hstage8_13 : ∀ j, (stage8_13 j).IsWhole
  nbuf8_13 : grid8.bufCount reads8_13 true = 1
  hreads8_13 : ∀ i i' : grid8.Coords, (∀ a, reads8_13 a = true → i a = i' a) → cc8_transform_13 i = cc8_transform_13 i'
  hinb8_13 : ∀ (i : grid8.Coords) a, (cc8_transform_13 i a + 1) * S1x64.size a ≤ S1x64.size a
  hwx8_13 : ∀ i : grid8.Coords, EltTy.bits .f32 = 32 ∨ (Rect.block (s := S1x64) S1x64.size (cc8_transform_13 i) (hinb8_13 i)).WholeWords (EltTy.packing .f32)
  hstage8_14 : ∀ j, (stage8_14 j).IsWhole
  nbuf8_14 : grid8.bufCount reads8_14 false = 2
  hreads8_14 : ∀ i i' : grid8.Coords, (∀ a, reads8_14 a = true → i a = i' a) → cc8_transform_14 i = cc8_transform_14 i'
  hinb8_14 : ∀ (i : grid8.Coords) a, (cc8_transform_14 i a + 1) * S2000x64.size a ≤ S100000x64.size a
  hwx8_14 : ∀ i : grid8.Coords, EltTy.bits .f32 = 32 ∨ (Rect.block (s := S100000x64) S2000x64.size (cc8_transform_14 i) (hinb8_14 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S100000x64.size a
  hwx9_0 : ∀ i : grid9.Coords, EltTy.bits .f32 = 32 ∨ (Rect.block (s := S100000x64) S2000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x40.size a ≤ S64x40.size a
  hwx9_1 : ∀ i : grid9.Coords, EltTy.bits .f32 = 32 ∨ (Rect.block (s := S64x40) S64x40.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x40.size a ≤ S100000x40.size a
  hwx9_2 : ∀ i : grid9.Coords, EltTy.bits .f32 = 32 ∨ (Rect.block (s := S100000x40) S2000x40.size (cc9_transform_2 i) (hinb9_2 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v23) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v24) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v25) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v26) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v27) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v28) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v42) S2000x64.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v42) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v17) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v19) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v20) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v21) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v22) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v23) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v24) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v25) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v26) S1x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v27) S1x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v28) S1x64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v56) S2000x64.size cc4_transform_14 reads4_14 true false 2 stage4_14 sem4_14
    hrank4 hreads4_14 hinb4_14 nbuf4_14 (Memref.isWhole_whole _) hwx4_14 hstage4_14

abbrev win4 : Fin 15 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | ⟨_ + 15, h⟩ => absurd h (Nat.not_lt.2 (Nat.le_add_left _ _))
abbrev spec4 : Fin 15 → Pipeline.WinSpec sig grid4.rank := fun w => (win4 w).toWinSpec

abbrev win5_0 : Pipeline.Window sig grid5 :=
  Pipeline.Window.ofSpec (Memref.whole main_v56) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v69) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v17) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v18) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v19) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v20) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v21) S64x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v22) S64x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v23) S1x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v24) S1x64.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v25) S1x64.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v26) S1x64.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v27) S1x64.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v28) S1x64.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v70) S2000x64.size cc6_transform_14 reads6_14 true false 2 stage6_14 sem6_14
    hrank6 hreads6_14 hinb6_14 nbuf6_14 (Memref.isWhole_whole _) hwx6_14 hstage6_14

abbrev win6 : Fin 15 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | ⟨_ + 15, h⟩ => absurd h (Nat.not_lt.2 (Nat.le_add_left _ _))
abbrev spec6 : Fin 15 → Pipeline.WinSpec sig grid6.rank := fun w => (win6 w).toWinSpec

abbrev win7_0 : Pipeline.Window sig grid7 :=
  Pipeline.Window.ofSpec (Memref.whole main_v70) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v72) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v73) S2000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v83) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v70) S2000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v17) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v18) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v19) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v20) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v21) S64x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v22) S64x64.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v23) S1x64.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v24) S1x64.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v25) S1x64.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v26) S1x64.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v27) S1x64.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_v28) S1x64.size cc8_transform_13 reads8_13 false true 1 stage8_13 sem8_13
    hrank8 hreads8_13 hinb8_13 nbuf8_13 (Memref.isWhole_whole _) hwx8_13 hstage8_13

abbrev win8_14 : Pipeline.Window sig grid8 :=
  Pipeline.Window.ofSpec (Memref.whole main_v84) S2000x64.size cc8_transform_14 reads8_14 true false 2 stage8_14 sem8_14
    hrank8 hreads8_14 hinb8_14 nbuf8_14 (Memref.isWhole_whole _) hwx8_14 hstage8_14

abbrev win8 : Fin 15 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | 14 => win8_14 | ⟨_ + 15, h⟩ => absurd h (Nat.not_lt.2 (Nat.le_add_left _ _))
abbrev spec8 : Fin 15 → Pipeline.WinSpec sig grid8.rank := fun w => (win8 w).toWinSpec

abbrev win9_0 : Pipeline.Window sig grid9 :=
  Pipeline.Window.ofSpec (Memref.whole main_v84) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg3) S64x40.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v85) S2000x40.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x256 : Shape := ⟨2, ![100000, 256]⟩
abbrev S2x1200000 : Shape := ⟨2, ![2, 1200000]⟩
abbrev S256x64 : Shape := ⟨2, ![256, 64]⟩
abbrev S64x40 : Shape := ⟨2, ![64, 40]⟩
abbrev S4x64x64 : Shape := ⟨3, ![4, 64, 64]⟩
abbrev S192x64 : Shape := ⟨2, ![192, 64]⟩
abbrev S192 : Shape := ⟨1, ![192]⟩
abbrev S1x1200000 : Shape := ⟨2, ![1, 1200000]⟩
abbrev S1200000 : Shape := ⟨1, ![1200000]⟩
abbrev S100000x64 : Shape := ⟨2, ![100000, 64]⟩
abbrev S1x64x64 : Shape := ⟨3, ![1, 64, 64]⟩
abbrev S64x64 : Shape := ⟨2, ![64, 64]⟩
abbrev S_ : Shape := ⟨0, ![]⟩
abbrev S1200000x1 : Shape := ⟨2, ![1200000, 1]⟩
abbrev S1200000x64 : Shape := ⟨2, ![1200000, 64]⟩
abbrev S64x192 : Shape := ⟨2, ![64, 192]⟩
abbrev S100000x192 : Shape := ⟨2, ![100000, 192]⟩
abbrev S1x192 : Shape := ⟨2, ![1, 192]⟩
abbrev S100000x40 : Shape := ⟨2, ![100000, 40]⟩
abbrev S100000 : Shape := ⟨1, ![100000]⟩
abbrev S100000x1 : Shape := ⟨2, ![100000, 1]⟩

abbrev nBuf : Space → Nat
  | .hbm => 266
  | .vmem => 0
  | .smem => 0
  | _ => 0

abbrev hbmTy0_0 (i : Nat) : BufTy := match i % 128 with
  | 0 => ⟨S100000x256, .f32⟩
  | 1 => ⟨S2x1200000, .i32⟩
  | 2 => ⟨S256x64, .f32⟩
  | 3 => ⟨S64x40, .f32⟩
  | 4 => ⟨S4x64x64, .f32⟩
  | 5 => ⟨S192x64, .f32⟩
  | 6 => ⟨S192x64, .f32⟩
  | 7 => ⟨S192, .f32⟩
  | 8 => ⟨S192, .f32⟩
  | 9 => ⟨S1x1200000, .i32⟩
  | 10 => ⟨S1200000, .i32⟩
  | 11 => ⟨S1x1200000, .i32⟩
  | 12 => ⟨S1200000, .i32⟩
  | 13 => ⟨S100000x64, .f32⟩
  | 14 => ⟨S1x64x64, .f32⟩
  | 15 => ⟨S64x64, .f32⟩
  | 16 => ⟨S100000x64, .f32⟩
  | 17 => ⟨S_, .i32⟩
  | 18 => ⟨S1200000, .i32⟩
  | 19 => ⟨S1200000, .i1⟩
  | 20 => ⟨S_, .i32⟩
  | 21 => ⟨S1200000, .i32⟩
  | 22 => ⟨S1200000, .i32⟩
  | 23 => ⟨S1200000, .i32⟩
  | 24 => ⟨S1200000x1, .i32⟩
  | 25 => ⟨S1200000x64, .f32⟩
  | 26 => ⟨S_, .f32⟩
  | 27 => ⟨S100000x64, .f32⟩
  | 28 => ⟨S1200000x1, .i32⟩
  | 29 => ⟨S100000x64, .f32⟩
  | 30 => ⟨S64x192, .f32⟩
  | 31 => ⟨S100000x192, .f32⟩
  | 32 => ⟨S1x192, .f32⟩
  | 33 => ⟨S100000x192, .f32⟩
  | 34 => ⟨S100000x192, .f32⟩
  | 35 => ⟨S64x192, .f32⟩
  | 36 => ⟨S100000x192, .f32⟩
  | 37 => ⟨S1x192, .f32⟩
  | 38 => ⟨S100000x192, .f32⟩
  | 39 => ⟨S100000x192, .f32⟩
  | 40 => ⟨S100000x64, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S100000x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S_, .i32⟩
  | 77 => ⟨S1200000, .i32⟩
  | 78 => ⟨S1200000, .i1⟩
  | 79 => ⟨S_, .i32⟩
  | 80 => ⟨S1200000, .i32⟩
  | 81 => ⟨S1200000, .i32⟩
  | 82 => ⟨S1200000, .i32⟩
  | 83 => ⟨S1200000x1, .i32⟩
  | 84 => ⟨S1200000x64, .f32⟩
  | 85 => ⟨S_, .f32⟩
  | 86 => ⟨S100000x64, .f32⟩
  | 87 => ⟨S1200000x1, .i32⟩
  | 88 => ⟨S100000x64, .f32⟩
  | 89 => ⟨S64x192, .f32⟩
  | 90 => ⟨S100000x192, .f32⟩
  | 91 => ⟨S1x192, .f32⟩
  | 92 => ⟨S100000x192, .f32⟩
  | 93 => ⟨S100000x192, .f32⟩
  | 94 => ⟨S64x192, .f32⟩
  | 95 => ⟨S100000x192, .f32⟩
  | 96 => ⟨S1x192, .f32⟩
  | 97 => ⟨S100000x192, .f32⟩
  | 98 => ⟨S100000x192, .f32⟩
  | 99 => ⟨S100000x64, .f32⟩
  | 100 => ⟨S100000x64, .f32⟩
  | 101 => ⟨S100000x64, .f32⟩
  | 102 => ⟨S100000x64, .f32⟩
  | 103 => ⟨S100000x64, .f32⟩
  | 104 => ⟨S100000x64, .f32⟩
  | 105 => ⟨S100000x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S100000x64, .f32⟩
  | 125 => ⟨S100000x64, .f32⟩
  | 126 => ⟨S_, .f32⟩
  | 127 => ⟨S100000x64, .f32⟩
  | _ => ⟨S100000x256, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S_, .i32⟩
  | 8 => ⟨S1200000, .i32⟩
  | 9 => ⟨S1200000, .i1⟩
  | 10 => ⟨S_, .i32⟩
  | 11 => ⟨S1200000, .i32⟩
  | 12 => ⟨S1200000, .i32⟩
  | 13 => ⟨S1200000, .i32⟩
  | 14 => ⟨S1200000x1, .i32⟩
  | 15 => ⟨S1200000x64, .f32⟩
  | 16 => ⟨S_, .f32⟩
  | 17 => ⟨S100000x64, .f32⟩
  | 18 => ⟨S1200000x1, .i32⟩
  | 19 => ⟨S100000x64, .f32⟩
  | 20 => ⟨S64x192, .f32⟩
  | 21 => ⟨S100000x192, .f32⟩
  | 22 => ⟨S1x192, .f32⟩
  | 23 => ⟨S100000x192, .f32⟩
  | 24 => ⟨S100000x192, .f32⟩
  | 25 => ⟨S64x192, .f32⟩
  | 26 => ⟨S100000x192, .f32⟩
  | 27 => ⟨S1x192, .f32⟩
  | 28 => ⟨S100000x192, .f32⟩
  | 29 => ⟨S100000x192, .f32⟩
  | 30 => ⟨S100000x64, .f32⟩
  | 31 => ⟨S100000x64, .f32⟩
  | 32 => ⟨S100000x64, .f32⟩
  | 33 => ⟨S100000x64, .f32⟩
  | 34 => ⟨S100000x64, .f32⟩
  | 35 => ⟨S100000x64, .f32⟩
  | 36 => ⟨S100000x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S100000x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S100000x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S100000x64, .f32⟩
  | 61 => ⟨S100000x64, .f32⟩
  | 62 => ⟨S100000x64, .f32⟩
  | 63 => ⟨S1x64x64, .f32⟩
  | 64 => ⟨S64x64, .f32⟩
  | 65 => ⟨S100000x64, .f32⟩
  | 66 => ⟨S_, .i32⟩
  | 67 => ⟨S1200000, .i32⟩
  | 68 => ⟨S1200000, .i1⟩
  | 69 => ⟨S_, .i32⟩
  | 70 => ⟨S1200000, .i32⟩
  | 71 => ⟨S1200000, .i32⟩
  | 72 => ⟨S1200000, .i32⟩
  | 73 => ⟨S1200000x1, .i32⟩
  | 74 => ⟨S1200000x64, .f32⟩
  | 75 => ⟨S_, .f32⟩
  | 76 => ⟨S100000x64, .f32⟩
  | 77 => ⟨S1200000x1, .i32⟩
  | 78 => ⟨S100000x64, .f32⟩
  | 79 => ⟨S64x192, .f32⟩
  | 80 => ⟨S100000x192, .f32⟩
  | 81 => ⟨S1x192, .f32⟩
  | 82 => ⟨S100000x192, .f32⟩
  | 83 => ⟨S100000x192, .f32⟩
  | 84 => ⟨S64x192, .f32⟩
  | 85 => ⟨S100000x192, .f32⟩
  | 86 => ⟨S1x192, .f32⟩
  | 87 => ⟨S100000x192, .f32⟩
  | 88 => ⟨S100000x192, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S100000x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x64, .f32⟩
  | 120 => ⟨S100000x64, .f32⟩
  | 121 => ⟨S100000x64, .f32⟩
  | 122 => ⟨S100000x40, .f32⟩
  | 123 => ⟨S_, .f32⟩
  | 124 => ⟨S100000, .f32⟩
  | 125 => ⟨S_, .f32⟩
  | 126 => ⟨S100000, .f32⟩
  | 127 => ⟨S100000, .f32⟩
  | _ => ⟨S100000x256, .f32⟩

abbrev hbmTy0_2 (i : Nat) : BufTy := match i % 128 with
  | 0 => ⟨S100000x1, .f32⟩
  | 1 => ⟨S100000x40, .f32⟩
  | 2 => ⟨S100000x40, .f32⟩
  | 3 => ⟨S100000x40, .f32⟩
  | 4 => ⟨S_, .f32⟩
  | 5 => ⟨S100000, .f32⟩
  | 6 => ⟨S100000x1, .f32⟩
  | 7 => ⟨S100000x1, .f32⟩
  | 8 => ⟨S100000x40, .f32⟩
  | 9 => ⟨S100000x40, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_6 : Ref sig .tc := ⟨.hbm, 76, rfl⟩
abbrev main_v59 : Ref sig .tc := ⟨.hbm, 77, rfl⟩
abbrev main_v60 : Ref sig .tc := ⟨.hbm, 78, rfl⟩
abbrev main_c_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_9 : Ref sig .tc := ⟨.hbm, 108, rfl⟩
abbrev main_v88 : Ref sig .tc := ⟨.hbm, 109, rfl⟩
abbrev main_v89 : Ref sig .tc := ⟨.hbm, 110, rfl⟩
abbrev main_cst_10 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_11 : Ref sig .tc := ⟨.hbm, 117, rfl⟩
abbrev main_v95 : Ref sig .tc := ⟨.hbm, 118, rfl⟩
abbrev main_v96 : Ref sig .tc := ⟨.hbm, 119, rfl⟩
abbrev main_cst_12 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_13 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_c_14 : Ref sig .tc := ⟨.hbm, 135, rfl⟩
abbrev main_v110 : Ref sig .tc := ⟨.hbm, 136, rfl⟩
abbrev main_v111 : Ref sig .tc := ⟨.hbm, 137, rfl⟩
abbrev main_c_15 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_16 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_17 : Ref sig .tc := ⟨.hbm, 167, rfl⟩
abbrev main_v139 : Ref sig .tc := ⟨.hbm, 168, rfl⟩
abbrev main_v140 : Ref sig .tc := ⟨.hbm, 169, rfl⟩
abbrev main_cst_18 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_19 : Ref sig .tc := ⟨.hbm, 176, rfl⟩
abbrev main_v146 : Ref sig .tc := ⟨.hbm, 177, rfl⟩
abbrev main_v147 : Ref sig .tc := ⟨.hbm, 178, rfl⟩
abbrev main_cst_20 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_21 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_c_22 : Ref sig .tc := ⟨.hbm, 194, rfl⟩
abbrev main_v161 : Ref sig .tc := ⟨.hbm, 195, rfl⟩
abbrev main_v162 : Ref sig .tc := ⟨.hbm, 196, rfl⟩
abbrev main_c_23 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_cst_24 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_cst_25 : Ref sig .tc := ⟨.hbm, 226, rfl⟩
abbrev main_v190 : Ref sig .tc := ⟨.hbm, 227, rfl⟩
abbrev main_v191 : Ref sig .tc := ⟨.hbm, 228, rfl⟩
abbrev main_cst_26 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_cst_27 : Ref sig .tc := ⟨.hbm, 235, rfl⟩
abbrev main_v197 : Ref sig .tc := ⟨.hbm, 236, rfl⟩
abbrev main_v198 : Ref sig .tc := ⟨.hbm, 237, rfl⟩
abbrev main_cst_28 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_cst_29 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_call0_cst : Ref sig .tc := ⟨.hbm, 251, rfl⟩
abbrev main_call0_v0 : Ref sig .tc := ⟨.hbm, 252, rfl⟩
abbrev main_call0_cst_0 : Ref sig .tc := ⟨.hbm, 253, rfl⟩
abbrev main_call0_v1 : Ref sig .tc := ⟨.hbm, 254, rfl⟩
abbrev main_call0_v2 : Ref sig .tc := ⟨.hbm, 255, rfl⟩
abbrev main_call0_v3 : Ref sig .tc := ⟨.hbm, 256, rfl⟩
abbrev main_call0_v4 : Ref sig .tc := ⟨.hbm, 257, rfl⟩
abbrev main_call0_v5 : Ref sig .tc := ⟨.hbm, 258, rfl⟩
abbrev main_call0_v6 : Ref sig .tc := ⟨.hbm, 259, rfl⟩
abbrev main_call0_cst_1 : Ref sig .tc := ⟨.hbm, 260, rfl⟩
abbrev main_call0_v7 : Ref sig .tc := ⟨.hbm, 261, rfl⟩
abbrev main_call0_v8 : Ref sig .tc := ⟨.hbm, 262, rfl⟩
abbrev main_call0_v9 : Ref sig .tc := ⟨.hbm, 263, rfl⟩
abbrev main_call0_v10 : Ref sig .tc := ⟨.hbm, 264, rfl⟩
abbrev main_v210 : Ref sig .tc := ⟨.hbm, 265, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  slices_S4x64x64_S1x64x64_0_0_0 : S4x64x64.Slices ![0, 0, 0] S1x64x64
  shapeCasts_S1x64x64_S64x64 : S1x64x64.ShapeCasts S64x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x64_S100000x64_1_0_0_1_n_n_wf : DotDims.WF S100000x256 S256x64 S100000x64 [1] [0] [0] [1] [] []
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x192_S100000x192_1_0_0_1_n_n_wf : DotDims.WF S100000x64 S64x192 S100000x192 [1] [0] [0] [1] [] []
  dot_S100000x64_S64x40_S100000x40_1_0_0_1_n_n_wf : DotDims.WF S100000x64 S64x40 S100000x40 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KRun.lean ====
/-
  The idealized kernel's run with its result named: every weakly fair execution of the ten regions among their host
  lines terminates without a fault, the result buffer ends at what the last region's write-backs leave in it, and the
  argument arrays end as launched.  (The buffers' contents at every boundary between a host stretch and a region are the
  fold W0 … W19 of the generated frame; the statement below only adds the result buffer's line to that frame's post.)
-/
import proofs.«167651_j43568148251382_1_alg».proof.Proof.Gen.KernelIdeal.Frame

set_option maxRecDepth 16384

noncomputable section

namespace Cert.GGNN.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the fold's last contents, the arguments as launched. -/
theorem run_main : θ_run defs (onTc (τ := τ) (main (F := F))) ⟨m, fun _ => 0, ρ⟩ (fun r => ∀ c : Dev nD,
      r.2.mem ((c.tc : Thread nD τ).loc main_v85) = W19 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v85 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c)⟩)

end Cert.GGNN.K

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.KKeptA.lean ====
/-
  Buffers that a stretch of host lines or a region does not write keep their contents: the argument arrays, the two
  edge-index vectors and the hidden states, carried from where they are written to where they are read.
-/
import proofs.«167651_j43568148251382_1_alg».proof.Proof.Gen.KernelIdeal.Frame
import proofs.«167651_j43568148251382_1_alg».proof.Proof.LibHostKept
import Idealize.ShloMosaic.PureOps.Ideal

set_option maxRecDepth 16384

noncomputable section

namespace Cert.GGNN.K

open Cert.KernelIdeal Cert.KernelIdeal.Gen Cert.Kept
open Idealize.ShloMosaic Idealize.ShloMosaic.TcCoe Idealize.SL.Sem

variable (m : (ℓ : Loc nD τ sig) → Buf (Elt Ideal) ℓ) (ρ : Dev nD → PrngReg)

theorem kept_main_arg0_0_1 (c : Dev nD) : W1 m ρ c (Proc.devRef .tc main_arg0) = W0 m ρ c (Proc.devRef .tc main_arg0) :=
  (by host_kept hostOps0 : W1 m ρ c (Proc.devRef .tc main_arg0) = W0 m ρ c (Proc.devRef .tc main_arg0))

theorem kept_main_arg2_0_1 (c : Dev nD) : W1 m ρ c (Proc.devRef .tc main_arg2) = W0 m ρ c (Proc.devRef .tc main_arg2) :=
  (by host_kept hostOps0 : W1 m ρ c (Proc.devRef .tc main_arg2) = W0 m ρ c (Proc.devRef .tc main_arg2))

theorem kept_main_arg5_0_2 (c : Dev nD) : W2 m ρ c (Proc.devRef .tc main_arg5) = W0 m ρ c (Proc.devRef .tc main_arg5) :=
  (W2_of_ne m ρ c main_arg5 (by decide)).trans ((by host_kept hostOps0 : W1 m ρ c (Proc.devRef .tc main_arg5) = W0 m ρ c (Proc.devRef .tc main_arg5)))

theorem kept_main_arg6_0_2 (c : Dev nD) : W2 m ρ c (Proc.devRef .tc main_arg6) = W0 m ρ c (Proc.devRef .tc main_arg6) :=
  (W2_of_ne m ρ c main_arg6 (by decide)).trans ((by host_kept hostOps0 : W1 m ρ c (Proc.devRef .tc main_arg6) = W0 m ρ c (Proc.devRef .tc main_arg6)))

theorem kept_main_arg7_0_2 (c : Dev nD) : W2 m ρ c (Proc.devRef .tc main_arg7) = W0 m ρ c (Proc.devRef .tc main_arg7) :=
  (W2_of_ne m ρ c main_arg7 (by decide)).trans ((by host_kept hostOps0 : W1 m ρ c (Proc.devRef .tc main_arg7) = W0 m ρ c (Proc.devRef .tc main_arg7)))

theorem kept_main_arg8_0_2 (c : Dev nD) : W2 m ρ c (Proc.devRef .tc main_arg8) = W0 m ρ c (Proc.devRef .tc main_arg8) :=
  (W2_of_ne m ρ c main_arg8 (by decide)).trans ((by host_kept hostOps0 : W1 m ρ c (Proc.devRef .tc main_arg8) = W0 m ρ c (Proc.devRef .tc main_arg8)))

theorem kept_main_arg4_0_2 (c : Dev nD) : W2 m ρ c (Proc.devRef .tc main_arg4) = W0 m ρ c (Proc.devRef .tc main_arg4) :=
  (W2_of_ne m ρ c main_arg4 (by decide)).trans ((by host_kept hostOps0 : W1 m ρ c (Proc.devRef .tc main_arg4) = W0 m ρ c (Proc.devRef .tc main_arg4)))

theorem kept_main_arg4_2_6 (c : Dev nD) : W6 m ρ c (Proc.devRef .tc main_arg4) = W2 m ρ c (Proc.devRef .tc main_arg4) :=
  (W6_of_ne m ρ c main_arg4 (by decide)).trans (((by host_kept hostOps2 : W5 m ρ c (Proc.devRef .tc main_arg4) = W4 m ρ c (Proc.devRef .tc main_arg4))).trans ((W4_of_ne m ρ c main_arg4 (by decide)).trans ((by host_kept hostOps1 : W3 m ρ c (Proc.devRef .tc main_arg4) = W2 m ρ c (Proc.devRef .tc main_arg4)))))

theorem kept_main_arg4_6_10 (c : Dev nD) : W10 m ρ c (Proc.devRef .tc main_arg4) = W6 m ρ c (Proc.devRef .tc main_arg4) :=
  (W10_of_ne m ρ c main_arg4 (by decide)).trans (((by host_kept hostOps4 : W9 m ρ c (Proc.devRef .tc main_arg4) = W8 m ρ c (Proc.devRef .tc main_arg4))).trans ((W8_of_ne m ρ c main_arg4 (by decide)).trans ((by host_kept hostOps3 : W7 m ρ c (Proc.devRef .tc main_arg4) = W6 m ρ c (Proc.devRef .tc main_arg4)))))

theorem kept_main_arg4_10_14 (c : Dev nD) : W14 m ρ c (Proc.devRef .tc main_arg4) = W10 m ρ c (Proc.devRef .tc main_arg4) :=
  (W14_of_ne m ρ c main_arg4 (by decide)).trans (((by host_kept hostOps6 : W13 m ρ c (Proc.devRef .tc main_arg4) = W12 m ρ c (Proc.devRef .tc main_arg4))).trans ((W12_of_ne m ρ c main_arg4 (by decide)).trans ((by host_kept hostOps5 : W11 m ρ c (Proc.devRef .tc main_arg4) = W10 m ρ c (Proc.devRef .tc main_arg4)))))

theorem kept_main_arg3_0_18 (c : Dev nD) : W18 m ρ c (Proc.devRef .tc main_arg3) = W0 m ρ c (Proc.devRef .tc main_arg3) :=
  (W18_of_ne m ρ c main_arg3 (by decide)).trans (((by host_kept hostOps8 : W17 m ρ c (Proc.devRef .tc main_arg3) = W16 m ρ c (Proc.devRef .tc main_arg3))).trans ((W16_of_ne m ρ c main_arg3 (by decide)).trans (((by host_kept hostOps7 : W15 m ρ c (Proc.devRef .tc main_arg3) = W14 m ρ c (Proc.devRef .tc main_arg3))).trans ((W14_of_ne m ρ c main_arg3 (by decide)).trans (((by host_kept hostOps6 : W13 m ρ c (Proc.devRef .tc main_arg3) = W12 m ρ c (Proc.devRef .tc main_arg3))).trans ((W12_of_ne m ρ c main_arg3 (by decide)).trans (((by host_kept hostOps5 : W11 m ρ c (Proc.devRef .tc main_arg3) = W10 m ρ c (Proc.devRef .tc main_arg3))).trans ((W10_of_ne m ρ c main_arg3 (by decide)).trans (((by host_kept hostOps4 : W9 m ρ c (Proc.devRef .tc main_arg3) = W8 m ρ c (Proc.devRef .tc main_arg3))).trans ((W8_of_ne m ρ c main_arg3 (by decide)).trans (((by host_kept hostOps3 : W7 m ρ c (Proc.devRef .tc main_arg3) = W6 m ρ c (Proc.devRef .tc main_arg3))).trans ((W6_of_ne m ρ c main_arg3 (by decide)).trans (((by host_kept hostOps2 : W5 m ρ c (Proc.devRef .tc main_arg3) = W4 m ρ c (Proc.devRef .tc main_arg3))).trans ((W4_of_ne m ρ c main_arg3 (by decide)).trans (((by host_kept hostOps1 : W3 m ρ c (Proc.devRef .tc main_arg3) = W2 m ρ c (Proc.devRef .tc main_arg3))).trans ((W2_of_ne m ρ c main_arg3 (by decide)).trans ((by host_kept hostOps0 : W1 m ρ c (Proc.devRef .tc main_arg3) = W0 m ρ c (Proc.devRef .tc main_arg3)))))))))))))))))))

theorem kept_main_v1_1_4 (c : Dev nD) : W4 m ρ c (Proc.devRef .tc main_v1) = W1 m ρ c (Proc.devRef .tc main_v1) :=
  (W4_of_ne m ρ c main_v1 (by decide)).trans (((by host_kept hostOps1 : W3 m ρ c (Proc.devRef .tc main_v1) = W2 m ρ c (Proc.devRef .tc main_v1))).trans (W2_of_ne m ρ c main_v1 (by decide)))

theorem kept_main_v1_4_8 (c : Dev nD) : W8 m ρ c (Proc.devRef .tc main_v1) = W4 m ρ c (Proc.devRef .tc main_v1) :=
  (W8_of_ne m ρ c main_v1 (by decide)).trans (((by host_kept hostOps3 : W7 m ρ c (Proc.devRef .tc main_v1) = W6 m ρ c (Proc.devRef .tc main_v1))).trans ((W6_of_ne m ρ c main_v1 (by decide)).trans ((by host_kept hostOps2 : W5 m ρ c (Proc.devRef .tc main_v1) = W4 m ρ c (Proc.devRef .tc main_v1)))))

theorem kept_main_v1_8_12 (c : Dev nD) : W12 m ρ c (Proc.devRef .tc main_v1) = W8 m ρ c (Proc.devRef .tc main_v1) :=
  (W12_of_ne m ρ c main_v1 (by decide)).trans (((by host_kept hostOps5 : W11 m ρ c (Proc.devRef .tc main_v1) = W10 m ρ c (Proc.devRef .tc main_v1))).trans ((W10_of_ne m ρ c main_v1 (by decide)).trans ((by host_kept hostOps4 : W9 m ρ c (Proc.devRef .tc main_v1) = W8 m ρ c (Proc.devRef .tc main_v1)))))

theorem kept_main_v1_12_16 (c : Dev nD) : W16 m ρ c (Proc.devRef .tc main_v1) = W12 m ρ c (Proc.devRef .tc main_v1) :=
  (W16_of_ne m ρ c main_v1 (by decide)).trans (((by host_kept hostOps7 : W15 m ρ c (Proc.devRef .tc main_v1) = W14 m ρ c (Proc.devRef .tc main_v1))).trans ((W14_of_ne m ρ c main_v1 (by decide)).trans ((by host_kept hostOps6 : W13 m ρ c (Proc.devRef .tc main_v1) = W12 m ρ c (Proc.devRef .tc main_v1)))))

theorem kept_main_v3_1_4 (c : Dev nD) : W4 m ρ c (Proc.devRef .tc main_v3) = W1 m ρ c (Proc.devRef .tc main_v3) :=
  (W4_of_ne m ρ c main_v3 (by decide)).trans (((by host_kept hostOps1 : W3 m ρ c (Proc.devRef .tc main_v3) = W2 m ρ c (Proc.devRef .tc main_v3))).trans (W2_of_ne m ρ c main_v3 (by decide)))

theorem kept_main_v3_4_8 (c : Dev nD) : W8 m ρ c (Proc.devRef .tc main_v3) = W4 m ρ c (Proc.devRef .tc main_v3) :=
  (W8_of_ne m ρ c main_v3 (by decide)).trans (((by host_kept hostOps3 : W7 m ρ c (Proc.devRef .tc main_v3) = W6 m ρ c (Proc.devRef .tc main_v3))).trans ((W6_of_ne m ρ c main_v3 (by decide)).trans ((by host_kept hostOps2 : W5 m ρ c (Proc.devRef .tc main_v3) = W4 m ρ c (Proc.devRef .tc main_v3)))))

theorem kept_main_v3_8_12 (c : Dev nD) : W12 m ρ c (Proc.devRef .tc main_v3) = W8 m ρ c (Proc.devRef .tc main_v3) :=
  (W12_of_ne m ρ c main_v3 (by decide)).trans (((by host_kept hostOps5 : W11 m ρ c (Proc.devRef .tc main_v3) = W10 m ρ c (Proc.devRef .tc main_v3))).trans ((W10_of_ne m ρ c main_v3 (by decide)).trans ((by host_kept hostOps4 : W9 m ρ c (Proc.devRef .tc main_v3) = W8 m ρ c (Proc.devRef .tc main_v3)))))

theorem kept_main_v3_12_16 (c : Dev nD) : W16 m ρ c (Proc.devRef .tc main_v3) = W12 m ρ c (Proc.devRef .tc main_v3) :=
  (W16_of_ne m ρ c main_v3 (by decide)).trans (((by host_kept hostOps7 : W15 m ρ c (Proc.devRef .tc main_v3) = W14 m ρ c (Proc.devRef .tc main_v3))).trans ((W14_of_ne m ρ c main_v3 (by decide)).trans ((by host_kept hostOps6 : W13 m ρ c (Proc.devRef .tc main_v3) = W12 m ρ c (Proc.devRef .tc main_v3)))))

theorem kept_main_v4_2_3 (c : Dev nD) : W3 m ρ c (Proc.devRef .tc main_v4) = W2 m ρ c (Proc.devRef .tc main_v4) :=
  (by host_kept hostOps1 : W3 m ρ c (Proc.devRef .tc main_v4) = W2 m ρ c (Proc.devRef .tc main_v4))

theorem kept_main_v4_3_5 (c : Dev nD) : W5 m ρ c (Proc.devRef .tc main_v4) = W3 m ρ c (Proc.devRef .tc main_v4) :=
  ((by host_kept hostOps2 : W5 m ρ c (Proc.devRef .tc main_v4) = W4 m ρ c (Proc.devRef .tc main_v4))).trans ((W4_arr m ρ c 0).trans (((dat1 (V3 m ρ) c).arrAt_in 0 rfl _).trans (A_eq1 (V3 m ρ) c 0)))

theorem kept_main_v42_6_7 (c : Dev nD) : W7 m ρ c (Proc.devRef .tc main_v42) = W6 m ρ c (Proc.devRef .tc main_v42) :=
  (by host_kept hostOps3 : W7 m ρ c (Proc.devRef .tc main_v42) = W6 m ρ c (Proc.devRef .tc main_v42))

theorem kept_main_v42_7_9 (c : Dev nD) : W9 m ρ c (Proc.devRef .tc main_v42) = W7 m ρ c (Proc.devRef .tc main_v42) :=
  ((by host_kept hostOps4 : W9 m ρ c (Proc.devRef .tc main_v42) = W8 m ρ c (Proc.devRef .tc main_v42))).trans ((W8_arr m ρ c 0).trans (((dat3 (V7 m ρ) c).arrAt_in 0 rfl _).trans (A_eq3 (V7 m ρ) c 0)))

theorem kept_main_v56_10_11 (c : Dev nD) : W11 m ρ c (Proc.devRef .tc main_v56) = W10 m ρ c (Proc.devRef .tc main_v56) :=
  (by host_kept hostOps5 : W11 m ρ c (Proc.devRef .tc main_v56) = W10 m ρ c (Proc.devRef .tc main_v56))

theorem kept_main_v56_11_13 (c : Dev nD) : W13 m ρ c (Proc.devRef .tc main_v56) = W11 m ρ c (Proc.devRef .tc main_v56) :=
  ((by host_kept hostOps6 : W13 m ρ c (Proc.devRef .tc main_v56) = W12 m ρ c (Proc.devRef .tc main_v56))).trans ((W12_arr m ρ c 0).trans (((dat5 (V11 m ρ) c).arrAt_in 0 rfl _).trans (A_eq5 (V11 m ρ) c 0)))

theorem kept_main_v70_14_15 (c : Dev nD) : W15 m ρ c (Proc.devRef .tc main_v70) = W14 m ρ c (Proc.devRef .tc main_v70) :=
  (by host_kept hostOps7 : W15 m ρ c (Proc.devRef .tc main_v70) = W14 m ρ c (Proc.devRef .tc main_v70))

theorem kept_main_v70_15_17 (c : Dev nD) : W17 m ρ c (Proc.devRef .tc main_v70) = W15 m ρ c (Proc.devRef .tc main_v70) :=
  ((by host_kept hostOps8 : W17 m ρ c (Proc.devRef .tc main_v70) = W16 m ρ c (Proc.devRef .tc main_v70))).trans ((W16_arr m ρ c 0).trans (((dat7 (V15 m ρ) c).arrAt_in 0 rfl _).trans (A_eq7 (V15 m ρ) c 0)))

end Cert.GGNN.K

end
-- ==== Proof.KKeptW.lean ====
/-
  The six transposed gate weights, written once by the host lines before the first layer, keep their contents up to each
  layer's GRU region.
-/
import proofs.«167651_j43568148251382_1_alg».proof.Proof.Gen.KernelIdeal.Frame
import proofs.«167651_j43568148251382_1_alg».proof.Proof.LibHostKept
import Idealize.ShloMosaic.PureOps.Ideal

set_option maxRecDepth 16384

noncomputable section

namespace Cert.GGNN.K

open Cert.KernelIdeal Cert.KernelIdeal.Gen Cert.Kept
open Idealize.ShloMosaic Idealize.ShloMosaic.TcCoe Idealize.SL.Sem

variable (m : (ℓ : Loc nD τ sig) → Buf (Elt Ideal) ℓ) (ρ : Dev nD → PrngReg)

theorem kept_main_v17_3_5 (c : Dev nD) : W5 m ρ c (Proc.devRef .tc main_v17) = W3 m ρ c (Proc.devRef .tc main_v17) :=
  ((by host_kept hostOps2 : W5 m ρ c (Proc.devRef .tc main_v17) = W4 m ρ c (Proc.devRef .tc main_v17))).trans (W4_of_ne m ρ c main_v17 (by decide))

theorem kept_main_v17_5_9 (c : Dev nD) : W9 m ρ c (Proc.devRef .tc main_v17) = W5 m ρ c (Proc.devRef .tc main_v17) :=
  ((by host_kept hostOps4 : W9 m ρ c (Proc.devRef .tc main_v17) = W8 m ρ c (Proc.devRef .tc main_v17))).trans ((W8_of_ne m ρ c main_v17 (by decide)).trans (((by host_kept hostOps3 : W7 m ρ c (Proc.devRef .tc main_v17) = W6 m ρ c (Proc.devRef .tc main_v17))).trans ((W6_arr m ρ c 2).trans (((dat2 (V5 m ρ) c).arrAt_in 2 rfl _).trans (A_eq2 (V5 m ρ) c 2)))))

theorem kept_main_v17_9_13 (c : Dev nD) : W13 m ρ c (Proc.devRef .tc main_v17) = W9 m ρ c (Proc.devRef .tc main_v17) :=
  ((by host_kept hostOps6 : W13 m ρ c (Proc.devRef .tc main_v17) = W12 m ρ c (Proc.devRef .tc main_v17))).trans ((W12_of_ne m ρ c main_v17 (by decide)).trans (((by host_kept hostOps5 : W11 m ρ c (Proc.devRef .tc main_v17) = W10 m ρ c (Proc.devRef .tc main_v17))).trans ((W10_arr m ρ c 2).trans (((dat4 (V9 m ρ) c).arrAt_in 2 rfl _).trans (A_eq4 (V9 m ρ) c 2)))))

theorem kept_main_v17_13_17 (c : Dev nD) : W17 m ρ c (Proc.devRef .tc main_v17) = W13 m ρ c (Proc.devRef .tc main_v17) :=
  ((by host_kept hostOps8 : W17 m ρ c (Proc.devRef .tc main_v17) = W16 m ρ c (Proc.devRef .tc main_v17))).trans ((W16_of_ne m ρ c main_v17 (by decide)).trans (((by host_kept hostOps7 : W15 m ρ c (Proc.devRef .tc main_v17) = W14 m ρ c (Proc.devRef .tc main_v17))).trans ((W14_arr m ρ c 2).trans (((dat6 (V13 m ρ) c).arrAt_in 2 rfl _).trans (A_eq6 (V13 m ρ) c 2)))))

theorem kept_main_v18_3_5 (c : Dev nD) : W5 m ρ c (Proc.devRef .tc main_v18) = W3 m ρ c (Proc.devRef .tc main_v18) :=
  ((by host_kept hostOps2 : W5 m ρ c (Proc.devRef .tc main_v18) = W4 m ρ c (Proc.devRef .tc main_v18))).trans (W4_of_ne m ρ c main_v18 (by decide))

theorem kept_main_v18_5_9 (c : Dev nD) : W9 m ρ c (Proc.devRef .tc main_v18) = W5 m ρ c (Proc.devRef .tc main_v18) :=
  ((by host_kept hostOps4 : W9 m ρ c (Proc.devRef .tc main_v18) = W8 m ρ c (Proc.devRef .tc main_v18))).trans ((W8_of_ne m ρ c main_v18 (by decide)).trans (((by host_kept hostOps3 : W7 m ρ c (Proc.devRef .tc main_v18) = W6 m ρ c (Proc.devRef .tc main_v18))).trans ((W6_arr m ρ c 3).trans (((dat2 (V5 m ρ) c).arrAt_in 3 rfl _).trans (A_eq2 (V5 m ρ) c 3)))))

theorem kept_main_v18_9_13 (c : Dev nD) : W13 m ρ c (Proc.devRef .tc main_v18) = W9 m ρ c (Proc.devRef .tc main_v18) :=
  ((by host_kept hostOps6 : W13 m ρ c (Proc.devRef .tc main_v18) = W12 m ρ c (Proc.devRef .tc main_v18))).trans ((W12_of_ne m ρ c main_v18 (by decide)).trans (((by host_kept hostOps5 : W11 m ρ c (Proc.devRef .tc main_v18) = W10 m ρ c (Proc.devRef .tc main_v18))).trans ((W10_arr m ρ c 3).trans (((dat4 (V9 m ρ) c).arrAt_in 3 rfl _).trans (A_eq4 (V9 m ρ) c 3)))))

theorem kept_main_v18_13_17 (c : Dev nD) : W17 m ρ c (Proc.devRef .tc main_v18) = W13 m ρ c (Proc.devRef .tc main_v18) :=
  ((by host_kept hostOps8 : W17 m ρ c (Proc.devRef .tc main_v18) = W16 m ρ c (Proc.devRef .tc main_v18))).trans ((W16_of_ne m ρ c main_v18 (by decide)).trans (((by host_kept hostOps7 : W15 m ρ c (Proc.devRef .tc main_v18) = W14 m ρ c (Proc.devRef .tc main_v18))).trans ((W14_arr m ρ c 3).trans (((dat6 (V13 m ρ) c).arrAt_in 3 rfl _).trans (A_eq6 (V13 m ρ) c 3)))))

theorem kept_main_v19_3_5 (c : Dev nD) : W5 m ρ c (Proc.devRef .tc main_v19) = W3 m ρ c (Proc.devRef .tc main_v19) :=
  ((by host_kept hostOps2 : W5 m ρ c (Proc.devRef .tc main_v19) = W4 m ρ c (Proc.devRef .tc main_v19))).trans (W4_of_ne m ρ c main_v19 (by decide))

theorem kept_main_v19_5_9 (c : Dev nD) : W9 m ρ c (Proc.devRef .tc main_v19) = W5 m ρ c (Proc.devRef .tc main_v19) :=
  ((by host_kept hostOps4 : W9 m ρ c (Proc.devRef .tc main_v19) = W8 m ρ c (Proc.devRef .tc main_v19))).trans ((W8_of_ne m ρ c main_v19 (by decide)).trans (((by host_kept hostOps3 : W7 m ρ c (Proc.devRef .tc main_v19) = W6 m ρ c (Proc.devRef .tc main_v19))).trans ((W6_arr m ρ c 4).trans (((dat2 (V5 m ρ) c).arrAt_in 4 rfl _).trans (A_eq2 (V5 m ρ) c 4)))))

theorem kept_main_v19_9_13 (c : Dev nD) : W13 m ρ c (Proc.devRef .tc main_v19) = W9 m ρ c (Proc.devRef .tc main_v19) :=
  ((by host_kept hostOps6 : W13 m ρ c (Proc.devRef .tc main_v19) = W12 m ρ c (Proc.devRef .tc main_v19))).trans ((W12_of_ne m ρ c main_v19 (by decide)).trans (((by host_kept hostOps5 : W11 m ρ c (Proc.devRef .tc main_v19) = W10 m ρ c (Proc.devRef .tc main_v19))).trans ((W10_arr m ρ c 4).trans (((dat4 (V9 m ρ) c).arrAt_in 4 rfl _).trans (A_eq4 (V9 m ρ) c 4)))))

theorem kept_main_v19_13_17 (c : Dev nD) : W17 m ρ c (Proc.devRef .tc main_v19) = W13 m ρ c (Proc.devRef .tc main_v19) :=
  ((by host_kept hostOps8 : W17 m ρ c (Proc.devRef .tc main_v19) = W16 m ρ c (Proc.devRef .tc main_v19))).trans ((W16_of_ne m ρ c main_v19 (by decide)).trans (((by host_kept hostOps7 : W15 m ρ c (Proc.devRef .tc main_v19) = W14 m ρ c (Proc.devRef .tc main_v19))).trans ((W14_arr m ρ c 4).trans (((dat6 (V13 m ρ) c).arrAt_in 4 rfl _).trans (A_eq6 (V13 m ρ) c 4)))))

theorem kept_main_v20_3_5 (c : Dev nD) : W5 m ρ c (Proc.devRef .tc main_v20) = W3 m ρ c (Proc.devRef .tc main_v20) :=
  ((by host_kept hostOps2 : W5 m ρ c (Proc.devRef .tc main_v20) = W4 m ρ c (Proc.devRef .tc main_v20))).trans (W4_of_ne m ρ c main_v20 (by decide))

theorem kept_main_v20_5_9 (c : Dev nD) : W9 m ρ c (Proc.devRef .tc main_v20) = W5 m ρ c (Proc.devRef .tc main_v20) :=
  ((by host_kept hostOps4 : W9 m ρ c (Proc.devRef .tc main_v20) = W8 m ρ c (Proc.devRef .tc main_v20))).trans ((W8_of_ne m ρ c main_v20 (by decide)).trans (((by host_kept hostOps3 : W7 m ρ c (Proc.devRef .tc main_v20) = W6 m ρ c (Proc.devRef .tc main_v20))).trans ((W6_arr m ρ c 5).trans (((dat2 (V5 m ρ) c).arrAt_in 5 rfl _).trans (A_eq2 (V5 m ρ) c 5)))))

theorem kept_main_v20_9_13 (c : Dev nD) : W13 m ρ c (Proc.devRef .tc main_v20) = W9 m ρ c (Proc.devRef .tc main_v20) :=
  ((by host_kept hostOps6 : W13 m ρ c (Proc.devRef .tc main_v20) = W12 m ρ c (Proc.devRef .tc main_v20))).trans ((W12_of_ne m ρ c main_v20 (by decide)).trans (((by host_kept hostOps5 : W11 m ρ c (Proc.devRef .tc main_v20) = W10 m ρ c (Proc.devRef .tc main_v20))).trans ((W10_arr m ρ c 5).trans (((dat4 (V9 m ρ) c).arrAt_in 5 rfl _).trans (A_eq4 (V9 m ρ) c 5)))))

theorem kept_main_v20_13_17 (c : Dev nD) : W17 m ρ c (Proc.devRef .tc main_v20) = W13 m ρ c (Proc.devRef .tc main_v20) :=
  ((by host_kept hostOps8 : W17 m ρ c (Proc.devRef .tc main_v20) = W16 m ρ c (Proc.devRef .tc main_v20))).trans ((W16_of_ne m ρ c main_v20 (by decide)).trans (((by host_kept hostOps7 : W15 m ρ c (Proc.devRef .tc main_v20) = W14 m ρ c (Proc.devRef .tc main_v20))).trans ((W14_arr m ρ c 5).trans (((dat6 (V13 m ρ) c).arrAt_in 5 rfl _).trans (A_eq6 (V13 m ρ) c 5)))))

theorem kept_main_v21_3_5 (c : Dev nD) : W5 m ρ c (Proc.devRef .tc main_v21) = W3 m ρ c (Proc.devRef .tc main_v21) :=
  ((by host_kept hostOps2 : W5 m ρ c (Proc.devRef .tc main_v21) = W4 m ρ c (Proc.devRef .tc main_v21))).trans (W4_of_ne m ρ c main_v21 (by decide))

theorem kept_main_v21_5_9 (c : Dev nD) : W9 m ρ c (Proc.devRef .tc main_v21) = W5 m ρ c (Proc.devRef .tc main_v21) :=
  ((by host_kept hostOps4 : W9 m ρ c (Proc.devRef .tc main_v21) = W8 m ρ c (Proc.devRef .tc main_v21))).trans ((W8_of_ne m ρ c main_v21 (by decide)).trans (((by host_kept hostOps3 : W7 m ρ c (Proc.devRef .tc main_v21) = W6 m ρ c (Proc.devRef .tc main_v21))).trans ((W6_arr m ρ c 6).trans (((dat2 (V5 m ρ) c).arrAt_in 6 rfl _).trans (A_eq2 (V5 m ρ) c 6)))))

theorem kept_main_v21_9_13 (c : Dev nD) : W13 m ρ c (Proc.devRef .tc main_v21) = W9 m ρ c (Proc.devRef .tc main_v21) :=
  ((by host_kept hostOps6 : W13 m ρ c (Proc.devRef .tc main_v21) = W12 m ρ c (Proc.devRef .tc main_v21))).trans ((W12_of_ne m ρ c main_v21 (by decide)).trans (((by host_kept hostOps5 : W11 m ρ c (Proc.devRef .tc main_v21) = W10 m ρ c (Proc.devRef .tc main_v21))).trans ((W10_arr m ρ c 6).trans (((dat4 (V9 m ρ) c).arrAt_in 6 rfl _).trans (A_eq4 (V9 m ρ) c 6)))))

theorem kept_main_v21_13_17 (c : Dev nD) : W17 m ρ c (Proc.devRef .tc main_v21) = W13 m ρ c (Proc.devRef .tc main_v21) :=
  ((by host_kept hostOps8 : W17 m ρ c (Proc.devRef .tc main_v21) = W16 m ρ c (Proc.devRef .tc main_v21))).trans ((W16_of_ne m ρ c main_v21 (by decide)).trans (((by host_kept hostOps7 : W15 m ρ c (Proc.devRef .tc main_v21) = W14 m ρ c (Proc.devRef .tc main_v21))).trans ((W14_arr m ρ c 6).trans (((dat6 (V13 m ρ) c).arrAt_in 6 rfl _).trans (A_eq6 (V13 m ρ) c 6)))))

theorem kept_main_v22_3_5 (c : Dev nD) : W5 m ρ c (Proc.devRef .tc main_v22) = W3 m ρ c (Proc.devRef .tc main_v22) :=
  ((by host_kept hostOps2 : W5 m ρ c (Proc.devRef .tc main_v22) = W4 m ρ c (Proc.devRef .tc main_v22))).trans (W4_of_ne m ρ c main_v22 (by decide))

theorem kept_main_v22_5_9 (c : Dev nD) : W9 m ρ c (Proc.devRef .tc main_v22) = W5 m ρ c (Proc.devRef .tc main_v22) :=
  ((by host_kept hostOps4 : W9 m ρ c (Proc.devRef .tc main_v22) = W8 m ρ c (Proc.devRef .tc main_v22))).trans ((W8_of_ne m ρ c main_v22 (by decide)).trans (((by host_kept hostOps3 : W7 m ρ c (Proc.devRef .tc main_v22) = W6 m ρ c (Proc.devRef .tc main_v22))).trans ((W6_arr m ρ c 7).trans (((dat2 (V5 m ρ) c).arrAt_in 7 rfl _).trans (A_eq2 (V5 m ρ) c 7)))))

theorem kept_main_v22_9_13 (c : Dev nD) : W13 m ρ c (Proc.devRef .tc main_v22) = W9 m ρ c (Proc.devRef .tc main_v22) :=
  ((by host_kept hostOps6 : W13 m ρ c (Proc.devRef .tc main_v22) = W12 m ρ c (Proc.devRef .tc main_v22))).trans ((W12_of_ne m ρ c main_v22 (by decide)).trans (((by host_kept hostOps5 : W11 m ρ c (Proc.devRef .tc main_v22) = W10 m ρ c (Proc.devRef .tc main_v22))).trans ((W10_arr m ρ c 7).trans (((dat4 (V9 m ρ) c).arrAt_in 7 rfl _).trans (A_eq4 (V9 m ρ) c 7)))))

theorem kept_main_v22_13_17 (c : Dev nD) : W17 m ρ c (Proc.devRef .tc main_v22) = W13 m ρ c (Proc.devRef .tc main_v22) :=
  ((by host_kept hostOps8 : W17 m ρ c (Proc.devRef .tc main_v22) = W16 m ρ c (Proc.devRef .tc main_v22))).trans ((W16_of_ne m ρ c main_v22 (by decide)).trans (((by host_kept hostOps7 : W15 m ρ c (Proc.devRef .tc main_v22) = W14 m ρ c (Proc.devRef .tc main_v22))).trans ((W14_arr m ρ c 7).trans (((dat6 (V13 m ρ) c).arrAt_in 7 rfl _).trans (A_eq6 (V13 m ρ) c 7)))))

end Cert.GGNN.K

end
-- ==== Proof.KKeptB.lean ====
/-
  The six bias rows, written once by the host lines before the first layer, keep their contents up to each layer's GRU
  region.
-/
import proofs.«167651_j43568148251382_1_alg».proof.Proof.Gen.KernelIdeal.Frame
import proofs.«167651_j43568148251382_1_alg».proof.Proof.LibHostKept
import Idealize.ShloMosaic.PureOps.Ideal

set_option maxRecDepth 16384

noncomputable section

namespace Cert.GGNN.K

open Cert.KernelIdeal Cert.KernelIdeal.Gen Cert.Kept
open Idealize.ShloMosaic Idealize.ShloMosaic.TcCoe Idealize.SL.Sem

variable (m : (ℓ : Loc nD τ sig) → Buf (Elt Ideal) ℓ) (ρ : Dev nD → PrngReg)

theorem kept_main_v23_3_5 (c : Dev nD) : W5 m ρ c (Proc.devRef .tc main_v23) = W3 m ρ c (Proc.devRef .tc main_v23) :=
  ((by host_kept hostOps2 : W5 m ρ c (Proc.devRef .tc main_v23) = W4 m ρ c (Proc.devRef .tc main_v23))).trans (W4_of_ne m ρ c main_v23 (by decide))

theorem kept_main_v23_5_9 (c : Dev nD) : W9 m ρ c (Proc.devRef .tc main_v23) = W5 m ρ c (Proc.devRef .tc main_v23) :=
  ((by host_kept hostOps4 : W9 m ρ c (Proc.devRef .tc main_v23) = W8 m ρ c (Proc.devRef .tc main_v23))).trans ((W8_of_ne m ρ c main_v23 (by decide)).trans (((by host_kept hostOps3 : W7 m ρ c (Proc.devRef .tc main_v23) = W6 m ρ c (Proc.devRef .tc main_v23))).trans ((W6_arr m ρ c 8).trans (((dat2 (V5 m ρ) c).arrAt_in 8 rfl _).trans (A_eq2 (V5 m ρ) c 8)))))

theorem kept_main_v23_9_13 (c : Dev nD) : W13 m ρ c (Proc.devRef .tc main_v23) = W9 m ρ c (Proc.devRef .tc main_v23) :=
  ((by host_kept hostOps6 : W13 m ρ c (Proc.devRef .tc main_v23) = W12 m ρ c (Proc.devRef .tc main_v23))).trans ((W12_of_ne m ρ c main_v23 (by decide)).trans (((by host_kept hostOps5 : W11 m ρ c (Proc.devRef .tc main_v23) = W10 m ρ c (Proc.devRef .tc main_v23))).trans ((W10_arr m ρ c 8).trans (((dat4 (V9 m ρ) c).arrAt_in 8 rfl _).trans (A_eq4 (V9 m ρ) c 8)))))

theorem kept_main_v23_13_17 (c : Dev nD) : W17 m ρ c (Proc.devRef .tc main_v23) = W13 m ρ c (Proc.devRef .tc main_v23) :=
  ((by host_kept hostOps8 : W17 m ρ c (Proc.devRef .tc main_v23) = W16 m ρ c (Proc.devRef .tc main_v23))).trans ((W16_of_ne m ρ c main_v23 (by decide)).trans (((by host_kept hostOps7 : W15 m ρ c (Proc.devRef .tc main_v23) = W14 m ρ c (Proc.devRef .tc main_v23))).trans ((W14_arr m ρ c 8).trans (((dat6 (V13 m ρ) c).arrAt_in 8 rfl _).trans (A_eq6 (V13 m ρ) c 8)))))

theorem kept_main_v24_3_5 (c : Dev nD) : W5 m ρ c (Proc.devRef .tc main_v24) = W3 m ρ c (Proc.devRef .tc main_v24) :=
  ((by host_kept hostOps2 : W5 m ρ c (Proc.devRef .tc main_v24) = W4 m ρ c (Proc.devRef .tc main_v24))).trans (W4_of_ne m ρ c main_v24 (by decide))

theorem kept_main_v24_5_9 (c : Dev nD) : W9 m ρ c (Proc.devRef .tc main_v24) = W5 m ρ c (Proc.devRef .tc main_v24) :=
  ((by host_kept hostOps4 : W9 m ρ c (Proc.devRef .tc main_v24) = W8 m ρ c (Proc.devRef .tc main_v24))).trans ((W8_of_ne m ρ c main_v24 (by decide)).trans (((by host_kept hostOps3 : W7 m ρ c (Proc.devRef .tc main_v24) = W6 m ρ c (Proc.devRef .tc main_v24))).trans ((W6_arr m ρ c 9).trans (((dat2 (V5 m ρ) c).arrAt_in 9 rfl _).trans (A_eq2 (V5 m ρ) c 9)))))

theorem kept_main_v24_9_13 (c : Dev nD) : W13 m ρ c (Proc.devRef .tc main_v24) = W9 m ρ c (Proc.devRef .tc main_v24) :=
  ((by host_kept hostOps6 : W13 m ρ c (Proc.devRef .tc main_v24) = W12 m ρ c (Proc.devRef .tc main_v24))).trans ((W12_of_ne m ρ c main_v24 (by decide)).trans (((by host_kept hostOps5 : W11 m ρ c (Proc.devRef .tc main_v24) = W10 m ρ c (Proc.devRef .tc main_v24))).trans ((W10_arr m ρ c 9).trans (((dat4 (V9 m ρ) c).arrAt_in 9 rfl _).trans (A_eq4 (V9 m ρ) c 9)))))

theorem kept_main_v24_13_17 (c : Dev nD) : W17 m ρ c (Proc.devRef .tc main_v24) = W13 m ρ c (Proc.devRef .tc main_v24) :=
  ((by host_kept hostOps8 : W17 m ρ c (Proc.devRef .tc main_v24) = W16 m ρ c (Proc.devRef .tc main_v24))).trans ((W16_of_ne m ρ c main_v24 (by decide)).trans (((by host_kept hostOps7 : W15 m ρ c (Proc.devRef .tc main_v24) = W14 m ρ c (Proc.devRef .tc main_v24))).trans ((W14_arr m ρ c 9).trans (((dat6 (V13 m ρ) c).arrAt_in 9 rfl _).trans (A_eq6 (V13 m ρ) c 9)))))

theorem kept_main_v25_3_5 (c : Dev nD) : W5 m ρ c (Proc.devRef .tc main_v25) = W3 m ρ c (Proc.devRef .tc main_v25) :=
  ((by host_kept hostOps2 : W5 m ρ c (Proc.devRef .tc main_v25) = W4 m ρ c (Proc.devRef .tc main_v25))).trans (W4_of_ne m ρ c main_v25 (by decide))

theorem kept_main_v25_5_9 (c : Dev nD) : W9 m ρ c (Proc.devRef .tc main_v25) = W5 m ρ c (Proc.devRef .tc main_v25) :=
  ((by host_kept hostOps4 : W9 m ρ c (Proc.devRef .tc main_v25) = W8 m ρ c (Proc.devRef .tc main_v25))).trans ((W8_of_ne m ρ c main_v25 (by decide)).trans (((by host_kept hostOps3 : W7 m ρ c (Proc.devRef .tc main_v25) = W6 m ρ c (Proc.devRef .tc main_v25))).trans ((W6_arr m ρ c 10).trans (((dat2 (V5 m ρ) c).arrAt_in 10 rfl _).trans (A_eq2 (V5 m ρ) c 10)))))

theorem kept_main_v25_9_13 (c : Dev nD) : W13 m ρ c (Proc.devRef .tc main_v25) = W9 m ρ c (Proc.devRef .tc main_v25) :=
  ((by host_kept hostOps6 : W13 m ρ c (Proc.devRef .tc main_v25) = W12 m ρ c (Proc.devRef .tc main_v25))).trans ((W12_of_ne m ρ c main_v25 (by decide)).trans (((by host_kept hostOps5 : W11 m ρ c (Proc.devRef .tc main_v25) = W10 m ρ c (Proc.devRef .tc main_v25))).trans ((W10_arr m ρ c 10).trans (((dat4 (V9 m ρ) c).arrAt_in 10 rfl _).trans (A_eq4 (V9 m ρ) c 10)))))

theorem kept_main_v25_13_17 (c : Dev nD) : W17 m ρ c (Proc.devRef .tc main_v25) = W13 m ρ c (Proc.devRef .tc main_v25) :=
  ((by host_kept hostOps8 : W17 m ρ c (Proc.devRef .tc main_v25) = W16 m ρ c (Proc.devRef .tc main_v25))).trans ((W16_of_ne m ρ c main_v25 (by decide)).trans (((by host_kept hostOps7 : W15 m ρ c (Proc.devRef .tc main_v25) = W14 m ρ c (Proc.devRef .tc main_v25))).trans ((W14_arr m ρ c 10).trans (((dat6 (V13 m ρ) c).arrAt_in 10 rfl _).trans (A_eq6 (V13 m ρ) c 10)))))

theorem kept_main_v26_3_5 (c : Dev nD) : W5 m ρ c (Proc.devRef .tc main_v26) = W3 m ρ c (Proc.devRef .tc main_v26) :=
  ((by host_kept hostOps2 : W5 m ρ c (Proc.devRef .tc main_v26) = W4 m ρ c (Proc.devRef .tc main_v26))).trans (W4_of_ne m ρ c main_v26 (by decide))

theorem kept_main_v26_5_9 (c : Dev nD) : W9 m ρ c (Proc.devRef .tc main_v26) = W5 m ρ c (Proc.devRef .tc main_v26) :=
  ((by host_kept hostOps4 : W9 m ρ c (Proc.devRef .tc main_v26) = W8 m ρ c (Proc.devRef .tc main_v26))).trans ((W8_of_ne m ρ c main_v26 (by decide)).trans (((by host_kept hostOps3 : W7 m ρ c (Proc.devRef .tc main_v26) = W6 m ρ c (Proc.devRef .tc main_v26))).trans ((W6_arr m ρ c 11).trans (((dat2 (V5 m ρ) c).arrAt_in 11 rfl _).trans (A_eq2 (V5 m ρ) c 11)))))

theorem kept_main_v26_9_13 (c : Dev nD) : W13 m ρ c (Proc.devRef .tc main_v26) = W9 m ρ c (Proc.devRef .tc main_v26) :=
  ((by host_kept hostOps6 : W13 m ρ c (Proc.devRef .tc main_v26) = W12 m ρ c (Proc.devRef .tc main_v26))).trans ((W12_of_ne m ρ c main_v26 (by decide)).trans (((by host_kept hostOps5 : W11 m ρ c (Proc.devRef .tc main_v26) = W10 m ρ c (Proc.devRef .tc main_v26))).trans ((W10_arr m ρ c 11).trans (((dat4 (V9 m ρ) c).arrAt_in 11 rfl _).trans (A_eq4 (V9 m ρ) c 11)))))

theorem kept_main_v26_13_17 (c : Dev nD) : W17 m ρ c (Proc.devRef .tc main_v26) = W13 m ρ c (Proc.devRef .tc main_v26) :=
  ((by host_kept hostOps8 : W17 m ρ c (Proc.devRef .tc main_v26) = W16 m ρ c (Proc.devRef .tc main_v26))).trans ((W16_of_ne m ρ c main_v26 (by decide)).trans (((by host_kept hostOps7 : W15 m ρ c (Proc.devRef .tc main_v26) = W14 m ρ c (Proc.devRef .tc main_v26))).trans ((W14_arr m ρ c 11).trans (((dat6 (V13 m ρ) c).arrAt_in 11 rfl _).trans (A_eq6 (V13 m ρ) c 11)))))

theorem kept_main_v27_3_5 (c : Dev nD) : W5 m ρ c (Proc.devRef .tc main_v27) = W3 m ρ c (Proc.devRef .tc main_v27) :=
  ((by host_kept hostOps2 : W5 m ρ c (Proc.devRef .tc main_v27) = W4 m ρ c (Proc.devRef .tc main_v27))).trans (W4_of_ne m ρ c main_v27 (by decide))

theorem kept_main_v27_5_9 (c : Dev nD) : W9 m ρ c (Proc.devRef .tc main_v27) = W5 m ρ c (Proc.devRef .tc main_v27) :=
  ((by host_kept hostOps4 : W9 m ρ c (Proc.devRef .tc main_v27) = W8 m ρ c (Proc.devRef .tc main_v27))).trans ((W8_of_ne m ρ c main_v27 (by decide)).trans (((by host_kept hostOps3 : W7 m ρ c (Proc.devRef .tc main_v27) = W6 m ρ c (Proc.devRef .tc main_v27))).trans ((W6_arr m ρ c 12).trans (((dat2 (V5 m ρ) c).arrAt_in 12 rfl _).trans (A_eq2 (V5 m ρ) c 12)))))

theorem kept_main_v27_9_13 (c : Dev nD) : W13 m ρ c (Proc.devRef .tc main_v27) = W9 m ρ c (Proc.devRef .tc main_v27) :=
  ((by host_kept hostOps6 : W13 m ρ c (Proc.devRef .tc main_v27) = W12 m ρ c (Proc.devRef .tc main_v27))).trans ((W12_of_ne m ρ c main_v27 (by decide)).trans (((by host_kept hostOps5 : W11 m ρ c (Proc.devRef .tc main_v27) = W10 m ρ c (Proc.devRef .tc main_v27))).trans ((W10_arr m ρ c 12).trans (((dat4 (V9 m ρ) c).arrAt_in 12 rfl _).trans (A_eq4 (V9 m ρ) c 12)))))

theorem kept_main_v27_13_17 (c : Dev nD) : W17 m ρ c (Proc.devRef .tc main_v27) = W13 m ρ c (Proc.devRef .tc main_v27) :=
  ((by host_kept hostOps8 : W17 m ρ c (Proc.devRef .tc main_v27) = W16 m ρ c (Proc.devRef .tc main_v27))).trans ((W16_of_ne m ρ c main_v27 (by decide)).trans (((by host_kept hostOps7 : W15 m ρ c (Proc.devRef .tc main_v27) = W14 m ρ c (Proc.devRef .tc main_v27))).trans ((W14_arr m ρ c 12).trans (((dat6 (V13 m ρ) c).arrAt_in 12 rfl _).trans (A_eq6 (V13 m ρ) c 12)))))

theorem kept_main_v28_3_5 (c : Dev nD) : W5 m ρ c (Proc.devRef .tc main_v28) = W3 m ρ c (Proc.devRef .tc main_v28) :=
  ((by host_kept hostOps2 : W5 m ρ c (Proc.devRef .tc main_v28) = W4 m ρ c (Proc.devRef .tc main_v28))).trans (W4_of_ne m ρ c main_v28 (by decide))

theorem kept_main_v28_5_9 (c : Dev nD) : W9 m ρ c (Proc.devRef .tc main_v28) = W5 m ρ c (Proc.devRef .tc main_v28) :=
  ((by host_kept hostOps4 : W9 m ρ c (Proc.devRef .tc main_v28) = W8 m ρ c (Proc.devRef .tc main_v28))).trans ((W8_of_ne m ρ c main_v28 (by decide)).trans (((by host_kept hostOps3 : W7 m ρ c (Proc.devRef .tc main_v28) = W6 m ρ c (Proc.devRef .tc main_v28))).trans ((W6_arr m ρ c 13).trans (((dat2 (V5 m ρ) c).arrAt_in 13 rfl _).trans (A_eq2 (V5 m ρ) c 13)))))

theorem kept_main_v28_9_13 (c : Dev nD) : W13 m ρ c (Proc.devRef .tc main_v28) = W9 m ρ c (Proc.devRef .tc main_v28) :=
  ((by host_kept hostOps6 : W13 m ρ c (Proc.devRef .tc main_v28) = W12 m ρ c (Proc.devRef .tc main_v28))).trans ((W12_of_ne m ρ c main_v28 (by decide)).trans (((by host_kept hostOps5 : W11 m ρ c (Proc.devRef .tc main_v28) = W10 m ρ c (Proc.devRef .tc main_v28))).trans ((W10_arr m ρ c 13).trans (((dat4 (V9 m ρ) c).arrAt_in 13 rfl _).trans (A_eq4 (V9 m ρ) c 13)))))

theorem kept_main_v28_13_17 (c : Dev nD) : W17 m ρ c (Proc.devRef .tc main_v28) = W13 m ρ c (Proc.devRef .tc main_v28) :=
  ((by host_kept hostOps8 : W17 m ρ c (Proc.devRef .tc main_v28) = W16 m ρ c (Proc.devRef .tc main_v28))).trans ((W16_of_ne m ρ c main_v28 (by decide)).trans (((by host_kept hostOps7 : W15 m ρ c (Proc.devRef .tc main_v28) = W14 m ρ c (Proc.devRef .tc main_v28))).trans ((W14_arr m ρ c 13).trans (((dat6 (V13 m ρ) c).arrAt_in 13 rfl _).trans (A_eq6 (V13 m ρ) c 13)))))

end Cert.GGNN.K

end
-- ==== Proof.Spec.lean ====
/-
  A gated graph network's stages as functions of arrays of extended reals, entry by entry.

  An array of extents [a, b] is a function of its index.  `prod` is the plain matrix product at an entry.
  A GRU gate's pre-activation at output coordinate q is a row z against column q of a [64, 64] weight plus the entry q
  of a [1, 64] bias row (`gate`); the cell combines six gates of a node's aggregated row and its hidden row into
  (1 - z) * n + z * h with r, z logistic and n a hyperbolic tangent (`cell`).  The reference keeps the three
  input-side weights stacked as one [192, 64] array and uses it transposed: `wt W off` is the [64, 64] array whose
  entry (c, q) is W (off + q, c), and `bt b off` the [1, 64] row of entries off .. off + 63 of a length-192 vector.
  The logistic function and the hyperbolic tangent send every extended real to a real number, so a cell's value is
  real as soon as the node's own hidden entry is.
-/
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.GGNN

open Idealize.ShloMosaic Idealize.ShloMosaic.ValueIdx

/-- An array of extents [a, b] over the extended reals. -/
abbrev Arr2 (a b : ℕ) := (⟨2, ![a, b]⟩ : Shape).Idx → EReal
/-- A vector of extent a over the extended reals. -/
abbrev Arr1 (a : ℕ) := (⟨1, ![a]⟩ : Shape).Idx → EReal

/-- The number one as the single-precision word the programs print. -/
abbrev one : EReal := Ideal.ofBits .f32 0x3F800000#32

/-- The plain matrix product at entry (p, q). -/
def prod {a k n : ℕ} (A : Arr2 a k) (B : Arr2 k n) (p : Fin a) (q : Fin n) : EReal :=
  ∑ c : Fin k, A (ix2 p c) * B (ix2 c q)

/-- The plain matrix product as an array. -/
def mm {a k n : ℕ} (A : Arr2 a k) (B : Arr2 k n) : Arr2 a n := fun i => prod A B (i 0) (i 1)

/-- A gate's pre-activation: the row z against column q of W, plus the bias row's entry q. -/
def gate (z : Fin 64 → EReal) (W : Arr2 64 64) (b : Arr2 1 64) (q : Fin 64) : EReal :=
  (∑ c : Fin 64, z c * W (ix2 c q)) + b (ix2 (0 : Fin 1) q)

/-- One GRU cell at output coordinate q: a the node's aggregated row, hrow its hidden row, hq its hidden entry q. -/
def cell (a hrow : Fin 64 → EReal) (hq : EReal)
    (Wir Wiz Win Whr Whz Whn : Arr2 64 64) (bir biz bin bhr bhz bhn : Arr2 1 64) (q : Fin 64) : EReal :=
  (one - Ideal.logistic (gate a Wiz biz q + gate hrow Whz bhz q))
      * Ideal.tanh (gate a Win bin q + Ideal.logistic (gate a Wir bir q + gate hrow Whr bhr q) * gate hrow Whn bhn q)
    + Ideal.logistic (gate a Wiz biz q + gate hrow Whz bhz q) * hq

/-- Rows off .. off + 63 of a [192, 64] weight, transposed: entry (c, q) is W (off + q, c). -/
def wt (W : Arr2 192 64) (off : ℕ) (h : off + 64 ≤ 192) : Arr2 64 64 :=
  fun i => W (ix2 (⟨off + (i 1).val, by have hj : (i 1).val < 64 := (i 1).isLt; show off + (i 1).val < 192; omega⟩ : Fin 192) (⟨(i 0).val, (i 0).isLt⟩ : Fin 64))

/-- Entries off .. off + 63 of a length-192 vector as a [1, 64] row. -/
def bt (b : Arr1 192) (off : ℕ) (h : off + 64 ≤ 192) : Arr2 1 64 :=
  fun i => b (ix1 (⟨off + (i 1).val, by have hj : (i 1).val < 64 := (i 1).isLt; show off + (i 1).val < 192; omega⟩ : Fin 192))

/-- The whole GRU layer: every node's cell, the six gates read out of the stacked weights and biases. -/
def layer {N : ℕ} (agg h : Arr2 N 64) (wi wh : Arr2 192 64) (bi bh : Arr1 192) : Arr2 N 64 := fun i =>
  cell (fun c => agg (ix2 (i 0) c)) (fun c => h (ix2 (i 0) c)) (h (ix2 (i 0) (i 1)))
    (wt wi 0 (by omega)) (wt wi 64 (by omega)) (wt wi 128 (by omega))
    (wt wh 0 (by omega)) (wt wh 64 (by omega)) (wt wh 128 (by omega))
    (bt bi 0 (by omega)) (bt bi 64 (by omega)) (bt bi 128 (by omega))
    (bt bh 0 (by omega)) (bt bh 64 (by omega)) (bt bh 128 (by omega)) (i 1)

/-- The GRU layer over the six gate weights and six bias rows given one by one. -/
def layerW {N : ℕ} (agg h : Arr2 N 64) (Wir Wiz Win Whr Whz Whn : Arr2 64 64) (bir biz bin bhr bhz bhn : Arr2 1 64) :
    Arr2 N 64 := fun i =>
  cell (fun c => agg (ix2 (i 0) c)) (fun c => h (ix2 (i 0) c)) (h (ix2 (i 0) (i 1)))
    Wir Wiz Win Whr Whz Whn bir biz bin bhr bhz bhn (i 1)

/-- The layer over the stacked weights is the layer over its six cut-out gate weights and bias rows. -/
theorem layer_eq {N : ℕ} (agg h : Arr2 N 64) (wi wh : Arr2 192 64) (bi bh : Arr1 192) :
    layer agg h wi wh bi bh = layerW agg h
      (wt wi 0 (by omega)) (wt wi 64 (by omega)) (wt wi 128 (by omega))
      (wt wh 0 (by omega)) (wt wh 64 (by omega)) (wt wh 128 (by omega))
      (bt bi 0 (by omega)) (bt bi 64 (by omega)) (bt bi 128 (by omega))
      (bt bh 0 (by omega)) (bt bh 64 (by omega)) (bt bh 128 (by omega)) := rfl

/-- Two products agree at an entry when the left operands agree on the row and the right operands on the column. -/
theorem prod_congr {a a' k n : ℕ} {A : Arr2 a k} {A' : Arr2 a' k} {B B' : Arr2 k n} {p : Fin a} {p' : Fin a'} {q : Fin n}
    (hA : ∀ c, A (ix2 p c) = A' (ix2 p' c)) (hB : ∀ c, B (ix2 c q) = B' (ix2 c q)) : prod A B p q = prod A' B' p' q := by
  unfold prod
  exact Finset.sum_congr rfl fun c _ => by rw [hA c, hB c]

/-- A cell depends only on the two rows, the hidden entry, the six weights and the six bias rows. -/
theorem cell_congr {a a' hrow hrow' : Fin 64 → EReal} {hq hq' : EReal}
    {W1 W2 W3 W4 W5 W6 W1' W2' W3' W4' W5' W6' : Arr2 64 64} {b1 b2 b3 b4 b5 b6 b1' b2' b3' b4' b5' b6' : Arr2 1 64} (q : Fin 64)
    (ha : a = a') (hh : hrow = hrow') (e : hq = hq')
    (e1 : W1 = W1') (e2 : W2 = W2') (e3 : W3 = W3') (e4 : W4 = W4') (e5 : W5 = W5') (e6 : W6 = W6')
    (f1 : b1 = b1') (f2 : b2 = b2') (f3 : b3 = b3') (f4 : b4 = b4') (f5 : b5 = b5') (f6 : b6 = b6') :
    cell a hrow hq W1 W2 W3 W4 W5 W6 b1 b2 b3 b4 b5 b6 q = cell a' hrow' hq' W1' W2' W3' W4' W5' W6' b1' b2' b3' b4' b5' b6' q := by
  subst ha hh e e1 e2 e3 e4 e5 e6 f1 f2 f3 f4 f5 f6; rfl

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The logistic function sends every extended real to a real number. -/
theorem isReal_logistic (x : EReal) : IsReal (Ideal.logistic x) := by
  induction x using EReal.rec with
  | bot => exact ⟨0, by simp⟩
  | coe r => exact ⟨_, Ideal.logistic_coe r⟩
  | top => exact ⟨1, by simp⟩

/-- The hyperbolic tangent sends every extended real to a real number. -/
theorem isReal_tanh (x : EReal) : IsReal (Ideal.tanh x) := by
  induction x using EReal.rec with
  | bot => exact ⟨-1, by simp⟩
  | coe r => exact ⟨_, Ideal.tanh_coe r⟩
  | top => exact ⟨1, by simp⟩

/-- The word of 1.0 denotes a real number. -/
theorem isReal_one : IsReal one := by
  exact ⟨1, Ideal.ofBits_one_f32.trans (by simp)⟩

/-- A product of arrays with real entries has real entries. -/
theorem isReal_prod {a k n : ℕ} (A : Arr2 a k) (B : Arr2 k n) (hA : ∀ i, IsReal (A i)) (hB : ∀ i, IsReal (B i))
    (p : Fin a) (q : Fin n) : IsReal (prod A B p q) :=
  IsReal.sum _ _ fun c _ => (hA _).mul (hB _)

/-- A cell's value is real as soon as the node's own hidden entry is. -/
theorem isReal_cell (a hrow : Fin 64 → EReal) (hq : EReal) (hh : IsReal hq)
    (Wir Wiz Win Whr Whz Whn : Arr2 64 64) (bir biz bin bhr bhz bhn : Arr2 1 64) (q : Fin 64) :
    IsReal (cell a hrow hq Wir Wiz Win Whr Whz Whn bir biz bin bhr bhz bhn q) :=
  (((isReal_one.sub (isReal_logistic _)).mul (isReal_tanh _))).add ((isReal_logistic _).mul hh)

end Cert.GGNN

end
-- ==== Proof.Chain.lean ====
/-
  The network as one chain of arrays of extended reals, from the argument arrays: the hidden states h0 … h4.

  The two edge-number vectors are the two rows of the [2, 1200000] edge array; a layer's [64, 64] weight is one slab of the
  stacked [4, 64, 64] array.  One aggregation takes the rows of a message array at the (normalised) source numbers of the
  edges and adds them at the destination numbers onto an array of zeros; it is carried as ONE function of the two
  edge-number vectors and the message array, the same in the kernel's program and in the reference, and never opened.
  One layer sends a hidden state h to the GRU layer of (the aggregation of h times the layer's weight, h).
-/
import proofs.«167651_j43568148251382_1_alg».proof.Proof.Gen.ReferenceIdeal
import proofs.«167651_j43568148251382_1_alg».proof.Proof.Spec

noncomputable section

namespace Cert.GGNN.R

open Cert.ReferenceIdeal Cert.ReferenceIdeal.Gen Idealize.ShloMosaic Idealize.ShloMosaic.TcCoe Idealize.SL.Sem

/-- The [2, 1200000] array of edge numbers (32-bit words). -/
abbrev EdgeArr := (⟨S2x1200000, .i32⟩ : BufTy).Contents (Elt Ideal)
/-- A vector of 1200000 edge numbers. -/
abbrev EdgeVec := (⟨S1200000, .i32⟩ : BufTy).Contents (Elt Ideal)
/-- A [100000, 64] array of extended reals, as the programs type it. -/
abbrev NodeArr := (⟨S100000x64, .f32⟩ : BufTy).Contents (Elt Ideal)
/-- The stacked [4, 64, 64] layer weights. -/
abbrev ConvArr := (⟨S4x64x64, .f32⟩ : BufTy).Contents (Elt Ideal)

/-- Row 0 of the edge array: the source numbers. -/
def srcOf (x1 : EdgeArr) : EdgeVec :=
  shapeCast _ (extractStridedSlice S1x1200000 ![0, 0] x1 slices_S2x1200000_S1x1200000_0_0) shapeCasts_S1x1200000_S1200000
/-- Row 1 of the edge array: the destination numbers. -/
def dstOf (x1 : EdgeArr) : EdgeVec :=
  shapeCast _ (extractStridedSlice S1x1200000 ![1, 0] x1 slices_S2x1200000_S1x1200000_1_0) shapeCasts_S1x1200000_S1200000

/-- Slab 0 of the stacked layer weights. -/
def cw0 (x4 : ConvArr) : (⟨S64x64, .f32⟩ : BufTy).Contents (Elt Ideal) :=
  shapeCast _ (extractStridedSlice S1x64x64 ![0, 0, 0] x4 slices_S4x64x64_S1x64x64_0_0_0) shapeCasts_S1x64x64_S64x64
/-- Slab 1. -/
def cw1 (x4 : ConvArr) : (⟨S64x64, .f32⟩ : BufTy).Contents (Elt Ideal) :=
  shapeCast _ (extractStridedSlice S1x64x64 ![1, 0, 0] x4 slices_S4x64x64_S1x64x64_1_0_0) shapeCasts_S1x64x64_S64x64
/-- Slab 2. -/
def cw2 (x4 : ConvArr) : (⟨S64x64, .f32⟩ : BufTy).Contents (Elt Ideal) :=
  shapeCast _ (extractStridedSlice S1x64x64 ![2, 0, 0] x4 slices_S4x64x64_S1x64x64_2_0_0) shapeCasts_S1x64x64_S64x64
/-- Slab 3. -/
def cw3 (x4 : ConvArr) : (⟨S64x64, .f32⟩ : BufTy).Contents (Elt Ideal) :=
  shapeCast _ (extractStridedSlice S1x64x64 ![3, 0, 0] x4 slices_S4x64x64_S1x64x64_3_0_0) shapeCasts_S1x64x64_S64x64

/-- One aggregation: the rows of M at the source numbers (a negative number wrapped by 100000), added at the
    destination numbers onto zeros. -/
def agg (src dst : EdgeVec) (M : NodeArr) : NodeArr :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 dst)
    (Host.gather gather_S100000x64_S1200000x1_S1200000x64_1_0_n_n_0_1_164 M
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 100000#32))) src)))

/-- One layer: from a hidden state to the next. -/
def next (src dst : EdgeVec) (cw : Cert.GGNN.Arr2 64 64) (wi wh : Cert.GGNN.Arr2 192 64) (bi bh : Cert.GGNN.Arr1 192)
    (h : Cert.GGNN.Arr2 100000 64) : Cert.GGNN.Arr2 100000 64 :=
  Cert.GGNN.layer (agg src dst (Cert.GGNN.mm h cw)) h wi wh bi bh

section States

variable (x0 : (⟨S100000x256, .f32⟩ : BufTy).Contents (Elt Ideal)) (x1 : EdgeArr)
  (x2 : (⟨S256x64, .f32⟩ : BufTy).Contents (Elt Ideal)) (x4 : ConvArr)
  (x5 x6 : (⟨S192x64, .f32⟩ : BufTy).Contents (Elt Ideal)) (x7 x8 : (⟨S192, .f32⟩ : BufTy).Contents (Elt Ideal))

/-- The hidden state before the first layer: x · W_in. -/
def h0 : Cert.GGNN.Arr2 100000 64 := Cert.GGNN.mm x0 x2
/-- The hidden state after layer 1. -/
def h1 : Cert.GGNN.Arr2 100000 64 := next (srcOf x1) (dstOf x1) (cw0 x4) x5 x6 x7 x8 (h0 x0 x2)
/-- The hidden state after layer 2. -/
def h2 : Cert.GGNN.Arr2 100000 64 := next (srcOf x1) (dstOf x1) (cw1 x4) x5 x6 x7 x8 (h1 x0 x1 x2 x4 x5 x6 x7 x8)
/-- The hidden state after layer 3. -/
def h3 : Cert.GGNN.Arr2 100000 64 := next (srcOf x1) (dstOf x1) (cw2 x4) x5 x6 x7 x8 (h2 x0 x1 x2 x4 x5 x6 x7 x8)
/-- The hidden state after layer 4. -/
def h4 : Cert.GGNN.Arr2 100000 64 := next (srcOf x1) (dstOf x1) (cw3 x4) x5 x6 x7 x8 (h3 x0 x1 x2 x4 x5 x6 x7 x8)

end States

end Cert.GGNN.R

end
-- ==== Proof.LibUnitAxes.lean ====
/-
  A matrix carried with two leading axes of extent one, and a matrix transposed, read at an index.

  An `[1, 1, a, b]` array re-laid as `[a, b]` has at `(p, c)` the entry `(0, 0, p, c)`, and the other way round; the
  row-major position of `(0, 0, p, c)` among `1 · 1 · a · b` entries is that of `(p, c)` among `a · b`.
  The transpose of an `[a, b]` matrix has at `(p, c)` the entry `(c, p)`.
-/
import Idealize.ShloMosaic.Lib.Pipeline.Value
import Idealize.ShloMosaic.Lib.ValueIdx

noncomputable section

namespace Cert.Layout

open Idealize.ShloMosaic Idealize.ShloMosaic.ValueIdx

variable {α : Type}

/-- Dropping two leading unit axes: entry `(p, c)` of the matrix is entry `(0, 0, p, c)` of the operand. -/
theorem shapeCast_11ab_ab_apply {a b : ℕ} (v : (⟨4, ![1, 1, a, b]⟩ : Shape).Idx → α)
    (h : (⟨4, ![1, 1, a, b]⟩ : Shape).ShapeCasts ⟨2, ![a, b]⟩) (p : Fin a) (c : Fin b) :
    shapeCast (⟨2, ![a, b]⟩ : Shape) v h (ix2 p c) = v (ix4 (0 : Fin 1) (0 : Fin 1) p c) := by
  refine shapeCast_apply v h (ix2 p c) (ix4 (0 : Fin 1) (0 : Fin 1) p c) ?_
  rw [Shape.rowMajor_val_four, Shape.rowMajor_val_two]
  show ((0 * 1 + 0) * a + p.val) * b + c.val = p.val * b + c.val
  simp

/-- Adding two leading unit axes: entry `(0, 0, p, c)` of the result is entry `(p, c)` of the matrix. -/
theorem shapeCast_ab_11ab_apply {a b : ℕ} (v : (⟨2, ![a, b]⟩ : Shape).Idx → α)
    (h : (⟨2, ![a, b]⟩ : Shape).ShapeCasts ⟨4, ![1, 1, a, b]⟩) (p : Fin a) (c : Fin b) :
    shapeCast (⟨4, ![1, 1, a, b]⟩ : Shape) v h (ix4 (0 : Fin 1) (0 : Fin 1) p c) = v (ix2 p c) := by
  refine shapeCast_apply v h (ix4 (0 : Fin 1) (0 : Fin 1) p c) (ix2 p c) ?_
  rw [Shape.rowMajor_val_four, Shape.rowMajor_val_two]
  show p.val * b + c.val = ((0 * 1 + 0) * a + p.val) * b + c.val
  simp

/-- The transpose of a matrix: entry `(p, c)` is entry `(c, p)` of the operand. -/
theorem transpose_ab_apply {a b : ℕ} (v : (⟨2, ![a, b]⟩ : Shape).Idx → α)
    (h : (⟨2, ![a, b]⟩ : Shape).Transposes [1, 0] ⟨2, ![b, a]⟩) (p : Fin b) (c : Fin a) :
    transpose (⟨2, ![b, a]⟩ : Shape) [1, 0] v h (ix2 p c) = v (ix2 c p) := by
  refine transpose_apply [1, 0] v h (ix2 p c) (ix2 c p) fun ax => ?_
  match ax with
  | ⟨0, _⟩ => rfl
  | ⟨1, _⟩ => rfl

end Cert.Layout

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.KHost.lean ====
/-
  What each stretch of host lines of the kernel's program leaves in the buffers the regions read, as functions of the
  contents the stretch starts from: the two edge-number vectors, the per-layer [64, 64] weights cut out of the stacked
  [4, 64, 64] array, one aggregation per layer, and the six gate weights (rows off … off + 63 of a stacked [192, 64]
  array, transposed) and six bias rows (entries off … off + 63 of a stacked length-192 vector).
-/
import proofs.«167651_j43568148251382_1_alg».proof.Proof.Gen.KernelIdeal.Launch
import proofs.«167651_j43568148251382_1_alg».proof.Proof.Chain
import proofs.«167651_j43568148251382_1_alg».proof.Proof.LibUnitAxes
import proofs.«167651_j43568148251382_1_alg».proof.Proof.LibBroadcast
import Idealize.ShloMosaic.Lib.StableHlo.Run

set_option maxRecDepth 16384

noncomputable section

namespace Cert.GGNN.K

open Cert.KernelIdeal Cert.KernelIdeal.Gen
open Idealize.ShloMosaic Idealize.ShloMosaic.TcCoe Idealize.ShloMosaic.ValueIdx Idealize.SL.Sem Idealize.ShloMosaic.StableHlo

/-- Rows off … off + 63 of a [192, 64] array, transposed, are Spec's `wt`. -/
theorem wt_eq (w : FVec Ideal S192x64 .f32) (off : ℕ) (hoff : off + 64 ≤ 192) (hs : S192x64.Slices ![off, 0] S64x64)
    (ht : S64x64.Transposes [1, 0] S64x64) :
    transpose S64x64 [1, 0] (extractStridedSlice S64x64 ![off, 0] w hs) ht = Cert.GGNN.wt w off hoff := by
  funext i
  obtain ⟨c, q, rfl⟩ : ∃ (c : Fin 64) (q : Fin 64), i = ix2 c q := ⟨i 0, i 1, eq_ix2 i⟩
  refine (Cert.Layout.transpose_ab_apply _ ht c q).trans ?_
  refine extractStridedSlice_apply ![off, 0] w hs (ix2 q c) _ fun a => ?_
  match a with
  | ⟨0, _⟩ => rfl
  | ⟨1, _⟩ => show c.val = 0 + c.val; omega

/-- Entries off … off + 63 of a length-192 vector, re-laid as a [1, 64] row, are Spec's `bt`. -/
theorem bt_eq (b : FVec Ideal S192 .f32) (off : ℕ) (hoff : off + 64 ≤ 192) (hs : S192.Slices ![off] S64)
    (hc : S64.ShapeCasts S1x64) :
    shapeCast S1x64 (extractStridedSlice S64 ![off] b hs) hc = Cert.GGNN.bt b off hoff := by
  funext i
  obtain ⟨z, q, rfl⟩ : ∃ (z : Fin 1) (q : Fin 64), i = ix2 z q := ⟨i 0, i 1, eq_ix2 i⟩
  obtain rfl : z = 0 := Subsingleton.elim _ _
  refine (Cert.Layout.shapeCast_row_apply _ hc q).trans ?_
  refine extractStridedSlice_apply ![off] b hs (ix1 q) _ fun a => ?_
  match a with
  | ⟨0, _⟩ => rfl

variable (Wv : Valuation τ sig (Elt Ideal))

theorem host0_v1 : StableHlo.after hostOps0 Wv (Proc.devRef .tc main_v1) = Cert.GGNN.R.srcOf (Wv (Proc.devRef .tc main_arg1)) := by
  unfold hostOps0; after_results; rfl
theorem host0_v3 : StableHlo.after hostOps0 Wv (Proc.devRef .tc main_v3) = Cert.GGNN.R.dstOf (Wv (Proc.devRef .tc main_arg1)) := by
  unfold hostOps0; after_results; rfl
theorem host1_v30 : StableHlo.after hostOps1 Wv (Proc.devRef .tc main_v30) = Cert.GGNN.R.cw0 (Wv (Proc.devRef .tc main_arg4)) := by
  unfold hostOps1; after_results; rfl
theorem host3_v44 : StableHlo.after hostOps3 Wv (Proc.devRef .tc main_v44) = Cert.GGNN.R.cw1 (Wv (Proc.devRef .tc main_arg4)) := by
  unfold hostOps3; after_results; rfl
theorem host5_v58 : StableHlo.after hostOps5 Wv (Proc.devRef .tc main_v58) = Cert.GGNN.R.cw2 (Wv (Proc.devRef .tc main_arg4)) := by
  unfold hostOps5; after_results; rfl
theorem host7_v72 : StableHlo.after hostOps7 Wv (Proc.devRef .tc main_v72) = Cert.GGNN.R.cw3 (Wv (Proc.devRef .tc main_arg4)) := by
  unfold hostOps7; after_results; rfl
set_option maxHeartbeats 1000000 in
theorem host2_v41 : StableHlo.after hostOps2 Wv (Proc.devRef .tc main_v41) = Cert.GGNN.R.agg (Wv (Proc.devRef .tc main_v1)) (Wv (Proc.devRef .tc main_v3)) (Wv (Proc.devRef .tc main_v31)) := by
  unfold hostOps2; after_results_simp; rfl
set_option maxHeartbeats 1000000 in
theorem host4_v55 : StableHlo.after hostOps4 Wv (Proc.devRef .tc main_v55) = Cert.GGNN.R.agg (Wv (Proc.devRef .tc main_v1)) (Wv (Proc.devRef .tc main_v3)) (Wv (Proc.devRef .tc main_v45)) := by
  unfold hostOps4; after_results_simp; rfl
set_option maxHeartbeats 1000000 in
theorem host6_v69 : StableHlo.after hostOps6 Wv (Proc.devRef .tc main_v69) = Cert.GGNN.R.agg (Wv (Proc.devRef .tc main_v1)) (Wv (Proc.devRef .tc main_v3)) (Wv (Proc.devRef .tc main_v59)) := by
  unfold hostOps6; after_results_simp; rfl
set_option maxHeartbeats 1000000 in
theorem host8_v83 : StableHlo.after hostOps8 Wv (Proc.devRef .tc main_v83) = Cert.GGNN.R.agg (Wv (Proc.devRef .tc main_v1)) (Wv (Proc.devRef .tc main_v3)) (Wv (Proc.devRef .tc main_v73)) := by
  unfold hostOps8; after_results_simp; rfl
theorem host1_v17 : StableHlo.after hostOps1 Wv (Proc.devRef .tc main_v17) = Cert.GGNN.wt (Wv (Proc.devRef .tc main_arg5)) 0 (by omega) := by
  unfold hostOps1; after_results
  exact wt_eq _ 0 (by omega) _ _
theorem host1_v18 : StableHlo.after hostOps1 Wv (Proc.devRef .tc main_v18) = Cert.GGNN.wt (Wv (Proc.devRef .tc main_arg5)) 64 (by omega) := by
  unfold hostOps1; after_results
  exact wt_eq _ 64 (by omega) _ _
theorem host1_v19 : StableHlo.after hostOps1 Wv (Proc.devRef .tc main_v19) = Cert.GGNN.wt (Wv (Proc.devRef .tc main_arg5)) 128 (by omega) := by
  unfold hostOps1; after_results
  exact wt_eq _ 128 (by omega) _ _
theorem host1_v20 : StableHlo.after hostOps1 Wv (Proc.devRef .tc main_v20) = Cert.GGNN.wt (Wv (Proc.devRef .tc main_arg6)) 0 (by omega) := by
  unfold hostOps1; after_results
  exact wt_eq _ 0 (by omega) _ _
theorem host1_v21 : StableHlo.after hostOps1 Wv (Proc.devRef .tc main_v21) = Cert.GGNN.wt (Wv (Proc.devRef .tc main_arg6)) 64 (by omega) := by
  unfold hostOps1; after_results
  exact wt_eq _ 64 (by omega) _ _
theorem host1_v22 : StableHlo.after hostOps1 Wv (Proc.devRef .tc main_v22) = Cert.GGNN.wt (Wv (Proc.devRef .tc main_arg6)) 128 (by omega) := by
  unfold hostOps1; after_results
  exact wt_eq _ 128 (by omega) _ _
theorem host1_v23 : StableHlo.after hostOps1 Wv (Proc.devRef .tc main_v23) = Cert.GGNN.bt (Wv (Proc.devRef .tc main_arg7)) 0 (by omega) := by
  unfold hostOps1; after_results
  exact bt_eq _ 0 (by omega) _ _
theorem host1_v24 : StableHlo.after hostOps1 Wv (Proc.devRef .tc main_v24) = Cert.GGNN.bt (Wv (Proc.devRef .tc main_arg7)) 64 (by omega) := by
  unfold hostOps1; after_results
  exact bt_eq _ 64 (by omega) _ _
theorem host1_v25 : StableHlo.after hostOps1 Wv (Proc.devRef .tc main_v25) = Cert.GGNN.bt (Wv (Proc.devRef .tc main_arg7)) 128 (by omega) := by
  unfold hostOps1; after_results
  exact bt_eq _ 128 (by omega) _ _
theorem host1_v26 : StableHlo.after hostOps1 Wv (Proc.devRef .tc main_v26) = Cert.GGNN.bt (Wv (Proc.devRef .tc main_arg8)) 0 (by omega) := by
  unfold hostOps1; after_results
  exact bt_eq _ 0 (by omega) _ _
theorem host1_v27 : StableHlo.after hostOps1 Wv (Proc.devRef .tc main_v27) = Cert.GGNN.bt (Wv (Proc.devRef .tc main_arg8)) 64 (by omega) := by
  unfold hostOps1; after_results
  exact bt_eq _ 64 (by omega) _ _
theorem host1_v28 : StableHlo.after hostOps1 Wv (Proc.devRef .tc main_v28) = Cert.GGNN.bt (Wv (Proc.devRef .tc main_arg8)) 128 (by omega) := by
  unfold hostOps1; after_results
  exact bt_eq _ 128 (by omega) _ _

end Cert.GGNN.K

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.MatKernel.lean ====
/-
  What the matrix-product kernels leave in their output block, entry by entry.

  Each of these kernel bodies loads a whole [2000, k] block and a whole [k, 64] weight, rounds both to a narrower
  format (the identity on extended reals), multiplies them into a zero accumulator and stores the result over the whole
  output block.  A whole-block store leaves its payload, a whole-block load reads the block, and the product into a
  zero accumulator is the plain sum: entry (p, q) of the output block is the sum over c of x0 (p, c) * x1 (c, q).
-/
import proofs.«167651_j43568148251382_1_alg».proof.Proof.Spec
import proofs.«167651_j43568148251382_1_alg».proof.Proof.Gen.KernelIdeal.Frame
import proofs.«167651_j43568148251382_1_alg».proof.Proof.LibPlainProduct

noncomputable section

open scoped BigOperators

namespace Cert.GGNN.K

open Idealize.ShloMosaic Idealize.ShloMosaic.ValueIdx Cert.KernelIdeal Cert.KernelIdeal.Gen

/-- The zero offsets of a rank-2 rectangle, as the constant function. -/
theorem zeros2 : (![0, 0] : Fin 2 → Nat) = fun _ => 0 := by
  funext a; match a with | ⟨0, _⟩ => rfl | ⟨1, _⟩ => rfl

/-- The input projection's block: a [2000, 256] block of x against the [256, 64] weight. -/
theorem out0_2_apply (x0 : Vec Ideal S2000x256 .f32) (x1 : Vec Ideal S256x64 .f32) (p : Fin 2000) (q : Fin 64) :
    Cert.KernelIdeal.Gen.out0_2 (F := Ideal) x0 x1 (ix2 p q) = Cert.GGNN.prod x0 x1 p q := by
  unfold Cert.KernelIdeal.Gen.out0_2
  rw [View.canon_unit_zero zeros2]
  simp only [View.ld_unit_zero (S := S2000x256) zeros2, View.ld_unit_zero (S := S256x64) zeros2]
  unfold Cert.KernelIdeal.Gen.k0_pay1
  show FloatOps.matmul _ none x0 x1 (constant (F := Ideal) _ .f32 0x00000000#32) (ix2 p q) = _
  exact Cert.PlainProduct.matmul_nn_apply _ none x0 x1 p q

/-- The first layer's message block: a [2000, 64] block of the hidden array against a [64, 64] weight. -/
theorem out1_2_apply (x0 : Vec Ideal S2000x64 .f32) (x1 : Vec Ideal S64x64 .f32) (p : Fin 2000) (q : Fin 64) :
    Cert.KernelIdeal.Gen.out1_2 (F := Ideal) x0 x1 (ix2 p q) = Cert.GGNN.prod x0 x1 p q := by
  unfold Cert.KernelIdeal.Gen.out1_2
  rw [View.canon_unit_zero zeros2]
  simp only [View.ld_unit_zero (S := S2000x64) zeros2, View.ld_unit_zero (S := S64x64) zeros2]
  unfold Cert.KernelIdeal.Gen.k1_pay1
  rw [shapeCast_self, shapeCast_self]
  show FloatOps.matmul _ none x0 x1 (constant (F := Ideal) _ .f32 0x00000000#32) (ix2 p q) = _
  exact Cert.PlainProduct.matmul_nn_apply _ none x0 x1 p q

/-- The second layer's message block. -/
theorem out3_2_apply (x0 : Vec Ideal S2000x64 .f32) (x1 : Vec Ideal S64x64 .f32) (p : Fin 2000) (q : Fin 64) :
    Cert.KernelIdeal.Gen.out3_2 (F := Ideal) x0 x1 (ix2 p q) = Cert.GGNN.prod x0 x1 p q := by
  unfold Cert.KernelIdeal.Gen.out3_2
  rw [View.canon_unit_zero zeros2]
  simp only [View.ld_unit_zero (S := S2000x64) zeros2, View.ld_unit_zero (S := S64x64) zeros2]
  unfold Cert.KernelIdeal.Gen.k3_pay1
  rw [shapeCast_self, shapeCast_self]
  show FloatOps.matmul _ none x0 x1 (constant (F := Ideal) _ .f32 0x00000000#32) (ix2 p q) = _
  exact Cert.PlainProduct.matmul_nn_apply _ none x0 x1 p q

/-- The third layer's message block. -/
theorem out5_2_apply (x0 : Vec Ideal S2000x64 .f32) (x1 : Vec Ideal S64x64 .f32) (p : Fin 2000) (q : Fin 64) :
    Cert.KernelIdeal.Gen.out5_2 (F := Ideal) x0 x1 (ix2 p q) = Cert.GGNN.prod x0 x1 p q := by
  unfold Cert.KernelIdeal.Gen.out5_2
  rw [View.canon_unit_zero zeros2]
  simp only [View.ld_unit_zero (S := S2000x64) zeros2, View.ld_unit_zero (S := S64x64) zeros2]
  unfold Cert.KernelIdeal.Gen.k5_pay1
  rw [shapeCast_self, shapeCast_self]
  show FloatOps.matmul _ none x0 x1 (constant (F := Ideal) _ .f32 0x00000000#32) (ix2 p q) = _
  exact Cert.PlainProduct.matmul_nn_apply _ none x0 x1 p q

/-- The fourth layer's message block. -/
theorem out7_2_apply (x0 : Vec Ideal S2000x64 .f32) (x1 : Vec Ideal S64x64 .f32) (p : Fin 2000) (q : Fin 64) :
    Cert.KernelIdeal.Gen.out7_2 (F := Ideal) x0 x1 (ix2 p q) = Cert.GGNN.prod x0 x1 p q := by
  unfold Cert.KernelIdeal.Gen.out7_2
  rw [View.canon_unit_zero zeros2]
  simp only [View.ld_unit_zero (S := S2000x64) zeros2, View.ld_unit_zero (S := S64x64) zeros2]
  unfold Cert.KernelIdeal.Gen.k7_pay1
  rw [shapeCast_self, shapeCast_self]
  show FloatOps.matmul _ none x0 x1 (constant (F := Ideal) _ .f32 0x00000000#32) (ix2 p q) = _
  exact Cert.PlainProduct.matmul_nn_apply _ none x0 x1 p q

end Cert.GGNN.K

end
-- ==== Proof.Blk0.lean ====
/-
  Region 0: a [100000, 256] by [256, 64] product computed in fifty points of 2000 rows.  From what one point writes back —
  the product of its block of rows with the whole right operand — to the whole result array: the points' blocks tile the
  rows, and the array ends as the product of the two arrays the region finds.
-/
import proofs.«167651_j43568148251382_1_alg».proof.Proof.Gen.KernelIdeal.Frame
import proofs.«167651_j43568148251382_1_alg».proof.Proof.Spec
import proofs.«167651_j43568148251382_1_alg».proof.Proof.MatKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The grid has fifty points. -/
theorem lt0 (t : Fin cfg0.N) : t.val < 50 := by have h := t.isLt; have e : cfg0.N = 50 := N_0; omega

/-- The printed index maps over the grid: point t takes rows 2000 t … 2000 t + 1999 of the left operand and of the
    result, and the whole right operand. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's left block is row 2000 t + p of the left array. -/
theorem blk0_0 (c : Dev nD) (t : Fin cfg0.N) (p : Fin 2000) (k : Fin 256) :
    (iblk0 V c 0 t (ix2 p k) : EReal) = (V c main_arg0 (ix2 (⟨t.val * 2000 + p.val, by have := lt0 t; have := p.isLt; omega⟩ : Fin 100000) k) : EReal) := by
  show V c main_arg0 (((cfg0.win 0).blk t).view.emb (ix2 p k)) = _
  refine congrArg _ ?_
  funext a; apply Fin.ext
  obtain ⟨e0, e1, -⟩ := idx0 t
  match a with
  | ⟨0, _⟩ => show win0_0.index t (0 : Fin 2) * 2000 + 1 * p.val = t.val * 2000 + p.val; omega
  | ⟨1, _⟩ => show win0_0.index t (1 : Fin 2) * 256 + 1 * k.val = k.val; omega

/-- Point t's right block is the whole right array. -/
theorem blk0_1 (c : Dev nD) (t : Fin cfg0.N) (k : Fin 256) (q : Fin 64) :
    (iblk0 V c 1 t (ix2 k q) : EReal) = (V c main_arg2 (ix2 k q) : EReal) := by
  show V c main_arg2 (((cfg0.win 1).blk t).view.emb (ix2 k q)) = _
  refine congrArg _ ?_
  funext a; apply Fin.ext
  obtain ⟨-, -, e2, e3, -⟩ := idx0 t
  match a with
  | ⟨0, _⟩ => show win0_1.index t (0 : Fin 2) * 256 + 1 * k.val = k.val; omega
  | ⟨1, _⟩ => show win0_1.index t (1 : Fin 2) * 64 + 1 * q.val = q.val; omega

/-- Entry (p, q) of point t's result block sits at row 2000 t + p, column q of the result array. -/
theorem emb0_2 (t : Fin cfg0.N) (p : Fin 2000) (q : Fin 64) :
    ((cfg0.win 2).blk t).view.emb (ix2 p q) = ix2 (⟨t.val * 2000 + p.val, by have := lt0 t; have := p.isLt; omega⟩ : Fin 100000) q := by
  funext a; apply Fin.ext
  obtain ⟨-, -, -, -, e4, e5⟩ := idx0 t
  match a with
  | ⟨0, _⟩ => show win0_2.index t (0 : Fin 2) * 2000 + 1 * p.val = t.val * 2000 + p.val; omega
  | ⟨1, _⟩ => show win0_2.index t (1 : Fin 2) * 64 + 1 * q.val = q.val; omega

/-- What point t writes back is block t of the product of the two arrays as the region finds them. -/
theorem flushed0 (c : Dev nD) (t : Fin cfg0.N) :
    (dat0 (F := Ideal) V c).flushed 2 t = ((cfg0.win 2).blk t).view.read (Elt Ideal) (Cert.GGNN.mm (V c main_arg0) (V c main_arg2)) := by
  show (cfg0.win 2).cut (grid0.coords t) ((dat0 (F := Ideal) V c).after 2 t) = _
  rw [after0_2]
  funext j
  obtain ⟨p, q, rfl⟩ : ∃ (p : Fin 2000) (q : Fin 64), j = ix2 p q := ⟨j 0, j 1, eq_ix2 j⟩
  show out0_2 (iblk0 V c 0 t) (iblk0 V c 1 t) (ix2 p q) = Cert.GGNN.mm (V c main_arg0) (V c main_arg2) (((cfg0.win 2).blk t).view.emb (ix2 p q))
  rw [emb0_2 t p q]
  refine (out0_2_apply (iblk0 V c 0 t) (iblk0 V c 1 t) p q).trans ?_
  exact Cert.GGNN.prod_congr (fun k => blk0_0 V c t p k) (fun k => blk0_1 V c t k q)

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Every row lies in the block of the point numbered by its row divided by 2000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 2000 < cfg0.N := by have e : cfg0.N = 50 := N_0; omega
  refine ⟨⟨(i 0).val / 2000, hN⟩, flush0_2 _, ?_⟩
  rw [mem_blk0]
  obtain ⟨-, -, -, -, e4, e5⟩ := idx0 ⟨(i 0).val / 2000, hN⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 64 ≤ (i 1).val ∧ (i 1).val < win0_2.index _ (1 : Fin 2) * 64 + 64; rw [e5]; omega

/-- THE RESULT ARRAY of the region: the product of the two arrays it finds. -/
theorem final0 (c : Dev nD) :
    (dat0 (F := Ideal) V c).arrAt 2 cfg0.N = Cert.GGNN.mm (V c main_arg0) (V c main_arg2) :=
  (dat0 (F := Ideal) V c).arrAt_eq_of_cover 2 _ (fun t _ => flushed0 V c t) (cover0)

end Cert.GGNN.K

end
-- ==== Proof.Blk1.lean ====
/-
  Region 1: a [100000, 64] by [64, 64] product computed in fifty points of 2000 rows.  From what one point writes back —
  the product of its block of rows with the whole right operand — to the whole result array: the points' blocks tile the
  rows, and the array ends as the product of the two arrays the region finds.
-/
import proofs.«167651_j43568148251382_1_alg».proof.Proof.Gen.KernelIdeal.Frame
import proofs.«167651_j43568148251382_1_alg».proof.Proof.Spec
import proofs.«167651_j43568148251382_1_alg».proof.Proof.MatKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The grid has fifty points. -/
theorem lt1 (t : Fin cfg1.N) : t.val < 50 := by have h := t.isLt; have e : cfg1.N = 50 := N_1; omega

/-- The printed index maps over the grid: point t takes rows 2000 t … 2000 t + 1999 of the left operand and of the
    result, and the whole right operand. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's left block is row 2000 t + p of the left array. -/
theorem blk1_0 (c : Dev nD) (t : Fin cfg1.N) (p : Fin 2000) (k : Fin 64) :
    (iblk1 V c 0 t (ix2 p k) : EReal) = (V c main_v4 (ix2 (⟨t.val * 2000 + p.val, by have := lt1 t; have := p.isLt; omega⟩ : Fin 100000) k) : EReal) := by
  show V c main_v4 (((cfg1.win 0).blk t).view.emb (ix2 p k)) = _
  refine congrArg _ ?_
  funext a; apply Fin.ext
  obtain ⟨e0, e1, -⟩ := idx1 t
  match a with
  | ⟨0, _⟩ => show win1_0.index t (0 : Fin 2) * 2000 + 1 * p.val = t.val * 2000 + p.val; omega
  | ⟨1, _⟩ => show win1_0.index t (1 : Fin 2) * 64 + 1 * k.val = k.val; omega

/-- Point t's right block is the whole right array. -/
theorem blk1_1 (c : Dev nD) (t : Fin cfg1.N) (k : Fin 64) (q : Fin 64) :
    (iblk1 V c 1 t (ix2 k q) : EReal) = (V c main_v30 (ix2 k q) : EReal) := by
  show V c main_v30 (((cfg1.win 1).blk t).view.emb (ix2 k q)) = _
  refine congrArg _ ?_
  funext a; apply Fin.ext
  obtain ⟨-, -, e2, e3, -⟩ := idx1 t
  match a with
  | ⟨0, _⟩ => show win1_1.index t (0 : Fin 2) * 64 + 1 * k.val = k.val; omega
  | ⟨1, _⟩ => show win1_1.index t (1 : Fin 2) * 64 + 1 * q.val = q.val; omega

/-- Entry (p, q) of point t's result block sits at row 2000 t + p, column q of the result array. -/
theorem emb1_2 (t : Fin cfg1.N) (p : Fin 2000) (q : Fin 64) :
    ((cfg1.win 2).blk t).view.emb (ix2 p q) = ix2 (⟨t.val * 2000 + p.val, by have := lt1 t; have := p.isLt; omega⟩ : Fin 100000) q := by
  funext a; apply Fin.ext
  obtain ⟨-, -, -, -, e4, e5⟩ := idx1 t
  match a with
  | ⟨0, _⟩ => show win1_2.index t (0 : Fin 2) * 2000 + 1 * p.val = t.val * 2000 + p.val; omega
  | ⟨1, _⟩ => show win1_2.index t (1 : Fin 2) * 64 + 1 * q.val = q.val; omega

/-- What point t writes back is block t of the product of the two arrays as the region finds them. -/
theorem flushed1 (c : Dev nD) (t : Fin cfg1.N) :
    (dat1 (F := Ideal) V c).flushed 2 t = ((cfg1.win 2).blk t).view.read (Elt Ideal) (Cert.GGNN.mm (V c main_v4) (V c main_v30)) := by
  show (cfg1.win 2).cut (grid1.coords t) ((dat1 (F := Ideal) V c).after 2 t) = _
  rw [after1_2]
  funext j
  obtain ⟨p, q, rfl⟩ : ∃ (p : Fin 2000) (q : Fin 64), j = ix2 p q := ⟨j 0, j 1, eq_ix2 j⟩
  show out1_2 (iblk1 V c 0 t) (iblk1 V c 1 t) (ix2 p q) = Cert.GGNN.mm (V c main_v4) (V c main_v30) (((cfg1.win 2).blk t).view.emb (ix2 p q))
  rw [emb1_2 t p q]
  refine (out1_2_apply (iblk1 V c 0 t) (iblk1 V c 1 t) p q).trans ?_
  exact Cert.GGNN.prod_congr (fun k => blk1_0 V c t p k) (fun k => blk1_1 V c t k q)

/-- An index of the result array is in point t's block iff each coordinate is in the block's range on its axis. -/
theorem mem_blk1 (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v31).slice (win1_2.rect t)).set ↔ _
  rw [View.set_slice_whole, Rect.mem_set_unit]
  exact Iff.rfl

/-- Every row lies in the block of the point numbered by its row divided by 2000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 2000 < cfg1.N := by have e : cfg1.N = 50 := N_1; omega
  refine ⟨⟨(i 0).val / 2000, hN⟩, flush1_2 _, ?_⟩
  rw [mem_blk1]
  obtain ⟨-, -, -, -, e4, e5⟩ := idx1 ⟨(i 0).val / 2000, hN⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 64 ≤ (i 1).val ∧ (i 1).val < win1_2.index _ (1 : Fin 2) * 64 + 64; rw [e5]; omega

/-- THE RESULT ARRAY of the region: the product of the two arrays it finds. -/
theorem final1 (c : Dev nD) :
    (dat1 (F := Ideal) V c).arrAt 2 cfg1.N = Cert.GGNN.mm (V c main_v4) (V c main_v30) :=
  (dat1 (F := Ideal) V c).arrAt_eq_of_cover 2 _ (fun t _ => flushed1 V c t) (cover1)

end Cert.GGNN.K

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibDenseLayer.lean ====
/-
  A dense layer at one entry, and how the device's and the host's vector operations compute it, at the ideal
  values where a float is an extended real and every operation is exact.

  An affine map sends a row z to (sum over c of z c · w (c, q)) + b q; followed by the positive part max(·, 0) it is
  a dense layer.  On the device, a tile product [m, k]·[k, n] into a zero accumulator plus a [1, n] bias row
  repeated down the m rows, read at (p, q), is the affine map of row p; followed by the maximum with the zero
  splat it is the dense layer of row p.  On the host, the product plus a length-n bias vector placed as a row and
  repeated down the rows is the same affine map, and the maximum with the repeated scalar zero the same dense
  layer.  Any extents m, k, n and any operand formats (a change of format is the identity at the ideal values).
-/
import Idealize.ShloMosaic.Lib.Pipeline.Value
import Idealize.ShloMosaic.Lib.ValueIdx
import Idealize.ShloMosaic.PureOps.Ideal.Laws
import proofs.«167651_j43568148251382_1_alg».proof.Proof.LibPlainProduct
import proofs.«167651_j43568148251382_1_alg».proof.Proof.LibHostProduct
import proofs.«167651_j43568148251382_1_alg».proof.Proof.LibRowsProduct
import proofs.«167651_j43568148251382_1_alg».proof.Proof.LibHostBroadcast

noncomputable section

namespace Cert.DenseLayer

open Idealize.ShloMosaic Idealize.ShloMosaic.ValueIdx

/-- The value of the float zero word. -/
abbrev Z : EReal := Ideal.ofBits .f32 0x00000000#32

/-- An affine map at output coordinate q: the row z against column q of w, plus the bias. -/
def affine {k n : ℕ} (z : Fin k → EReal) (w : (⟨2, ![k, n]⟩ : Shape).Idx → EReal) (b : Fin n → EReal) (q : Fin n) : EReal :=
  (∑ c : Fin k, z c * w (ix2 c q)) + b q

/-- A dense layer at output coordinate q: the affine map followed by the positive part. -/
def dense {k n : ℕ} (z : Fin k → EReal) (w : (⟨2, ![k, n]⟩ : Shape).Idx → EReal) (b : Fin n → EReal) (q : Fin n) : EReal :=
  max (affine z w b q) Z

section Device

variable {m k n : ℕ} {φ₁ φ₂ : FTy}

/-- The tile product into a zero accumulator plus a bias row repeated down the rows, at (p, q). -/
theorem tpu_affine_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    addf (matmul (⟨[1], [0], [0], [1], [], [], w⟩ : DotDims _ _ _) none A W (constant _ .f32 0x00000000#32))
      (broadcastTo ⟨2, ![m, n]⟩ b hb) (ix2 p q)
    = affine (fun c => A (ix2 p c)) W (fun q => b (ix2 (0 : Fin 1) q)) q := by
  rw [addf_apply]
  show FloatOps.matmul _ none A W (constant _ .f32 0x00000000#32) (ix2 p q) + _ = _
  rw [Cert.PlainProduct.matmul_nn_apply, Cert.RowsProduct.broadcastTo_1n_an_apply]
  rfl

/-- The same followed by the maximum with the zero splat: a dense layer of row p. -/
theorem tpu_dense_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    maximumf (addf (matmul (⟨[1], [0], [0], [1], [], [], w⟩ : DotDims _ _ _) none A W (constant _ .f32 0x00000000#32))
      (broadcastTo ⟨2, ![m, n]⟩ b hb)) (broadcast ⟨2, ![m, n]⟩ (Scalar.ofBits .f32 0x00000000#32)) (ix2 p q)
    = dense (fun c => A (ix2 p c)) W (fun q => b (ix2 (0 : Fin 1) q)) q := by
  rw [maximumf_apply, tpu_affine_apply]
  rfl

end Device

section Host

variable {m k n : ℕ} {φ₁ φ₂ : FTy}

/-- The host's product plus a bias vector repeated down the rows, at (p, q). -/
theorem host_affine_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ φ₁) (W : FVec Ideal ⟨2, ![k, n]⟩ φ₂) (v : FVec Ideal ⟨1, ![n]⟩ .f32)
    (p : Fin m) (q : Fin n) :
    addf (Host.dotGeneral (⟨[1], [0], [0], [1], [], [], w⟩ : DotDims _ _ _) none A W)
      (broadcastInDim ⟨2, ![m, n]⟩ ![0, 1] h2 (broadcastInDim ⟨2, ![1, n]⟩ ![1] h1 v)) (ix2 p q)
    = affine (fun c => A (ix2 p c)) W (fun q => v (ix1 q)) q := by
  rw [addf_apply, Cert.HostProduct.dotGeneral_nn_apply, Cert.HostBroadcast.row_apply]
  rfl

/-- The same followed by the maximum with the repeated scalar zero: a dense layer of row p. -/
theorem host_dense_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (A : FVec Ideal ⟨2, ![m, k]⟩ φ₁) (W : FVec Ideal ⟨2, ![k, n]⟩ φ₂) (v : FVec Ideal ⟨1, ![n]⟩ .f32)
    (p : Fin m) (q : Fin n) :
    maximumf (addf (Host.dotGeneral (⟨[1], [0], [0], [1], [], [], w⟩ : DotDims _ _ _) none A W)
      (broadcastInDim ⟨2, ![m, n]⟩ ![0, 1] h2 (broadcastInDim ⟨2, ![1, n]⟩ ![1] h1 v)))
      (broadcastInDim ⟨2, ![m, n]⟩ ![] h0 (constant (F := Ideal) ⟨0, ![]⟩ .f32 0x00000000#32)) (ix2 p q)
    = dense (fun c => A (ix2 p c)) W (fun q => v (ix1 q)) q := by
  rw [maximumf_apply, host_affine_apply, Cert.HostBroadcast.scalar_apply]
  rfl

end Host

end Cert.DenseLayer

end
-- ==== Proof.GruKernel.lean ====
/-
  The GRU stage on the device, entry by entry.

  A region's body reads a [2000, 64] block of aggregated messages and the matching block of hidden states, six
  [64, 64] weights and six [1, 64] bias rows.  Each of the six gate pre-activations is a tile product into a zero
  accumulator plus a bias row repeated down the rows, so at (p, q) it is the row p of its block against column q of
  the weight plus the bias entry q; a change of format is the identity on extended reals.  The reset and update gates
  are logistic functions of a sum of an input-side and a hidden-side pre-activation, the candidate a hyperbolic
  tangent, and the stored value is (1 - z) * n + z * h: the cell of the node's two rows.
-/
import proofs.«167651_j43568148251382_1_alg».proof.Proof.Spec
import proofs.«167651_j43568148251382_1_alg».proof.Proof.LibDenseLayer
import proofs.«167651_j43568148251382_1_alg».proof.Proof.Gen.KernelIdeal.Frame

noncomputable section

namespace Cert.GGNN.K

open Idealize.ShloMosaic Idealize.ShloMosaic.ValueIdx Cert.KernelIdeal Cert.KernelIdeal.Gen

/-- One gate's pre-activation on the device: the tile product of a [2000, 64] block with a [64, 64] weight into a zero
    accumulator, plus the [1, 64] bias row repeated down the rows, read at (p, q). -/
theorem gate_apply {φ : FTy} (A : FVec Ideal S2000x64 φ) (W : Vec Ideal S64x64 .f32) (b : Vec Ideal S1x64 .f32)
    (p : Fin 2000) (q : Fin 64) :
    addf (matmul dot_S2000x64_S64x64_S2000x64_1_0_0_1_n_n none A
        (truncf .bf16 (shapeCast S64x64 W shapeCasts_S64x64_S64x64) bitsLt_bf16_f32)
        (constant (F := Ideal) S2000x64 .f32 0x00000000#32))
      (broadcastTo S2000x64 (shapeCast S1x64 b shapeCasts_S1x64_S1x64) broadcasts_S1x64_S2000x64) (ix2 p q)
    = gate (fun c => A (ix2 p c)) W b q := by
  rw [shapeCast_self, shapeCast_self]
  exact Cert.DenseLayer.tpu_affine_apply dot_S2000x64_S64x64_S2000x64_1_0_0_1_n_n.wf broadcasts_S1x64_S2000x64 A
    (truncf .bf16 W bitsLt_bf16_f32) b p q

/-- The zero offsets of a whole-block access, however they are spelt. -/
theorem hz : (![0, 0] : Fin 2 → Nat) = fun _ => 0 := by
  funext a
  match a with
  | ⟨0, _⟩ => rfl
  | ⟨1, _⟩ => rfl

/-- The hidden block as the body reads it: re-laid at its own extents. -/
theorem pay2_apply_2 (x1 : Vec Ideal S2000x64 .f32) (i : S2000x64.Idx) : k2_pay2 (F := Ideal) x1 i = x1 i := by
  exact congrFun (shapeCast_self x1 shapeCasts_S2000x64_S2000x64) i

/-- The aggregated block in the narrower format: the same extended reals. -/
theorem pay3_apply_2 (x0 : Vec Ideal S2000x64 .f32) (i : S2000x64.Idx) : k2_pay3 (F := Ideal) x0 i = x0 i := by
  exact congrFun (shapeCast_self x0 shapeCasts_S2000x64_S2000x64) i

/-- The hidden block in the narrower format: the same extended reals. -/
theorem pay4_apply_2 (x1 : Vec Ideal S2000x64 .f32) (i : S2000x64.Idx) : k2_pay4 (F := Ideal) x1 i = x1 i := by
  exact pay2_apply_2 x1 i

/-- The input-side reset gate's pre-activation. -/
theorem pay5_apply_2 (x0 : Vec Ideal S2000x64 .f32) (W : Vec Ideal S64x64 .f32) (b : Vec Ideal S1x64 .f32) (p : Fin 2000) (q : Fin 64) :
    k2_pay5 (F := Ideal) x0 W b (ix2 p q) = gate (fun c => x0 (ix2 p c)) W b q := by
  refine (gate_apply (k2_pay3 x0) W b p q).trans ?_
  simp only [pay3_apply_2]

/-- The input-side update gate's pre-activation. -/
theorem pay6_apply_2 (x0 : Vec Ideal S2000x64 .f32) (W : Vec Ideal S64x64 .f32) (b : Vec Ideal S1x64 .f32) (p : Fin 2000) (q : Fin 64) :
    k2_pay6 (F := Ideal) x0 W b (ix2 p q) = gate (fun c => x0 (ix2 p c)) W b q := by
  refine (gate_apply (k2_pay3 x0) W b p q).trans ?_
  simp only [pay3_apply_2]

/-- The input-side candidate's pre-activation. -/
theorem pay7_apply_2 (x0 : Vec Ideal S2000x64 .f32) (W : Vec Ideal S64x64 .f32) (b : Vec Ideal S1x64 .f32) (p : Fin 2000) (q : Fin 64) :
    k2_pay7 (F := Ideal) x0 W b (ix2 p q) = gate (fun c => x0 (ix2 p c)) W b q := by
  refine (gate_apply (k2_pay3 x0) W b p q).trans ?_
  simp only [pay3_apply_2]

/-- The cell's arithmetic at one entry, over the six pre-activations' terms. -/
theorem pay1_apply_2 (v3 : FVec Ideal S2000x64 .f32) (v5 : FVec Ideal S2000x64 .bf16) (v13 v21 v29 v33 : FVec Ideal S2000x64 .f32)
    (v34 : Vec Ideal S1x64 .f32) (v38 : Vec Ideal S64x64 .f32) (v42 : Vec Ideal S1x64 .f32) (v46 : Vec Ideal S64x64 .f32)
    (v50 : Vec Ideal S1x64 .f32) (i : S2000x64.Idx) :
    k2_pay1 (F := Ideal) v3 v5 v13 v21 v29 v33 v34 v38 v42 v46 v50 i
      = (one - Ideal.logistic (v21 i
            + addf (matmul dot_S2000x64_S64x64_S2000x64_1_0_0_1_n_n none v5
                (truncf .bf16 (shapeCast S64x64 v38 shapeCasts_S64x64_S64x64) bitsLt_bf16_f32)
                (constant (F := Ideal) S2000x64 .f32 0x00000000#32))
              (broadcastTo S2000x64 (shapeCast S1x64 v42 shapeCasts_S1x64_S1x64) broadcasts_S1x64_S2000x64) i))
          * Ideal.tanh (v29 i
            + Ideal.logistic (v13 i
                + addf v33 (broadcastTo S2000x64 (shapeCast S1x64 v34 shapeCasts_S1x64_S1x64) broadcasts_S1x64_S2000x64) i)
              * addf (matmul dot_S2000x64_S64x64_S2000x64_1_0_0_1_n_n none v5
                  (truncf .bf16 (shapeCast S64x64 v46 shapeCasts_S64x64_S64x64) bitsLt_bf16_f32)
                  (constant (F := Ideal) S2000x64 .f32 0x00000000#32))
                (broadcastTo S2000x64 (shapeCast S1x64 v50 shapeCasts_S1x64_S1x64) broadcasts_S1x64_S2000x64) i)
        + Ideal.logistic (v21 i
            + addf (matmul dot_S2000x64_S64x64_S2000x64_1_0_0_1_n_n none v5
                (truncf .bf16 (shapeCast S64x64 v38 shapeCasts_S64x64_S64x64) bitsLt_bf16_f32)
                (constant (F := Ideal) S2000x64 .f32 0x00000000#32))
              (broadcastTo S2000x64 (shapeCast S1x64 v42 shapeCasts_S1x64_S1x64) broadcasts_S1x64_S2000x64) i) * v3 i := rfl

/-- The hidden-side reset gate: the product is one payload, its bias row is added inside the cell's arithmetic. -/
theorem pay8_gate_2 (x1 : Vec Ideal S2000x64 .f32) (W : Vec Ideal S64x64 .f32) (b : Vec Ideal S1x64 .f32) (p : Fin 2000) (q : Fin 64) :
    addf (k2_pay8 (F := Ideal) x1 W) (broadcastTo S2000x64 (shapeCast S1x64 b shapeCasts_S1x64_S1x64) broadcasts_S1x64_S2000x64) (ix2 p q)
      = gate (fun c => x1 (ix2 p c)) W b q := by
  refine (gate_apply (k2_pay4 x1) W b p q).trans ?_
  simp only [pay4_apply_2]

/-- The whole body's value at (p, q): the cell of the node's aggregated row and hidden row. -/
theorem pay_apply_2 (x0 x1 : Vec Ideal S2000x64 .f32) (x2 x3 x4 x5 x6 x7 : Vec Ideal S64x64 .f32)
    (x8 x9 x10 x11 x12 x13 : Vec Ideal S1x64 .f32) (p : Fin 2000) (q : Fin 64) :
    k2_pay1 (F := Ideal) (k2_pay2 x1) (k2_pay4 x1) (k2_pay5 x0 x2 x8) (k2_pay6 x0 x3 x9) (k2_pay7 x0 x4 x10) (k2_pay8 x1 x5)
        x11 x6 x12 x7 x13 (ix2 p q)
      = cell (fun c => x0 (ix2 p c)) (fun c => x1 (ix2 p c)) (x1 (ix2 p q)) x2 x3 x4 x5 x6 x7 x8 x9 x10 x11 x12 x13 q := by
  rw [pay1_apply_2, pay8_gate_2, gate_apply (k2_pay4 x1) x6 x12 p q, gate_apply (k2_pay4 x1) x7 x13 p q,
    pay5_apply_2, pay6_apply_2, pay7_apply_2, pay2_apply_2]
  simp only [pay4_apply_2]
  rfl

/-- What region 2's body leaves in its output block, at (p, q): the cell of the node's aggregated and hidden rows. -/
theorem out2_14_apply (x0 x1 : Vec Ideal S2000x64 .f32) (x2 x3 x4 x5 x6 x7 : Vec Ideal S64x64 .f32)
    (x8 x9 x10 x11 x12 x13 : Vec Ideal S1x64 .f32) (p : Fin 2000) (q : Fin 64) :
    Cert.KernelIdeal.Gen.out2_14 (F := Ideal) x0 x1 x2 x3 x4 x5 x6 x7 x8 x9 x10 x11 x12 x13 (ix2 p q)
      = Cert.GGNN.cell (fun c => x0 (ix2 p c)) (fun c => x1 (ix2 p c)) (x1 (ix2 p q)) x2 x3 x4 x5 x6 x7 x8 x9 x10 x11 x12 x13 q := by
  unfold out2_14
  rw [View.canon_unit_zero hz]
  simp only [View.ld_unit_zero (S := S2000x64) hz, View.ld_unit_zero (S := S64x64) hz, View.ld_unit_zero (S := S1x64) hz]
  exact pay_apply_2 x0 x1 x2 x3 x4 x5 x6 x7 x8 x9 x10 x11 x12 x13 p q

/-- The hidden block as the body reads it: re-laid at its own extents. -/
theorem pay2_apply_4 (x1 : Vec Ideal S2000x64 .f32) (i : S2000x64.Idx) : k4_pay2 (F := Ideal) x1 i = x1 i := by
  exact congrFun (shapeCast_self x1 shapeCasts_S2000x64_S2000x64) i

/-- The aggregated block in the narrower format: the same extended reals. -/
theorem pay3_apply_4 (x0 : Vec Ideal S2000x64 .f32) (i : S2000x64.Idx) : k4_pay3 (F := Ideal) x0 i = x0 i := by
  exact congrFun (shapeCast_self x0 shapeCasts_S2000x64_S2000x64) i

/-- The hidden block in the narrower format: the same extended reals. -/
theorem pay4_apply_4 (x1 : Vec Ideal S2000x64 .f32) (i : S2000x64.Idx) : k4_pay4 (F := Ideal) x1 i = x1 i := by
  exact pay2_apply_4 x1 i

/-- The input-side reset gate's pre-activation. -/
theorem pay5_apply_4 (x0 : Vec Ideal S2000x64 .f32) (W : Vec Ideal S64x64 .f32) (b : Vec Ideal S1x64 .f32) (p : Fin 2000) (q : Fin 64) :
    k4_pay5 (F := Ideal) x0 W b (ix2 p q) = gate (fun c => x0 (ix2 p c)) W b q := by
  refine (gate_apply (k4_pay3 x0) W b p q).trans ?_
  simp only [pay3_apply_4]

/-- The input-side update gate's pre-activation. -/
theorem pay6_apply_4 (x0 : Vec Ideal S2000x64 .f32) (W : Vec Ideal S64x64 .f32) (b : Vec Ideal S1x64 .f32) (p : Fin 2000) (q : Fin 64) :
    k4_pay6 (F := Ideal) x0 W b (ix2 p q) = gate (fun c => x0 (ix2 p c)) W b q := by
  refine (gate_apply (k4_pay3 x0) W b p q).trans ?_
  simp only [pay3_apply_4]

/-- The input-side candidate's pre-activation. -/
theorem pay7_apply_4 (x0 : Vec Ideal S2000x64 .f32) (W : Vec Ideal S64x64 .f32) (b : Vec Ideal S1x64 .f32) (p : Fin 2000) (q : Fin 64) :
    k4_pay7 (F := Ideal) x0 W b (ix2 p q) = gate (fun c => x0 (ix2 p c)) W b q := by
  refine (gate_apply (k4_pay3 x0) W b p q).trans ?_
  simp only [pay3_apply_4]

/-- The cell's arithmetic at one entry, over the six pre-activations' terms. -/
theorem pay1_apply_4 (v3 : FVec Ideal S2000x64 .f32) (v5 : FVec Ideal S2000x64 .bf16) (v13 v21 v29 v33 : FVec Ideal S2000x64 .f32)
    (v34 : Vec Ideal S1x64 .f32) (v38 : Vec Ideal S64x64 .f32) (v42 : Vec Ideal S1x64 .f32) (v46 : Vec Ideal S64x64 .f32)
    (v50 : Vec Ideal S1x64 .f32) (i : S2000x64.Idx) :
    k4_pay1 (F := Ideal) v3 v5 v13 v21 v29 v33 v34 v38 v42 v46 v50 i
      = (one - Ideal.logistic (v21 i
            + addf (matmul dot_S2000x64_S64x64_S2000x64_1_0_0_1_n_n none v5
                (truncf .bf16 (shapeCast S64x64 v38 shapeCasts_S64x64_S64x64) bitsLt_bf16_f32)
                (constant (F := Ideal) S2000x64 .f32 0x00000000#32))
              (broadcastTo S2000x64 (shapeCast S1x64 v42 shapeCasts_S1x64_S1x64) broadcasts_S1x64_S2000x64) i))
          * Ideal.tanh (v29 i
            + Ideal.logistic (v13 i
                + addf v33 (broadcastTo S2000x64 (shapeCast S1x64 v34 shapeCasts_S1x64_S1x64) broadcasts_S1x64_S2000x64) i)
              * addf (matmul dot_S2000x64_S64x64_S2000x64_1_0_0_1_n_n none v5
                  (truncf .bf16 (shapeCast S64x64 v46 shapeCasts_S64x64_S64x64) bitsLt_bf16_f32)
                  (constant (F := Ideal) S2000x64 .f32 0x00000000#32))
                (broadcastTo S2000x64 (shapeCast S1x64 v50 shapeCasts_S1x64_S1x64) broadcasts_S1x64_S2000x64) i)
        + Ideal.logistic (v21 i
            + addf (matmul dot_S2000x64_S64x64_S2000x64_1_0_0_1_n_n none v5
                (truncf .bf16 (shapeCast S64x64 v38 shapeCasts_S64x64_S64x64) bitsLt_bf16_f32)
                (constant (F := Ideal) S2000x64 .f32 0x00000000#32))
              (broadcastTo S2000x64 (shapeCast S1x64 v42 shapeCasts_S1x64_S1x64) broadcasts_S1x64_S2000x64) i) * v3 i := rfl

/-- The hidden-side reset gate: the product is one payload, its bias row is added inside the cell's arithmetic. -/
theorem pay8_gate_4 (x1 : Vec Ideal S2000x64 .f32) (W : Vec Ideal S64x64 .f32) (b : Vec Ideal S1x64 .f32) (p : Fin 2000) (q : Fin 64) :
    addf (k4_pay8 (F := Ideal) x1 W) (broadcastTo S2000x64 (shapeCast S1x64 b shapeCasts_S1x64_S1x64) broadcasts_S1x64_S2000x64) (ix2 p q)
      = gate (fun c => x1 (ix2 p c)) W b q := by
  refine (gate_apply (k4_pay4 x1) W b p q).trans ?_
  simp only [pay4_apply_4]

/-- The whole body's value at (p, q): the cell of the node's aggregated row and hidden row. -/
theorem pay_apply_4 (x0 x1 : Vec Ideal S2000x64 .f32) (x2 x3 x4 x5 x6 x7 : Vec Ideal S64x64 .f32)
    (x8 x9 x10 x11 x12 x13 : Vec Ideal S1x64 .f32) (p : Fin 2000) (q : Fin 64) :
    k4_pay1 (F := Ideal) (k4_pay2 x1) (k4_pay4 x1) (k4_pay5 x0 x2 x8) (k4_pay6 x0 x3 x9) (k4_pay7 x0 x4 x10) (k4_pay8 x1 x5)
        x11 x6 x12 x7 x13 (ix2 p q)
      = cell (fun c => x0 (ix2 p c)) (fun c => x1 (ix2 p c)) (x1 (ix2 p q)) x2 x3 x4 x5 x6 x7 x8 x9 x10 x11 x12 x13 q := by
  rw [pay1_apply_4, pay8_gate_4, gate_apply (k4_pay4 x1) x6 x12 p q, gate_apply (k4_pay4 x1) x7 x13 p q,
    pay5_apply_4, pay6_apply_4, pay7_apply_4, pay2_apply_4]
  simp only [pay4_apply_4]
  rfl

/-- What region 4's body leaves in its output block, at (p, q): the cell of the node's aggregated and hidden rows. -/
theorem out4_14_apply (x0 x1 : Vec Ideal S2000x64 .f32) (x2 x3 x4 x5 x6 x7 : Vec Ideal S64x64 .f32)
    (x8 x9 x10 x11 x12 x13 : Vec Ideal S1x64 .f32) (p : Fin 2000) (q : Fin 64) :
    Cert.KernelIdeal.Gen.out4_14 (F := Ideal) x0 x1 x2 x3 x4 x5 x6 x7 x8 x9 x10 x11 x12 x13 (ix2 p q)
      = Cert.GGNN.cell (fun c => x0 (ix2 p c)) (fun c => x1 (ix2 p c)) (x1 (ix2 p q)) x2 x3 x4 x5 x6 x7 x8 x9 x10 x11 x12 x13 q := by
  unfold out4_14
  rw [View.canon_unit_zero hz]
  simp only [View.ld_unit_zero (S := S2000x64) hz, View.ld_unit_zero (S := S64x64) hz, View.ld_unit_zero (S := S1x64) hz]
  exact pay_apply_4 x0 x1 x2 x3 x4 x5 x6 x7 x8 x9 x10 x11 x12 x13 p q

/-- The hidden block as the body reads it: re-laid at its own extents. -/
theorem pay2_apply_6 (x1 : Vec Ideal S2000x64 .f32) (i : S2000x64.Idx) : k6_pay2 (F := Ideal) x1 i = x1 i := by
  exact congrFun (shapeCast_self x1 shapeCasts_S2000x64_S2000x64) i

/-- The aggregated block in the narrower format: the same extended reals. -/
theorem pay3_apply_6 (x0 : Vec Ideal S2000x64 .f32) (i : S2000x64.Idx) : k6_pay3 (F := Ideal) x0 i = x0 i := by
  exact congrFun (shapeCast_self x0 shapeCasts_S2000x64_S2000x64) i

/-- The hidden block in the narrower format: the same extended reals. -/
theorem pay4_apply_6 (x1 : Vec Ideal S2000x64 .f32) (i : S2000x64.Idx) : k6_pay4 (F := Ideal) x1 i = x1 i := by
  exact pay2_apply_6 x1 i

/-- The input-side reset gate's pre-activation. -/
theorem pay5_apply_6 (x0 : Vec Ideal S2000x64 .f32) (W : Vec Ideal S64x64 .f32) (b : Vec Ideal S1x64 .f32) (p : Fin 2000) (q : Fin 64) :
    k6_pay5 (F := Ideal) x0 W b (ix2 p q) = gate (fun c => x0 (ix2 p c)) W b q := by
  refine (gate_apply (k6_pay3 x0) W b p q).trans ?_
  simp only [pay3_apply_6]

/-- The input-side update gate's pre-activation. -/
theorem pay6_apply_6 (x0 : Vec Ideal S2000x64 .f32) (W : Vec Ideal S64x64 .f32) (b : Vec Ideal S1x64 .f32) (p : Fin 2000) (q : Fin 64) :
    k6_pay6 (F := Ideal) x0 W b (ix2 p q) = gate (fun c => x0 (ix2 p c)) W b q := by
  refine (gate_apply (k6_pay3 x0) W b p q).trans ?_
  simp only [pay3_apply_6]

/-- The input-side candidate's pre-activation. -/
theorem pay7_apply_6 (x0 : Vec Ideal S2000x64 .f32) (W : Vec Ideal S64x64 .f32) (b : Vec Ideal S1x64 .f32) (p : Fin 2000) (q : Fin 64) :
    k6_pay7 (F := Ideal) x0 W b (ix2 p q) = gate (fun c => x0 (ix2 p c)) W b q := by
  refine (gate_apply (k6_pay3 x0) W b p q).trans ?_
  simp only [pay3_apply_6]

/-- The cell's arithmetic at one entry, over the six pre-activations' terms. -/
theorem pay1_apply_6 (v3 : FVec Ideal S2000x64 .f32) (v5 : FVec Ideal S2000x64 .bf16) (v13 v21 v29 v33 : FVec Ideal S2000x64 .f32)
    (v34 : Vec Ideal S1x64 .f32) (v38 : Vec Ideal S64x64 .f32) (v42 : Vec Ideal S1x64 .f32) (v46 : Vec Ideal S64x64 .f32)
    (v50 : Vec Ideal S1x64 .f32) (i : S2000x64.Idx) :
    k6_pay1 (F := Ideal) v3 v5 v13 v21 v29 v33 v34 v38 v42 v46 v50 i
      = (one - Ideal.logistic (v21 i
            + addf (matmul dot_S2000x64_S64x64_S2000x64_1_0_0_1_n_n none v5
                (truncf .bf16 (shapeCast S64x64 v38 shapeCasts_S64x64_S64x64) bitsLt_bf16_f32)
                (constant (F := Ideal) S2000x64 .f32 0x00000000#32))
              (broadcastTo S2000x64 (shapeCast S1x64 v42 shapeCasts_S1x64_S1x64) broadcasts_S1x64_S2000x64) i))
          * Ideal.tanh (v29 i
            + Ideal.logistic (v13 i
                + addf v33 (broadcastTo S2000x64 (shapeCast S1x64 v34 shapeCasts_S1x64_S1x64) broadcasts_S1x64_S2000x64) i)
              * addf (matmul dot_S2000x64_S64x64_S2000x64_1_0_0_1_n_n none v5
                  (truncf .bf16 (shapeCast S64x64 v46 shapeCasts_S64x64_S64x64) bitsLt_bf16_f32)
                  (constant (F := Ideal) S2000x64 .f32 0x00000000#32))
                (broadcastTo S2000x64 (shapeCast S1x64 v50 shapeCasts_S1x64_S1x64) broadcasts_S1x64_S2000x64) i)
        + Ideal.logistic (v21 i
            + addf (matmul dot_S2000x64_S64x64_S2000x64_1_0_0_1_n_n none v5
                (truncf .bf16 (shapeCast S64x64 v38 shapeCasts_S64x64_S64x64) bitsLt_bf16_f32)
                (constant (F := Ideal) S2000x64 .f32 0x00000000#32))
              (broadcastTo S2000x64 (shapeCast S1x64 v42 shapeCasts_S1x64_S1x64) broadcasts_S1x64_S2000x64) i) * v3 i := rfl

/-- The hidden-side reset gate: the product is one payload, its bias row is added inside the cell's arithmetic. -/
theorem pay8_gate_6 (x1 : Vec Ideal S2000x64 .f32) (W : Vec Ideal S64x64 .f32) (b : Vec Ideal S1x64 .f32) (p : Fin 2000) (q : Fin 64) :
    addf (k6_pay8 (F := Ideal) x1 W) (broadcastTo S2000x64 (shapeCast S1x64 b shapeCasts_S1x64_S1x64) broadcasts_S1x64_S2000x64) (ix2 p q)
      = gate (fun c => x1 (ix2 p c)) W b q := by
  refine (gate_apply (k6_pay4 x1) W b p q).trans ?_
  simp only [pay4_apply_6]

/-- The whole body's value at (p, q): the cell of the node's aggregated row and hidden row. -/
theorem pay_apply_6 (x0 x1 : Vec Ideal S2000x64 .f32) (x2 x3 x4 x5 x6 x7 : Vec Ideal S64x64 .f32)
    (x8 x9 x10 x11 x12 x13 : Vec Ideal S1x64 .f32) (p : Fin 2000) (q : Fin 64) :
    k6_pay1 (F := Ideal) (k6_pay2 x1) (k6_pay4 x1) (k6_pay5 x0 x2 x8) (k6_pay6 x0 x3 x9) (k6_pay7 x0 x4 x10) (k6_pay8 x1 x5)
        x11 x6 x12 x7 x13 (ix2 p q)
      = cell (fun c => x0 (ix2 p c)) (fun c => x1 (ix2 p c)) (x1 (ix2 p q)) x2 x3 x4 x5 x6 x7 x8 x9 x10 x11 x12 x13 q := by
  rw [pay1_apply_6, pay8_gate_6, gate_apply (k6_pay4 x1) x6 x12 p q, gate_apply (k6_pay4 x1) x7 x13 p q,
    pay5_apply_6, pay6_apply_6, pay7_apply_6, pay2_apply_6]
  simp only [pay4_apply_6]
  rfl

/-- What region 6's body leaves in its output block, at (p, q): the cell of the node's aggregated and hidden rows. -/
theorem out6_14_apply (x0 x1 : Vec Ideal S2000x64 .f32) (x2 x3 x4 x5 x6 x7 : Vec Ideal S64x64 .f32)
    (x8 x9 x10 x11 x12 x13 : Vec Ideal S1x64 .f32) (p : Fin 2000) (q : Fin 64) :
    Cert.KernelIdeal.Gen.out6_14 (F := Ideal) x0 x1 x2 x3 x4 x5 x6 x7 x8 x9 x10 x11 x12 x13 (ix2 p q)
      = Cert.GGNN.cell (fun c => x0 (ix2 p c)) (fun c => x1 (ix2 p c)) (x1 (ix2 p q)) x2 x3 x4 x5 x6 x7 x8 x9 x10 x11 x12 x13 q := by
  unfold out6_14
  rw [View.canon_unit_zero hz]
  simp only [View.ld_unit_zero (S := S2000x64) hz, View.ld_unit_zero (S := S64x64) hz, View.ld_unit_zero (S := S1x64) hz]
  exact pay_apply_6 x0 x1 x2 x3 x4 x5 x6 x7 x8 x9 x10 x11 x12 x13 p q

/-- The hidden block as the body reads it: re-laid at its own extents. -/
theorem pay2_apply_8 (x1 : Vec Ideal S2000x64 .f32) (i : S2000x64.Idx) : k8_pay2 (F := Ideal) x1 i = x1 i := by
  exact congrFun (shapeCast_self x1 shapeCasts_S2000x64_S2000x64) i

/-- The aggregated block in the narrower format: the same extended reals. -/
theorem pay3_apply_8 (x0 : Vec Ideal S2000x64 .f32) (i : S2000x64.Idx) : k8_pay3 (F := Ideal) x0 i = x0 i := by
  exact congrFun (shapeCast_self x0 shapeCasts_S2000x64_S2000x64) i

/-- The hidden block in the narrower format: the same extended reals. -/
theorem pay4_apply_8 (x1 : Vec Ideal S2000x64 .f32) (i : S2000x64.Idx) : k8_pay4 (F := Ideal) x1 i = x1 i := by
  exact pay2_apply_8 x1 i

/-- The input-side reset gate's pre-activation. -/
theorem pay5_apply_8 (x0 : Vec Ideal S2000x64 .f32) (W : Vec Ideal S64x64 .f32) (b : Vec Ideal S1x64 .f32) (p : Fin 2000) (q : Fin 64) :
    k8_pay5 (F := Ideal) x0 W b (ix2 p q) = gate (fun c => x0 (ix2 p c)) W b q := by
  refine (gate_apply (k8_pay3 x0) W b p q).trans ?_
  simp only [pay3_apply_8]

/-- The input-side update gate's pre-activation. -/
theorem pay6_apply_8 (x0 : Vec Ideal S2000x64 .f32) (W : Vec Ideal S64x64 .f32) (b : Vec Ideal S1x64 .f32) (p : Fin 2000) (q : Fin 64) :
    k8_pay6 (F := Ideal) x0 W b (ix2 p q) = gate (fun c => x0 (ix2 p c)) W b q := by
  refine (gate_apply (k8_pay3 x0) W b p q).trans ?_
  simp only [pay3_apply_8]

/-- The input-side candidate's pre-activation. -/
theorem pay7_apply_8 (x0 : Vec Ideal S2000x64 .f32) (W : Vec Ideal S64x64 .f32) (b : Vec Ideal S1x64 .f32) (p : Fin 2000) (q : Fin 64) :
    k8_pay7 (F := Ideal) x0 W b (ix2 p q) = gate (fun c => x0 (ix2 p c)) W b q := by
  refine (gate_apply (k8_pay3 x0) W b p q).trans ?_
  simp only [pay3_apply_8]

/-- The cell's arithmetic at one entry, over the six pre-activations' terms. -/
theorem pay1_apply_8 (v3 : FVec Ideal S2000x64 .f32) (v5 : FVec Ideal S2000x64 .bf16) (v13 v21 v29 v33 : FVec Ideal S2000x64 .f32)
    (v34 : Vec Ideal S1x64 .f32) (v38 : Vec Ideal S64x64 .f32) (v42 : Vec Ideal S1x64 .f32) (v46 : Vec Ideal S64x64 .f32)
    (v50 : Vec Ideal S1x64 .f32) (i : S2000x64.Idx) :
    k8_pay1 (F := Ideal) v3 v5 v13 v21 v29 v33 v34 v38 v42 v46 v50 i
      = (one - Ideal.logistic (v21 i
            + addf (matmul dot_S2000x64_S64x64_S2000x64_1_0_0_1_n_n none v5
                (truncf .bf16 (shapeCast S64x64 v38 shapeCasts_S64x64_S64x64) bitsLt_bf16_f32)
                (constant (F := Ideal) S2000x64 .f32 0x00000000#32))
              (broadcastTo S2000x64 (shapeCast S1x64 v42 shapeCasts_S1x64_S1x64) broadcasts_S1x64_S2000x64) i))
          * Ideal.tanh (v29 i
            + Ideal.logistic (v13 i
                + addf v33 (broadcastTo S2000x64 (shapeCast S1x64 v34 shapeCasts_S1x64_S1x64) broadcasts_S1x64_S2000x64) i)
              * addf (matmul dot_S2000x64_S64x64_S2000x64_1_0_0_1_n_n none v5
                  (truncf .bf16 (shapeCast S64x64 v46 shapeCasts_S64x64_S64x64) bitsLt_bf16_f32)
                  (constant (F := Ideal) S2000x64 .f32 0x00000000#32))
                (broadcastTo S2000x64 (shapeCast S1x64 v50 shapeCasts_S1x64_S1x64) broadcasts_S1x64_S2000x64) i)
        + Ideal.logistic (v21 i
            + addf (matmul dot_S2000x64_S64x64_S2000x64_1_0_0_1_n_n none v5
                (truncf .bf16 (shapeCast S64x64 v38 shapeCasts_S64x64_S64x64) bitsLt_bf16_f32)
                (constant (F := Ideal) S2000x64 .f32 0x00000000#32))
              (broadcastTo S2000x64 (shapeCast S1x64 v42 shapeCasts_S1x64_S1x64) broadcasts_S1x64_S2000x64) i) * v3 i := rfl

/-- The hidden-side reset gate: the product is one payload, its bias row is added inside the cell's arithmetic. -/
theorem pay8_gate_8 (x1 : Vec Ideal S2000x64 .f32) (W : Vec Ideal S64x64 .f32) (b : Vec Ideal S1x64 .f32) (p : Fin 2000) (q : Fin 64) :
    addf (k8_pay8 (F := Ideal) x1 W) (broadcastTo S2000x64 (shapeCast S1x64 b shapeCasts_S1x64_S1x64) broadcasts_S1x64_S2000x64) (ix2 p q)
      = gate (fun c => x1 (ix2 p c)) W b q := by
  refine (gate_apply (k8_pay4 x1) W b p q).trans ?_
  simp only [pay4_apply_8]

/-- The whole body's value at (p, q): the cell of the node's aggregated row and hidden row. -/
theorem pay_apply_8 (x0 x1 : Vec Ideal S2000x64 .f32) (x2 x3 x4 x5 x6 x7 : Vec Ideal S64x64 .f32)
    (x8 x9 x10 x11 x12 x13 : Vec Ideal S1x64 .f32) (p : Fin 2000) (q : Fin 64) :
    k8_pay1 (F := Ideal) (k8_pay2 x1) (k8_pay4 x1) (k8_pay5 x0 x2 x8) (k8_pay6 x0 x3 x9) (k8_pay7 x0 x4 x10) (k8_pay8 x1 x5)
        x11 x6 x12 x7 x13 (ix2 p q)
      = cell (fun c => x0 (ix2 p c)) (fun c => x1 (ix2 p c)) (x1 (ix2 p q)) x2 x3 x4 x5 x6 x7 x8 x9 x10 x11 x12 x13 q := by
  rw [pay1_apply_8, pay8_gate_8, gate_apply (k8_pay4 x1) x6 x12 p q, gate_apply (k8_pay4 x1) x7 x13 p q,
    pay5_apply_8, pay6_apply_8, pay7_apply_8, pay2_apply_8]
  simp only [pay4_apply_8]
  rfl

/-- What region 8's body leaves in its output block, at (p, q): the cell of the node's aggregated and hidden rows. -/
theorem out8_14_apply (x0 x1 : Vec Ideal S2000x64 .f32) (x2 x3 x4 x5 x6 x7 : Vec Ideal S64x64 .f32)
    (x8 x9 x10 x11 x12 x13 : Vec Ideal S1x64 .f32) (p : Fin 2000) (q : Fin 64) :
    Cert.KernelIdeal.Gen.out8_14 (F := Ideal) x0 x1 x2 x3 x4 x5 x6 x7 x8 x9 x10 x11 x12 x13 (ix2 p q)
      = Cert.GGNN.cell (fun c => x0 (ix2 p c)) (fun c => x1 (ix2 p c)) (x1 (ix2 p q)) x2 x3 x4 x5 x6 x7 x8 x9 x10 x11 x12 x13 q := by
  unfold out8_14
  rw [View.canon_unit_zero hz]
  simp only [View.ld_unit_zero (S := S2000x64) hz, View.ld_unit_zero (S := S64x64) hz, View.ld_unit_zero (S := S1x64) hz]
  exact pay_apply_8 x0 x1 x2 x3 x4 x5 x6 x7 x8 x9 x10 x11 x12 x13 p q

end Cert.GGNN.K

end
-- ==== Proof.Blk2.lean ====
/-
  Region 2: one GRU layer computed in fifty points of 2000 nodes.  From what one point writes back — the cell of each of
  its 2000 nodes, from the node's aggregated row, its hidden row, and the whole six weights and six bias rows — to the whole
  result array: the points' blocks tile the nodes, and the array ends as the layer of the arrays the region finds.
-/
import proofs.«167651_j43568148251382_1_alg».proof.Proof.Gen.KernelIdeal.Frame
import proofs.«167651_j43568148251382_1_alg».proof.Proof.Spec
import proofs.«167651_j43568148251382_1_alg».proof.Proof.GruKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The grid has fifty points. -/
theorem lt2 (t : Fin cfg2.N) : t.val < 50 := by have h := t.isLt; have e : cfg2.N = 50 := N_2; omega

/-! The printed index maps over the grid: point t takes rows 2000 t … 2000 t + 1999 of the aggregated array, of the hidden
    array and of the result, and the whole of each weight and bias row. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 2) = 0 ∧ win2_10.index t (1 : Fin 2) = 0 :=
  (by decide +kernel : ∀ t : Fin grid2.N, _)
theorem idx2_11 : ∀ t : Fin cfg2.N, win2_11.index t (0 : Fin 2) = 0 ∧ win2_11.index t (1 : Fin 2) = 0 :=
  (by decide +kernel : ∀ t : Fin grid2.N, _)
theorem idx2_12 : ∀ t : Fin cfg2.N, win2_12.index t (0 : Fin 2) = 0 ∧ win2_12.index t (1 : Fin 2) = 0 :=
  (by decide +kernel : ∀ t : Fin grid2.N, _)
theorem idx2_13 : ∀ t : Fin cfg2.N, win2_13.index t (0 : Fin 2) = 0 ∧ win2_13.index t (1 : Fin 2) = 0 :=
  (by decide +kernel : ∀ t : Fin grid2.N, _)
theorem idx2_14 : ∀ t : Fin cfg2.N, win2_14.index t (0 : Fin 2) = t.val ∧ win2_14.index t (1 : Fin 2) = 0 :=
  (by decide +kernel : ∀ t : Fin grid2.N, _)

/-- Row p of point t's block of window 0 is row 2000 t + p of its array. -/
theorem blk2_0 (c : Dev nD) (t : Fin cfg2.N) (p : Fin 2000) (k : Fin 64) :
    (iblk2 V c 0 t (ix2 p k) : EReal) = (V c main_v41 (ix2 (⟨t.val * 2000 + p.val, by have := lt2 t; have := p.isLt; omega⟩ : Fin 100000) k) : EReal) := by
  show V c main_v41 (((cfg2.win 0).blk t).view.emb (ix2 p k)) = _
  refine congrArg _ ?_
  funext a; apply Fin.ext
  obtain ⟨e0, e1⟩ := idx2_0 t
  match a with
  | ⟨0, _⟩ => show win2_0.index t (0 : Fin 2) * 2000 + 1 * p.val = t.val * 2000 + p.val; omega
  | ⟨1, _⟩ => show win2_0.index t (1 : Fin 2) * 64 + 1 * k.val = k.val; omega

/-- Row p of point t's block of window 1 is row 2000 t + p of its array. -/
theorem blk2_1 (c : Dev nD) (t : Fin cfg2.N) (p : Fin 2000) (k : Fin 64) :
    (iblk2 V c 1 t (ix2 p k) : EReal) = (V c main_v4 (ix2 (⟨t.val * 2000 + p.val, by have := lt2 t; have := p.isLt; omega⟩ : Fin 100000) k) : EReal) := by
  show V c main_v4 (((cfg2.win 1).blk t).view.emb (ix2 p k)) = _
  refine congrArg _ ?_
  funext a; apply Fin.ext
  obtain ⟨e0, e1⟩ := idx2_1 t
  match a with
  | ⟨0, _⟩ => show win2_1.index t (0 : Fin 2) * 2000 + 1 * p.val = t.val * 2000 + p.val; omega
  | ⟨1, _⟩ => show win2_1.index t (1 : Fin 2) * 64 + 1 * k.val = k.val; omega

/-- Point t's block of window 2 is its whole array. -/
theorem blk2_2 (c : Dev nD) (t : Fin cfg2.N) :
    (iblk2 V c 2 t : Cert.GGNN.Arr2 64 64) = (V c main_v17 : Cert.GGNN.Arr2 64 64) := by
  funext i
  obtain ⟨a', b', rfl⟩ : ∃ (a' : Fin 64) (b' : Fin 64), i = ix2 a' b' := ⟨i 0, i 1, eq_ix2 i⟩
  show V c main_v17 (((cfg2.win 2).blk t).view.emb (ix2 a' b')) = V c main_v17 (ix2 a' b')
  refine congrArg _ ?_
  funext a; apply Fin.ext
  obtain ⟨e0, e1⟩ := idx2_2 t
  match a with
  | ⟨0, _⟩ => show win2_2.index t (0 : Fin 2) * 64 + 1 * a'.val = a'.val; omega
  | ⟨1, _⟩ => show win2_2.index t (1 : Fin 2) * 64 + 1 * b'.val = b'.val; omega

/-- Point t's block of window 3 is its whole array. -/
theorem blk2_3 (c : Dev nD) (t : Fin cfg2.N) :
    (iblk2 V c 3 t : Cert.GGNN.Arr2 64 64) = (V c main_v18 : Cert.GGNN.Arr2 64 64) := by
  funext i
  obtain ⟨a', b', rfl⟩ : ∃ (a' : Fin 64) (b' : Fin 64), i = ix2 a' b' := ⟨i 0, i 1, eq_ix2 i⟩
  show V c main_v18 (((cfg2.win 3).blk t).view.emb (ix2 a' b')) = V c main_v18 (ix2 a' b')
  refine congrArg _ ?_
  funext a; apply Fin.ext
  obtain ⟨e0, e1⟩ := idx2_3 t
  match a with
  | ⟨0, _⟩ => show win2_3.index t (0 : Fin 2) * 64 + 1 * a'.val = a'.val; omega
  | ⟨1, _⟩ => show win2_3.index t (1 : Fin 2) * 64 + 1 * b'.val = b'.val; omega

/-- Point t's block of window 4 is its whole array. -/
theorem blk2_4 (c : Dev nD) (t : Fin cfg2.N) :
    (iblk2 V c 4 t : Cert.GGNN.Arr2 64 64) = (V c main_v19 : Cert.GGNN.Arr2 64 64) := by
  funext i
  obtain ⟨a', b', rfl⟩ : ∃ (a' : Fin 64) (b' : Fin 64), i = ix2 a' b' := ⟨i 0, i 1, eq_ix2 i⟩
  show V c main_v19 (((cfg2.win 4).blk t).view.emb (ix2 a' b')) = V c main_v19 (ix2 a' b')
  refine congrArg _ ?_
  funext a; apply Fin.ext
  obtain ⟨e0, e1⟩ := idx2_4 t
  match a with
  | ⟨0, _⟩ => show win2_4.index t (0 : Fin 2) * 64 + 1 * a'.val = a'.val; omega
  | ⟨1, _⟩ => show win2_4.index t (1 : Fin 2) * 64 + 1 * b'.val = b'.val; omega

/-- Point t's block of window 5 is its whole array. -/
theorem blk2_5 (c : Dev nD) (t : Fin cfg2.N) :
    (iblk2 V c 5 t : Cert.GGNN.Arr2 64 64) = (V c main_v20 : Cert.GGNN.Arr2 64 64) := by
  funext i
  obtain ⟨a', b', rfl⟩ : ∃ (a' : Fin 64) (b' : Fin 64), i = ix2 a' b' := ⟨i 0, i 1, eq_ix2 i⟩
  show V c main_v20 (((cfg2.win 5).blk t).view.emb (ix2 a' b')) = V c main_v20 (ix2 a' b')
  refine congrArg _ ?_
  funext a; apply Fin.ext
  obtain ⟨e0, e1⟩ := idx2_5 t
  match a with
  | ⟨0, _⟩ => show win2_5.index t (0 : Fin 2) * 64 + 1 * a'.val = a'.val; omega
  | ⟨1, _⟩ => show win2_5.index t (1 : Fin 2) * 64 + 1 * b'.val = b'.val; omega

/-- Point t's block of window 6 is its whole array. -/
theorem blk2_6 (c : Dev nD) (t : Fin cfg2.N) :
    (iblk2 V c 6 t : Cert.GGNN.Arr2 64 64) = (V c main_v21 : Cert.GGNN.Arr2 64 64) := by
  funext i
  obtain ⟨a', b', rfl⟩ : ∃ (a' : Fin 64) (b' : Fin 64), i = ix2 a' b' := ⟨i 0, i 1, eq_ix2 i⟩
  show V c main_v21 (((cfg2.win 6).blk t).view.emb (ix2 a' b')) = V c main_v21 (ix2 a' b')
  refine congrArg _ ?_
  funext a; apply Fin.ext
  obtain ⟨e0, e1⟩ := idx2_6 t
  match a with
  | ⟨0, _⟩ => show win2_6.index t (0 : Fin 2) * 64 + 1 * a'.val = a'.val; omega
  | ⟨1, _⟩ => show win2_6.index t (1 : Fin 2) * 64 + 1 * b'.val = b'.val; omega

/-- Point t's block of window 7 is its whole array. -/
theorem blk2_7 (c : Dev nD) (t : Fin cfg2.N) :
    (iblk2 V c 7 t : Cert.GGNN.Arr2 64 64) = (V c main_v22 : Cert.GGNN.Arr2 64 64) := by
  funext i
  obtain ⟨a', b', rfl⟩ : ∃ (a' : Fin 64) (b' : Fin 64), i = ix2 a' b' := ⟨i 0, i 1, eq_ix2 i⟩
  show V c main_v22 (((cfg2.win 7).blk t).view.emb (ix2 a' b')) = V c main_v22 (ix2 a' b')
  refine congrArg _ ?_
  funext a; apply Fin.ext
  obtain ⟨e0, e1⟩ := idx2_7 t
  match a with
  | ⟨0, _⟩ => show win2_7.index t (0 : Fin 2) * 64 + 1 * a'.val = a'.val; omega
  | ⟨1, _⟩ => show win2_7.index t (1 : Fin 2) * 64 + 1 * b'.val = b'.val; omega

/-- Point t's block of window 8 is its whole array. -/
theorem blk2_8 (c : Dev nD) (t : Fin cfg2.N) :
    (iblk2 V c 8 t : Cert.GGNN.Arr2 1 64) = (V c main_v23 : Cert.GGNN.Arr2 1 64) := by
  funext i
  obtain ⟨a', b', rfl⟩ : ∃ (a' : Fin 1) (b' : Fin 64), i = ix2 a' b' := ⟨i 0, i 1, eq_ix2 i⟩
  show V c main_v23 (((cfg2.win 8).blk t).view.emb (ix2 a' b')) = V c main_v23 (ix2 a' b')
  refine congrArg _ ?_
  funext a; apply Fin.ext
  obtain ⟨e0, e1⟩ := idx2_8 t
  match a with
  | ⟨0, _⟩ => show win2_8.index t (0 : Fin 2) * 1 + 1 * a'.val = a'.val; omega
  | ⟨1, _⟩ => show win2_8.index t (1 : Fin 2) * 64 + 1 * b'.val = b'.val; omega

/-- Point t's block of window 9 is its whole array. -/
theorem blk2_9 (c : Dev nD) (t : Fin cfg2.N) :
    (iblk2 V c 9 t : Cert.GGNN.Arr2 1 64) = (V c main_v24 : Cert.GGNN.Arr2 1 64) := by
  funext i
  obtain ⟨a', b', rfl⟩ : ∃ (a' : Fin 1) (b' : Fin 64), i = ix2 a' b' := ⟨i 0, i 1, eq_ix2 i⟩
  show V c main_v24 (((cfg2.win 9).blk t).view.emb (ix2 a' b')) = V c main_v24 (ix2 a' b')
  refine congrArg _ ?_
  funext a; apply Fin.ext
  obtain ⟨e0, e1⟩ := idx2_9 t
  match a with
  | ⟨0, _⟩ => show win2_9.index t (0 : Fin 2) * 1 + 1 * a'.val = a'.val; omega
  | ⟨1, _⟩ => show win2_9.index t (1 : Fin 2) * 64 + 1 * b'.val = b'.val; omega

/-- Point t's block of window 10 is its whole array. -/
theorem blk2_10 (c : Dev nD) (t : Fin cfg2.N) :
    (iblk2 V c 10 t : Cert.GGNN.Arr2 1 64) = (V c main_v25 : Cert.GGNN.Arr2 1 64) := by
  funext i
  obtain ⟨a', b', rfl⟩ : ∃ (a' : Fin 1) (b' : Fin 64), i = ix2 a' b' := ⟨i 0, i 1, eq_ix2 i⟩
  show V c main_v25 (((cfg2.win 10).blk t).view.emb (ix2 a' b')) = V c main_v25 (ix2 a' b')
  refine congrArg _ ?_
  funext a; apply Fin.ext
  obtain ⟨e0, e1⟩ := idx2_10 t
  match a with
  | ⟨0, _⟩ => show win2_10.index t (0 : Fin 2) * 1 + 1 * a'.val = a'.val; omega
  | ⟨1, _⟩ => show win2_10.index t (1 : Fin 2) * 64 + 1 * b'.val = b'.val; omega

/-- Point t's block of window 11 is its whole array. -/
theorem blk2_11 (c : Dev nD) (t : Fin cfg2.N) :
    (iblk2 V c 11 t : Cert.GGNN.Arr2 1 64) = (V c main_v26 : Cert.GGNN.Arr2 1 64) := by
  funext i
  obtain ⟨a', b', rfl⟩ : ∃ (a' : Fin 1) (b' : Fin 64), i = ix2 a' b' := ⟨i 0, i 1, eq_ix2 i⟩
  show V c main_v26 (((cfg2.win 11).blk t).view.emb (ix2 a' b')) = V c main_v26 (ix2 a' b')
  refine congrArg _ ?_
  funext a; apply Fin.ext
  obtain ⟨e0, e1⟩ := idx2_11 t
  match a with
  | ⟨0, _⟩ => show win2_11.index t (0 : Fin 2) * 1 + 1 * a'.val = a'.val; omega
  | ⟨1, _⟩ => show win2_11.index t (1 : Fin 2) * 64 + 1 * b'.val = b'.val; omega

/-- Point t's block of window 12 is its whole array. -/
theorem blk2_12 (c : Dev nD) (t : Fin cfg2.N) :
    (iblk2 V c 12 t : Cert.GGNN.Arr2 1 64) = (V c main_v27 : Cert.GGNN.Arr2 1 64) := by
  funext i
  obtain ⟨a', b', rfl⟩ : ∃ (a' : Fin 1) (b' : Fin 64), i = ix2 a' b' := ⟨i 0, i 1, eq_ix2 i⟩
  show V c main_v27 (((cfg2.win 12).blk t).view.emb (ix2 a' b')) = V c main_v27 (ix2 a' b')
  refine congrArg _ ?_
  funext a; apply Fin.ext
  obtain ⟨e0, e1⟩ := idx2_12 t
  match a with
  | ⟨0, _⟩ => show win2_12.index t (0 : Fin 2) * 1 + 1 * a'.val = a'.val; omega
  | ⟨1, _⟩ => show win2_12.index t (1 : Fin 2) * 64 + 1 * b'.val = b'.val; omega

/-- Point t's block of window 13 is its whole array. -/
theorem blk2_13 (c : Dev nD) (t : Fin cfg2.N) :
    (iblk2 V c 13 t : Cert.GGNN.Arr2 1 64) = (V c main_v28 : Cert.GGNN.Arr2 1 64) := by
  funext i
  obtain ⟨a', b', rfl⟩ : ∃ (a' : Fin 1) (b' : Fin 64), i = ix2 a' b' := ⟨i 0, i 1, eq_ix2 i⟩
  show V c main_v28 (((cfg2.win 13).blk t).view.emb (ix2 a' b')) = V c main_v28 (ix2 a' b')
  refine congrArg _ ?_
  funext a; apply Fin.ext
  obtain ⟨e0, e1⟩ := idx2_13 t
  match a with
  | ⟨0, _⟩ => show win2_13.index t (0 : Fin 2) * 1 + 1 * a'.val = a'.val; omega
  | ⟨1, _⟩ => show win2_13.index t (1 : Fin 2) * 64 + 1 * b'.val = b'.val; omega

/-- Entry (p, q) of point t's result block sits at row 2000 t + p, column q of the result array. -/
theorem emb2_14 (t : Fin cfg2.N) (p : Fin 2000) (q : Fin 64) :
    ((cfg2.win 14).blk t).view.emb (ix2 p q) = ix2 (⟨t.val * 2000 + p.val, by have := lt2 t; have := p.isLt; omega⟩ : Fin 100000) q := by
  funext a; apply Fin.ext
  obtain ⟨e4, e5⟩ := idx2_14 t
  match a with
  | ⟨0, _⟩ => show win2_14.index t (0 : Fin 2) * 2000 + 1 * p.val = t.val * 2000 + p.val; omega
  | ⟨1, _⟩ => show win2_14.index t (1 : Fin 2) * 64 + 1 * q.val = q.val; omega

/-- What point t writes back is block t of the GRU layer of the arrays as the region finds them. -/
theorem flushed2 (c : Dev nD) (t : Fin cfg2.N) :
    (dat2 (F := Ideal) V c).flushed 14 t = ((cfg2.win 14).blk t).view.read (Elt Ideal)
      (Cert.GGNN.layerW (V c main_v41) (V c main_v4) (V c main_v17) (V c main_v18) (V c main_v19) (V c main_v20) (V c main_v21) (V c main_v22) (V c main_v23) (V c main_v24) (V c main_v25) (V c main_v26) (V c main_v27) (V c main_v28)) := by
  show (cfg2.win 14).cut (grid2.coords t) ((dat2 (F := Ideal) V c).after 14 t) = _
  rw [after2_14]
  funext j
  obtain ⟨p, q, rfl⟩ : ∃ (p : Fin 2000) (q : Fin 64), j = ix2 p q := ⟨j 0, j 1, eq_ix2 j⟩
  show out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (ix2 p q)
    = Cert.GGNN.layerW (V c main_v41) (V c main_v4) (V c main_v17) (V c main_v18) (V c main_v19) (V c main_v20) (V c main_v21) (V c main_v22) (V c main_v23) (V c main_v24) (V c main_v25) (V c main_v26) (V c main_v27) (V c main_v28) (((cfg2.win 14).blk t).view.emb (ix2 p q))
  rw [emb2_14 t p q]
  refine (out2_14_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) p q).trans ?_
  exact Cert.GGNN.cell_congr q (funext fun c' => blk2_0 V c t p c') (funext fun c' => blk2_1 V c t p c') (blk2_1 V c t p q)
    (blk2_2 V c t) (blk2_3 V c t) (blk2_4 V c t) (blk2_5 V c t) (blk2_6 V c t) (blk2_7 V c t) (blk2_8 V c t) (blk2_9 V c t) (blk2_10 V c t) (blk2_11 V c t) (blk2_12 V c t) (blk2_13 V c t)

/-- An index of the result array is in point t's block iff each coordinate is in the block's range on its axis. -/
theorem mem_blk2 (t : Fin cfg2.N) (i : S100000x64.Idx) :
    i ∈ ((cfg2.win 14).blk t).view.set ↔ ∀ a : Fin 2, win2_14.index t a * S2000x64.size a ≤ (i a).val ∧ (i a).val < win2_14.index t a * S2000x64.size a + S2000x64.size a := by
  show i ∈ ((View.whole main_v42).slice (win2_14.rect t)).set ↔ _
  rw [View.set_slice_whole, Rect.mem_set_unit]
  exact Iff.rfl

/-- Every row lies in the block of the point numbered by its row divided by 2000. -/
theorem cover2 (i : S100000x64.Idx) : ∃ t : Fin cfg2.N, (cfg2.win 14).flush t = true ∧ i ∈ ((cfg2.win 14).blk t).view.set := by
  have hi0 : (i 0).val < 100000 := (i 0).isLt
  have hi1 : (i 1).val < 64 := (i 1).isLt
  have hN : (i 0).val / 2000 < cfg2.N := by have e : cfg2.N = 50 := N_2; omega
  refine ⟨⟨(i 0).val / 2000, hN⟩, flush2_14 _, ?_⟩
  rw [mem_blk2]
  obtain ⟨e4, e5⟩ := idx2_14 ⟨(i 0).val / 2000, hN⟩
  intro a
  match a with
  | ⟨0, _⟩ => show win2_14.index _ (0 : Fin 2) * 2000 ≤ (i 0).val ∧ (i 0).val < win2_14.index _ (0 : Fin 2) * 2000 + 2000; rw [e4]; show (i 0).val / 2000 * 2000 ≤ (i 0).val ∧ (i 0).val < (i 0).val / 2000 * 2000 + 2000; omega
  | ⟨1, _⟩ => show win2_14.index _ (1 : Fin 2) * 64 ≤ (i 1).val ∧ (i 1).val < win2_14.index _ (1 : Fin 2) * 64 + 64; rw [e5]; omega

/-- THE RESULT ARRAY of the region: the GRU layer of the arrays it finds. -/
theorem final2 (c : Dev nD) :
    (dat2 (F := Ideal) V c).arrAt 14 cfg2.N = Cert.GGNN.layerW (V c main_v41) (V c main_v4) (V c main_v17) (V c main_v18) (V c main_v19) (V c main_v20) (V c main_v21) (V c main_v22) (V c main_v23) (V c main_v24) (V c main_v25) (V c main_v26) (V c main_v27) (V c main_v28) :=
  (dat2 (F := Ideal) V c).arrAt_eq_of_cover 14 _ (fun t _ => flushed2 V c t) (cover2)

end Cert.GGNN.K

end
-- ==== Proof.Blk3.lean ====
/-
  Region 3: a [100000, 64] by [64, 64] product computed in fifty points of 2000 rows.  From what one point writes back —
  the product of its block of rows with the whole right operand — to the whole result array: the points' blocks tile the
  rows, and the array ends as the product of the two arrays the region finds.
-/
import proofs.«167651_j43568148251382_1_alg».proof.Proof.Gen.KernelIdeal.Frame
import proofs.«167651_j43568148251382_1_alg».proof.Proof.Spec
import proofs.«167651_j43568148251382_1_alg».proof.Proof.MatKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The grid has fifty points. -/
theorem lt3 (t : Fin cfg3.N) : t.val < 50 := by have h := t.isLt; have e : cfg3.N = 50 := N_3; omega

/-- The printed index maps over the grid: point t takes rows 2000 t … 2000 t + 1999 of the left operand and of the
    result, and the whole right operand. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of point t's left block is row 2000 t + p of the left array. -/
theorem blk3_0 (c : Dev nD) (t : Fin cfg3.N) (p : Fin 2000) (k : Fin 64) :
    (iblk3 V c 0 t (ix2 p k) : EReal) = (V c main_v42 (ix2 (⟨t.val * 2000 + p.val, by have := lt3 t; have := p.isLt; omega⟩ : Fin 100000) k) : EReal) := by
  show V c main_v42 (((cfg3.win 0).blk t).view.emb (ix2 p k)) = _
  refine congrArg _ ?_
  funext a; apply Fin.ext
  obtain ⟨e0, e1, -⟩ := idx3 t
  match a with
  | ⟨0, _⟩ => show win3_0.index t (0 : Fin 2) * 2000 + 1 * p.val = t.val * 2000 + p.val; omega
  | ⟨1, _⟩ => show win3_0.index t (1 : Fin 2) * 64 + 1 * k.val = k.val; omega

/-- Point t's right block is the whole right array. -/
theorem blk3_1 (c : Dev nD) (t : Fin cfg3.N) (k : Fin 64) (q : Fin 64) :
    (iblk3 V c 1 t (ix2 k q) : EReal) = (V c main_v44 (ix2 k q) : EReal) := by
  show V c main_v44 (((cfg3.win 1).blk t).view.emb (ix2 k q)) = _
  refine congrArg _ ?_
  funext a; apply Fin.ext
  obtain ⟨-, -, e2, e3, -⟩ := idx3 t
  match a with
  | ⟨0, _⟩ => show win3_1.index t (0 : Fin 2) * 64 + 1 * k.val = k.val; omega
  | ⟨1, _⟩ => show win3_1.index t (1 : Fin 2) * 64 + 1 * q.val = q.val; omega

/-- Entry (p, q) of point t's result block sits at row 2000 t + p, column q of the result array. -/
theorem emb3_2 (t : Fin cfg3.N) (p : Fin 2000) (q : Fin 64) :
    ((cfg3.win 2).blk t).view.emb (ix2 p q) = ix2 (⟨t.val * 2000 + p.val, by have := lt3 t; have := p.isLt; omega⟩ : Fin 100000) q := by
  funext a; apply Fin.ext
  obtain ⟨-, -, -, -, e4, e5⟩ := idx3 t
  match a with
  | ⟨0, _⟩ => show win3_2.index t (0 : Fin 2) * 2000 + 1 * p.val = t.val * 2000 + p.val; omega
  | ⟨1, _⟩ => show win3_2.index t (1 : Fin 2) * 64 + 1 * q.val = q.val; omega

/-- What point t writes back is block t of the product of the two arrays as the region finds them. -/
theorem flushed3 (c : Dev nD) (t : Fin cfg3.N) :
    (dat3 (F := Ideal) V c).flushed 2 t = ((cfg3.win 2).blk t).view.read (Elt Ideal) (Cert.GGNN.mm (V c main_v42) (V c main_v44)) := by
  show (cfg3.win 2).cut (grid3.coords t) ((dat3 (F := Ideal) V c).after 2 t) = _
  rw [after3_2]
  funext j
  obtain ⟨p, q, rfl⟩ : ∃ (p : Fin 2000) (q : Fin 64), j = ix2 p q := ⟨j 0, j 1, eq_ix2 j⟩
  show out3_2 (iblk3 V c 0 t) (iblk3 V c 1 t) (ix2 p q) = Cert.GGNN.mm (V c main_v42) (V c main_v44) (((cfg3.win 2).blk t).view.emb (ix2 p q))
  rw [emb3_2 t p q]
  refine (out3_2_apply (iblk3 V c 0 t) (iblk3 V c 1 t) p q).trans ?_
  exact Cert.GGNN.prod_congr (fun k => blk3_0 V c t p k) (fun k => blk3_1 V c t k q)

/-- An index of the result array is in point t's block iff each coordinate is in the block's range on its axis. -/
theorem mem_blk3 (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v45).slice (win3_2.rect t)).set ↔ _
  rw [View.set_slice_whole, Rect.mem_set_unit]
  exact Iff.rfl

/-- Every row lies in the block of the point numbered by its row divided by 2000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 2000 < cfg3.N := by have e : cfg3.N = 50 := N_3; omega
  refine ⟨⟨(i 0).val / 2000, hN⟩, flush3_2 _, ?_⟩
  rw [mem_blk3]
  obtain ⟨-, -, -, -, e4, e5⟩ := idx3 ⟨(i 0).val / 2000, hN⟩
  intro a
  match a with
  | ⟨0, _⟩ => show win3_2.index _ (0 : Fin 2) * 2000 ≤ (i 0).val ∧ (i 0).val < win3_2.index _ (0 : Fin 2) * 2000 + 2000; rw [e4]; show (i 0).val / 2000 * 2000 ≤ (i 0).val ∧ (i 0).val < (i 0).val / 2000 * 2000 + 2000; omega
  | ⟨1, _⟩ => show win3_2.index _ (1 : Fin 2) * 64 ≤ (i 1).val ∧ (i 1).val < win3_2.index _ (1 : Fin 2) * 64 + 64; rw [e5]; omega

/-- THE RESULT ARRAY of the region: the product of the two arrays it finds. -/
theorem final3 (c : Dev nD) :
    (dat3 (F := Ideal) V c).arrAt 2 cfg3.N = Cert.GGNN.mm (V c main_v42) (V c main_v44) :=
  (dat3 (F := Ideal) V c).arrAt_eq_of_cover 2 _ (fun t _ => flushed3 V c t) (cover3)

end Cert.GGNN.K

end
-- ==== Proof.Blk4.lean ====
/-
  Region 4: one GRU layer computed in fifty points of 2000 nodes.  From what one point writes back — the cell of each of
  its 2000 nodes, from the node's aggregated row, its hidden row, and the whole six weights and six bias rows — to the whole
  result array: the points' blocks tile the nodes, and the array ends as the layer of the arrays the region finds.
-/
import proofs.«167651_j43568148251382_1_alg».proof.Proof.Gen.KernelIdeal.Frame
import proofs.«167651_j43568148251382_1_alg».proof.Proof.Spec
import proofs.«167651_j43568148251382_1_alg».proof.Proof.GruKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The grid has fifty points. -/
theorem lt4 (t : Fin cfg4.N) : t.val < 50 := by have h := t.isLt; have e : cfg4.N = 50 := N_4; omega

/-! The printed index maps over the grid: point t takes rows 2000 t … 2000 t + 1999 of the aggregated array, of the hidden
    array and of the result, and the whole of each weight and bias row. -/
theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)
theorem idx4_8 : ∀ t : Fin cfg4.N, win4_8.index t (0 : Fin 2) = 0 ∧ win4_8.index t (1 : Fin 2) = 0 :=
  (by decide +kernel : ∀ t : Fin grid4.N, _)
theorem idx4_9 : ∀ t : Fin cfg4.N, win4_9.index t (0 : Fin 2) = 0 ∧ win4_9.index t (1 : Fin 2) = 0 :=
  (by decide +kernel : ∀ t : Fin grid4.N, _)
theorem idx4_10 : ∀ t : Fin cfg4.N, win4_10.index t (0 : Fin 2) = 0 ∧ win4_10.index t (1 : Fin 2) = 0 :=
  (by decide +kernel : ∀ t : Fin grid4.N, _)
theorem idx4_11 : ∀ t : Fin cfg4.N, win4_11.index t (0 : Fin 2) = 0 ∧ win4_11.index t (1 : Fin 2) = 0 :=
  (by decide +kernel : ∀ t : Fin grid4.N, _)
theorem idx4_12 : ∀ t : Fin cfg4.N, win4_12.index t (0 : Fin 2) = 0 ∧ win4_12.index t (1 : Fin 2) = 0 :=
  (by decide +kernel : ∀ t : Fin grid4.N, _)
theorem idx4_13 : ∀ t : Fin cfg4.N, win4_13.index t (0 : Fin 2) = 0 ∧ win4_13.index t (1 : Fin 2) = 0 :=
  (by decide +kernel : ∀ t : Fin grid4.N, _)
theorem idx4_14 : ∀ t : Fin cfg4.N, win4_14.index t (0 : Fin 2) = t.val ∧ win4_14.index t (1 : Fin 2) = 0 :=
  (by decide +kernel : ∀ t : Fin grid4.N, _)

/-- Row p of point t's block of window 0 is row 2000 t + p of its array. -/
theorem blk4_0 (c : Dev nD) (t : Fin cfg4.N) (p : Fin 2000) (k : Fin 64) :
    (iblk4 V c 0 t (ix2 p k) : EReal) = (V c main_v55 (ix2 (⟨t.val * 2000 + p.val, by have := lt4 t; have := p.isLt; omega⟩ : Fin 100000) k) : EReal) := by
  show V c main_v55 (((cfg4.win 0).blk t).view.emb (ix2 p k)) = _
  refine congrArg _ ?_
  funext a; apply Fin.ext
  obtain ⟨e0, e1⟩ := idx4_0 t
  match a with
  | ⟨0, _⟩ => show win4_0.index t (0 : Fin 2) * 2000 + 1 * p.val = t.val * 2000 + p.val; omega
  | ⟨1, _⟩ => show win4_0.index t (1 : Fin 2) * 64 + 1 * k.val = k.val; omega

/-- Row p of point t's block of window 1 is row 2000 t + p of its array. -/
theorem blk4_1 (c : Dev nD) (t : Fin cfg4.N) (p : Fin 2000) (k : Fin 64) :
    (iblk4 V c 1 t (ix2 p k) : EReal) = (V c main_v42 (ix2 (⟨t.val * 2000 + p.val, by have := lt4 t; have := p.isLt; omega⟩ : Fin 100000) k) : EReal) := by
  show V c main_v42 (((cfg4.win 1).blk t).view.emb (ix2 p k)) = _
  refine congrArg _ ?_
  funext a; apply Fin.ext
  obtain ⟨e0, e1⟩ := idx4_1 t
  match a with
  | ⟨0, _⟩ => show win4_1.index t (0 : Fin 2) * 2000 + 1 * p.val = t.val * 2000 + p.val; omega
  | ⟨1, _⟩ => show win4_1.index t (1 : Fin 2) * 64 + 1 * k.val = k.val; omega

/-- Point t's block of window 2 is its whole array. -/
theorem blk4_2 (c : Dev nD) (t : Fin cfg4.N) :
    (iblk4 V c 2 t : Cert.GGNN.Arr2 64 64) = (V c main_v17 : Cert.GGNN.Arr2 64 64) := by
  funext i
  obtain ⟨a', b', rfl⟩ : ∃ (a' : Fin 64) (b' : Fin 64), i = ix2 a' b' := ⟨i 0, i 1, eq_ix2 i⟩
  show V c main_v17 (((cfg4.win 2).blk t).view.emb (ix2 a' b')) = V c main_v17 (ix2 a' b')
  refine congrArg _ ?_
  funext a; apply Fin.ext
  obtain ⟨e0, e1⟩ := idx4_2 t
  match a with
  | ⟨0, _⟩ => show win4_2.index t (0 : Fin 2) * 64 + 1 * a'.val = a'.val; omega
  | ⟨1, _⟩ => show win4_2.index t (1 : Fin 2) * 64 + 1 * b'.val = b'.val; omega

/-- Point t's block of window 3 is its whole array. -/
theorem blk4_3 (c : Dev nD) (t : Fin cfg4.N) :
    (iblk4 V c 3 t : Cert.GGNN.Arr2 64 64) = (V c main_v18 : Cert.GGNN.Arr2 64 64) := by
  funext i
  obtain ⟨a', b', rfl⟩ : ∃ (a' : Fin 64) (b' : Fin 64), i = ix2 a' b' := ⟨i 0, i 1, eq_ix2 i⟩
  show V c main_v18 (((cfg4.win 3).blk t).view.emb (ix2 a' b')) = V c main_v18 (ix2 a' b')
  refine congrArg _ ?_
  funext a; apply Fin.ext
  obtain ⟨e0, e1⟩ := idx4_3 t
  match a with
  | ⟨0, _⟩ => show win4_3.index t (0 : Fin 2) * 64 + 1 * a'.val = a'.val; omega
  | ⟨1, _⟩ => show win4_3.index t (1 : Fin 2) * 64 + 1 * b'.val = b'.val; omega

/-- Point t's block of window 4 is its whole array. -/
theorem blk4_4 (c : Dev nD) (t : Fin cfg4.N) :
    (iblk4 V c 4 t : Cert.GGNN.Arr2 64 64) = (V c main_v19 : Cert.GGNN.Arr2 64 64) := by
  funext i
  obtain ⟨a', b', rfl⟩ : ∃ (a' : Fin 64) (b' : Fin 64), i = ix2 a' b' := ⟨i 0, i 1, eq_ix2 i⟩
  show V c main_v19 (((cfg4.win 4).blk t).view.emb (ix2 a' b')) = V c main_v19 (ix2 a' b')
  refine congrArg _ ?_
  funext a; apply Fin.ext
  obtain ⟨e0, e1⟩ := idx4_4 t
  match a with
  | ⟨0, _⟩ => show win4_4.index t (0 : Fin 2) * 64 + 1 * a'.val = a'.val; omega
  | ⟨1, _⟩ => show win4_4.index t (1 : Fin 2) * 64 + 1 * b'.val = b'.val; omega

/-- Point t's block of window 5 is its whole array. -/
theorem blk4_5 (c : Dev nD) (t : Fin cfg4.N) :
    (iblk4 V c 5 t : Cert.GGNN.Arr2 64 64) = (V c main_v20 : Cert.GGNN.Arr2 64 64) := by
  funext i
  obtain ⟨a', b', rfl⟩ : ∃ (a' : Fin 64) (b' : Fin 64), i = ix2 a' b' := ⟨i 0, i 1, eq_ix2 i⟩
  show V c main_v20 (((cfg4.win 5).blk t).view.emb (ix2 a' b')) = V c main_v20 (ix2 a' b')
  refine congrArg _ ?_
  funext a; apply Fin.ext
  obtain ⟨e0, e1⟩ := idx4_5 t
  match a with
  | ⟨0, _⟩ => show win4_5.index t (0 : Fin 2) * 64 + 1 * a'.val = a'.val; omega
  | ⟨1, _⟩ => show win4_5.index t (1 : Fin 2) * 64 + 1 * b'.val = b'.val; omega

/-- Point t's block of window 6 is its whole array. -/
theorem blk4_6 (c : Dev nD) (t : Fin cfg4.N) :
    (iblk4 V c 6 t : Cert.GGNN.Arr2 64 64) = (V c main_v21 : Cert.GGNN.Arr2 64 64) := by
  funext i
  obtain ⟨a', b', rfl⟩ : ∃ (a' : Fin 64) (b' : Fin 64), i = ix2 a' b' := ⟨i 0, i 1, eq_ix2 i⟩
  show V c main_v21 (((cfg4.win 6).blk t).view.emb (ix2 a' b')) = V c main_v21 (ix2 a' b')
  refine congrArg _ ?_
  funext a; apply Fin.ext
  obtain ⟨e0, e1⟩ := idx4_6 t
  match a with
  | ⟨0, _⟩ => show win4_6.index t (0 : Fin 2) * 64 + 1 * a'.val = a'.val; omega
  | ⟨1, _⟩ => show win4_6.index t (1 : Fin 2) * 64 + 1 * b'.val = b'.val; omega

/-- Point t's block of window 7 is its whole array. -/
theorem blk4_7 (c : Dev nD) (t : Fin cfg4.N) :
    (iblk4 V c 7 t : Cert.GGNN.Arr2 64 64) = (V c main_v22 : Cert.GGNN.Arr2 64 64) := by
  funext i
  obtain ⟨a', b', rfl⟩ : ∃ (a' : Fin 64) (b' : Fin 64), i = ix2 a' b' := ⟨i 0, i 1, eq_ix2 i⟩
  show V c main_v22 (((cfg4.win 7).blk t).view.emb (ix2 a' b')) = V c main_v22 (ix2 a' b')
  refine congrArg _ ?_
  funext a; apply Fin.ext
  obtain ⟨e0, e1⟩ := idx4_7 t
  match a with
  | ⟨0, _⟩ => show win4_7.index t (0 : Fin 2) * 64 + 1 * a'.val = a'.val; omega
  | ⟨1, _⟩ => show win4_7.index t (1 : Fin 2) * 64 + 1 * b'.val = b'.val; omega

/-- Point t's block of window 8 is its whole array. -/
theorem blk4_8 (c : Dev nD) (t : Fin cfg4.N) :
    (iblk4 V c 8 t : Cert.GGNN.Arr2 1 64) = (V c main_v23 : Cert.GGNN.Arr2 1 64) := by
  funext i
  obtain ⟨a', b', rfl⟩ : ∃ (a' : Fin 1) (b' : Fin 64), i = ix2 a' b' := ⟨i 0, i 1, eq_ix2 i⟩
  show V c main_v23 (((cfg4.win 8).blk t).view.emb (ix2 a' b')) = V c main_v23 (ix2 a' b')
  refine congrArg _ ?_
  funext a; apply Fin.ext
  obtain ⟨e0, e1⟩ := idx4_8 t
  match a with
  | ⟨0, _⟩ => show win4_8.index t (0 : Fin 2) * 1 + 1 * a'.val = a'.val; omega
  | ⟨1, _⟩ => show win4_8.index t (1 : Fin 2) * 64 + 1 * b'.val = b'.val; omega

/-- Point t's block of window 9 is its whole array. -/
theorem blk4_9 (c : Dev nD) (t : Fin cfg4.N) :
    (iblk4 V c 9 t : Cert.GGNN.Arr2 1 64) = (V c main_v24 : Cert.GGNN.Arr2 1 64) := by
  funext i
  obtain ⟨a', b', rfl⟩ : ∃ (a' : Fin 1) (b' : Fin 64), i = ix2 a' b' := ⟨i 0, i 1, eq_ix2 i⟩
  show V c main_v24 (((cfg4.win 9).blk t).view.emb (ix2 a' b')) = V c main_v24 (ix2 a' b')
  refine congrArg _ ?_
  funext a; apply Fin.ext
  obtain ⟨e0, e1⟩ := idx4_9 t
  match a with
  | ⟨0, _⟩ => show win4_9.index t (0 : Fin 2) * 1 + 1 * a'.val = a'.val; omega
  | ⟨1, _⟩ => show win4_9.index t (1 : Fin 2) * 64 + 1 * b'.val = b'.val; omega

/-- Point t's block of window 10 is its whole array. -/
theorem blk4_10 (c : Dev nD) (t : Fin cfg4.N) :
    (iblk4 V c 10 t : Cert.GGNN.Arr2 1 64) = (V c main_v25 : Cert.GGNN.Arr2 1 64) := by
  funext i
  obtain ⟨a', b', rfl⟩ : ∃ (a' : Fin 1) (b' : Fin 64), i = ix2 a' b' := ⟨i 0, i 1, eq_ix2 i⟩
  show V c main_v25 (((cfg4.win 10).blk t).view.emb (ix2 a' b')) = V c main_v25 (ix2 a' b')
  refine congrArg _ ?_
  funext a; apply Fin.ext
  obtain ⟨e0, e1⟩ := idx4_10 t
  match a with
  | ⟨0, _⟩ => show win4_10.index t (0 : Fin 2) * 1 + 1 * a'.val = a'.val; omega
  | ⟨1, _⟩ => show win4_10.index t (1 : Fin 2) * 64 + 1 * b'.val = b'.val; omega

/-- Point t's block of window 11 is its whole array. -/
theorem blk4_11 (c : Dev nD) (t : Fin cfg4.N) :
    (iblk4 V c 11 t : Cert.GGNN.Arr2 1 64) = (V c main_v26 : Cert.GGNN.Arr2 1 64) := by
  funext i
  obtain ⟨a', b', rfl⟩ : ∃ (a' : Fin 1) (b' : Fin 64), i = ix2 a' b' := ⟨i 0, i 1, eq_ix2 i⟩
  show V c main_v26 (((cfg4.win 11).blk t).view.emb (ix2 a' b')) = V c main_v26 (ix2 a' b')
  refine congrArg _ ?_
  funext a; apply Fin.ext
  obtain ⟨e0, e1⟩ := idx4_11 t
  match a with
  | ⟨0, _⟩ => show win4_11.index t (0 : Fin 2) * 1 + 1 * a'.val = a'.val; omega
  | ⟨1, _⟩ => show win4_11.index t (1 : Fin 2) * 64 + 1 * b'.val = b'.val; omega

/-- Point t's block of window 12 is its whole array. -/
theorem blk4_12 (c : Dev nD) (t : Fin cfg4.N) :
    (iblk4 V c 12 t : Cert.GGNN.Arr2 1 64) = (V c main_v27 : Cert.GGNN.Arr2 1 64) := by
  funext i
  obtain ⟨a', b', rfl⟩ : ∃ (a' : Fin 1) (b' : Fin 64), i = ix2 a' b' := ⟨i 0, i 1, eq_ix2 i⟩
  show V c main_v27 (((cfg4.win 12).blk t).view.emb (ix2 a' b')) = V c main_v27 (ix2 a' b')
  refine congrArg _ ?_
  funext a; apply Fin.ext
  obtain ⟨e0, e1⟩ := idx4_12 t
  match a with
  | ⟨0, _⟩ => show win4_12.index t (0 : Fin 2) * 1 + 1 * a'.val = a'.val; omega
  | ⟨1, _⟩ => show win4_12.index t (1 : Fin 2) * 64 + 1 * b'.val = b'.val; omega

/-- Point t's block of window 13 is its whole array. -/
theorem blk4_13 (c : Dev nD) (t : Fin cfg4.N) :
    (iblk4 V c 13 t : Cert.GGNN.Arr2 1 64) = (V c main_v28 : Cert.GGNN.Arr2 1 64) := by
  funext i
  obtain ⟨a', b', rfl⟩ : ∃ (a' : Fin 1) (b' : Fin 64), i = ix2 a' b' := ⟨i 0, i 1, eq_ix2 i⟩
  show V c main_v28 (((cfg4.win 13).blk t).view.emb (ix2 a' b')) = V c main_v28 (ix2 a' b')
  refine congrArg _ ?_
  funext a; apply Fin.ext
  obtain ⟨e0, e1⟩ := idx4_13 t
  match a with
  | ⟨0, _⟩ => show win4_13.index t (0 : Fin 2) * 1 + 1 * a'.val = a'.val; omega
  | ⟨1, _⟩ => show win4_13.index t (1 : Fin 2) * 64 + 1 * b'.val = b'.val; omega

/-- Entry (p, q) of point t's result block sits at row 2000 t + p, column q of the result array. -/
theorem emb4_14 (t : Fin cfg4.N) (p : Fin 2000) (q : Fin 64) :
    ((cfg4.win 14).blk t).view.emb (ix2 p q) = ix2 (⟨t.val * 2000 + p.val, by have := lt4 t; have := p.isLt; omega⟩ : Fin 100000) q := by
  funext a; apply Fin.ext
  obtain ⟨e4, e5⟩ := idx4_14 t
  match a with
  | ⟨0, _⟩ => show win4_14.index t (0 : Fin 2) * 2000 + 1 * p.val = t.val * 2000 + p.val; omega
  | ⟨1, _⟩ => show win4_14.index t (1 : Fin 2) * 64 + 1 * q.val = q.val; omega

/-- What point t writes back is block t of the GRU layer of the arrays as the region finds them. -/
theorem flushed4 (c : Dev nD) (t : Fin cfg4.N) :
    (dat4 (F := Ideal) V c).flushed 14 t = ((cfg4.win 14).blk t).view.read (Elt Ideal)
      (Cert.GGNN.layerW (V c main_v55) (V c main_v42) (V c main_v17) (V c main_v18) (V c main_v19) (V c main_v20) (V c main_v21) (V c main_v22) (V c main_v23) (V c main_v24) (V c main_v25) (V c main_v26) (V c main_v27) (V c main_v28)) := by
  show (cfg4.win 14).cut (grid4.coords t) ((dat4 (F := Ideal) V c).after 14 t) = _
  rw [after4_14]
  funext j
  obtain ⟨p, q, rfl⟩ : ∃ (p : Fin 2000) (q : Fin 64), j = ix2 p q := ⟨j 0, j 1, eq_ix2 j⟩
  show out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (ix2 p q)
    = Cert.GGNN.layerW (V c main_v55) (V c main_v42) (V c main_v17) (V c main_v18) (V c main_v19) (V c main_v20) (V c main_v21) (V c main_v22) (V c main_v23) (V c main_v24) (V c main_v25) (V c main_v26) (V c main_v27) (V c main_v28) (((cfg4.win 14).blk t).view.emb (ix2 p q))
  rw [emb4_14 t p q]
  refine (out4_14_apply (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) p q).trans ?_
  exact Cert.GGNN.cell_congr q (funext fun c' => blk4_0 V c t p c') (funext fun c' => blk4_1 V c t p c') (blk4_1 V c t p q)
    (blk4_2 V c t) (blk4_3 V c t) (blk4_4 V c t) (blk4_5 V c t) (blk4_6 V c t) (blk4_7 V c t) (blk4_8 V c t) (blk4_9 V c t) (blk4_10 V c t) (blk4_11 V c t) (blk4_12 V c t) (blk4_13 V c t)

/-- An index of the result array is in point t's block iff each coordinate is in the block's range on its axis. -/
theorem mem_blk4 (t : Fin cfg4.N) (i : S100000x64.Idx) :
    i ∈ ((cfg4.win 14).blk t).view.set ↔ ∀ a : Fin 2, win4_14.index t a * S2000x64.size a ≤ (i a).val ∧ (i a).val < win4_14.index t a * S2000x64.size a + S2000x64.size a := by
  show i ∈ ((View.whole main_v56).slice (win4_14.rect t)).set ↔ _
  rw [View.set_slice_whole, Rect.mem_set_unit]
  exact Iff.rfl

/-- Every row lies in the block of the point numbered by its row divided by 2000. -/
theorem cover4 (i : S100000x64.Idx) : ∃ t : Fin cfg4.N, (cfg4.win 14).flush t = true ∧ i ∈ ((cfg4.win 14).blk t).view.set := by
  have hi0 : (i 0).val < 100000 := (i 0).isLt
  have hi1 : (i 1).val < 64 := (i 1).isLt
  have hN : (i 0).val / 2000 < cfg4.N := by have e : cfg4.N = 50 := N_4; omega
  refine ⟨⟨(i 0).val / 2000, hN⟩, flush4_14 _, ?_⟩
  rw [mem_blk4]
  obtain ⟨e4, e5⟩ := idx4_14 ⟨(i 0).val / 2000, hN⟩
  intro a
  match a with
  | ⟨0, _⟩ => show win4_14.index _ (0 : Fin 2) * 2000 ≤ (i 0).val ∧ (i 0).val < win4_14.index _ (0 : Fin 2) * 2000 + 2000; rw [e4]; show (i 0).val / 2000 * 2000 ≤ (i 0).val ∧ (i 0).val < (i 0).val / 2000 * 2000 + 2000; omega
  | ⟨1, _⟩ => show win4_14.index _ (1 : Fin 2) * 64 ≤ (i 1).val ∧ (i 1).val < win4_14.index _ (1 : Fin 2) * 64 + 64; rw [e5]; omega

/-- THE RESULT ARRAY of the region: the GRU layer of the arrays it finds. -/
theorem final4 (c : Dev nD) :
    (dat4 (F := Ideal) V c).arrAt 14 cfg4.N = Cert.GGNN.layerW (V c main_v55) (V c main_v42) (V c main_v17) (V c main_v18) (V c main_v19) (V c main_v20) (V c main_v21) (V c main_v22) (V c main_v23) (V c main_v24) (V c main_v25) (V c main_v26) (V c main_v27) (V c main_v28) :=
  (dat4 (F := Ideal) V c).arrAt_eq_of_cover 14 _ (fun t _ => flushed4 V c t) (cover4)

end Cert.GGNN.K

end
-- ==== Proof.Blk5.lean ====
/-
  Region 5: a [100000, 64] by [64, 64] product computed in fifty points of 2000 rows.  From what one point writes back —
  the product of its block of rows with the whole right operand — to the whole result array: the points' blocks tile the
  rows, and the array ends as the product of the two arrays the region finds.
-/
import proofs.«167651_j43568148251382_1_alg».proof.Proof.Gen.KernelIdeal.Frame
import proofs.«167651_j43568148251382_1_alg».proof.Proof.Spec
import proofs.«167651_j43568148251382_1_alg».proof.Proof.MatKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The grid has fifty points. -/
theorem lt5 (t : Fin cfg5.N) : t.val < 50 := by have h := t.isLt; have e : cfg5.N = 50 := N_5; omega

/-- The printed index maps over the grid: point t takes rows 2000 t … 2000 t + 1999 of the left operand and of the
    result, and the whole right operand. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row p of point t's left block is row 2000 t + p of the left array. -/
theorem blk5_0 (c : Dev nD) (t : Fin cfg5.N) (p : Fin 2000) (k : Fin 64) :
    (iblk5 V c 0 t (ix2 p k) : EReal) = (V c main_v56 (ix2 (⟨t.val * 2000 + p.val, by have := lt5 t; have := p.isLt; omega⟩ : Fin 100000) k) : EReal) := by
  show V c main_v56 (((cfg5.win 0).blk t).view.emb (ix2 p k)) = _
  refine congrArg _ ?_
  funext a; apply Fin.ext
  obtain ⟨e0, e1, -⟩ := idx5 t
  match a with
  | ⟨0, _⟩ => show win5_0.index t (0 : Fin 2) * 2000 + 1 * p.val = t.val * 2000 + p.val; omega
  | ⟨1, _⟩ => show win5_0.index t (1 : Fin 2) * 64 + 1 * k.val = k.val; omega

/-- Point t's right block is the whole right array. -/
theorem blk5_1 (c : Dev nD) (t : Fin cfg5.N) (k : Fin 64) (q : Fin 64) :
    (iblk5 V c 1 t (ix2 k q) : EReal) = (V c main_v58 (ix2 k q) : EReal) := by
  show V c main_v58 (((cfg5.win 1).blk t).view.emb (ix2 k q)) = _
  refine congrArg _ ?_
  funext a; apply Fin.ext
  obtain ⟨-, -, e2, e3, -⟩ := idx5 t
  match a with
  | ⟨0, _⟩ => show win5_1.index t (0 : Fin 2) * 64 + 1 * k.val = k.val; omega
  | ⟨1, _⟩ => show win5_1.index t (1 : Fin 2) * 64 + 1 * q.val = q.val; omega

/-- Entry (p, q) of point t's result block sits at row 2000 t + p, column q of the result array. -/
theorem emb5_2 (t : Fin cfg5.N) (p : Fin 2000) (q : Fin 64) :
    ((cfg5.win 2).blk t).view.emb (ix2 p q) = ix2 (⟨t.val * 2000 + p.val, by have := lt5 t; have := p.isLt; omega⟩ : Fin 100000) q := by
  funext a; apply Fin.ext
  obtain ⟨-, -, -, -, e4, e5⟩ := idx5 t
  match a with
  | ⟨0, _⟩ => show win5_2.index t (0 : Fin 2) * 2000 + 1 * p.val = t.val * 2000 + p.val; omega
  | ⟨1, _⟩ => show win5_2.index t (1 : Fin 2) * 64 + 1 * q.val = q.val; omega

/-- What point t writes back is block t of the product of the two arrays as the region finds them. -/
theorem flushed5 (c : Dev nD) (t : Fin cfg5.N) :
    (dat5 (F := Ideal) V c).flushed 2 t = ((cfg5.win 2).blk t).view.read (Elt Ideal) (Cert.GGNN.mm (V c main_v56) (V c main_v58)) := by
  show (cfg5.win 2).cut (grid5.coords t) ((dat5 (F := Ideal) V c).after 2 t) = _
  rw [after5_2]
  funext j
  obtain ⟨p, q, rfl⟩ : ∃ (p : Fin 2000) (q : Fin 64), j = ix2 p q := ⟨j 0, j 1, eq_ix2 j⟩
  show out5_2 (iblk5 V c 0 t) (iblk5 V c 1 t) (ix2 p q) = Cert.GGNN.mm (V c main_v56) (V c main_v58) (((cfg5.win 2).blk t).view.emb (ix2 p q))
  rw [emb5_2 t p q]
  refine (out5_2_apply (iblk5 V c 0 t) (iblk5 V c 1 t) p q).trans ?_
  exact Cert.GGNN.prod_congr (fun k => blk5_0 V c t p k) (fun k => blk5_1 V c t k q)

/-- An index of the result array is in point t's block iff each coordinate is in the block's range on its axis. -/
theorem mem_blk5 (t : Fin cfg5.N) (i : S100000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v59).slice (win5_2.rect t)).set ↔ _
  rw [View.set_slice_whole, Rect.mem_set_unit]
  exact Iff.rfl

/-- Every row lies in the block of the point numbered by its row divided by 2000. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : (i 0).val / 2000 < cfg5.N := by have e : cfg5.N = 50 := N_5; omega
  refine ⟨⟨(i 0).val / 2000, hN⟩, flush5_2 _, ?_⟩
  rw [mem_blk5]
  obtain ⟨-, -, -, -, e4, e5⟩ := idx5 ⟨(i 0).val / 2000, hN⟩
  intro a
  match a with
  | ⟨0, _⟩ => show win5_2.index _ (0 : Fin 2) * 2000 ≤ (i 0).val ∧ (i 0).val < win5_2.index _ (0 : Fin 2) * 2000 + 2000; rw [e4]; show (i 0).val / 2000 * 2000 ≤ (i 0).val ∧ (i 0).val < (i 0).val / 2000 * 2000 + 2000; omega
  | ⟨1, _⟩ => show win5_2.index _ (1 : Fin 2) * 64 ≤ (i 1).val ∧ (i 1).val < win5_2.index _ (1 : Fin 2) * 64 + 64; rw [e5]; omega

/-- THE RESULT ARRAY of the region: the product of the two arrays it finds. -/
theorem final5 (c : Dev nD) :
    (dat5 (F := Ideal) V c).arrAt 2 cfg5.N = Cert.GGNN.mm (V c main_v56) (V c main_v58) :=
  (dat5 (F := Ideal) V c).arrAt_eq_of_cover 2 _ (fun t _ => flushed5 V c t) (cover5)

end Cert.GGNN.K

end
-- ==== Proof.Blk6.lean ====
/-
  Region 6: one GRU layer computed in fifty points of 2000 nodes.  From what one point writes back — the cell of each of
  its 2000 nodes, from the node's aggregated row, its hidden row, and the whole six weights and six bias rows — to the whole
  result array: the points' blocks tile the nodes, and the array ends as the layer of the arrays the region finds.
-/
import proofs.«167651_j43568148251382_1_alg».proof.Proof.Gen.KernelIdeal.Frame
import proofs.«167651_j43568148251382_1_alg».proof.Proof.Spec
import proofs.«167651_j43568148251382_1_alg».proof.Proof.GruKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The grid has fifty points. -/
theorem lt6 (t : Fin cfg6.N) : t.val < 50 := by have h := t.isLt; have e : cfg6.N = 50 := N_6; omega

/-! The printed index maps over the grid: point t takes rows 2000 t … 2000 t + 1999 of the aggregated array, of the hidden
    array and of the result, and the whole of each weight and bias row. -/
theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = t.val ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = 0 ∧ win6_5.index t (1 : Fin 2) = 0 :=
  (by decide +kernel : ∀ t : Fin grid6.N, _)
theorem idx6_6 : ∀ t : Fin cfg6.N, win6_6.index t (0 : Fin 2) = 0 ∧ win6_6.index t (1 : Fin 2) = 0 :=
  (by decide +kernel : ∀ t : Fin grid6.N, _)
theorem idx6_7 : ∀ t : Fin cfg6.N, win6_7.index t (0 : Fin 2) = 0 ∧ win6_7.index t (1 : Fin 2) = 0 :=
  (by decide +kernel : ∀ t : Fin grid6.N, _)
theorem idx6_8 : ∀ t : Fin cfg6.N, win6_8.index t (0 : Fin 2) = 0 ∧ win6_8.index t (1 : Fin 2) = 0 :=
  (by decide +kernel : ∀ t : Fin grid6.N, _)
theorem idx6_9 : ∀ t : Fin cfg6.N, win6_9.index t (0 : Fin 2) = 0 ∧ win6_9.index t (1 : Fin 2) = 0 :=
  (by decide +kernel : ∀ t : Fin grid6.N, _)
theorem idx6_10 : ∀ t : Fin cfg6.N, win6_10.index t (0 : Fin 2) = 0 ∧ win6_10.index t (1 : Fin 2) = 0 :=
  (by decide +kernel : ∀ t : Fin grid6.N, _)
theorem idx6_11 : ∀ t : Fin cfg6.N, win6_11.index t (0 : Fin 2) = 0 ∧ win6_11.index t (1 : Fin 2) = 0 :=
  (by decide +kernel : ∀ t : Fin grid6.N, _)
theorem idx6_12 : ∀ t : Fin cfg6.N, win6_12.index t (0 : Fin 2) = 0 ∧ win6_12.index t (1 : Fin 2) = 0 :=
  (by decide +kernel : ∀ t : Fin grid6.N, _)
theorem idx6_13 : ∀ t : Fin cfg6.N, win6_13.index t (0 : Fin 2) = 0 ∧ win6_13.index t (1 : Fin 2) = 0 :=
  (by decide +kernel : ∀ t : Fin grid6.N, _)
theorem idx6_14 : ∀ t : Fin cfg6.N, win6_14.index t (0 : Fin 2) = t.val ∧ win6_14.index t (1 : Fin 2) = 0 :=
  (by decide +kernel : ∀ t : Fin grid6.N, _)

/-- Row p of point t's block of window 0 is row 2000 t + p of its array. -/
theorem blk6_0 (c : Dev nD) (t : Fin cfg6.N) (p : Fin 2000) (k : Fin 64) :
    (iblk6 V c 0 t (ix2 p k) : EReal) = (V c main_v69 (ix2 (⟨t.val * 2000 + p.val, by have := lt6 t; have := p.isLt; omega⟩ : Fin 100000) k) : EReal) := by
  show V c main_v69 (((cfg6.win 0).blk t).view.emb (ix2 p k)) = _
  refine congrArg _ ?_
  funext a; apply Fin.ext
  obtain ⟨e0, e1⟩ := idx6_0 t
  match a with
  | ⟨0, _⟩ => show win6_0.index t (0 : Fin 2) * 2000 + 1 * p.val = t.val * 2000 + p.val; omega
  | ⟨1, _⟩ => show win6_0.index t (1 : Fin 2) * 64 + 1 * k.val = k.val; omega

/-- Row p of point t's block of window 1 is row 2000 t + p of its array. -/
theorem blk6_1 (c : Dev nD) (t : Fin cfg6.N) (p : Fin 2000) (k : Fin 64) :
    (iblk6 V c 1 t (ix2 p k) : EReal) = (V c main_v56 (ix2 (⟨t.val * 2000 + p.val, by have := lt6 t; have := p.isLt; omega⟩ : Fin 100000) k) : EReal) := by
  show V c main_v56 (((cfg6.win 1).blk t).view.emb (ix2 p k)) = _
  refine congrArg _ ?_
  funext a; apply Fin.ext
  obtain ⟨e0, e1⟩ := idx6_1 t
  match a with
  | ⟨0, _⟩ => show win6_1.index t (0 : Fin 2) * 2000 + 1 * p.val = t.val * 2000 + p.val; omega
  | ⟨1, _⟩ => show win6_1.index t (1 : Fin 2) * 64 + 1 * k.val = k.val; omega

/-- Point t's block of window 2 is its whole array. -/
theorem blk6_2 (c : Dev nD) (t : Fin cfg6.N) :
    (iblk6 V c 2 t : Cert.GGNN.Arr2 64 64) = (V c main_v17 : Cert.GGNN.Arr2 64 64) := by
  funext i
  obtain ⟨a', b', rfl⟩ : ∃ (a' : Fin 64) (b' : Fin 64), i = ix2 a' b' := ⟨i 0, i 1, eq_ix2 i⟩
  show V c main_v17 (((cfg6.win 2).blk t).view.emb (ix2 a' b')) = V c main_v17 (ix2 a' b')
  refine congrArg _ ?_
  funext a; apply Fin.ext
  obtain ⟨e0, e1⟩ := idx6_2 t
  match a with
  | ⟨0, _⟩ => show win6_2.index t (0 : Fin 2) * 64 + 1 * a'.val = a'.val; omega
  | ⟨1, _⟩ => show win6_2.index t (1 : Fin 2) * 64 + 1 * b'.val = b'.val; omega

/-- Point t's block of window 3 is its whole array. -/
theorem blk6_3 (c : Dev nD) (t : Fin cfg6.N) :
    (iblk6 V c 3 t : Cert.GGNN.Arr2 64 64) = (V c main_v18 : Cert.GGNN.Arr2 64 64) := by
  funext i
  obtain ⟨a', b', rfl⟩ : ∃ (a' : Fin 64) (b' : Fin 64), i = ix2 a' b' := ⟨i 0, i 1, eq_ix2 i⟩
  show V c main_v18 (((cfg6.win 3).blk t).view.emb (ix2 a' b')) = V c main_v18 (ix2 a' b')
  refine congrArg _ ?_
  funext a; apply Fin.ext
  obtain ⟨e0, e1⟩ := idx6_3 t
  match a with
  | ⟨0, _⟩ => show win6_3.index t (0 : Fin 2) * 64 + 1 * a'.val = a'.val; omega
  | ⟨1, _⟩ => show win6_3.index t (1 : Fin 2) * 64 + 1 * b'.val = b'.val; omega

/-- Point t's block of window 4 is its whole array. -/
theorem blk6_4 (c : Dev nD) (t : Fin cfg6.N) :
    (iblk6 V c 4 t : Cert.GGNN.Arr2 64 64) = (V c main_v19 : Cert.GGNN.Arr2 64 64) := by
  funext i
  obtain ⟨a', b', rfl⟩ : ∃ (a' : Fin 64) (b' : Fin 64), i = ix2 a' b' := ⟨i 0, i 1, eq_ix2 i⟩
  show V c main_v19 (((cfg6.win 4).blk t).view.emb (ix2 a' b')) = V c main_v19 (ix2 a' b')
  refine congrArg _ ?_
  funext a; apply Fin.ext
  obtain ⟨e0, e1⟩ := idx6_4 t
  match a with
  | ⟨0, _⟩ => show win6_4.index t (0 : Fin 2) * 64 + 1 * a'.val = a'.val; omega
  | ⟨1, _⟩ => show win6_4.index t (1 : Fin 2) * 64 + 1 * b'.val = b'.val; omega

/-- Point t's block of window 5 is its whole array. -/
theorem blk6_5 (c : Dev nD) (t : Fin cfg6.N) :
    (iblk6 V c 5 t : Cert.GGNN.Arr2 64 64) = (V c main_v20 : Cert.GGNN.Arr2 64 64) := by
  funext i
  obtain ⟨a', b', rfl⟩ : ∃ (a' : Fin 64) (b' : Fin 64), i = ix2 a' b' := ⟨i 0, i 1, eq_ix2 i⟩
  show V c main_v20 (((cfg6.win 5).blk t).view.emb (ix2 a' b')) = V c main_v20 (ix2 a' b')
  refine congrArg _ ?_
  funext a; apply Fin.ext
  obtain ⟨e0, e1⟩ := idx6_5 t
  match a with
  | ⟨0, _⟩ => show win6_5.index t (0 : Fin 2) * 64 + 1 * a'.val = a'.val; omega
  | ⟨1, _⟩ => show win6_5.index t (1 : Fin 2) * 64 + 1 * b'.val = b'.val; omega

/-- Point t's block of window 6 is its whole array. -/
theorem blk6_6 (c : Dev nD) (t : Fin cfg6.N) :
    (iblk6 V c 6 t : Cert.GGNN.Arr2 64 64) = (V c main_v21 : Cert.GGNN.Arr2 64 64) := by
  funext i
  obtain ⟨a', b', rfl⟩ : ∃ (a' : Fin 64) (b' : Fin 64), i = ix2 a' b' := ⟨i 0, i 1, eq_ix2 i⟩
  show V c main_v21 (((cfg6.win 6).blk t).view.emb (ix2 a' b')) = V c main_v21 (ix2 a' b')
  refine congrArg _ ?_
  funext a; apply Fin.ext
  obtain ⟨e0, e1⟩ := idx6_6 t
  match a with
  | ⟨0, _⟩ => show win6_6.index t (0 : Fin 2) * 64 + 1 * a'.val = a'.val; omega
  | ⟨1, _⟩ => show win6_6.index t (1 : Fin 2) * 64 + 1 * b'.val = b'.val; omega

/-- Point t's block of window 7 is its whole array. -/
theorem blk6_7 (c : Dev nD) (t : Fin cfg6.N) :
    (iblk6 V c 7 t : Cert.GGNN.Arr2 64 64) = (V c main_v22 : Cert.GGNN.Arr2 64 64) := by
  funext i
  obtain ⟨a', b', rfl⟩ : ∃ (a' : Fin 64) (b' : Fin 64), i = ix2 a' b' := ⟨i 0, i 1, eq_ix2 i⟩
  show V c main_v22 (((cfg6.win 7).blk t).view.emb (ix2 a' b')) = V c main_v22 (ix2 a' b')
  refine congrArg _ ?_
  funext a; apply Fin.ext
  obtain ⟨e0, e1⟩ := idx6_7 t
  match a with
  | ⟨0, _⟩ => show win6_7.index t (0 : Fin 2) * 64 + 1 * a'.val = a'.val; omega
  | ⟨1, _⟩ => show win6_7.index t (1 : Fin 2) * 64 + 1 * b'.val = b'.val; omega

/-- Point t's block of window 8 is its whole array. -/
theorem blk6_8 (c : Dev nD) (t : Fin cfg6.N) :
    (iblk6 V c 8 t : Cert.GGNN.Arr2 1 64) = (V c main_v23 : Cert.GGNN.Arr2 1 64) := by
  funext i
  obtain ⟨a', b', rfl⟩ : ∃ (a' : Fin 1) (b' : Fin 64), i = ix2 a' b' := ⟨i 0, i 1, eq_ix2 i⟩
  show V c main_v23 (((cfg6.win 8).blk t).view.emb (ix2 a' b')) = V c main_v23 (ix2 a' b')
  refine congrArg _ ?_
  funext a; apply Fin.ext
  obtain ⟨e0, e1⟩ := idx6_8 t
  match a with
  | ⟨0, _⟩ => show win6_8.index t (0 : Fin 2) * 1 + 1 * a'.val = a'.val; omega
  | ⟨1, _⟩ => show win6_8.index t (1 : Fin 2) * 64 + 1 * b'.val = b'.val; omega

/-- Point t's block of window 9 is its whole array. -/
theorem blk6_9 (c : Dev nD) (t : Fin cfg6.N) :
    (iblk6 V c 9 t : Cert.GGNN.Arr2 1 64) = (V c main_v24 : Cert.GGNN.Arr2 1 64) := by
  funext i
  obtain ⟨a', b', rfl⟩ : ∃ (a' : Fin 1) (b' : Fin 64), i = ix2 a' b' := ⟨i 0, i 1, eq_ix2 i⟩
  show V c main_v24 (((cfg6.win 9).blk t).view.emb (ix2 a' b')) = V c main_v24 (ix2 a' b')
  refine congrArg _ ?_
  funext a; apply Fin.ext
  obtain ⟨e0, e1⟩ := idx6_9 t
  match a with
  | ⟨0, _⟩ => show win6_9.index t (0 : Fin 2) * 1 + 1 * a'.val = a'.val; omega
  | ⟨1, _⟩ => show win6_9.index t (1 : Fin 2) * 64 + 1 * b'.val = b'.val; omega

/-- Point t's block of window 10 is its whole array. -/
theorem blk6_10 (c : Dev nD) (t : Fin cfg6.N) :
    (iblk6 V c 10 t : Cert.GGNN.Arr2 1 64) = (V c main_v25 : Cert.GGNN.Arr2 1 64) := by
  funext i
  obtain ⟨a', b', rfl⟩ : ∃ (a' : Fin 1) (b' : Fin 64), i = ix2 a' b' := ⟨i 0, i 1, eq_ix2 i⟩
  show V c main_v25 (((cfg6.win 10).blk t).view.emb (ix2 a' b')) = V c main_v25 (ix2 a' b')
  refine congrArg _ ?_
  funext a; apply Fin.ext
  obtain ⟨e0, e1⟩ := idx6_10 t
  match a with
  | ⟨0, _⟩ => show win6_10.index t (0 : Fin 2) * 1 + 1 * a'.val = a'.val; omega
  | ⟨1, _⟩ => show win6_10.index t (1 : Fin 2) * 64 + 1 * b'.val = b'.val; omega

/-- Point t's block of window 11 is its whole array. -/
theorem blk6_11 (c : Dev nD) (t : Fin cfg6.N) :
    (iblk6 V c 11 t : Cert.GGNN.Arr2 1 64) = (V c main_v26 : Cert.GGNN.Arr2 1 64) := by
  funext i
  obtain ⟨a', b', rfl⟩ : ∃ (a' : Fin 1) (b' : Fin 64), i = ix2 a' b' := ⟨i 0, i 1, eq_ix2 i⟩
  show V c main_v26 (((cfg6.win 11).blk t).view.emb (ix2 a' b')) = V c main_v26 (ix2 a' b')
  refine congrArg _ ?_
  funext a; apply Fin.ext
  obtain ⟨e0, e1⟩ := idx6_11 t
  match a with
  | ⟨0, _⟩ => show win6_11.index t (0 : Fin 2) * 1 + 1 * a'.val = a'.val; omega
  | ⟨1, _⟩ => show win6_11.index t (1 : Fin 2) * 64 + 1 * b'.val = b'.val; omega

/-- Point t's block of window 12 is its whole array. -/
theorem blk6_12 (c : Dev nD) (t : Fin cfg6.N) :
    (iblk6 V c 12 t : Cert.GGNN.Arr2 1 64) = (V c main_v27 : Cert.GGNN.Arr2 1 64) := by
  funext i
  obtain ⟨a', b', rfl⟩ : ∃ (a' : Fin 1) (b' : Fin 64), i = ix2 a' b' := ⟨i 0, i 1, eq_ix2 i⟩
  show V c main_v27 (((cfg6.win 12).blk t).view.emb (ix2 a' b')) = V c main_v27 (ix2 a' b')
  refine congrArg _ ?_
  funext a; apply Fin.ext
  obtain ⟨e0, e1⟩ := idx6_12 t
  match a with
  | ⟨0, _⟩ => show win6_12.index t (0 : Fin 2) * 1 + 1 * a'.val = a'.val; omega
  | ⟨1, _⟩ => show win6_12.index t (1 : Fin 2) * 64 + 1 * b'.val = b'.val; omega

/-- Point t's block of window 13 is its whole array. -/
theorem blk6_13 (c : Dev nD) (t : Fin cfg6.N) :
    (iblk6 V c 13 t : Cert.GGNN.Arr2 1 64) = (V c main_v28 : Cert.GGNN.Arr2 1 64) := by
  funext i
  obtain ⟨a', b', rfl⟩ : ∃ (a' : Fin 1) (b' : Fin 64), i = ix2 a' b' := ⟨i 0, i 1, eq_ix2 i⟩
  show V c main_v28 (((cfg6.win 13).blk t).view.emb (ix2 a' b')) = V c main_v28 (ix2 a' b')
  refine congrArg _ ?_
  funext a; apply Fin.ext
  obtain ⟨e0, e1⟩ := idx6_13 t
  match a with
  | ⟨0, _⟩ => show win6_13.index t (0 : Fin 2) * 1 + 1 * a'.val = a'.val; omega
  | ⟨1, _⟩ => show win6_13.index t (1 : Fin 2) * 64 + 1 * b'.val = b'.val; omega

/-- Entry (p, q) of point t's result block sits at row 2000 t + p, column q of the result array. -/
theorem emb6_14 (t : Fin cfg6.N) (p : Fin 2000) (q : Fin 64) :
    ((cfg6.win 14).blk t).view.emb (ix2 p q) = ix2 (⟨t.val * 2000 + p.val, by have := lt6 t; have := p.isLt; omega⟩ : Fin 100000) q := by
  funext a; apply Fin.ext
  obtain ⟨e4, e5⟩ := idx6_14 t
  match a with
  | ⟨0, _⟩ => show win6_14.index t (0 : Fin 2) * 2000 + 1 * p.val = t.val * 2000 + p.val; omega
  | ⟨1, _⟩ => show win6_14.index t (1 : Fin 2) * 64 + 1 * q.val = q.val; omega

/-- What point t writes back is block t of the GRU layer of the arrays as the region finds them. -/
theorem flushed6 (c : Dev nD) (t : Fin cfg6.N) :
    (dat6 (F := Ideal) V c).flushed 14 t = ((cfg6.win 14).blk t).view.read (Elt Ideal)
      (Cert.GGNN.layerW (V c main_v69) (V c main_v56) (V c main_v17) (V c main_v18) (V c main_v19) (V c main_v20) (V c main_v21) (V c main_v22) (V c main_v23) (V c main_v24) (V c main_v25) (V c main_v26) (V c main_v27) (V c main_v28)) := by
  show (cfg6.win 14).cut (grid6.coords t) ((dat6 (F := Ideal) V c).after 14 t) = _
  rw [after6_14]
  funext j
  obtain ⟨p, q, rfl⟩ : ∃ (p : Fin 2000) (q : Fin 64), j = ix2 p q := ⟨j 0, j 1, eq_ix2 j⟩
  show out6_14 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (ix2 p q)
    = Cert.GGNN.layerW (V c main_v69) (V c main_v56) (V c main_v17) (V c main_v18) (V c main_v19) (V c main_v20) (V c main_v21) (V c main_v22) (V c main_v23) (V c main_v24) (V c main_v25) (V c main_v26) (V c main_v27) (V c main_v28) (((cfg6.win 14).blk t).view.emb (ix2 p q))
  rw [emb6_14 t p q]
  refine (out6_14_apply (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) p q).trans ?_
  exact Cert.GGNN.cell_congr q (funext fun c' => blk6_0 V c t p c') (funext fun c' => blk6_1 V c t p c') (blk6_1 V c t p q)
    (blk6_2 V c t) (blk6_3 V c t) (blk6_4 V c t) (blk6_5 V c t) (blk6_6 V c t) (blk6_7 V c t) (blk6_8 V c t) (blk6_9 V c t) (blk6_10 V c t) (blk6_11 V c t) (blk6_12 V c t) (blk6_13 V c t)

/-- An index of the result array is in point t's block iff each coordinate is in the block's range on its axis. -/
theorem mem_blk6 (t : Fin cfg6.N) (i : S100000x64.Idx) :
    i ∈ ((cfg6.win 14).blk t).view.set ↔ ∀ a : Fin 2, win6_14.index t a * S2000x64.size a ≤ (i a).val ∧ (i a).val < win6_14.index t a * S2000x64.size a + S2000x64.size a := by
  show i ∈ ((View.whole main_v70).slice (win6_14.rect t)).set ↔ _
  rw [View.set_slice_whole, Rect.mem_set_unit]
  exact Iff.rfl

/-- Every row lies in the block of the point numbered by its row divided by 2000. -/
theorem cover6 (i : S100000x64.Idx) : ∃ t : Fin cfg6.N, (cfg6.win 14).flush t = true ∧ i ∈ ((cfg6.win 14).blk t).view.set := by
  have hi0 : (i 0).val < 100000 := (i 0).isLt
  have hi1 : (i 1).val < 64 := (i 1).isLt
  have hN : (i 0).val / 2000 < cfg6.N := by have e : cfg6.N = 50 := N_6; omega
  refine ⟨⟨(i 0).val / 2000, hN⟩, flush6_14 _, ?_⟩
  rw [mem_blk6]
  obtain ⟨e4, e5⟩ := idx6_14 ⟨(i 0).val / 2000, hN⟩
  intro a
  match a with
  | ⟨0, _⟩ => show win6_14.index _ (0 : Fin 2) * 2000 ≤ (i 0).val ∧ (i 0).val < win6_14.index _ (0 : Fin 2) * 2000 + 2000; rw [e4]; show (i 0).val / 2000 * 2000 ≤ (i 0).val ∧ (i 0).val < (i 0).val / 2000 * 2000 + 2000; omega
  | ⟨1, _⟩ => show win6_14.index _ (1 : Fin 2) * 64 ≤ (i 1).val ∧ (i 1).val < win6_14.index _ (1 : Fin 2) * 64 + 64; rw [e5]; omega

/-- THE RESULT ARRAY of the region: the GRU layer of the arrays it finds. -/
theorem final6 (c : Dev nD) :
    (dat6 (F := Ideal) V c).arrAt 14 cfg6.N = Cert.GGNN.layerW (V c main_v69) (V c main_v56) (V c main_v17) (V c main_v18) (V c main_v19) (V c main_v20) (V c main_v21) (V c main_v22) (V c main_v23) (V c main_v24) (V c main_v25) (V c main_v26) (V c main_v27) (V c main_v28) :=
  (dat6 (F := Ideal) V c).arrAt_eq_of_cover 14 _ (fun t _ => flushed6 V c t) (cover6)

end Cert.GGNN.K

end
-- ==== Proof.Blk7.lean ====
/-
  Region 7: a [100000, 64] by [64, 64] product computed in fifty points of 2000 rows.  From what one point writes back —
  the product of its block of rows with the whole right operand — to the whole result array: the points' blocks tile the
  rows, and the array ends as the product of the two arrays the region finds.
-/
import proofs.«167651_j43568148251382_1_alg».proof.Proof.Gen.KernelIdeal.Frame
import proofs.«167651_j43568148251382_1_alg».proof.Proof.Spec
import proofs.«167651_j43568148251382_1_alg».proof.Proof.MatKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The grid has fifty points. -/
theorem lt7 (t : Fin cfg7.N) : t.val < 50 := by have h := t.isLt; have e : cfg7.N = 50 := N_7; omega

/-- The printed index maps over the grid: point t takes rows 2000 t … 2000 t + 1999 of the left operand and of the
    result, and the whole right operand. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Row p of point t's left block is row 2000 t + p of the left array. -/
theorem blk7_0 (c : Dev nD) (t : Fin cfg7.N) (p : Fin 2000) (k : Fin 64) :
    (iblk7 V c 0 t (ix2 p k) : EReal) = (V c main_v70 (ix2 (⟨t.val * 2000 + p.val, by have := lt7 t; have := p.isLt; omega⟩ : Fin 100000) k) : EReal) := by
  show V c main_v70 (((cfg7.win 0).blk t).view.emb (ix2 p k)) = _
  refine congrArg _ ?_
  funext a; apply Fin.ext
  obtain ⟨e0, e1, -⟩ := idx7 t
  match a with
  | ⟨0, _⟩ => show win7_0.index t (0 : Fin 2) * 2000 + 1 * p.val = t.val * 2000 + p.val; omega
  | ⟨1, _⟩ => show win7_0.index t (1 : Fin 2) * 64 + 1 * k.val = k.val; omega

/-- Point t's right block is the whole right array. -/
theorem blk7_1 (c : Dev nD) (t : Fin cfg7.N) (k : Fin 64) (q : Fin 64) :
    (iblk7 V c 1 t (ix2 k q) : EReal) = (V c main_v72 (ix2 k q) : EReal) := by
  show V c main_v72 (((cfg7.win 1).blk t).view.emb (ix2 k q)) = _
  refine congrArg _ ?_
  funext a; apply Fin.ext
  obtain ⟨-, -, e2, e3, -⟩ := idx7 t
  match a with
  | ⟨0, _⟩ => show win7_1.index t (0 : Fin 2) * 64 + 1 * k.val = k.val; omega
  | ⟨1, _⟩ => show win7_1.index t (1 : Fin 2) * 64 + 1 * q.val = q.val; omega

/-- Entry (p, q) of point t's result block sits at row 2000 t + p, column q of the result array. -/
theorem emb7_2 (t : Fin cfg7.N) (p : Fin 2000) (q : Fin 64) :
    ((cfg7.win 2).blk t).view.emb (ix2 p q) = ix2 (⟨t.val * 2000 + p.val, by have := lt7 t; have := p.isLt; omega⟩ : Fin 100000) q := by
  funext a; apply Fin.ext
  obtain ⟨-, -, -, -, e4, e5⟩ := idx7 t
  match a with
  | ⟨0, _⟩ => show win7_2.index t (0 : Fin 2) * 2000 + 1 * p.val = t.val * 2000 + p.val; omega
  | ⟨1, _⟩ => show win7_2.index t (1 : Fin 2) * 64 + 1 * q.val = q.val; omega

/-- What point t writes back is block t of the product of the two arrays as the region finds them. -/
theorem flushed7 (c : Dev nD) (t : Fin cfg7.N) :
    (dat7 (F := Ideal) V c).flushed 2 t = ((cfg7.win 2).blk t).view.read (Elt Ideal) (Cert.GGNN.mm (V c main_v70) (V c main_v72)) := by
  show (cfg7.win 2).cut (grid7.coords t) ((dat7 (F := Ideal) V c).after 2 t) = _
  rw [after7_2]
  funext j
  obtain ⟨p, q, rfl⟩ : ∃ (p : Fin 2000) (q : Fin 64), j = ix2 p q := ⟨j 0, j 1, eq_ix2 j⟩
  show out7_2 (iblk7 V c 0 t) (iblk7 V c 1 t) (ix2 p q) = Cert.GGNN.mm (V c main_v70) (V c main_v72) (((cfg7.win 2).blk t).view.emb (ix2 p q))
  rw [emb7_2 t p q]
  refine (out7_2_apply (iblk7 V c 0 t) (iblk7 V c 1 t) p q).trans ?_
  exact Cert.GGNN.prod_congr (fun k => blk7_0 V c t p k) (fun k => blk7_1 V c t k q)

/-- An index of the result array is in point t's block iff each coordinate is in the block's range on its axis. -/
theorem mem_blk7 (t : Fin cfg7.N) (i : S100000x64.Idx) :
    i ∈ ((cfg7.win 2).blk t).view.set ↔ ∀ a : Fin 2, win7_2.index t a * S2000x64.size a ≤ (i a).val ∧ (i a).val < win7_2.index t a * S2000x64.size a + S2000x64.size a := by
  show i ∈ ((View.whole main_v73).slice (win7_2.rect t)).set ↔ _
  rw [View.set_slice_whole, Rect.mem_set_unit]
  exact Iff.rfl

/-- Every row lies in the block of the point numbered by its row divided by 2000. -/
theorem cover7 (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  have hN : (i 0).val / 2000 < cfg7.N := by have e : cfg7.N = 50 := N_7; omega
  refine ⟨⟨(i 0).val / 2000, hN⟩, flush7_2 _, ?_⟩
  rw [mem_blk7]
  obtain ⟨-, -, -, -, e4, e5⟩ := idx7 ⟨(i 0).val / 2000, hN⟩
  intro a
  match a with
  | ⟨0, _⟩ => show win7_2.index _ (0 : Fin 2) * 2000 ≤ (i 0).val ∧ (i 0).val < win7_2.index _ (0 : Fin 2) * 2000 + 2000; rw [e4]; show (i 0).val / 2000 * 2000 ≤ (i 0).val ∧ (i 0).val < (i 0).val / 2000 * 2000 + 2000; omega
  | ⟨1, _⟩ => show win7_2.index _ (1 : Fin 2) * 64 ≤ (i 1).val ∧ (i 1).val < win7_2.index _ (1 : Fin 2) * 64 + 64; rw [e5]; omega

/-- THE RESULT ARRAY of the region: the product of the two arrays it finds. -/
theorem final7 (c : Dev nD) :
    (dat7 (F := Ideal) V c).arrAt 2 cfg7.N = Cert.GGNN.mm (V c main_v70) (V c main_v72) :=
  (dat7 (F := Ideal) V c).arrAt_eq_of_cover 2 _ (fun t _ => flushed7 V c t) (cover7)

end Cert.GGNN.K

end
-- ==== Proof.Blk8.lean ====
/-
  Region 8: one GRU layer computed in fifty points of 2000 nodes.  From what one point writes back — the cell of each of
  its 2000 nodes, from the node's aggregated row, its hidden row, and the whole six weights and six bias rows — to the whole
  result array: the points' blocks tile the nodes, and the array ends as the layer of the arrays the region finds.
-/
import proofs.«167651_j43568148251382_1_alg».proof.Proof.Gen.KernelIdeal.Frame
import proofs.«167651_j43568148251382_1_alg».proof.Proof.Spec
import proofs.«167651_j43568148251382_1_alg».proof.Proof.GruKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The grid has fifty points. -/
theorem lt8 (t : Fin cfg8.N) : t.val < 50 := by have h := t.isLt; have e : cfg8.N = 50 := N_8; omega

/-! The printed index maps over the grid: point t takes rows 2000 t … 2000 t + 1999 of the aggregated array, of the hidden
    array and of the result, and the whole of each weight and bias row. -/
theorem idx8_0 : ∀ t : Fin cfg8.N, win8_0.index t (0 : Fin 2) = t.val ∧ win8_0.index t (1 : Fin 2) = 0 :=
  (by decide +kernel : ∀ t : Fin grid8.N, _)
theorem idx8_1 : ∀ t : Fin cfg8.N, win8_1.index t (0 : Fin 2) = t.val ∧ win8_1.index t (1 : Fin 2) = 0 :=
  (by decide +kernel : ∀ t : Fin grid8.N, _)
theorem idx8_2 : ∀ t : Fin cfg8.N, win8_2.index t (0 : Fin 2) = 0 ∧ win8_2.index t (1 : Fin 2) = 0 :=
  (by decide +kernel : ∀ t : Fin grid8.N, _)
theorem idx8_3 : ∀ t : Fin cfg8.N, win8_3.index t (0 : Fin 2) = 0 ∧ win8_3.index t (1 : Fin 2) = 0 :=
  (by decide +kernel : ∀ t : Fin grid8.N, _)
theorem idx8_4 : ∀ t : Fin cfg8.N, win8_4.index t (0 : Fin 2) = 0 ∧ win8_4.index t (1 : Fin 2) = 0 :=
  (by decide +kernel : ∀ t : Fin grid8.N, _)
theorem idx8_5 : ∀ t : Fin cfg8.N, win8_5.index t (0 : Fin 2) = 0 ∧ win8_5.index t (1 : Fin 2) = 0 :=
  (by decide +kernel : ∀ t : Fin grid8.N, _)
theorem idx8_6 : ∀ t : Fin cfg8.N, win8_6.index t (0 : Fin 2) = 0 ∧ win8_6.index t (1 : Fin 2) = 0 :=
  (by decide +kernel : ∀ t : Fin grid8.N, _)
theorem idx8_7 : ∀ t : Fin cfg8.N, win8_7.index t (0 : Fin 2) = 0 ∧ win8_7.index t (1 : Fin 2) = 0 :=
  (by decide +kernel : ∀ t : Fin grid8.N, _)
theorem idx8_8 : ∀ t : Fin cfg8.N, win8_8.index t (0 : Fin 2) = 0 ∧ win8_8.index t (1 : Fin 2) = 0 :=
  (by decide +kernel : ∀ t : Fin grid8.N, _)
theorem idx8_9 : ∀ t : Fin cfg8.N, win8_9.index t (0 : Fin 2) = 0 ∧ win8_9.index t (1 : Fin 2) = 0 :=
  (by decide +kernel : ∀ t : Fin grid8.N, _)
theorem idx8_10 : ∀ t : Fin cfg8.N, win8_10.index t (0 : Fin 2) = 0 ∧ win8_10.index t (1 : Fin 2) = 0 :=
  (by decide +kernel : ∀ t : Fin grid8.N, _)
theorem idx8_11 : ∀ t : Fin cfg8.N, win8_11.index t (0 : Fin 2) = 0 ∧ win8_11.index t (1 : Fin 2) = 0 :=
  (by decide +kernel : ∀ t : Fin grid8.N, _)
theorem idx8_12 : ∀ t : Fin cfg8.N, win8_12.index t (0 : Fin 2) = 0 ∧ win8_12.index t (1 : Fin 2) = 0 :=
  (by decide +kernel : ∀ t : Fin grid8.N, _)
theorem idx8_13 : ∀ t : Fin cfg8.N, win8_13.index t (0 : Fin 2) = 0 ∧ win8_13.index t (1 : Fin 2) = 0 :=
  (by decide +kernel : ∀ t : Fin grid8.N, _)
theorem idx8_14 : ∀ t : Fin cfg8.N, win8_14.index t (0 : Fin 2) = t.val ∧ win8_14.index t (1 : Fin 2) = 0 :=
  (by decide +kernel : ∀ t : Fin grid8.N, _)

/-- Row p of point t's block of window 0 is row 2000 t + p of its array. -/
theorem blk8_0 (c : Dev nD) (t : Fin cfg8.N) (p : Fin 2000) (k : Fin 64) :
    (iblk8 V c 0 t (ix2 p k) : EReal) = (V c main_v83 (ix2 (⟨t.val * 2000 + p.val, by have := lt8 t; have := p.isLt; omega⟩ : Fin 100000) k) : EReal) := by
  show V c main_v83 (((cfg8.win 0).blk t).view.emb (ix2 p k)) = _
  refine congrArg _ ?_
  funext a; apply Fin.ext
  obtain ⟨e0, e1⟩ := idx8_0 t
  match a with
  | ⟨0, _⟩ => show win8_0.index t (0 : Fin 2) * 2000 + 1 * p.val = t.val * 2000 + p.val; omega
  | ⟨1, _⟩ => show win8_0.index t (1 : Fin 2) * 64 + 1 * k.val = k.val; omega

/-- Row p of point t's block of window 1 is row 2000 t + p of its array. -/
theorem blk8_1 (c : Dev nD) (t : Fin cfg8.N) (p : Fin 2000) (k : Fin 64) :
    (iblk8 V c 1 t (ix2 p k) : EReal) = (V c main_v70 (ix2 (⟨t.val * 2000 + p.val, by have := lt8 t; have := p.isLt; omega⟩ : Fin 100000) k) : EReal) := by
  show V c main_v70 (((cfg8.win 1).blk t).view.emb (ix2 p k)) = _
  refine congrArg _ ?_
  funext a; apply Fin.ext
  obtain ⟨e0, e1⟩ := idx8_1 t
  match a with
  | ⟨0, _⟩ => show win8_1.index t (0 : Fin 2) * 2000 + 1 * p.val = t.val * 2000 + p.val; omega
  | ⟨1, _⟩ => show win8_1.index t (1 : Fin 2) * 64 + 1 * k.val = k.val; omega

/-- Point t's block of window 2 is its whole array. -/
theorem blk8_2 (c : Dev nD) (t : Fin cfg8.N) :
    (iblk8 V c 2 t : Cert.GGNN.Arr2 64 64) = (V c main_v17 : Cert.GGNN.Arr2 64 64) := by
  funext i
  obtain ⟨a', b', rfl⟩ : ∃ (a' : Fin 64) (b' : Fin 64), i = ix2 a' b' := ⟨i 0, i 1, eq_ix2 i⟩
  show V c main_v17 (((cfg8.win 2).blk t).view.emb (ix2 a' b')) = V c main_v17 (ix2 a' b')
  refine congrArg _ ?_
  funext a; apply Fin.ext
  obtain ⟨e0, e1⟩ := idx8_2 t
  match a with
  | ⟨0, _⟩ => show win8_2.index t (0 : Fin 2) * 64 + 1 * a'.val = a'.val; omega
  | ⟨1, _⟩ => show win8_2.index t (1 : Fin 2) * 64 + 1 * b'.val = b'.val; omega

/-- Point t's block of window 3 is its whole array. -/
theorem blk8_3 (c : Dev nD) (t : Fin cfg8.N) :
    (iblk8 V c 3 t : Cert.GGNN.Arr2 64 64) = (V c main_v18 : Cert.GGNN.Arr2 64 64) := by
  funext i
  obtain ⟨a', b', rfl⟩ : ∃ (a' : Fin 64) (b' : Fin 64), i = ix2 a' b' := ⟨i 0, i 1, eq_ix2 i⟩
  show V c main_v18 (((cfg8.win 3).blk t).view.emb (ix2 a' b')) = V c main_v18 (ix2 a' b')
  refine congrArg _ ?_
  funext a; apply Fin.ext
  obtain ⟨e0, e1⟩ := idx8_3 t
  match a with
  | ⟨0, _⟩ => show win8_3.index t (0 : Fin 2) * 64 + 1 * a'.val = a'.val; omega
  | ⟨1, _⟩ => show win8_3.index t (1 : Fin 2) * 64 + 1 * b'.val = b'.val; omega

/-- Point t's block of window 4 is its whole array. -/
theorem blk8_4 (c : Dev nD) (t : Fin cfg8.N) :
    (iblk8 V c 4 t : Cert.GGNN.Arr2 64 64) = (V c main_v19 : Cert.GGNN.Arr2 64 64) := by
  funext i
  obtain ⟨a', b', rfl⟩ : ∃ (a' : Fin 64) (b' : Fin 64), i = ix2 a' b' := ⟨i 0, i 1, eq_ix2 i⟩
  show V c main_v19 (((cfg8.win 4).blk t).view.emb (ix2 a' b')) = V c main_v19 (ix2 a' b')
  refine congrArg _ ?_
  funext a; apply Fin.ext
  obtain ⟨e0, e1⟩ := idx8_4 t
  match a with
  | ⟨0, _⟩ => show win8_4.index t (0 : Fin 2) * 64 + 1 * a'.val = a'.val; omega
  | ⟨1, _⟩ => show win8_4.index t (1 : Fin 2) * 64 + 1 * b'.val = b'.val; omega

/-- Point t's block of window 5 is its whole array. -/
theorem blk8_5 (c : Dev nD) (t : Fin cfg8.N) :
    (iblk8 V c 5 t : Cert.GGNN.Arr2 64 64) = (V c main_v20 : Cert.GGNN.Arr2 64 64) := by
  funext i
  obtain ⟨a', b', rfl⟩ : ∃ (a' : Fin 64) (b' : Fin 64), i = ix2 a' b' := ⟨i 0, i 1, eq_ix2 i⟩
  show V c main_v20 (((cfg8.win 5).blk t).view.emb (ix2 a' b')) = V c main_v20 (ix2 a' b')
  refine congrArg _ ?_
  funext a; apply Fin.ext
  obtain ⟨e0, e1⟩ := idx8_5 t
  match a with
  | ⟨0, _⟩ => show win8_5.index t (0 : Fin 2) * 64 + 1 * a'.val = a'.val; omega
  | ⟨1, _⟩ => show win8_5.index t (1 : Fin 2) * 64 + 1 * b'.val = b'.val; omega

/-- Point t's block of window 6 is its whole array. -/
theorem blk8_6 (c : Dev nD) (t : Fin cfg8.N) :
    (iblk8 V c 6 t : Cert.GGNN.Arr2 64 64) = (V c main_v21 : Cert.GGNN.Arr2 64 64) := by
  funext i
  obtain ⟨a', b', rfl⟩ : ∃ (a' : Fin 64) (b' : Fin 64), i = ix2 a' b' := ⟨i 0, i 1, eq_ix2 i⟩
  show V c main_v21 (((cfg8.win 6).blk t).view.emb (ix2 a' b')) = V c main_v21 (ix2 a' b')
  refine congrArg _ ?_
  funext a; apply Fin.ext
  obtain ⟨e0, e1⟩ := idx8_6 t
  match a with
  | ⟨0, _⟩ => show win8_6.index t (0 : Fin 2) * 64 + 1 * a'.val = a'.val; omega
  | ⟨1, _⟩ => show win8_6.index t (1 : Fin 2) * 64 + 1 * b'.val = b'.val; omega

/-- Point t's block of window 7 is its whole array. -/
theorem blk8_7 (c : Dev nD) (t : Fin cfg8.N) :
    (iblk8 V c 7 t : Cert.GGNN.Arr2 64 64) = (V c main_v22 : Cert.GGNN.Arr2 64 64) := by
  funext i
  obtain ⟨a', b', rfl⟩ : ∃ (a' : Fin 64) (b' : Fin 64), i = ix2 a' b' := ⟨i 0, i 1, eq_ix2 i⟩
  show V c main_v22 (((cfg8.win 7).blk t).view.emb (ix2 a' b')) = V c main_v22 (ix2 a' b')
  refine congrArg _ ?_
  funext a; apply Fin.ext
  obtain ⟨e0, e1⟩ := idx8_7 t
  match a with
  | ⟨0, _⟩ => show win8_7.index t (0 : Fin 2) * 64 + 1 * a'.val = a'.val; omega
  | ⟨1, _⟩ => show win8_7.index t (1 : Fin 2) * 64 + 1 * b'.val = b'.val; omega

/-- Point t's block of window 8 is its whole array. -/
theorem blk8_8 (c : Dev nD) (t : Fin cfg8.N) :
    (iblk8 V c 8 t : Cert.GGNN.Arr2 1 64) = (V c main_v23 : Cert.GGNN.Arr2 1 64) := by
  funext i
  obtain ⟨a', b', rfl⟩ : ∃ (a' : Fin 1) (b' : Fin 64), i = ix2 a' b' := ⟨i 0, i 1, eq_ix2 i⟩
  show V c main_v23 (((cfg8.win 8).blk t).view.emb (ix2 a' b')) = V c main_v23 (ix2 a' b')
  refine congrArg _ ?_
  funext a; apply Fin.ext
  obtain ⟨e0, e1⟩ := idx8_8 t
  match a with
  | ⟨0, _⟩ => show win8_8.index t (0 : Fin 2) * 1 + 1 * a'.val = a'.val; omega
  | ⟨1, _⟩ => show win8_8.index t (1 : Fin 2) * 64 + 1 * b'.val = b'.val; omega

/-- Point t's block of window 9 is its whole array. -/
theorem blk8_9 (c : Dev nD) (t : Fin cfg8.N) :
    (iblk8 V c 9 t : Cert.GGNN.Arr2 1 64) = (V c main_v24 : Cert.GGNN.Arr2 1 64) := by
  funext i
  obtain ⟨a', b', rfl⟩ : ∃ (a' : Fin 1) (b' : Fin 64), i = ix2 a' b' := ⟨i 0, i 1, eq_ix2 i⟩
  show V c main_v24 (((cfg8.win 9).blk t).view.emb (ix2 a' b')) = V c main_v24 (ix2 a' b')
  refine congrArg _ ?_
  funext a; apply Fin.ext
  obtain ⟨e0, e1⟩ := idx8_9 t
  match a with
  | ⟨0, _⟩ => show win8_9.index t (0 : Fin 2) * 1 + 1 * a'.val = a'.val; omega
  | ⟨1, _⟩ => show win8_9.index t (1 : Fin 2) * 64 + 1 * b'.val = b'.val; omega

/-- Point t's block of window 10 is its whole array. -/
theorem blk8_10 (c : Dev nD) (t : Fin cfg8.N) :
    (iblk8 V c 10 t : Cert.GGNN.Arr2 1 64) = (V c main_v25 : Cert.GGNN.Arr2 1 64) := by
  funext i
  obtain ⟨a', b', rfl⟩ : ∃ (a' : Fin 1) (b' : Fin 64), i = ix2 a' b' := ⟨i 0, i 1, eq_ix2 i⟩
  show V c main_v25 (((cfg8.win 10).blk t).view.emb (ix2 a' b')) = V c main_v25 (ix2 a' b')
  refine congrArg _ ?_
  funext a; apply Fin.ext
  obtain ⟨e0, e1⟩ := idx8_10 t
  match a with
  | ⟨0, _⟩ => show win8_10.index t (0 : Fin 2) * 1 + 1 * a'.val = a'.val; omega
  | ⟨1, _⟩ => show win8_10.index t (1 : Fin 2) * 64 + 1 * b'.val = b'.val; omega

/-- Point t's block of window 11 is its whole array. -/
theorem blk8_11 (c : Dev nD) (t : Fin cfg8.N) :
    (iblk8 V c 11 t : Cert.GGNN.Arr2 1 64) = (V c main_v26 : Cert.GGNN.Arr2 1 64) := by
  funext i
  obtain ⟨a', b', rfl⟩ : ∃ (a' : Fin 1) (b' : Fin 64), i = ix2 a' b' := ⟨i 0, i 1, eq_ix2 i⟩
  show V c main_v26 (((cfg8.win 11).blk t).view.emb (ix2 a' b')) = V c main_v26 (ix2 a' b')
  refine congrArg _ ?_
  funext a; apply Fin.ext
  obtain ⟨e0, e1⟩ := idx8_11 t
  match a with
  | ⟨0, _⟩ => show win8_11.index t (0 : Fin 2) * 1 + 1 * a'.val = a'.val; omega
  | ⟨1, _⟩ => show win8_11.index t (1 : Fin 2) * 64 + 1 * b'.val = b'.val; omega

/-- Point t's block of window 12 is its whole array. -/
theorem blk8_12 (c : Dev nD) (t : Fin cfg8.N) :
    (iblk8 V c 12 t : Cert.GGNN.Arr2 1 64) = (V c main_v27 : Cert.GGNN.Arr2 1 64) := by
  funext i
  obtain ⟨a', b', rfl⟩ : ∃ (a' : Fin 1) (b' : Fin 64), i = ix2 a' b' := ⟨i 0, i 1, eq_ix2 i⟩
  show V c main_v27 (((cfg8.win 12).blk t).view.emb (ix2 a' b')) = V c main_v27 (ix2 a' b')
  refine congrArg _ ?_
  funext a; apply Fin.ext
  obtain ⟨e0, e1⟩ := idx8_12 t
  match a with
  | ⟨0, _⟩ => show win8_12.index t (0 : Fin 2) * 1 + 1 * a'.val = a'.val; omega
  | ⟨1, _⟩ => show win8_12.index t (1 : Fin 2) * 64 + 1 * b'.val = b'.val; omega

/-- Point t's block of window 13 is its whole array. -/
theorem blk8_13 (c : Dev nD) (t : Fin cfg8.N) :
    (iblk8 V c 13 t : Cert.GGNN.Arr2 1 64) = (V c main_v28 : Cert.GGNN.Arr2 1 64) := by
  funext i
  obtain ⟨a', b', rfl⟩ : ∃ (a' : Fin 1) (b' : Fin 64), i = ix2 a' b' := ⟨i 0, i 1, eq_ix2 i⟩
  show V c main_v28 (((cfg8.win 13).blk t).view.emb (ix2 a' b')) = V c main_v28 (ix2 a' b')
  refine congrArg _ ?_
  funext a; apply Fin.ext
  obtain ⟨e0, e1⟩ := idx8_13 t
  match a with
  | ⟨0, _⟩ => show win8_13.index t (0 : Fin 2) * 1 + 1 * a'.val = a'.val; omega
  | ⟨1, _⟩ => show win8_13.index t (1 : Fin 2) * 64 + 1 * b'.val = b'.val; omega

/-- Entry (p, q) of point t's result block sits at row 2000 t + p, column q of the result array. -/
theorem emb8_14 (t : Fin cfg8.N) (p : Fin 2000) (q : Fin 64) :
    ((cfg8.win 14).blk t).view.emb (ix2 p q) = ix2 (⟨t.val * 2000 + p.val, by have := lt8 t; have := p.isLt; omega⟩ : Fin 100000) q := by
  funext a; apply Fin.ext
  obtain ⟨e4, e5⟩ := idx8_14 t
  match a with
  | ⟨0, _⟩ => show win8_14.index t (0 : Fin 2) * 2000 + 1 * p.val = t.val * 2000 + p.val; omega
  | ⟨1, _⟩ => show win8_14.index t (1 : Fin 2) * 64 + 1 * q.val = q.val; omega

/-- What point t writes back is block t of the GRU layer of the arrays as the region finds them. -/
theorem flushed8 (c : Dev nD) (t : Fin cfg8.N) :
    (dat8 (F := Ideal) V c).flushed 14 t = ((cfg8.win 14).blk t).view.read (Elt Ideal)
      (Cert.GGNN.layerW (V c main_v83) (V c main_v70) (V c main_v17) (V c main_v18) (V c main_v19) (V c main_v20) (V c main_v21) (V c main_v22) (V c main_v23) (V c main_v24) (V c main_v25) (V c main_v26) (V c main_v27) (V c main_v28)) := by
  show (cfg8.win 14).cut (grid8.coords t) ((dat8 (F := Ideal) V c).after 14 t) = _
  rw [after8_14]
  funext j
  obtain ⟨p, q, rfl⟩ : ∃ (p : Fin 2000) (q : Fin 64), j = ix2 p q := ⟨j 0, j 1, eq_ix2 j⟩
  show out8_14 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (ix2 p q)
    = Cert.GGNN.layerW (V c main_v83) (V c main_v70) (V c main_v17) (V c main_v18) (V c main_v19) (V c main_v20) (V c main_v21) (V c main_v22) (V c main_v23) (V c main_v24) (V c main_v25) (V c main_v26) (V c main_v27) (V c main_v28) (((cfg8.win 14).blk t).view.emb (ix2 p q))
  rw [emb8_14 t p q]
  refine (out8_14_apply (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) p q).trans ?_
  exact Cert.GGNN.cell_congr q (funext fun c' => blk8_0 V c t p c') (funext fun c' => blk8_1 V c t p c') (blk8_1 V c t p q)
    (blk8_2 V c t) (blk8_3 V c t) (blk8_4 V c t) (blk8_5 V c t) (blk8_6 V c t) (blk8_7 V c t) (blk8_8 V c t) (blk8_9 V c t) (blk8_10 V c t) (blk8_11 V c t) (blk8_12 V c t) (blk8_13 V c t)

/-- An index of the result array is in point t's block iff each coordinate is in the block's range on its axis. -/
theorem mem_blk8 (t : Fin cfg8.N) (i : S100000x64.Idx) :
    i ∈ ((cfg8.win 14).blk t).view.set ↔ ∀ a : Fin 2, win8_14.index t a * S2000x64.size a ≤ (i a).val ∧ (i a).val < win8_14.index t a * S2000x64.size a + S2000x64.size a := by
  show i ∈ ((View.whole main_v84).slice (win8_14.rect t)).set ↔ _
  rw [View.set_slice_whole, Rect.mem_set_unit]
  exact Iff.rfl

/-- Every row lies in the block of the point numbered by its row divided by 2000. -/
theorem cover8 (i : S100000x64.Idx) : ∃ t : Fin cfg8.N, (cfg8.win 14).flush t = true ∧ i ∈ ((cfg8.win 14).blk t).view.set := by
  have hi0 : (i 0).val < 100000 := (i 0).isLt
  have hi1 : (i 1).val < 64 := (i 1).isLt
  have hN : (i 0).val / 2000 < cfg8.N := by have e : cfg8.N = 50 := N_8; omega
  refine ⟨⟨(i 0).val / 2000, hN⟩, flush8_14 _, ?_⟩
  rw [mem_blk8]
  obtain ⟨e4, e5⟩ := idx8_14 ⟨(i 0).val / 2000, hN⟩
  intro a
  match a with
  | ⟨0, _⟩ => show win8_14.index _ (0 : Fin 2) * 2000 ≤ (i 0).val ∧ (i 0).val < win8_14.index _ (0 : Fin 2) * 2000 + 2000; rw [e4]; show (i 0).val / 2000 * 2000 ≤ (i 0).val ∧ (i 0).val < (i 0).val / 2000 * 2000 + 2000; omega
  | ⟨1, _⟩ => show win8_14.index _ (1 : Fin 2) * 64 ≤ (i 1).val ∧ (i 1).val < win8_14.index _ (1 : Fin 2) * 64 + 64; rw [e5]; omega

/-- THE RESULT ARRAY of the region: the GRU layer of the arrays it finds. -/
theorem final8 (c : Dev nD) :
    (dat8 (F := Ideal) V c).arrAt 14 cfg8.N = Cert.GGNN.layerW (V c main_v83) (V c main_v70) (V c main_v17) (V c main_v18) (V c main_v19) (V c main_v20) (V c main_v21) (V c main_v22) (V c main_v23) (V c main_v24) (V c main_v25) (V c main_v26) (V c main_v27) (V c main_v28) :=
  (dat8 (F := Ideal) V c).arrAt_eq_of_cover 14 _ (fun t _ => flushed8 V c t) (cover8)

end Cert.GGNN.K

end
-- ==== Proof.LibSoftmaxLaw.lean ====
/-
  Softmax attention over one query row, on the extended reals, and the law that lets the normalisation be applied
  before or after the weighted sum of the values.

  For a query row `q`, keys `k j` and a scale `c` the scores are `s j = (∑ d, q d · k j d) · c`; the weight of key `j`
  is `exp (s j − M)` with `M` the largest score (folded from `-∞`), and the row's result is the weighted sum of the
  values divided by the sum of the weights.  Dividing every weight first and summing afterwards gives the same number
  whenever the scores and the values are real: then `M` is real, every weight is a positive real, their sum is a positive
  real, and over the reals division distributes over the sum.  (At infinite entries it need not: the extended reals do not
  distribute.)
-/
import Idealize.ShloMosaic.PureOps.Ideal

noncomputable section

namespace Cert.Softmax

open Idealize.ShloMosaic

variable {J D : Type} [Fintype J] [Fintype D]

/-- The scaled scores of one query row against every key: `(∑ d, q d · k j d) · c`. -/
def scores (c : EReal) (q : D → EReal) (k : J → D → EReal) : J → EReal :=
  fun j => (∑ d, q d * k j d) * c

/-- The largest score, folded from `b` (the programs fold from `-∞`). -/
def top (b : EReal) (s : J → EReal) : EReal := Finset.univ.fold max b s

/-- The unnormalised weight of key `j`: `exp (s j − top)`. -/
def weight (b : EReal) (s : J → EReal) (j : J) : EReal := Ideal.exp (s j - top b s)

/-- The weighted sum of the values, normalised AFTER the sum. -/
def attnAfter (b : EReal) (s v : J → EReal) : EReal :=
  Ideal.div (∑ j, weight b s j * v j) (∑ j, weight b s j)

/-- The weighted sum of the values, every weight normalised BEFORE the sum. -/
def attnBefore (b : EReal) (s v : J → EReal) : EReal :=
  ∑ j, Ideal.div (weight b s j) (∑ j', weight b s j') * v j

/-- The coercion of the reals into the extended reals commutes with finite sums. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Folding the maximum from `b` and then taking the maximum with `b` once more changes nothing. -/
theorem max_top (b : EReal) (s : J → EReal) : max b (top b s) = top b s :=
  max_eq_right ((Finset.le_fold_max b).mpr (Or.inl le_rfl))

/-- Real factors give real scores. -/
theorem scores_coe (c : ℝ) (q : D → ℝ) (k : J → D → ℝ) (j : J) :
    scores (c : EReal) (fun d => (q d : EReal)) (fun j d => (k j d : EReal)) j
      = (((∑ d, q d * k j d) * c : ℝ) : EReal) := by
  unfold scores
  rw [EReal.coe_mul, coe_sum]
  exact congrArg (· * (c : EReal)) (Finset.sum_congr rfl fun d _ => (EReal.coe_mul _ _).symm)

/-- The largest of finitely many (at least one) real scores, folded from `-∞`, is a real number. -/
theorem top_coe [Nonempty J] (s : J → ℝ) : ∃ r : ℝ, top ⊥ (fun j => (s j : EReal)) = (r : EReal) := by
  have hb : ⊥ < top ⊥ (fun j => (s j : EReal)) := by
    unfold top
    rw [Finset.lt_fold_max]
    exact Or.inr ⟨Classical.arbitrary J, Finset.mem_univ _, EReal.bot_lt_coe _⟩
  have ht : top ⊥ (fun j => (s j : EReal)) < ⊤ := by
    unfold top
    rw [Finset.fold_max_lt]
    exact ⟨bot_lt_top, fun j _ => EReal.coe_lt_top _⟩
  exact ⟨_, (EReal.coe_toReal ht.ne hb.ne').symm⟩

/-- THE LAW: over real scores and real values, normalising after the weighted sum and normalising every weight before it
    give the same extended real. -/
theorem attnAfter_eq_attnBefore [Nonempty J] (s v : J → ℝ) :
    attnAfter ⊥ (fun j => (s j : EReal)) (fun j => (v j : EReal))
      = attnBefore ⊥ (fun j => (s j : EReal)) (fun j => (v j : EReal)) := by
  obtain ⟨r, hr⟩ := top_coe s
  have hw : ∀ j, weight ⊥ (fun j => (s j : EReal)) j = ((Real.exp (s j - r) : ℝ) : EReal) := fun j => by
    unfold weight
    rw [hr, ← EReal.coe_sub]
    rfl
  have hl : (∑ j, weight ⊥ (fun j => (s j : EReal)) j) = ((∑ j, Real.exp (s j - r) : ℝ) : EReal) := by
    rw [coe_sum]; exact Finset.sum_congr rfl fun j _ => hw j
  have hpos : (∑ j, Real.exp (s j - r) : ℝ) ≠ 0 :=
    (Finset.sum_pos (fun j _ => Real.exp_pos _) Finset.univ_nonempty).ne'
  unfold attnAfter attnBefore
  calc Ideal.div (∑ j, weight ⊥ (fun j => (s j : EReal)) j * (v j : EReal)) (∑ j, weight ⊥ (fun j => (s j : EReal)) j)
      = (∑ j, ((Real.exp (s j - r) * v j : ℝ) : EReal)) * ((1 / (∑ j, Real.exp (s j - r)) : ℝ) : EReal) := by
        rw [hl, Ideal.div_coe hpos]
        exact congrArg (· * ((1 / (∑ j, Real.exp (s j - r)) : ℝ) : EReal))
          (Finset.sum_congr rfl fun j _ => by rw [hw, EReal.coe_mul])
    _ = (((∑ j, Real.exp (s j - r) * v j) * (1 / (∑ j, Real.exp (s j - r))) : ℝ) : EReal) := by
        rw [← coe_sum, ← EReal.coe_mul]
    _ = ((∑ j, Real.exp (s j - r) * (1 / (∑ j, Real.exp (s j - r))) * v j : ℝ) : EReal) := by
        congr 1
        rw [Finset.sum_mul]
        exact Finset.sum_congr rfl fun j _ => by ring
    _ = ∑ j, ((Real.exp (s j - r) * (1 / (∑ j, Real.exp (s j - r))) * v j : ℝ) : EReal) := coe_sum _ _
    _ = ∑ j, Ideal.div (weight ⊥ (fun j => (s j : EReal)) j) (∑ j', weight ⊥ (fun j => (s j : EReal)) j') * (v j : EReal) := by
        refine Finset.sum_congr rfl fun j _ => ?_
        rw [hl, Ideal.div_coe hpos, hw, EReal.coe_mul, EReal.coe_mul]

end Cert.Softmax

end
-- ==== Proof.OutSpec.lean ====
/-
  The log-softmax of one row of extended reals, in the two arrangements the programs compute it, and the law that
  joins them.

  For a row `a` the largest entry `M` is the fold of `max` over the row from `-∞`.  One arrangement subtracts from
  each entry the single number `M + log (∑ exp (a j - M))`; the other first shifts the row by `M' = max (-∞) M`,
  and then subtracts `log (0 + ∑ exp (a j - M'))`.  Over a nonempty row of real numbers `M` is a real number and
  `M' = M`; and for real `x`, `m` and ANY extended real `l` one has `x - (m + l) = (x - m) - l` (for `l = -∞` both
  sides are `+∞`, for `l = +∞` both are `-∞`, for real `l` it is the law of the reals), so nothing about the sum of
  the exponentials is needed.
-/
import proofs.«167651_j43568148251382_1_alg».proof.Proof.Spec
import proofs.«167651_j43568148251382_1_alg».proof.Proof.LibSoftmaxLaw

noncomputable section

open scoped BigOperators

namespace Cert.GGNN

open Idealize.ShloMosaic

/-- The largest entry of a row, folded from the word of `-∞`. -/
def rowMax {n : ℕ} (a : Fin n → EReal) : EReal :=
  (Finset.univ : Finset (Fin n)).fold max (Ideal.ofBits .f32 0xFF800000#32) a

/-- The same maximum, taken once more against the word of `-∞`. -/
def rowMax' {n : ℕ} (a : Fin n → EReal) : EReal :=
  max (Ideal.ofBits .f32 0xFF800000#32) (rowMax a)

/-- Log-softmax, the entry minus (maximum plus logarithm of the sum of shifted exponentials). -/
def lsmK {n : ℕ} (a : Fin n → EReal) (q : Fin n) : EReal :=
  a q - (rowMax a + Ideal.log (∑ j : Fin n, Ideal.exp (a j - rowMax a)))

/-- Log-softmax, the shifted entry minus the logarithm of (zero plus the sum of shifted exponentials). -/
def lsmR {n : ℕ} (a : Fin n → EReal) (q : Fin n) : EReal :=
  (a q - rowMax' a) - Ideal.log (Ideal.ofBits .f32 0x00000000#32 + ∑ j : Fin n, Ideal.exp (a j - rowMax' a))

/-- The word 0xFF800000 denotes `-∞`. -/
theorem ofBits_negInf : Ideal.ofBits .f32 0xFF800000#32 = (⊥ : EReal) := by
  simp [Ideal.ofBits, Ideal.ieee]

/-- For real `x`, `m` and any extended real `l`: `x - (m + l) = (x - m) - l`. -/
theorem coe_sub_coe_add (x m : ℝ) (l : EReal) :
    (x : EReal) - ((m : EReal) + l) = ((x : EReal) - (m : EReal)) - l := by
  induction l using EReal.rec with
  | bot =>
    rw [EReal.add_bot, ← EReal.coe_sub, EReal.coe_sub_bot, EReal.coe_sub_bot]
  | coe t =>
    rw [← EReal.coe_add, ← EReal.coe_sub, ← EReal.coe_sub, ← EReal.coe_sub]
    exact congrArg _ (by ring)
  | top =>
    rw [EReal.coe_add_top, EReal.sub_top, EReal.sub_top]

/-- The largest entry of a nonempty row of real numbers is a real number. -/
theorem isReal_rowMax {n : ℕ} [Nonempty (Fin n)] (a : Fin n → EReal) (ha : ∀ j, IsReal (a j)) : IsReal (rowMax a) := by
  choose s hs using ha
  obtain rfl : a = fun j => (s j : EReal) := funext hs
  obtain ⟨r, hr⟩ := Cert.Softmax.top_coe s
  refine ⟨r, ?_⟩
  unfold rowMax
  rw [ofBits_negInf]
  exact hr

/-- Over a row of real numbers the second maximum against `-∞` changes nothing. -/
theorem rowMax'_eq {n : ℕ} (a : Fin n → EReal) : rowMax' a = rowMax a := by
  unfold rowMax'
  rw [ofBits_negInf]
  exact max_eq_right bot_le

/-- THE LAW: over a nonempty row of real numbers the two arrangements of log-softmax give the same extended real. -/
theorem lsm_law_of_nonempty {n : ℕ} [Nonempty (Fin n)] (a : Fin n → EReal) (ha : ∀ j, IsReal (a j)) (q : Fin n) :
    lsmK a q = lsmR a q := by
  obtain ⟨m, hm⟩ := isReal_rowMax a ha
  obtain ⟨x, hx⟩ := ha q
  unfold lsmK lsmR
  rw [rowMax'_eq, Ideal.ofBits_zero_f32, zero_add, hm, hx]
  exact coe_sub_coe_add x m _

/-- The law at rows of forty entries. -/
theorem lsm_law (a : Fin 40 → EReal) (ha : ∀ j, IsReal (a j)) (q : Fin 40) : lsmK a q = lsmR a q :=
  lsm_law_of_nonempty a ha q

end Cert.GGNN

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.OutKernel.lean ====
/-
  The kernel's output stage at an entry: the logits are the plain product of the block of hidden rows with the
  [64, 40] weight, and what the body leaves in the output block is, row by row, the first arrangement of the
  log-softmax of the logits' row.

  The body takes the lane maximum of each row from `-∞`, re-lays it as a column, repeats it across the forty columns
  and subtracts it; sums the exponentials along the lanes; and subtracts from the logits the column
  `maximum + log sum` repeated across the columns.
-/
import proofs.«167651_j43568148251382_1_alg».proof.Proof.OutSpec
import proofs.«167651_j43568148251382_1_alg».proof.Proof.Gen.KernelIdeal.Frame
import proofs.«167651_j43568148251382_1_alg».proof.Proof.LibRowFolds
import proofs.«167651_j43568148251382_1_alg».proof.Proof.LibBroadcast
import proofs.«167651_j43568148251382_1_alg».proof.Proof.LibPlainProduct

noncomputable section

open scoped BigOperators

namespace Cert.GGNN.K

open Idealize.ShloMosaic Idealize.ShloMosaic.ValueIdx Cert.KernelIdeal Cert.KernelIdeal.Gen

/-- The log-softmax part of the body over any logits `L`, at entry `(p, q)`: the first arrangement of the
    log-softmax of row `p`. -/
theorem lsmTail (L : FVec Ideal S2000x40 .f32) (h : S2000x40.Reduces [1] S2000) (hφ : FKind.Formats .f32)
    (hm : (0xFF800000#32 : BitVec 32) = FKind.maximumf.neutral .f32 hφ)
    (hz : (0x00000000#32 : BitVec 32) = FKind.add.neutral .f32 hφ)
    (sc : S2000.ShapeCasts S2000x1) (bc : S2000x1.Broadcasts S2000x40) (p : Fin 2000) (q : Fin 40) :
    subf L (broadcastTo S2000x40
        (addf (shapeCast S2000x1 (multiReduction .maximumf [1] S2000 L 0xFF800000#32 h hφ hm) sc)
          (log (shapeCast S2000x1
            (multiReduction .add [1] S2000
              (exp (subf L (broadcastTo S2000x40
                (shapeCast S2000x1 (multiReduction .maximumf [1] S2000 L 0xFF800000#32 h hφ hm) sc) bc)))
              0x00000000#32 h hφ hz) sc))) bc) (ix2 p q)
      = Cert.GGNN.lsmK (fun j => L (ix2 p j)) q := by
  have hmax : shapeCast S2000x1 (multiReduction .maximumf [1] S2000 L 0xFF800000#32 h hφ hm) sc (ix2 p (0 : Fin 1))
      = Cert.GGNN.rowMax (fun j => L (ix2 p j)) :=
    (Cert.Layout.shapeCast_col_apply _ sc p).trans (Cert.RowFolds.laneMax_apply L _ h hφ hm p)
  have hcol : ∀ k : Fin 40, broadcastTo S2000x40
      (shapeCast S2000x1 (multiReduction .maximumf [1] S2000 L 0xFF800000#32 h hφ hm) sc) bc (ix2 p k)
        = Cert.GGNN.rowMax (fun j => L (ix2 p j)) := fun k =>
    (Cert.Layout.broadcastTo_a1_ab_apply _ bc p k).trans hmax
  unfold Cert.GGNN.lsmK
  refine (subf_apply _ _ (ix2 p q)).trans ?_
  refine congrArg (L (ix2 p q) - ·) ?_
  refine (Cert.Layout.broadcastTo_a1_ab_apply _ bc p q).trans ?_
  refine (addf_apply _ _ _).trans ?_
  refine congrArg₂ (· + ·) hmax ?_
  show Ideal.log (shapeCast S2000x1 _ sc (ix2 p (0 : Fin 1))) = _
  refine congrArg Ideal.log ?_
  refine (Cert.Layout.shapeCast_col_apply _ sc p).trans ?_
  refine (Cert.RowFolds.laneSum_apply _ _ h hφ hz p).trans ?_
  refine Finset.sum_congr rfl fun k _ => ?_
  show Ideal.exp (L (ix2 p k) - broadcastTo S2000x40 _ bc (ix2 p k)) = _
  rw [hcol k]

/-- The logits: the block of hidden rows against the weight, both narrowed (the identity on extended reals), into a
    zero accumulator, is the plain product. -/
theorem logits_apply (v0 : Vec Ideal S2000x64 .f32) (v3 : Vec Ideal S64x40 .f32) (p : Fin 2000) (j : Fin 40) :
    matmul dot_S2000x64_S64x40_S2000x40_1_0_0_1_n_n none
        (truncf .bf16 (shapeCast S2000x64 v0 shapeCasts_S2000x64_S2000x64) bitsLt_bf16_f32)
        (truncf .bf16 v3 bitsLt_bf16_f32) (constant (F := Ideal) S2000x40 .f32 0x00000000#32) (ix2 p j)
      = Cert.GGNN.prod v0 v3 p j := by
  rw [shapeCast_self]
  exact (Cert.PlainProduct.matmul_nn_apply dot_S2000x64_S64x40_S2000x40_1_0_0_1_n_n.wf none
    (truncf .bf16 v0 bitsLt_bf16_f32) (truncf .bf16 v3 bitsLt_bf16_f32) p j).trans
      (Finset.sum_congr rfl fun c _ => rfl)

/-- The body's stored value at entry `(p, q)`. -/
theorem k9_pay1_apply (v0 : Vec Ideal S2000x64 .f32) (v3 : Vec Ideal S64x40 .f32) (p : Fin 2000) (q : Fin 40) :
    k9_pay1 (F := Ideal) v0 v3 (ix2 p q) = Cert.GGNN.lsmK (fun j => Cert.GGNN.prod v0 v3 p j) q := by
  have hL := logits_apply v0 v3 p
  unfold k9_pay1
  dsimp only
  generalize matmul dot_S2000x64_S64x40_S2000x40_1_0_0_1_n_n none
    (truncf .bf16 (shapeCast S2000x64 v0 shapeCasts_S2000x64_S2000x64) bitsLt_bf16_f32)
    (truncf .bf16 v3 bitsLt_bf16_f32) (constant (F := Ideal) S2000x40 .f32 0x00000000#32) = L at hL ⊢
  refine (lsmTail L _ _ _ _ _ _ p q).trans ?_
  exact congrArg (fun a => Cert.GGNN.lsmK a q) (funext hL)

/-- What the body leaves in the output block, at entry `(p, q)`. -/
theorem out9_2_apply (x0 : Vec Ideal S2000x64 .f32) (x1 : Vec Ideal S64x40 .f32) (p : Fin 2000) (q : Fin 40) :
    Cert.KernelIdeal.Gen.out9_2 (F := Ideal) x0 x1 (ix2 p q)
      = Cert.GGNN.lsmK (fun j => Cert.GGNN.prod x0 x1 p j) q := by
  have hz : (![0, 0] : Fin 2 → Nat) = fun _ => 0 := by
    funext a; match a with | ⟨0, _⟩ => rfl | ⟨1, _⟩ => rfl
  unfold Cert.KernelIdeal.Gen.out9_2
  rw [View.canon_unit_zero hz]
  simp only [View.ld_unit_zero (S := S2000x64) hz, View.ld_unit_zero (S := S64x40) hz]
  exact k9_pay1_apply x0 x1 p q

end Cert.GGNN.K

end
-- ==== Proof.Blk9.lean ====
/-
  Region 9: the output stage, [100000, 64] by [64, 40] and a log-softmax along each row, computed in fifty points of 2000
  rows.  From what one point writes back to the whole result array: the points' blocks tile the rows.
-/
import proofs.«167651_j43568148251382_1_alg».proof.Proof.Gen.KernelIdeal.Frame
import proofs.«167651_j43568148251382_1_alg».proof.Proof.Spec
import proofs.«167651_j43568148251382_1_alg».proof.Proof.OutSpec
import proofs.«167651_j43568148251382_1_alg».proof.Proof.OutKernel

set_option maxRecDepth 16384

noncomputable section

open scoped BigOperators

namespace Cert.GGNN.K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output stage as an array: entry (p, q) is the kernel's arrangement of the log-softmax of row p of H · W. -/
def outArr (H : Cert.GGNN.Arr2 100000 64) (W : Cert.GGNN.Arr2 64 40) : Cert.GGNN.Arr2 100000 40 :=
  fun i => Cert.GGNN.lsmK (fun j => Cert.GGNN.prod H W (i 0) j) (i 1)

/-- The grid has fifty points. -/
theorem lt9 (t : Fin cfg9.N) : t.val < 50 := by have h := t.isLt; have e : cfg9.N = 50 := N_9; omega

/-- The printed index maps over the grid: point t takes rows 2000 t … 2000 t + 1999 of the left operand and of the
    result, and the whole right operand. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- Row p of point t's left block is row 2000 t + p of the left array. -/
theorem blk9_0 (c : Dev nD) (t : Fin cfg9.N) (p : Fin 2000) (k : Fin 64) :
    (iblk9 V c 0 t (ix2 p k) : EReal) = (V c main_v84 (ix2 (⟨t.val * 2000 + p.val, by have := lt9 t; have := p.isLt; omega⟩ : Fin 100000) k) : EReal) := by
  show V c main_v84 (((cfg9.win 0).blk t).view.emb (ix2 p k)) = _
  refine congrArg _ ?_
  funext a; apply Fin.ext
  obtain ⟨e0, e1, -⟩ := idx9 t
  match a with
  | ⟨0, _⟩ => show win9_0.index t (0 : Fin 2) * 2000 + 1 * p.val = t.val * 2000 + p.val; omega
  | ⟨1, _⟩ => show win9_0.index t (1 : Fin 2) * 64 + 1 * k.val = k.val; omega

/-- Point t's right block is the whole right array. -/
theorem blk9_1 (c : Dev nD) (t : Fin cfg9.N) (k : Fin 64) (q : Fin 40) :
    (iblk9 V c 1 t (ix2 k q) : EReal) = (V c main_arg3 (ix2 k q) : EReal) := by
  show V c main_arg3 (((cfg9.win 1).blk t).view.emb (ix2 k q)) = _
  refine congrArg _ ?_
  funext a; apply Fin.ext
  obtain ⟨-, -, e2, e3, -⟩ := idx9 t
  match a with
  | ⟨0, _⟩ => show win9_1.index t (0 : Fin 2) * 64 + 1 * k.val = k.val; omega
  | ⟨1, _⟩ => show win9_1.index t (1 : Fin 2) * 40 + 1 * q.val = q.val; omega

/-- Entry (p, q) of point t's result block sits at row 2000 t + p, column q of the result array. -/
theorem emb9_2 (t : Fin cfg9.N) (p : Fin 2000) (q : Fin 40) :
    ((cfg9.win 2).blk t).view.emb (ix2 p q) = ix2 (⟨t.val * 2000 + p.val, by have := lt9 t; have := p.isLt; omega⟩ : Fin 100000) q := by
  funext a; apply Fin.ext
  obtain ⟨-, -, -, -, e4, e5⟩ := idx9 t
  match a with
  | ⟨0, _⟩ => show win9_2.index t (0 : Fin 2) * 2000 + 1 * p.val = t.val * 2000 + p.val; omega
  | ⟨1, _⟩ => show win9_2.index t (1 : Fin 2) * 40 + 1 * q.val = q.val; omega

/-- What point t writes back is block t of the row-wise log-softmax of the product of the two arrays as the region
    finds them. -/
theorem flushed9 (c : Dev nD) (t : Fin cfg9.N) :
    (dat9 (F := Ideal) V c).flushed 2 t = ((cfg9.win 2).blk t).view.read (Elt Ideal) (outArr (V c main_v84) (V c main_arg3)) := by
  show (cfg9.win 2).cut (grid9.coords t) ((dat9 (F := Ideal) V c).after 2 t) = _
  rw [after9_2]
  funext j
  obtain ⟨p, q, rfl⟩ : ∃ (p : Fin 2000) (q : Fin 40), j = ix2 p q := ⟨j 0, j 1, eq_ix2 j⟩
  show out9_2 (iblk9 V c 0 t) (iblk9 V c 1 t) (ix2 p q) = outArr (V c main_v84) (V c main_arg3) (((cfg9.win 2).blk t).view.emb (ix2 p q))
  rw [emb9_2 t p q]
  refine (out9_2_apply (iblk9 V c 0 t) (iblk9 V c 1 t) p q).trans ?_
  exact congrArg (fun f => Cert.GGNN.lsmK f q)
    (funext fun j => Cert.GGNN.prod_congr (fun k => blk9_0 V c t p k) (fun k => blk9_1 V c t k j))

/-- An index of the result array is in point t's block iff each coordinate is in the block's range on its axis. -/
theorem mem_blk9 (t : Fin cfg9.N) (i : S100000x40.Idx) :
    i ∈ ((cfg9.win 2).blk t).view.set ↔ ∀ a : Fin 2, win9_2.index t a * S2000x40.size a ≤ (i a).val ∧ (i a).val < win9_2.index t a * S2000x40.size a + S2000x40.size a := by
  show i ∈ ((View.whole main_v85).slice (win9_2.rect t)).set ↔ _
  rw [View.set_slice_whole, Rect.mem_set_unit]
  exact Iff.rfl

/-- Every row lies in the block of the point numbered by its row divided by 2000. -/
theorem cover9 (i : S100000x40.Idx) : ∃ t : Fin cfg9.N, (cfg9.win 2).flush t = true ∧ i ∈ ((cfg9.win 2).blk t).view.set := by
  have hi0 : (i 0).val < 100000 := (i 0).isLt
  have hi1 : (i 1).val < 40 := (i 1).isLt
  have hN : (i 0).val / 2000 < cfg9.N := by have e : cfg9.N = 50 := N_9; omega
  refine ⟨⟨(i 0).val / 2000, hN⟩, flush9_2 _, ?_⟩
  rw [mem_blk9]
  obtain ⟨-, -, -, -, e4, e5⟩ := idx9 ⟨(i 0).val / 2000, hN⟩
  intro a
  match a with
  | ⟨0, _⟩ => show win9_2.index _ (0 : Fin 2) * 2000 ≤ (i 0).val ∧ (i 0).val < win9_2.index _ (0 : Fin 2) * 2000 + 2000; rw [e4]; show (i 0).val / 2000 * 2000 ≤ (i 0).val ∧ (i 0).val < (i 0).val / 2000 * 2000 + 2000; omega
  | ⟨1, _⟩ => show win9_2.index _ (1 : Fin 2) * 40 ≤ (i 1).val ∧ (i 1).val < win9_2.index _ (1 : Fin 2) * 40 + 40; rw [e5]; omega

/-- THE RESULT ARRAY of the region: the row-wise log-softmax of the product of the two arrays it finds. -/
theorem final9 (c : Dev nD) :
    (dat9 (F := Ideal) V c).arrAt 2 cfg9.N = outArr (V c main_v84) (V c main_arg3) :=
  (dat9 (F := Ideal) V c).arrAt_eq_of_cover 2 _ (fun t _ => flushed9 V c t) (cover9)

end Cert.GGNN.K

end
-- ==== Proof.KChain.lean ====
/-
  The kernel's program, boundary by boundary: what the buffers the next segment reads hold, as the chain's arrays of the
  launch contents of the argument arrays.  A stretch of host lines is read by its own functions of the contents it starts
  from; a region by the whole-array form of its result; a buffer nobody wrote in between keeps its contents.
-/
import proofs.«167651_j43568148251382_1_alg».proof.Proof.KRun
import proofs.«167651_j43568148251382_1_alg».proof.Proof.KKeptA
import proofs.«167651_j43568148251382_1_alg».proof.Proof.KKeptW
import proofs.«167651_j43568148251382_1_alg».proof.Proof.KKeptB
import proofs.«167651_j43568148251382_1_alg».proof.Proof.KHost
import proofs.«167651_j43568148251382_1_alg».proof.Proof.Blk0
import proofs.«167651_j43568148251382_1_alg».proof.Proof.Blk1
import proofs.«167651_j43568148251382_1_alg».proof.Proof.Blk2
import proofs.«167651_j43568148251382_1_alg».proof.Proof.Blk3
import proofs.«167651_j43568148251382_1_alg».proof.Proof.Blk4
import proofs.«167651_j43568148251382_1_alg».proof.Proof.Blk5
import proofs.«167651_j43568148251382_1_alg».proof.Proof.Blk6
import proofs.«167651_j43568148251382_1_alg».proof.Proof.Blk7
import proofs.«167651_j43568148251382_1_alg».proof.Proof.Blk8
import proofs.«167651_j43568148251382_1_alg».proof.Proof.Blk9

set_option maxRecDepth 16384

noncomputable section

namespace Cert.GGNN.K

open Cert.KernelIdeal Cert.KernelIdeal.Gen
open Idealize.ShloMosaic Idealize.ShloMosaic.TcCoe Idealize.ShloMosaic.ValueIdx Idealize.SL.Sem

/-- The GRU layer depends only on its fourteen arrays. -/
theorem layerW_congr {N : ℕ} {agg agg' h h' : Cert.GGNN.Arr2 N 64}
    {W1 W2 W3 W4 W5 W6 W1' W2' W3' W4' W5' W6' : Cert.GGNN.Arr2 64 64} {b1 b2 b3 b4 b5 b6 b1' b2' b3' b4' b5' b6' : Cert.GGNN.Arr2 1 64}
    (ha : agg = agg') (hh : h = h')
    (e1 : W1 = W1') (e2 : W2 = W2') (e3 : W3 = W3') (e4 : W4 = W4') (e5 : W5 = W5') (e6 : W6 = W6')
    (f1 : b1 = b1') (f2 : b2 = b2') (f3 : b3 = b3') (f4 : b4 = b4') (f5 : b5 = b5') (f6 : b6 = b6') :
    Cert.GGNN.layerW agg h W1 W2 W3 W4 W5 W6 b1 b2 b3 b4 b5 b6 = Cert.GGNN.layerW agg' h' W1' W2' W3' W4' W5' W6' b1' b2' b3' b4' b5' b6' := by
  subst ha hh e1 e2 e3 e4 e5 e6 f1 f2 f3 f4 f5 f6; rfl

variable (m : (ℓ : Loc nD τ sig) → Buf (Elt Ideal) ℓ) (ρ : Dev nD → PrngReg) (c : Dev nD)

/-- The source numbers of the edges, after the first host lines. -/
theorem src1 : W1 m ρ c (Proc.devRef .tc main_v1) = Cert.GGNN.R.srcOf (m ((c : Thread nD τ).loc main_arg1)) :=
  host0_v1 (W0 m ρ c)
/-- The destination numbers of the edges, after the first host lines. -/
theorem dst1 : W1 m ρ c (Proc.devRef .tc main_v3) = Cert.GGNN.R.dstOf (m ((c : Thread nD τ).loc main_arg1)) :=
  host0_v3 (W0 m ρ c)
theorem src4 : W4 m ρ c (Proc.devRef .tc main_v1) = Cert.GGNN.R.srcOf (m ((c : Thread nD τ).loc main_arg1)) :=
  ((kept_main_v1_1_4 m ρ c).trans (src1 m ρ c))
theorem dst4 : W4 m ρ c (Proc.devRef .tc main_v3) = Cert.GGNN.R.dstOf (m ((c : Thread nD τ).loc main_arg1)) :=
  ((kept_main_v3_1_4 m ρ c).trans (dst1 m ρ c))
theorem src8 : W8 m ρ c (Proc.devRef .tc main_v1) = Cert.GGNN.R.srcOf (m ((c : Thread nD τ).loc main_arg1)) :=
  ((kept_main_v1_4_8 m ρ c).trans ((kept_main_v1_1_4 m ρ c).trans (src1 m ρ c)))
theorem dst8 : W8 m ρ c (Proc.devRef .tc main_v3) = Cert.GGNN.R.dstOf (m ((c : Thread nD τ).loc main_arg1)) :=
  ((kept_main_v3_4_8 m ρ c).trans ((kept_main_v3_1_4 m ρ c).trans (dst1 m ρ c)))
theorem src12 : W12 m ρ c (Proc.devRef .tc main_v1) = Cert.GGNN.R.srcOf (m ((c : Thread nD τ).loc main_arg1)) :=
  ((kept_main_v1_8_12 m ρ c).trans ((kept_main_v1_4_8 m ρ c).trans ((kept_main_v1_1_4 m ρ c).trans (src1 m ρ c))))
theorem dst12 : W12 m ρ c (Proc.devRef .tc main_v3) = Cert.GGNN.R.dstOf (m ((c : Thread nD τ).loc main_arg1)) :=
  ((kept_main_v3_8_12 m ρ c).trans ((kept_main_v3_4_8 m ρ c).trans ((kept_main_v3_1_4 m ρ c).trans (dst1 m ρ c))))
theorem src16 : W16 m ρ c (Proc.devRef .tc main_v1) = Cert.GGNN.R.srcOf (m ((c : Thread nD τ).loc main_arg1)) :=
  ((kept_main_v1_12_16 m ρ c).trans ((kept_main_v1_8_12 m ρ c).trans ((kept_main_v1_4_8 m ρ c).trans ((kept_main_v1_1_4 m ρ c).trans (src1 m ρ c)))))
theorem dst16 : W16 m ρ c (Proc.devRef .tc main_v3) = Cert.GGNN.R.dstOf (m ((c : Thread nD τ).loc main_arg1)) :=
  ((kept_main_v3_12_16 m ρ c).trans ((kept_main_v3_8_12 m ρ c).trans ((kept_main_v3_4_8 m ρ c).trans ((kept_main_v3_1_4 m ρ c).trans (dst1 m ρ c)))))

/-- After region 0 the hidden state is h0. -/
theorem st0 : W2 m ρ c (Proc.devRef .tc main_v4) = (Cert.GGNN.R.h0 (m ((c : Thread nD τ).loc main_arg0)) (m ((c : Thread nD τ).loc main_arg2))) :=
  (W2_arr m ρ c 2).trans ((final0 (V1 m ρ) c).trans
    (congr (congrArg (Cert.GGNN.mm (a := 100000) (k := 256) (n := 64)) (kept_main_arg0_0_1 m ρ c)) (kept_main_arg2_0_1 m ρ c)))
theorem w17_3 : W3 m ρ c (Proc.devRef .tc main_v17) = Cert.GGNN.wt (m ((c : Thread nD τ).loc main_arg5)) 0 (by omega) :=
  (host1_v17 (W2 m ρ c)).trans (congrArg (fun x => Cert.GGNN.wt x 0 (by omega)) (kept_main_arg5_0_2 m ρ c))
theorem w18_3 : W3 m ρ c (Proc.devRef .tc main_v18) = Cert.GGNN.wt (m ((c : Thread nD τ).loc main_arg5)) 64 (by omega) :=
  (host1_v18 (W2 m ρ c)).trans (congrArg (fun x => Cert.GGNN.wt x 64 (by omega)) (kept_main_arg5_0_2 m ρ c))
theorem w19_3 : W3 m ρ c (Proc.devRef .tc main_v19) = Cert.GGNN.wt (m ((c : Thread nD τ).loc main_arg5)) 128 (by omega) :=
  (host1_v19 (W2 m ρ c)).trans (congrArg (fun x => Cert.GGNN.wt x 128 (by omega)) (kept_main_arg5_0_2 m ρ c))
theorem w20_3 : W3 m ρ c (Proc.devRef .tc main_v20) = Cert.GGNN.wt (m ((c : Thread nD τ).loc main_arg6)) 0 (by omega) :=
  (host1_v20 (W2 m ρ c)).trans (congrArg (fun x => Cert.GGNN.wt x 0 (by omega)) (kept_main_arg6_0_2 m ρ c))
theorem w21_3 : W3 m ρ c (Proc.devRef .tc main_v21) = Cert.GGNN.wt (m ((c : Thread nD τ).loc main_arg6)) 64 (by omega) :=
  (host1_v21 (W2 m ρ c)).trans (congrArg (fun x => Cert.GGNN.wt x 64 (by omega)) (kept_main_arg6_0_2 m ρ c))
theorem w22_3 : W3 m ρ c (Proc.devRef .tc main_v22) = Cert.GGNN.wt (m ((c : Thread nD τ).loc main_arg6)) 128 (by omega) :=
  (host1_v22 (W2 m ρ c)).trans (congrArg (fun x => Cert.GGNN.wt x 128 (by omega)) (kept_main_arg6_0_2 m ρ c))
theorem w23_3 : W3 m ρ c (Proc.devRef .tc main_v23) = Cert.GGNN.bt (m ((c : Thread nD τ).loc main_arg7)) 0 (by omega) :=
  (host1_v23 (W2 m ρ c)).trans (congrArg (fun x => Cert.GGNN.bt x 0 (by omega)) (kept_main_arg7_0_2 m ρ c))
theorem w24_3 : W3 m ρ c (Proc.devRef .tc main_v24) = Cert.GGNN.bt (m ((c : Thread nD τ).loc main_arg7)) 64 (by omega) :=
  (host1_v24 (W2 m ρ c)).trans (congrArg (fun x => Cert.GGNN.bt x 64 (by omega)) (kept_main_arg7_0_2 m ρ c))
theorem w25_3 : W3 m ρ c (Proc.devRef .tc main_v25) = Cert.GGNN.bt (m ((c : Thread nD τ).loc main_arg7)) 128 (by omega) :=
  (host1_v25 (W2 m ρ c)).trans (congrArg (fun x => Cert.GGNN.bt x 128 (by omega)) (kept_main_arg7_0_2 m ρ c))
theorem w26_3 : W3 m ρ c (Proc.devRef .tc main_v26) = Cert.GGNN.bt (m ((c : Thread nD τ).loc main_arg8)) 0 (by omega) :=
  (host1_v26 (W2 m ρ c)).trans (congrArg (fun x => Cert.GGNN.bt x 0 (by omega)) (kept_main_arg8_0_2 m ρ c))
theorem w27_3 : W3 m ρ c (Proc.devRef .tc main_v27) = Cert.GGNN.bt (m ((c : Thread nD τ).loc main_arg8)) 64 (by omega) :=
  (host1_v27 (W2 m ρ c)).trans (congrArg (fun x => Cert.GGNN.bt x 64 (by omega)) (kept_main_arg8_0_2 m ρ c))
theorem w28_3 : W3 m ρ c (Proc.devRef .tc main_v28) = Cert.GGNN.bt (m ((c : Thread nD τ).loc main_arg8)) 128 (by omega) :=
  (host1_v28 (W2 m ρ c)).trans (congrArg (fun x => Cert.GGNN.bt x 128 (by omega)) (kept_main_arg8_0_2 m ρ c))
theorem w17_5 : W5 m ρ c (Proc.devRef .tc main_v17) = Cert.GGNN.wt (m ((c : Thread nD τ).loc main_arg5)) 0 (by omega) :=
  ((kept_main_v17_3_5 m ρ c).trans (w17_3 m ρ c))
theorem w18_5 : W5 m ρ c (Proc.devRef .tc main_v18) = Cert.GGNN.wt (m ((c : Thread nD τ).loc main_arg5)) 64 (by omega) :=
  ((kept_main_v18_3_5 m ρ c).trans (w18_3 m ρ c))
theorem w19_5 : W5 m ρ c (Proc.devRef .tc main_v19) = Cert.GGNN.wt (m ((c : Thread nD τ).loc main_arg5)) 128 (by omega) :=
  ((kept_main_v19_3_5 m ρ c).trans (w19_3 m ρ c))
theorem w20_5 : W5 m ρ c (Proc.devRef .tc main_v20) = Cert.GGNN.wt (m ((c : Thread nD τ).loc main_arg6)) 0 (by omega) :=
  ((kept_main_v20_3_5 m ρ c).trans (w20_3 m ρ c))
theorem w21_5 : W5 m ρ c (Proc.devRef .tc main_v21) = Cert.GGNN.wt (m ((c : Thread nD τ).loc main_arg6)) 64 (by omega) :=
  ((kept_main_v21_3_5 m ρ c).trans (w21_3 m ρ c))
theorem w22_5 : W5 m ρ c (Proc.devRef .tc main_v22) = Cert.GGNN.wt (m ((c : Thread nD τ).loc main_arg6)) 128 (by omega) :=
  ((kept_main_v22_3_5 m ρ c).trans (w22_3 m ρ c))
theorem w23_5 : W5 m ρ c (Proc.devRef .tc main_v23) = Cert.GGNN.bt (m ((c : Thread nD τ).loc main_arg7)) 0 (by omega) :=
  ((kept_main_v23_3_5 m ρ c).trans (w23_3 m ρ c))
theorem w24_5 : W5 m ρ c (Proc.devRef .tc main_v24) = Cert.GGNN.bt (m ((c : Thread nD τ).loc main_arg7)) 64 (by omega) :=
  ((kept_main_v24_3_5 m ρ c).trans (w24_3 m ρ c))
theorem w25_5 : W5 m ρ c (Proc.devRef .tc main_v25) = Cert.GGNN.bt (m ((c : Thread nD τ).loc main_arg7)) 128 (by omega) :=
  ((kept_main_v25_3_5 m ρ c).trans (w25_3 m ρ c))
theorem w26_5 : W5 m ρ c (Proc.devRef .tc main_v26) = Cert.GGNN.bt (m ((c : Thread nD τ).loc main_arg8)) 0 (by omega) :=
  ((kept_main_v26_3_5 m ρ c).trans (w26_3 m ρ c))
theorem w27_5 : W5 m ρ c (Proc.devRef .tc main_v27) = Cert.GGNN.bt (m ((c : Thread nD τ).loc main_arg8)) 64 (by omega) :=
  ((kept_main_v27_3_5 m ρ c).trans (w27_3 m ρ c))
theorem w28_5 : W5 m ρ c (Proc.devRef .tc main_v28) = Cert.GGNN.bt (m ((c : Thread nD τ).loc main_arg8)) 128 (by omega) :=
  ((kept_main_v28_3_5 m ρ c).trans (w28_3 m ρ c))
theorem w17_9 : W9 m ρ c (Proc.devRef .tc main_v17) = Cert.GGNN.wt (m ((c : Thread nD τ).loc main_arg5)) 0 (by omega) :=
  ((kept_main_v17_5_9 m ρ c).trans ((kept_main_v17_3_5 m ρ c).trans (w17_3 m ρ c)))
theorem w18_9 : W9 m ρ c (Proc.devRef .tc main_v18) = Cert.GGNN.wt (m ((c : Thread nD τ).loc main_arg5)) 64 (by omega) :=
  ((kept_main_v18_5_9 m ρ c).trans ((kept_main_v18_3_5 m ρ c).trans (w18_3 m ρ c)))
theorem w19_9 : W9 m ρ c (Proc.devRef .tc main_v19) = Cert.GGNN.wt (m ((c : Thread nD τ).loc main_arg5)) 128 (by omega) :=
  ((kept_main_v19_5_9 m ρ c).trans ((kept_main_v19_3_5 m ρ c).trans (w19_3 m ρ c)))
theorem w20_9 : W9 m ρ c (Proc.devRef .tc main_v20) = Cert.GGNN.wt (m ((c : Thread nD τ).loc main_arg6)) 0 (by omega) :=
  ((kept_main_v20_5_9 m ρ c).trans ((kept_main_v20_3_5 m ρ c).trans (w20_3 m ρ c)))
theorem w21_9 : W9 m ρ c (Proc.devRef .tc main_v21) = Cert.GGNN.wt (m ((c : Thread nD τ).loc main_arg6)) 64 (by omega) :=
  ((kept_main_v21_5_9 m ρ c).trans ((kept_main_v21_3_5 m ρ c).trans (w21_3 m ρ c)))
theorem w22_9 : W9 m ρ c (Proc.devRef .tc main_v22) = Cert.GGNN.wt (m ((c : Thread nD τ).loc main_arg6)) 128 (by omega) :=
  ((kept_main_v22_5_9 m ρ c).trans ((kept_main_v22_3_5 m ρ c).trans (w22_3 m ρ c)))
theorem w23_9 : W9 m ρ c (Proc.devRef .tc main_v23) = Cert.GGNN.bt (m ((c : Thread nD τ).loc main_arg7)) 0 (by omega) :=
  ((kept_main_v23_5_9 m ρ c).trans ((kept_main_v23_3_5 m ρ c).trans (w23_3 m ρ c)))
theorem w24_9 : W9 m ρ c (Proc.devRef .tc main_v24) = Cert.GGNN.bt (m ((c : Thread nD τ).loc main_arg7)) 64 (by omega) :=
  ((kept_main_v24_5_9 m ρ c).trans ((kept_main_v24_3_5 m ρ c).trans (w24_3 m ρ c)))
theorem w25_9 : W9 m ρ c (Proc.devRef .tc main_v25) = Cert.GGNN.bt (m ((c : Thread nD τ).loc main_arg7)) 128 (by omega) :=
  ((kept_main_v25_5_9 m ρ c).trans ((kept_main_v25_3_5 m ρ c).trans (w25_3 m ρ c)))
theorem w26_9 : W9 m ρ c (Proc.devRef .tc main_v26) = Cert.GGNN.bt (m ((c : Thread nD τ).loc main_arg8)) 0 (by omega) :=
  ((kept_main_v26_5_9 m ρ c).trans ((kept_main_v26_3_5 m ρ c).trans (w26_3 m ρ c)))
theorem w27_9 : W9 m ρ c (Proc.devRef .tc main_v27) = Cert.GGNN.bt (m ((c : Thread nD τ).loc main_arg8)) 64 (by omega) :=
  ((kept_main_v27_5_9 m ρ c).trans ((kept_main_v27_3_5 m ρ c).trans (w27_3 m ρ c)))
theorem w28_9 : W9 m ρ c (Proc.devRef .tc main_v28) = Cert.GGNN.bt (m ((c : Thread nD τ).loc main_arg8)) 128 (by omega) :=
  ((kept_main_v28_5_9 m ρ c).trans ((kept_main_v28_3_5 m ρ c).trans (w28_3 m ρ c)))
theorem w17_13 : W13 m ρ c (Proc.devRef .tc main_v17) = Cert.GGNN.wt (m ((c : Thread nD τ).loc main_arg5)) 0 (by omega) :=
  ((kept_main_v17_9_13 m ρ c).trans ((kept_main_v17_5_9 m ρ c).trans ((kept_main_v17_3_5 m ρ c).trans (w17_3 m ρ c))))
theorem w18_13 : W13 m ρ c (Proc.devRef .tc main_v18) = Cert.GGNN.wt (m ((c : Thread nD τ).loc main_arg5)) 64 (by omega) :=
  ((kept_main_v18_9_13 m ρ c).trans ((kept_main_v18_5_9 m ρ c).trans ((kept_main_v18_3_5 m ρ c).trans (w18_3 m ρ c))))
theorem w19_13 : W13 m ρ c (Proc.devRef .tc main_v19) = Cert.GGNN.wt (m ((c : Thread nD τ).loc main_arg5)) 128 (by omega) :=
  ((kept_main_v19_9_13 m ρ c).trans ((kept_main_v19_5_9 m ρ c).trans ((kept_main_v19_3_5 m ρ c).trans (w19_3 m ρ c))))
theorem w20_13 : W13 m ρ c (Proc.devRef .tc main_v20) = Cert.GGNN.wt (m ((c : Thread nD τ).loc main_arg6)) 0 (by omega) :=
  ((kept_main_v20_9_13 m ρ c).trans ((kept_main_v20_5_9 m ρ c).trans ((kept_main_v20_3_5 m ρ c).trans (w20_3 m ρ c))))
theorem w21_13 : W13 m ρ c (Proc.devRef .tc main_v21) = Cert.GGNN.wt (m ((c : Thread nD τ).loc main_arg6)) 64 (by omega) :=
  ((kept_main_v21_9_13 m ρ c).trans ((kept_main_v21_5_9 m ρ c).trans ((kept_main_v21_3_5 m ρ c).trans (w21_3 m ρ c))))
theorem w22_13 : W13 m ρ c (Proc.devRef .tc main_v22) = Cert.GGNN.wt (m ((c : Thread nD τ).loc main_arg6)) 128 (by omega) :=
  ((kept_main_v22_9_13 m ρ c).trans ((kept_main_v22_5_9 m ρ c).trans ((kept_main_v22_3_5 m ρ c).trans (w22_3 m ρ c))))
theorem w23_13 : W13 m ρ c (Proc.devRef .tc main_v23) = Cert.GGNN.bt (m ((c : Thread nD τ).loc main_arg7)) 0 (by omega) :=
  ((kept_main_v23_9_13 m ρ c).trans ((kept_main_v23_5_9 m ρ c).trans ((kept_main_v23_3_5 m ρ c).trans (w23_3 m ρ c))))
theorem w24_13 : W13 m ρ c (Proc.devRef .tc main_v24) = Cert.GGNN.bt (m ((c : Thread nD τ).loc main_arg7)) 64 (by omega) :=
  ((kept_main_v24_9_13 m ρ c).trans ((kept_main_v24_5_9 m ρ c).trans ((kept_main_v24_3_5 m ρ c).trans (w24_3 m ρ c))))
theorem w25_13 : W13 m ρ c (Proc.devRef .tc main_v25) = Cert.GGNN.bt (m ((c : Thread nD τ).loc main_arg7)) 128 (by omega) :=
  ((kept_main_v25_9_13 m ρ c).trans ((kept_main_v25_5_9 m ρ c).trans ((kept_main_v25_3_5 m ρ c).trans (w25_3 m ρ c))))
theorem w26_13 : W13 m ρ c (Proc.devRef .tc main_v26) = Cert.GGNN.bt (m ((c : Thread nD τ).loc main_arg8)) 0 (by omega) :=
  ((kept_main_v26_9_13 m ρ c).trans ((kept_main_v26_5_9 m ρ c).trans ((kept_main_v26_3_5 m ρ c).trans (w26_3 m ρ c))))
theorem w27_13 : W13 m ρ c (Proc.devRef .tc main_v27) = Cert.GGNN.bt (m ((c : Thread nD τ).loc main_arg8)) 64 (by omega) :=
  ((kept_main_v27_9_13 m ρ c).trans ((kept_main_v27_5_9 m ρ c).trans ((kept_main_v27_3_5 m ρ c).trans (w27_3 m ρ c))))
theorem w28_13 : W13 m ρ c (Proc.devRef .tc main_v28) = Cert.GGNN.bt (m ((c : Thread nD τ).loc main_arg8)) 128 (by omega) :=
  ((kept_main_v28_9_13 m ρ c).trans ((kept_main_v28_5_9 m ρ c).trans ((kept_main_v28_3_5 m ρ c).trans (w28_3 m ρ c))))
theorem w17_17 : W17 m ρ c (Proc.devRef .tc main_v17) = Cert.GGNN.wt (m ((c : Thread nD τ).loc main_arg5)) 0 (by omega) :=
  ((kept_main_v17_13_17 m ρ c).trans ((kept_main_v17_9_13 m ρ c).trans ((kept_main_v17_5_9 m ρ c).trans ((kept_main_v17_3_5 m ρ c).trans (w17_3 m ρ c)))))
theorem w18_17 : W17 m ρ c (Proc.devRef .tc main_v18) = Cert.GGNN.wt (m ((c : Thread nD τ).loc main_arg5)) 64 (by omega) :=
  ((kept_main_v18_13_17 m ρ c).trans ((kept_main_v18_9_13 m ρ c).trans ((kept_main_v18_5_9 m ρ c).trans ((kept_main_v18_3_5 m ρ c).trans (w18_3 m ρ c)))))
theorem w19_17 : W17 m ρ c (Proc.devRef .tc main_v19) = Cert.GGNN.wt (m ((c : Thread nD τ).loc main_arg5)) 128 (by omega) :=
  ((kept_main_v19_13_17 m ρ c).trans ((kept_main_v19_9_13 m ρ c).trans ((kept_main_v19_5_9 m ρ c).trans ((kept_main_v19_3_5 m ρ c).trans (w19_3 m ρ c)))))
theorem w20_17 : W17 m ρ c (Proc.devRef .tc main_v20) = Cert.GGNN.wt (m ((c : Thread nD τ).loc main_arg6)) 0 (by omega) :=
  ((kept_main_v20_13_17 m ρ c).trans ((kept_main_v20_9_13 m ρ c).trans ((kept_main_v20_5_9 m ρ c).trans ((kept_main_v20_3_5 m ρ c).trans (w20_3 m ρ c)))))
theorem w21_17 : W17 m ρ c (Proc.devRef .tc main_v21) = Cert.GGNN.wt (m ((c : Thread nD τ).loc main_arg6)) 64 (by omega) :=
  ((kept_main_v21_13_17 m ρ c).trans ((kept_main_v21_9_13 m ρ c).trans ((kept_main_v21_5_9 m ρ c).trans ((kept_main_v21_3_5 m ρ c).trans (w21_3 m ρ c)))))
theorem w22_17 : W17 m ρ c (Proc.devRef .tc main_v22) = Cert.GGNN.wt (m ((c : Thread nD τ).loc main_arg6)) 128 (by omega) :=
  ((kept_main_v22_13_17 m ρ c).trans ((kept_main_v22_9_13 m ρ c).trans ((kept_main_v22_5_9 m ρ c).trans ((kept_main_v22_3_5 m ρ c).trans (w22_3 m ρ c)))))
theorem w23_17 : W17 m ρ c (Proc.devRef .tc main_v23) = Cert.GGNN.bt (m ((c : Thread nD τ).loc main_arg7)) 0 (by omega) :=
  ((kept_main_v23_13_17 m ρ c).trans ((kept_main_v23_9_13 m ρ c).trans ((kept_main_v23_5_9 m ρ c).trans ((kept_main_v23_3_5 m ρ c).trans (w23_3 m ρ c)))))
theorem w24_17 : W17 m ρ c (Proc.devRef .tc main_v24) = Cert.GGNN.bt (m ((c : Thread nD τ).loc main_arg7)) 64 (by omega) :=
  ((kept_main_v24_13_17 m ρ c).trans ((kept_main_v24_9_13 m ρ c).trans ((kept_main_v24_5_9 m ρ c).trans ((kept_main_v24_3_5 m ρ c).trans (w24_3 m ρ c)))))
theorem w25_17 : W17 m ρ c (Proc.devRef .tc main_v25) = Cert.GGNN.bt (m ((c : Thread nD τ).loc main_arg7)) 128 (by omega) :=
  ((kept_main_v25_13_17 m ρ c).trans ((kept_main_v25_9_13 m ρ c).trans ((kept_main_v25_5_9 m ρ c).trans ((kept_main_v25_3_5 m ρ c).trans (w25_3 m ρ c)))))
theorem w26_17 : W17 m ρ c (Proc.devRef .tc main_v26) = Cert.GGNN.bt (m ((c : Thread nD τ).loc main_arg8)) 0 (by omega) :=
  ((kept_main_v26_13_17 m ρ c).trans ((kept_main_v26_9_13 m ρ c).trans ((kept_main_v26_5_9 m ρ c).trans ((kept_main_v26_3_5 m ρ c).trans (w26_3 m ρ c)))))
theorem w27_17 : W17 m ρ c (Proc.devRef .tc main_v27) = Cert.GGNN.bt (m ((c : Thread nD τ).loc main_arg8)) 64 (by omega) :=
  ((kept_main_v27_13_17 m ρ c).trans ((kept_main_v27_9_13 m ρ c).trans ((kept_main_v27_5_9 m ρ c).trans ((kept_main_v27_3_5 m ρ c).trans (w27_3 m ρ c)))))
theorem w28_17 : W17 m ρ c (Proc.devRef .tc main_v28) = Cert.GGNN.bt (m ((c : Thread nD τ).loc main_arg8)) 128 (by omega) :=
  ((kept_main_v28_13_17 m ρ c).trans ((kept_main_v28_9_13 m ρ c).trans ((kept_main_v28_5_9 m ρ c).trans ((kept_main_v28_3_5 m ρ c).trans (w28_3 m ρ c)))))

/-! ## Layer 1 -/

/-- The layer's [64, 64] weight, cut out of the stacked array by the host lines. -/
theorem cw1 : W3 m ρ c (Proc.devRef .tc main_v30) = (Cert.GGNN.R.cw0 (m ((c : Thread nD τ).loc main_arg4))) :=
  (host1_v30 (W2 m ρ c)).trans (congrArg (Cert.GGNN.R.cw0) (kept_main_arg4_0_2 m ρ c))
/-- The hidden state at the product region's entry. -/
theorem hin1a : W3 m ρ c (Proc.devRef .tc main_v4) = (Cert.GGNN.R.h0 (m ((c : Thread nD τ).loc main_arg0)) (m ((c : Thread nD τ).loc main_arg2))) :=
  (kept_main_v4_2_3 m ρ c).trans (st0 m ρ c)
/-- The messages: the hidden state times the layer's weight. -/
theorem msg1 : W4 m ρ c (Proc.devRef .tc main_v31) = Cert.GGNN.mm (Cert.GGNN.R.h0 (m ((c : Thread nD τ).loc main_arg0)) (m ((c : Thread nD τ).loc main_arg2))) (Cert.GGNN.R.cw0 (m ((c : Thread nD τ).loc main_arg4))) :=
  (W4_arr m ρ c 2).trans ((final1 (V3 m ρ) c).trans
    (congr (congrArg (Cert.GGNN.mm (a := 100000) (k := 64) (n := 64)) (hin1a m ρ c)) (cw1 m ρ c)))
/-- The aggregated messages. -/
theorem agg1 : W5 m ρ c (Proc.devRef .tc main_v41) = (Cert.GGNN.R.agg (Cert.GGNN.R.srcOf (m ((c : Thread nD τ).loc main_arg1))) (Cert.GGNN.R.dstOf (m ((c : Thread nD τ).loc main_arg1))) (Cert.GGNN.mm (Cert.GGNN.R.h0 (m ((c : Thread nD τ).loc main_arg0)) (m ((c : Thread nD τ).loc main_arg2))) (Cert.GGNN.R.cw0 (m ((c : Thread nD τ).loc main_arg4))))) :=
  (host2_v41 (W4 m ρ c)).trans
    (congr (congr (congrArg Cert.GGNN.R.agg (src4 m ρ c)) (dst4 m ρ c)) (msg1 m ρ c))
/-- The hidden state at the GRU region's entry. -/
theorem hin1b : W5 m ρ c (Proc.devRef .tc main_v4) = (Cert.GGNN.R.h0 (m ((c : Thread nD τ).loc main_arg0)) (m ((c : Thread nD τ).loc main_arg2))) :=
  (kept_main_v4_3_5 m ρ c).trans (hin1a m ρ c)
/-- After the GRU region the hidden state is h1. -/
theorem st1 : W6 m ρ c (Proc.devRef .tc main_v42) = (Cert.GGNN.R.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (W6_arr m ρ c 14).trans ((final2 (V5 m ρ) c).trans ((layerW_congr (agg1 m ρ c) (hin1b m ρ c) (w17_5 m ρ c) (w18_5 m ρ c) (w19_5 m ρ c) (w20_5 m ρ c) (w21_5 m ρ c) (w22_5 m ρ c) (w23_5 m ρ c) (w24_5 m ρ c) (w25_5 m ρ c) (w26_5 m ρ c) (w27_5 m ρ c) (w28_5 m ρ c)).trans
    (Cert.GGNN.layer_eq _ _ _ _ _ _).symm))

/-! ## Layer 2 -/

/-- The layer's [64, 64] weight, cut out of the stacked array by the host lines. -/
theorem cw2 : W7 m ρ c (Proc.devRef .tc main_v44) = (Cert.GGNN.R.cw1 (m ((c : Thread nD τ).loc main_arg4))) :=
  (host3_v44 (W6 m ρ c)).trans (congrArg (Cert.GGNN.R.cw1) ((kept_main_arg4_2_6 m ρ c).trans (kept_main_arg4_0_2 m ρ c)))
/-- The hidden state at the product region's entry. -/
theorem hin2a : W7 m ρ c (Proc.devRef .tc main_v42) = (Cert.GGNN.R.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (kept_main_v42_6_7 m ρ c).trans (st1 m ρ c)
/-- The messages: the hidden state times the layer's weight. -/
theorem msg2 : W8 m ρ c (Proc.devRef .tc main_v45) = Cert.GGNN.mm (Cert.GGNN.R.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (Cert.GGNN.R.cw1 (m ((c : Thread nD τ).loc main_arg4))) :=
  (W8_arr m ρ c 2).trans ((final3 (V7 m ρ) c).trans
    (congr (congrArg (Cert.GGNN.mm (a := 100000) (k := 64) (n := 64)) (hin2a m ρ c)) (cw2 m ρ c)))
/-- The aggregated messages. -/
theorem agg2 : W9 m ρ c (Proc.devRef .tc main_v55) = (Cert.GGNN.R.agg (Cert.GGNN.R.srcOf (m ((c : Thread nD τ).loc main_arg1))) (Cert.GGNN.R.dstOf (m ((c : Thread nD τ).loc main_arg1))) (Cert.GGNN.mm (Cert.GGNN.R.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (Cert.GGNN.R.cw1 (m ((c : Thread nD τ).loc main_arg4))))) :=
  (host4_v55 (W8 m ρ c)).trans
    (congr (congr (congrArg Cert.GGNN.R.agg (src8 m ρ c)) (dst8 m ρ c)) (msg2 m ρ c))
/-- The hidden state at the GRU region's entry. -/
theorem hin2b : W9 m ρ c (Proc.devRef .tc main_v42) = (Cert.GGNN.R.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (kept_main_v42_7_9 m ρ c).trans (hin2a m ρ c)
/-- After the GRU region the hidden state is h2. -/
theorem st2 : W10 m ρ c (Proc.devRef .tc main_v56) = (Cert.GGNN.R.h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (W10_arr m ρ c 14).trans ((final4 (V9 m ρ) c).trans ((layerW_congr (agg2 m ρ c) (hin2b m ρ c) (w17_9 m ρ c) (w18_9 m ρ c) (w19_9 m ρ c) (w20_9 m ρ c) (w21_9 m ρ c) (w22_9 m ρ c) (w23_9 m ρ c) (w24_9 m ρ c) (w25_9 m ρ c) (w26_9 m ρ c) (w27_9 m ρ c) (w28_9 m ρ c)).trans
    (Cert.GGNN.layer_eq _ _ _ _ _ _).symm))

/-! ## Layer 3 -/

/-- The layer's [64, 64] weight, cut out of the stacked array by the host lines. -/
theorem cw3 : W11 m ρ c (Proc.devRef .tc main_v58) = (Cert.GGNN.R.cw2 (m ((c : Thread nD τ).loc main_arg4))) :=
  (host5_v58 (W10 m ρ c)).trans (congrArg (Cert.GGNN.R.cw2) ((kept_main_arg4_6_10 m ρ c).trans ((kept_main_arg4_2_6 m ρ c).trans (kept_main_arg4_0_2 m ρ c))))
/-- The hidden state at the product region's entry. -/
theorem hin3a : W11 m ρ c (Proc.devRef .tc main_v56) = (Cert.GGNN.R.h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (kept_main_v56_10_11 m ρ c).trans (st2 m ρ c)
/-- The messages: the hidden state times the layer's weight. -/
theorem msg3 : W12 m ρ c (Proc.devRef .tc main_v59) = Cert.GGNN.mm (Cert.GGNN.R.h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (Cert.GGNN.R.cw2 (m ((c : Thread nD τ).loc main_arg4))) :=
  (W12_arr m ρ c 2).trans ((final5 (V11 m ρ) c).trans
    (congr (congrArg (Cert.GGNN.mm (a := 100000) (k := 64) (n := 64)) (hin3a m ρ c)) (cw3 m ρ c)))
/-- The aggregated messages. -/
theorem agg3 : W13 m ρ c (Proc.devRef .tc main_v69) = (Cert.GGNN.R.agg (Cert.GGNN.R.srcOf (m ((c : Thread nD τ).loc main_arg1))) (Cert.GGNN.R.dstOf (m ((c : Thread nD τ).loc main_arg1))) (Cert.GGNN.mm (Cert.GGNN.R.h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (Cert.GGNN.R.cw2 (m ((c : Thread nD τ).loc main_arg4))))) :=
  (host6_v69 (W12 m ρ c)).trans
    (congr (congr (congrArg Cert.GGNN.R.agg (src12 m ρ c)) (dst12 m ρ c)) (msg3 m ρ c))
/-- The hidden state at the GRU region's entry. -/
theorem hin3b : W13 m ρ c (Proc.devRef .tc main_v56) = (Cert.GGNN.R.h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (kept_main_v56_11_13 m ρ c).trans (hin3a m ρ c)
/-- After the GRU region the hidden state is h3. -/
theorem st3 : W14 m ρ c (Proc.devRef .tc main_v70) = (Cert.GGNN.R.h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (W14_arr m ρ c 14).trans ((final6 (V13 m ρ) c).trans ((layerW_congr (agg3 m ρ c) (hin3b m ρ c) (w17_13 m ρ c) (w18_13 m ρ c) (w19_13 m ρ c) (w20_13 m ρ c) (w21_13 m ρ c) (w22_13 m ρ c) (w23_13 m ρ c) (w24_13 m ρ c) (w25_13 m ρ c) (w26_13 m ρ c) (w27_13 m ρ c) (w28_13 m ρ c)).trans
    (Cert.GGNN.layer_eq _ _ _ _ _ _).symm))

/-! ## Layer 4 -/

/-- The layer's [64, 64] weight, cut out of the stacked array by the host lines. -/
theorem cw4 : W15 m ρ c (Proc.devRef .tc main_v72) = (Cert.GGNN.R.cw3 (m ((c : Thread nD τ).loc main_arg4))) :=
  (host7_v72 (W14 m ρ c)).trans (congrArg (Cert.GGNN.R.cw3) ((kept_main_arg4_10_14 m ρ c).trans ((kept_main_arg4_6_10 m ρ c).trans ((kept_main_arg4_2_6 m ρ c).trans (kept_main_arg4_0_2 m ρ c)))))
/-- The hidden state at the product region's entry. -/
theorem hin4a : W15 m ρ c (Proc.devRef .tc main_v70) = (Cert.GGNN.R.h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (kept_main_v70_14_15 m ρ c).trans (st3 m ρ c)
/-- The messages: the hidden state times the layer's weight. -/
theorem msg4 : W16 m ρ c (Proc.devRef .tc main_v73) = Cert.GGNN.mm (Cert.GGNN.R.h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (Cert.GGNN.R.cw3 (m ((c : Thread nD τ).loc main_arg4))) :=
  (W16_arr m ρ c 2).trans ((final7 (V15 m ρ) c).trans
    (congr (congrArg (Cert.GGNN.mm (a := 100000) (k := 64) (n := 64)) (hin4a m ρ c)) (cw4 m ρ c)))
/-- The aggregated messages. -/
theorem agg4 : W17 m ρ c (Proc.devRef .tc main_v83) = (Cert.GGNN.R.agg (Cert.GGNN.R.srcOf (m ((c : Thread nD τ).loc main_arg1))) (Cert.GGNN.R.dstOf (m ((c : Thread nD τ).loc main_arg1))) (Cert.GGNN.mm (Cert.GGNN.R.h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (Cert.GGNN.R.cw3 (m ((c : Thread nD τ).loc main_arg4))))) :=
  (host8_v83 (W16 m ρ c)).trans
    (congr (congr (congrArg Cert.GGNN.R.agg (src16 m ρ c)) (dst16 m ρ c)) (msg4 m ρ c))
/-- The hidden state at the GRU region's entry. -/
theorem hin4b : W17 m ρ c (Proc.devRef .tc main_v70) = (Cert.GGNN.R.h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (kept_main_v70_15_17 m ρ c).trans (hin4a m ρ c)
/-- After the GRU region the hidden state is h4. -/
theorem st4 : W18 m ρ c (Proc.devRef .tc main_v84) = (Cert.GGNN.R.h4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (W18_arr m ρ c 14).trans ((final8 (V17 m ρ) c).trans ((layerW_congr (agg4 m ρ c) (hin4b m ρ c) (w17_17 m ρ c) (w18_17 m ρ c) (w19_17 m ρ c) (w20_17 m ρ c) (w21_17 m ρ c) (w22_17 m ρ c) (w23_17 m ρ c) (w24_17 m ρ c) (w25_17 m ρ c) (w26_17 m ρ c) (w27_17 m ρ c) (w28_17 m ρ c)).trans
    (Cert.GGNN.layer_eq _ _ _ _ _ _).symm))

/-! ## The output stage -/

/-- The result buffer after the last region: the kernel's arrangement of the log-softmax of h4 · W_out. -/
theorem result : W19 m ρ c (Proc.devRef .tc main_v85) = outArr (Cert.GGNN.R.h4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg3)) :=
  (W19_arr m ρ c 2).trans ((final9 (V18 m ρ) c).trans
    (congr (congrArg outArr (st4 m ρ c)) (kept_main_arg3_0_18 m ρ c)))

end Cert.GGNN.K

end
-- ==== Proof.RefOps.lean ====
/-
  The reference program as a list of its host operations, cut into ten stretches: the edge numbers and the first hidden
  state; then, for each of the four layers, the messages (the layer's weight cut out, the product, the aggregation) and the
  GRU stage; then the output stage.  The program IS the sequence of the ten stretches joined, and every weakly fair
  execution terminates with each buffer at the stretches' fold over the launch contents.
-/
import proofs.«167651_j43568148251382_1_alg».proof.Proof.Gen.ReferenceIdeal
import Idealize.ShloMosaic.Lib.StableHlo.Run

noncomputable section

namespace Cert.GGNN.R

open Cert.ReferenceIdeal Cert.ReferenceIdeal.Gen Idealize.ShloMosaic Idealize.ShloMosaic.TcCoe Idealize.SL.Sem Idealize.ShloMosaic.StableHlo

variable {F : FTy → Type} [FloatOps F]

/-- Stretch S0: 5 operations, ending at main_v4. -/
abbrev segS0 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    binary main_arg0 main_arg2 main_v4 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)) ]

set_option maxRecDepth 8192 in
theorem segS0_sub : (segS0 : List (HloOp τ sig (Elt F))).Forall fun op => op.bufs ⊆ tcRefs τ sig :=
  ⟨unary_bufs_sub .., reshape_bufs_sub .., unary_bufs_sub .., reshape_bufs_sub .., binary_bufs_sub ..⟩

/-- Stretch M1: 16 operations, ending at main_v17. -/
abbrev segM1 : List (HloOp τ sig (Elt F)) :=
  [ unary main_arg4 main_v5 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v5 main_v6 rfl shapeCasts_S1x64x64_S64x64,
    binary main_v4 main_v6 main_v7 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c (constantI S_ 32 0#32),
    unary main_c main_v8 (broadcastInDim S1200000 ![] bcast_S_S1200000 : (⟨S_, .i32⟩ : BufTy).Contents (Elt F) → (⟨S1200000, .i32⟩ : BufTy).Contents (Elt F)),
    binary main_v1 main_v8 main_v9 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v10 (broadcastInDim S1200000 ![] bcast_S_S1200000 : (⟨S_, .i32⟩ : BufTy).Contents (Elt F) → (⟨S1200000, .i32⟩ : BufTy).Contents (Elt F)),
    binary main_v1 main_v10 main_v11 (addi : (⟨S1200000, .i32⟩ : BufTy).Contents (Elt F) → (⟨S1200000, .i32⟩ : BufTy).Contents (Elt F) → (⟨S1200000, .i32⟩ : BufTy).Contents (Elt F)),
    ternary main_v9 main_v11 main_v1 main_v12 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v12 main_v13 (broadcastInDim S1200000x1 ![0] bcast_S1200000_S1200000x1_0 : (⟨S1200000, .i32⟩ : BufTy).Contents (Elt F) → (⟨S1200000x1, .i32⟩ : BufTy).Contents (Elt F)),
    binary main_v7 main_v13 main_v14 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst (constant S_ .f32 0x00000000#32),
    unary main_cst main_v15 (broadcastInDim S100000x64 ![] bcast_S_S100000x64 : (⟨S_, .f32⟩ : BufTy).Contents (Elt F) → (⟨S100000x64, .f32⟩ : BufTy).Contents (Elt F)),
    unary main_v3 main_v16 (broadcastInDim S1200000x1 ![0] bcast_S1200000_S1200000x1_0 : (⟨S1200000, .i32⟩ : BufTy).Contents (Elt F) → (⟨S1200000x1, .i32⟩ : BufTy).Contents (Elt F)),
    ternary main_v15 main_v16 main_v14 main_v17 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

set_option maxRecDepth 8192 in
theorem segM1_sub : (segM1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- Stretch G1: 43 operations, ending at main_v55. -/
abbrev segG1 : List (HloOp τ sig (Elt F)) :=
  [ unary main_arg5 main_v18 ((transpose S64x192 [1, 0] · transposes_S192x64_S64x192_1_0) : (⟨S192x64, .f32⟩ : BufTy).Contents (Elt F) → (⟨S64x192, .f32⟩ : BufTy).Contents (Elt F)),
    binary main_v17 main_v18 main_v19 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg7 main_v20 (broadcastInDim S1x192 ![1] bcast_S192_S1x192_1 : (⟨S192, .f32⟩ : BufTy).Contents (Elt F) → (⟨S1x192, .f32⟩ : BufTy).Contents (Elt F)),
    unary main_v20 main_v21 (broadcastInDim S100000x192 ![0, 1] bcast_S1x192_S100000x192_0_1 : (⟨S1x192, .f32⟩ : BufTy).Contents (Elt F) → (⟨S100000x192, .f32⟩ : BufTy).Contents (Elt F)),
    binary main_v19 main_v21 main_v22 (addf : (⟨S100000x192, .f32⟩ : BufTy).Contents (Elt F) → (⟨S100000x192, .f32⟩ : BufTy).Contents (Elt F) → (⟨S100000x192, .f32⟩ : BufTy).Contents (Elt F)),
    unary main_arg6 main_v23 ((transpose S64x192 [1, 0] · transposes_S192x64_S64x192_1_0) : (⟨S192x64, .f32⟩ : BufTy).Contents (Elt F) → (⟨S64x192, .f32⟩ : BufTy).Contents (Elt F)),
    binary main_v4 main_v23 main_v24 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg8 main_v25 (broadcastInDim S1x192 ![1] bcast_S192_S1x192_1 : (⟨S192, .f32⟩ : BufTy).Contents (Elt F) → (⟨S1x192, .f32⟩ : BufTy).Contents (Elt F)),
    unary main_v25 main_v26 (broadcastInDim S100000x192 ![0, 1] bcast_S1x192_S100000x192_0_1 : (⟨S1x192, .f32⟩ : BufTy).Contents (Elt F) → (⟨S100000x192, .f32⟩ : BufTy).Contents (Elt F)),
    binary main_v24 main_v26 main_v27 (addf : (⟨S100000x192, .f32⟩ : BufTy).Contents (Elt F) → (⟨S100000x192, .f32⟩ : BufTy).Contents (Elt F) → (⟨S100000x192, .f32⟩ : BufTy).Contents (Elt F)),
    unary main_v22 main_v28 ((extractStridedSlice S100000x64 ![0, 0] · slices_S100000x192_S100000x64_0_0) : (⟨S100000x192, .f32⟩ : BufTy).Contents (Elt F) → (⟨S100000x64, .f32⟩ : BufTy).Contents (Elt F)),
    unary main_v22 main_v29 ((extractStridedSlice S100000x64 ![0, 64] · slices_S100000x192_S100000x64_0_64) : (⟨S100000x192, .f32⟩ : BufTy).Contents (Elt F) → (⟨S100000x64, .f32⟩ : BufTy).Contents (Elt F)),
    unary main_v22 main_v30 ((extractStridedSlice S100000x64 ![0, 128] · slices_S100000x192_S100000x64_0_128) : (⟨S100000x192, .f32⟩ : BufTy).Contents (Elt F) → (⟨S100000x64, .f32⟩ : BufTy).Contents (Elt F)),
    unary main_v27 main_v31 ((extractStridedSlice S100000x64 ![0, 0] · slices_S100000x192_S100000x64_0_0) : (⟨S100000x192, .f32⟩ : BufTy).Contents (Elt F) → (⟨S100000x64, .f32⟩ : BufTy).Contents (Elt F)),
    unary main_v27 main_v32 ((extractStridedSlice S100000x64 ![0, 64] · slices_S100000x192_S100000x64_0_64) : (⟨S100000x192, .f32⟩ : BufTy).Contents (Elt F) → (⟨S100000x64, .f32⟩ : BufTy).Contents (Elt F)),
    unary main_v27 main_v33 ((extractStridedSlice S100000x64 ![0, 128] · slices_S100000x192_S100000x64_0_128) : (⟨S100000x192, .f32⟩ : BufTy).Contents (Elt F) → (⟨S100000x64, .f32⟩ : BufTy).Contents (Elt F)),
    binary main_v28 main_v31 main_v34 (addf : (⟨S100000x64, .f32⟩ : BufTy).Contents (Elt F) → (⟨S100000x64, .f32⟩ : BufTy).Contents (Elt F) → (⟨S100000x64, .f32⟩ : BufTy).Contents (Elt F)),
    unary main_v34 main_v35 (Host.negf : (⟨S100000x64, .f32⟩ : BufTy).Contents (Elt F) → (⟨S100000x64, .f32⟩ : BufTy).Contents (Elt F)),
    unary main_v35 main_v36 (Host.exp : (⟨S100000x64, .f32⟩ : BufTy).Contents (Elt F) → (⟨S100000x64, .f32⟩ : BufTy).Contents (Elt F)),
    nullary main_cst_1 (constant S_ .f32 0x3F800000#32),
    unary main_cst_1 main_v37 (broadcastInDim S100000x64 ![] bcast_S_S100000x64 : (⟨S_, .f32⟩ : BufTy).Contents (Elt F) → (⟨S100000x64, .f32⟩ : BufTy).Contents (Elt F)),
    binary main_v37 main_v36 main_v38 (addf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x3F800000#32),
    unary main_cst_2 main_v39 (broadcastInDim S100000x64 ![] bcast_S_S100000x64 : (⟨S_, .f32⟩ : BufTy).Contents (Elt F) → (⟨S100000x64, .f32⟩ : BufTy).Contents (Elt F)),
    binary main_v39 main_v38 main_v40 (Host.divf : (⟨S100000x64, .f32⟩ : BufTy).Contents (Elt F) → (⟨S100000x64, .f32⟩ : BufTy).Contents (Elt F) → (⟨S100000x64, .f32⟩ : BufTy).Contents (Elt F)),
    binary main_v29 main_v32 main_v41 (addf : (⟨S100000x64, .f32⟩ : BufTy).Contents (Elt F) → (⟨S100000x64, .f32⟩ : BufTy).Contents (Elt F) → (⟨S100000x64, .f32⟩ : BufTy).Contents (Elt F)),
    unary main_v41 main_v42 (Host.negf : (⟨S100000x64, .f32⟩ : BufTy).Contents (Elt F) → (⟨S100000x64, .f32⟩ : BufTy).Contents (Elt F)),
    unary main_v42 main_v43 (Host.exp : (⟨S100000x64, .f32⟩ : BufTy).Contents (Elt F) → (⟨S100000x64, .f32⟩ : BufTy).Contents (Elt F)),
    nullary main_cst_3 (constant S_ .f32 0x3F800000#32),
    unary main_cst_3 main_v44 (broadcastInDim S100000x64 ![] bcast_S_S100000x64 : (⟨S_, .f32⟩ : BufTy).Contents (Elt F) → (⟨S100000x64, .f32⟩ : BufTy).Contents (Elt F)),
    binary main_v44 main_v43 main_v45 (addf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3F800000#32),
    unary main_cst_4 main_v46 (broadcastInDim S100000x64 ![] bcast_S_S100000x64 : (⟨S_, .f32⟩ : BufTy).Contents (Elt F) → (⟨S100000x64, .f32⟩ : BufTy).Contents (Elt F)),
    binary main_v46 main_v45 main_v47 (Host.divf : (⟨S100000x64, .f32⟩ : BufTy).Contents (Elt F) → (⟨S100000x64, .f32⟩ : BufTy).Contents (Elt F) → (⟨S100000x64, .f32⟩ : BufTy).Contents (Elt F)),
    binary main_v40 main_v33 main_v48 (mulf : (⟨S100000x64, .f32⟩ : BufTy).Contents (Elt F) → (⟨S100000x64, .f32⟩ : BufTy).Contents (Elt F) → (⟨S100000x64, .f32⟩ : BufTy).Contents (Elt F)),
    binary main_v30 main_v48 main_v49 (addf : (⟨S100000x64, .f32⟩ : BufTy).Contents (Elt F) → (⟨S100000x64, .f32⟩ : BufTy).Contents (Elt F) → (⟨S100000x64, .f32⟩ : BufTy).Contents (Elt F)),
    unary main_v49 main_v50 (Host.tanh : (⟨S100000x64, .f32⟩ : BufTy).Contents (Elt F) → (⟨S100000x64, .f32⟩ : BufTy).Contents (Elt F)),
    nullary main_cst_5 (constant S_ .f32 0x3F800000#32),
    unary main_cst_5 main_v51 (broadcastInDim S100000x64 ![] bcast_S_S100000x64 : (⟨S_, .f32⟩ : BufTy).Contents (Elt F) → (⟨S100000x64, .f32⟩ : BufTy).Contents (Elt F)),
    binary main_v51 main_v47 main_v52 (subf : (⟨S100000x64, .f32⟩ : BufTy).Contents (Elt F) → (⟨S100000x64, .f32⟩ : BufTy).Contents (Elt F) → (⟨S100000x64, .f32⟩ : BufTy).Contents (Elt F)),
    binary main_v52 main_v50 main_v53 (mulf : (⟨S100000x64, .f32⟩ : BufTy).Contents (Elt F) → (⟨S100000x64, .f32⟩ : BufTy).Contents (Elt F) → (⟨S100000x64, .f32⟩ : BufTy).Contents (Elt F)),
    binary main_v47 main_v4 main_v54 (mulf : (⟨S100000x64, .f32⟩ : BufTy).Contents (Elt F) → (⟨S100000x64, .f32⟩ : BufTy).Contents (Elt F) → (⟨S100000x64, .f32⟩ : BufTy).Contents (Elt F)),
    binary main_v53 main_v54 main_v55 (addf : (⟨S100000x64, .f32⟩ : BufTy).Contents (Elt F) → (⟨S100000x64, .f32⟩ : BufTy).Contents (Elt F) → (⟨S100000x64, .f32⟩ : BufTy).Contents (Elt F)) ]

set_option maxRecDepth 8192 in
theorem segG1_sub : (segG1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

/-- Stretch M2: 16 operations, ending at main_v68. -/
abbrev segM2 : List (HloOp τ sig (Elt F)) :=
  [ unary main_arg4 main_v56 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v56 main_v57 rfl shapeCasts_S1x64x64_S64x64,
    binary main_v55 main_v57 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v59 (broadcastInDim S1200000 ![] bcast_S_S1200000 : (⟨S_, .i32⟩ : BufTy).Contents (Elt F) → (⟨S1200000, .i32⟩ : BufTy).Contents (Elt F)),
    binary main_v1 main_v59 main_v60 (cmpi .slt : (⟨S1200000, .i32⟩ : BufTy).Contents (Elt F) → (⟨S1200000, .i32⟩ : BufTy).Contents (Elt F) → (⟨S1200000, .i1⟩ : BufTy).Contents (Elt F)),
    nullary main_c_7 (constantI S_ 32 100000#32),
    unary main_c_7 main_v61 (broadcastInDim S1200000 ![] bcast_S_S1200000 : (⟨S_, .i32⟩ : BufTy).Contents (Elt F) → (⟨S1200000, .i32⟩ : BufTy).Contents (Elt F)),
    binary main_v1 main_v61 main_v62 (addi : (⟨S1200000, .i32⟩ : BufTy).Contents (Elt F) → (⟨S1200000, .i32⟩ : BufTy).Contents (Elt F) → (⟨S1200000, .i32⟩ : BufTy).Contents (Elt F)),
    ternary main_v60 main_v62 main_v1 main_v63 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v63 main_v64 (broadcastInDim S1200000x1 ![0] bcast_S1200000_S1200000x1_0 : (⟨S1200000, .i32⟩ : BufTy).Contents (Elt F) → (⟨S1200000x1, .i32⟩ : BufTy).Contents (Elt F)),
    binary main_v58 main_v64 main_v65 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_8 (constant S_ .f32 0x00000000#32),
    unary main_cst_8 main_v66 (broadcastInDim S100000x64 ![] bcast_S_S100000x64 : (⟨S_, .f32⟩ : BufTy).Contents (Elt F) → (⟨S100000x64, .f32⟩ : BufTy).Contents (Elt F)),
    unary main_v3 main_v67 (broadcastInDim S1200000x1 ![0] bcast_S1200000_S1200000x1_0 : (⟨S1200000, .i32⟩ : BufTy).Contents (Elt F) → (⟨S1200000x1, .i32⟩ : BufTy).Contents (Elt F)),
    ternary main_v66 main_v67 main_v65 main_v68 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

set_option maxRecDepth 8192 in
theorem segM2_sub : (segM2 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- Stretch G2: 43 operations, ending at main_v106. -/
abbrev segG2 : List (HloOp τ sig (Elt F)) :=
  [ unary main_arg5 main_v69 ((transpose S64x192 [1, 0] · transposes_S192x64_S64x192_1_0) : (⟨S192x64, .f32⟩ : BufTy).Contents (Elt F) → (⟨S64x192, .f32⟩ : BufTy).Contents (Elt F)),
    binary main_v68 main_v69 main_v70 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg7 main_v71 (broadcastInDim S1x192 ![1] bcast_S192_S1x192_1 : (⟨S192, .f32⟩ : BufTy).Contents (Elt F) → (⟨S1x192, .f32⟩ : BufTy).Contents (Elt F)),
    unary main_v71 main_v72 (broadcastInDim S100000x192 ![0, 1] bcast_S1x192_S100000x192_0_1 : (⟨S1x192, .f32⟩ : BufTy).Contents (Elt F) → (⟨S100000x192, .f32⟩ : BufTy).Contents (Elt F)),
    binary main_v70 main_v72 main_v73 (addf : (⟨S100000x192, .f32⟩ : BufTy).Contents (Elt F) → (⟨S100000x192, .f32⟩ : BufTy).Contents (Elt F) → (⟨S100000x192, .f32⟩ : BufTy).Contents (Elt F)),
    unary main_arg6 main_v74 ((transpose S64x192 [1, 0] · transposes_S192x64_S64x192_1_0) : (⟨S192x64, .f32⟩ : BufTy).Contents (Elt F) → (⟨S64x192, .f32⟩ : BufTy).Contents (Elt F)),
    binary main_v55 main_v74 main_v75 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg8 main_v76 (broadcastInDim S1x192 ![1] bcast_S192_S1x192_1 : (⟨S192, .f32⟩ : BufTy).Contents (Elt F) → (⟨S1x192, .f32⟩ : BufTy).Contents (Elt F)),
    unary main_v76 main_v77 (broadcastInDim S100000x192 ![0, 1] bcast_S1x192_S100000x192_0_1 : (⟨S1x192, .f32⟩ : BufTy).Contents (Elt F) → (⟨S100000x192, .f32⟩ : BufTy).Contents (Elt F)),
    binary main_v75 main_v77 main_v78 (addf : (⟨S100000x192, .f32⟩ : BufTy).Contents (Elt F) → (⟨S100000x192, .f32⟩ : BufTy).Contents (Elt F) → (⟨S100000x192, .f32⟩ : BufTy).Contents (Elt F)),
    unary main_v73 main_v79 ((extractStridedSlice S100000x64 ![0, 0] · slices_S100000x192_S100000x64_0_0) : (⟨S100000x192, .f32⟩ : BufTy).Contents (Elt F) → (⟨S100000x64, .f32⟩ : BufTy).Contents (Elt F)),
    unary main_v73 main_v80 ((extractStridedSlice S100000x64 ![0, 64] · slices_S100000x192_S100000x64_0_64) : (⟨S100000x192, .f32⟩ : BufTy).Contents (Elt F) → (⟨S100000x64, .f32⟩ : BufTy).Contents (Elt F)),
    unary main_v73 main_v81 ((extractStridedSlice S100000x64 ![0, 128] · slices_S100000x192_S100000x64_0_128) : (⟨S100000x192, .f32⟩ : BufTy).Contents (Elt F) → (⟨S100000x64, .f32⟩ : BufTy).Contents (Elt F)),
    unary main_v78 main_v82 ((extractStridedSlice S100000x64 ![0, 0] · slices_S100000x192_S100000x64_0_0) : (⟨S100000x192, .f32⟩ : BufTy).Contents (Elt F) → (⟨S100000x64, .f32⟩ : BufTy).Contents (Elt F)),
    unary main_v78 main_v83 ((extractStridedSlice S100000x64 ![0, 64] · slices_S100000x192_S100000x64_0_64) : (⟨S100000x192, .f32⟩ : BufTy).Contents (Elt F) → (⟨S100000x64, .f32⟩ : BufTy).Contents (Elt F)),
    unary main_v78 main_v84 ((extractStridedSlice S100000x64 ![0, 128] · slices_S100000x192_S100000x64_0_128) : (⟨S100000x192, .f32⟩ : BufTy).Contents (Elt F) → (⟨S100000x64, .f32⟩ : BufTy).Contents (Elt F)),
    binary main_v79 main_v82 main_v85 (addf : (⟨S100000x64, .f32⟩ : BufTy).Contents (Elt F) → (⟨S100000x64, .f32⟩ : BufTy).Contents (Elt F) → (⟨S100000x64, .f32⟩ : BufTy).Contents (Elt F)),
    unary main_v85 main_v86 (Host.negf : (⟨S100000x64, .f32⟩ : BufTy).Contents (Elt F) → (⟨S100000x64, .f32⟩ : BufTy).Contents (Elt F)),
    unary main_v86 main_v87 (Host.exp : (⟨S100000x64, .f32⟩ : BufTy).Contents (Elt F) → (⟨S100000x64, .f32⟩ : BufTy).Contents (Elt F)),
    nullary main_cst_9 (constant S_ .f32 0x3F800000#32),
    unary main_cst_9 main_v88 (broadcastInDim S100000x64 ![] bcast_S_S100000x64 : (⟨S_, .f32⟩ : BufTy).Contents (Elt F) → (⟨S100000x64, .f32⟩ : BufTy).Contents (Elt F)),
    binary main_v88 main_v87 main_v89 (addf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3F800000#32),
    unary main_cst_10 main_v90 (broadcastInDim S100000x64 ![] bcast_S_S100000x64 : (⟨S_, .f32⟩ : BufTy).Contents (Elt F) → (⟨S100000x64, .f32⟩ : BufTy).Contents (Elt F)),
    binary main_v90 main_v89 main_v91 (Host.divf : (⟨S100000x64, .f32⟩ : BufTy).Contents (Elt F) → (⟨S100000x64, .f32⟩ : BufTy).Contents (Elt F) → (⟨S100000x64, .f32⟩ : BufTy).Contents (Elt F)),
    binary main_v80 main_v83 main_v92 (addf : (⟨S100000x64, .f32⟩ : BufTy).Contents (Elt F) → (⟨S100000x64, .f32⟩ : BufTy).Contents (Elt F) → (⟨S100000x64, .f32⟩ : BufTy).Contents (Elt F)),
    unary main_v92 main_v93 (Host.negf : (⟨S100000x64, .f32⟩ : BufTy).Contents (Elt F) → (⟨S100000x64, .f32⟩ : BufTy).Contents (Elt F)),
    unary main_v93 main_v94 (Host.exp : (⟨S100000x64, .f32⟩ : BufTy).Contents (Elt F) → (⟨S100000x64, .f32⟩ : BufTy).Contents (Elt F)),
    nullary main_cst_11 (constant S_ .f32 0x3F800000#32),
    unary main_cst_11 main_v95 (broadcastInDim S100000x64 ![] bcast_S_S100000x64 : (⟨S_, .f32⟩ : BufTy).Contents (Elt F) → (⟨S100000x64, .f32⟩ : BufTy).Contents (Elt F)),
    binary main_v95 main_v94 main_v96 (addf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3F800000#32),
    unary main_cst_12 main_v97 (broadcastInDim S100000x64 ![] bcast_S_S100000x64 : (⟨S_, .f32⟩ : BufTy).Contents (Elt F) → (⟨S100000x64, .f32⟩ : BufTy).Contents (Elt F)),
    binary main_v97 main_v96 main_v98 (Host.divf : (⟨S100000x64, .f32⟩ : BufTy).Contents (Elt F) → (⟨S100000x64, .f32⟩ : BufTy).Contents (Elt F) → (⟨S100000x64, .f32⟩ : BufTy).Contents (Elt F)),
    binary main_v91 main_v84 main_v99 (mulf : (⟨S100000x64, .f32⟩ : BufTy).Contents (Elt F) → (⟨S100000x64, .f32⟩ : BufTy).Contents (Elt F) → (⟨S100000x64, .f32⟩ : BufTy).Contents (Elt F)),
    binary main_v81 main_v99 main_v100 (addf : (⟨S100000x64, .f32⟩ : BufTy).Contents (Elt F) → (⟨S100000x64, .f32⟩ : BufTy).Contents (Elt F) → (⟨S100000x64, .f32⟩ : BufTy).Contents (Elt F)),
    unary main_v100 main_v101 (Host.tanh : (⟨S100000x64, .f32⟩ : BufTy).Contents (Elt F) → (⟨S100000x64, .f32⟩ : BufTy).Contents (Elt F)),
    nullary main_cst_13 (constant S_ .f32 0x3F800000#32),
    unary main_cst_13 main_v102 (broadcastInDim S100000x64 ![] bcast_S_S100000x64 : (⟨S_, .f32⟩ : BufTy).Contents (Elt F) → (⟨S100000x64, .f32⟩ : BufTy).Contents (Elt F)),
    binary main_v102 main_v98 main_v103 (subf : (⟨S100000x64, .f32⟩ : BufTy).Contents (Elt F) → (⟨S100000x64, .f32⟩ : BufTy).Contents (Elt F) → (⟨S100000x64, .f32⟩ : BufTy).Contents (Elt F)),
    binary main_v103 main_v101 main_v104 (mulf : (⟨S100000x64, .f32⟩ : BufTy).Contents (Elt F) → (⟨S100000x64, .f32⟩ : BufTy).Contents (Elt F) → (⟨S100000x64, .f32⟩ : BufTy).Contents (Elt F)),
    binary main_v98 main_v55 main_v105 (mulf : (⟨S100000x64, .f32⟩ : BufTy).Contents (Elt F) → (⟨S100000x64, .f32⟩ : BufTy).Contents (Elt F) → (⟨S100000x64, .f32⟩ : BufTy).Contents (Elt F)),
    binary main_v104 main_v105 main_v106 (addf : (⟨S100000x64, .f32⟩ : BufTy).Contents (Elt F) → (⟨S100000x64, .f32⟩ : BufTy).Contents (Elt F) → (⟨S100000x64, .f32⟩ : BufTy).Contents (Elt F)) ]

set_option maxRecDepth 8192 in
theorem segG2_sub : (segG2 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

/-- Stretch M3: 16 operations, ending at main_v119. -/
abbrev segM3 : List (HloOp τ sig (Elt F)) :=
  [ unary main_arg4 main_v107 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v107 main_v108 rfl shapeCasts_S1x64x64_S64x64,
    binary main_v106 main_v108 main_v109 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v110 (broadcastInDim S1200000 ![] bcast_S_S1200000 : (⟨S_, .i32⟩ : BufTy).Contents (Elt F) → (⟨S1200000, .i32⟩ : BufTy).Contents (Elt F)),
    binary main_v1 main_v110 main_v111 (cmpi .slt : (⟨S1200000, .i32⟩ : BufTy).Contents (Elt F) → (⟨S1200000, .i32⟩ : BufTy).Contents (Elt F) → (⟨S1200000, .i1⟩ : BufTy).Contents (Elt F)),
    nullary main_c_15 (constantI S_ 32 100000#32),
    unary main_c_15 main_v112 (broadcastInDim S1200000 ![] bcast_S_S1200000 : (⟨S_, .i32⟩ : BufTy).Contents (Elt F) → (⟨S1200000, .i32⟩ : BufTy).Contents (Elt F)),
    binary main_v1 main_v112 main_v113 (addi : (⟨S1200000, .i32⟩ : BufTy).Contents (Elt F) → (⟨S1200000, .i32⟩ : BufTy).Contents (Elt F) → (⟨S1200000, .i32⟩ : BufTy).Contents (Elt F)),
    ternary main_v111 main_v113 main_v1 main_v114 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v114 main_v115 (broadcastInDim S1200000x1 ![0] bcast_S1200000_S1200000x1_0 : (⟨S1200000, .i32⟩ : BufTy).Contents (Elt F) → (⟨S1200000x1, .i32⟩ : BufTy).Contents (Elt F)),
    binary main_v109 main_v115 main_v116 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_16 (constant S_ .f32 0x00000000#32),
    unary main_cst_16 main_v117 (broadcastInDim S100000x64 ![] bcast_S_S100000x64 : (⟨S_, .f32⟩ : BufTy).Contents (Elt F) → (⟨S100000x64, .f32⟩ : BufTy).Contents (Elt F)),
    unary main_v3 main_v118 (broadcastInDim S1200000x1 ![0] bcast_S1200000_S1200000x1_0 : (⟨S1200000, .i32⟩ : BufTy).Contents (Elt F) → (⟨S1200000x1, .i32⟩ : BufTy).Contents (Elt F)),
    ternary main_v117 main_v118 main_v116 main_v119 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

set_option maxRecDepth 8192 in
theorem segM3_sub : (segM3 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- Stretch G3: 43 operations, ending at main_v157. -/
abbrev segG3 : List (HloOp τ sig (Elt F)) :=
  [ unary main_arg5 main_v120 ((transpose S64x192 [1, 0] · transposes_S192x64_S64x192_1_0) : (⟨S192x64, .f32⟩ : BufTy).Contents (Elt F) → (⟨S64x192, .f32⟩ : BufTy).Contents (Elt F)),
    binary main_v119 main_v120 main_v121 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg7 main_v122 (broadcastInDim S1x192 ![1] bcast_S192_S1x192_1 : (⟨S192, .f32⟩ : BufTy).Contents (Elt F) → (⟨S1x192, .f32⟩ : BufTy).Contents (Elt F)),
    unary main_v122 main_v123 (broadcastInDim S100000x192 ![0, 1] bcast_S1x192_S100000x192_0_1 : (⟨S1x192, .f32⟩ : BufTy).Contents (Elt F) → (⟨S100000x192, .f32⟩ : BufTy).Contents (Elt F)),
    binary main_v121 main_v123 main_v124 (addf : (⟨S100000x192, .f32⟩ : BufTy).Contents (Elt F) → (⟨S100000x192, .f32⟩ : BufTy).Contents (Elt F) → (⟨S100000x192, .f32⟩ : BufTy).Contents (Elt F)),
    unary main_arg6 main_v125 ((transpose S64x192 [1, 0] · transposes_S192x64_S64x192_1_0) : (⟨S192x64, .f32⟩ : BufTy).Contents (Elt F) → (⟨S64x192, .f32⟩ : BufTy).Contents (Elt F)),
    binary main_v106 main_v125 main_v126 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg8 main_v127 (broadcastInDim S1x192 ![1] bcast_S192_S1x192_1 : (⟨S192, .f32⟩ : BufTy).Contents (Elt F) → (⟨S1x192, .f32⟩ : BufTy).Contents (Elt F)),
    unary main_v127 main_v128 (broadcastInDim S100000x192 ![0, 1] bcast_S1x192_S100000x192_0_1 : (⟨S1x192, .f32⟩ : BufTy).Contents (Elt F) → (⟨S100000x192, .f32⟩ : BufTy).Contents (Elt F)),
    binary main_v126 main_v128 main_v129 (addf : (⟨S100000x192, .f32⟩ : BufTy).Contents (Elt F) → (⟨S100000x192, .f32⟩ : BufTy).Contents (Elt F) → (⟨S100000x192, .f32⟩ : BufTy).Contents (Elt F)),
    unary main_v124 main_v130 ((extractStridedSlice S100000x64 ![0, 0] · slices_S100000x192_S100000x64_0_0) : (⟨S100000x192, .f32⟩ : BufTy).Contents (Elt F) → (⟨S100000x64, .f32⟩ : BufTy).Contents (Elt F)),
    unary main_v124 main_v131 ((extractStridedSlice S100000x64 ![0, 64] · slices_S100000x192_S100000x64_0_64) : (⟨S100000x192, .f32⟩ : BufTy).Contents (Elt F) → (⟨S100000x64, .f32⟩ : BufTy).Contents (Elt F)),
    unary main_v124 main_v132 ((extractStridedSlice S100000x64 ![0, 128] · slices_S100000x192_S100000x64_0_128) : (⟨S100000x192, .f32⟩ : BufTy).Contents (Elt F) → (⟨S100000x64, .f32⟩ : BufTy).Contents (Elt F)),
    unary main_v129 main_v133 ((extractStridedSlice S100000x64 ![0, 0] · slices_S100000x192_S100000x64_0_0) : (⟨S100000x192, .f32⟩ : BufTy).Contents (Elt F) → (⟨S100000x64, .f32⟩ : BufTy).Contents (Elt F)),
    unary main_v129 main_v134 ((extractStridedSlice S100000x64 ![0, 64] · slices_S100000x192_S100000x64_0_64) : (⟨S100000x192, .f32⟩ : BufTy).Contents (Elt F) → (⟨S100000x64, .f32⟩ : BufTy).Contents (Elt F)),
    unary main_v129 main_v135 ((extractStridedSlice S100000x64 ![0, 128] · slices_S100000x192_S100000x64_0_128) : (⟨S100000x192, .f32⟩ : BufTy).Contents (Elt F) → (⟨S100000x64, .f32⟩ : BufTy).Contents (Elt F)),
    binary main_v130 main_v133 main_v136 (addf : (⟨S100000x64, .f32⟩ : BufTy).Contents (Elt F) → (⟨S100000x64, .f32⟩ : BufTy).Contents (Elt F) → (⟨S100000x64, .f32⟩ : BufTy).Contents (Elt F)),
    unary main_v136 main_v137 (Host.negf : (⟨S100000x64, .f32⟩ : BufTy).Contents (Elt F) → (⟨S100000x64, .f32⟩ : BufTy).Contents (Elt F)),
    unary main_v137 main_v138 (Host.exp : (⟨S100000x64, .f32⟩ : BufTy).Contents (Elt F) → (⟨S100000x64, .f32⟩ : BufTy).Contents (Elt F)),
    nullary main_cst_17 (constant S_ .f32 0x3F800000#32),
    unary main_cst_17 main_v139 (broadcastInDim S100000x64 ![] bcast_S_S100000x64 : (⟨S_, .f32⟩ : BufTy).Contents (Elt F) → (⟨S100000x64, .f32⟩ : BufTy).Contents (Elt F)),
    binary main_v139 main_v138 main_v140 (addf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3F800000#32),
    unary main_cst_18 main_v141 (broadcastInDim S100000x64 ![] bcast_S_S100000x64 : (⟨S_, .f32⟩ : BufTy).Contents (Elt F) → (⟨S100000x64, .f32⟩ : BufTy).Contents (Elt F)),
    binary main_v141 main_v140 main_v142 (Host.divf : (⟨S100000x64, .f32⟩ : BufTy).Contents (Elt F) → (⟨S100000x64, .f32⟩ : BufTy).Contents (Elt F) → (⟨S100000x64, .f32⟩ : BufTy).Contents (Elt F)),
    binary main_v131 main_v134 main_v143 (addf : (⟨S100000x64, .f32⟩ : BufTy).Contents (Elt F) → (⟨S100000x64, .f32⟩ : BufTy).Contents (Elt F) → (⟨S100000x64, .f32⟩ : BufTy).Contents (Elt F)),
    unary main_v143 main_v144 (Host.negf : (⟨S100000x64, .f32⟩ : BufTy).Contents (Elt F) → (⟨S100000x64, .f32⟩ : BufTy).Contents (Elt F)),
    unary main_v144 main_v145 (Host.exp : (⟨S100000x64, .f32⟩ : BufTy).Contents (Elt F) → (⟨S100000x64, .f32⟩ : BufTy).Contents (Elt F)),
    nullary main_cst_19 (constant S_ .f32 0x3F800000#32),
    unary main_cst_19 main_v146 (broadcastInDim S100000x64 ![] bcast_S_S100000x64 : (⟨S_, .f32⟩ : BufTy).Contents (Elt F) → (⟨S100000x64, .f32⟩ : BufTy).Contents (Elt F)),
    binary main_v146 main_v145 main_v147 (addf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3F800000#32),
    unary main_cst_20 main_v148 (broadcastInDim S100000x64 ![] bcast_S_S100000x64 : (⟨S_, .f32⟩ : BufTy).Contents (Elt F) → (⟨S100000x64, .f32⟩ : BufTy).Contents (Elt F)),
    binary main_v148 main_v147 main_v149 (Host.divf : (⟨S100000x64, .f32⟩ : BufTy).Contents (Elt F) → (⟨S100000x64, .f32⟩ : BufTy).Contents (Elt F) → (⟨S100000x64, .f32⟩ : BufTy).Contents (Elt F)),
    binary main_v142 main_v135 main_v150 (mulf : (⟨S100000x64, .f32⟩ : BufTy).Contents (Elt F) → (⟨S100000x64, .f32⟩ : BufTy).Contents (Elt F) → (⟨S100000x64, .f32⟩ : BufTy).Contents (Elt F)),
    binary main_v132 main_v150 main_v151 (addf : (⟨S100000x64, .f32⟩ : BufTy).Contents (Elt F) → (⟨S100000x64, .f32⟩ : BufTy).Contents (Elt F) → (⟨S100000x64, .f32⟩ : BufTy).Contents (Elt F)),
    unary main_v151 main_v152 (Host.tanh : (⟨S100000x64, .f32⟩ : BufTy).Contents (Elt F) → (⟨S100000x64, .f32⟩ : BufTy).Contents (Elt F)),
    nullary main_cst_21 (constant S_ .f32 0x3F800000#32),
    unary main_cst_21 main_v153 (broadcastInDim S100000x64 ![] bcast_S_S100000x64 : (⟨S_, .f32⟩ : BufTy).Contents (Elt F) → (⟨S100000x64, .f32⟩ : BufTy).Contents (Elt F)),
    binary main_v153 main_v149 main_v154 (subf : (⟨S100000x64, .f32⟩ : BufTy).Contents (Elt F) → (⟨S100000x64, .f32⟩ : BufTy).Contents (Elt F) → (⟨S100000x64, .f32⟩ : BufTy).Contents (Elt F)),
    binary main_v154 main_v152 main_v155 (mulf : (⟨S100000x64, .f32⟩ : BufTy).Contents (Elt F) → (⟨S100000x64, .f32⟩ : BufTy).Contents (Elt F) → (⟨S100000x64, .f32⟩ : BufTy).Contents (Elt F)),
    binary main_v149 main_v106 main_v156 (mulf : (⟨S100000x64, .f32⟩ : BufTy).Contents (Elt F) → (⟨S100000x64, .f32⟩ : BufTy).Contents (Elt F) → (⟨S100000x64, .f32⟩ : BufTy).Contents (Elt F)),
    binary main_v155 main_v156 main_v157 (addf : (⟨S100000x64, .f32⟩ : BufTy).Contents (Elt F) → (⟨S100000x64, .f32⟩ : BufTy).Contents (Elt F) → (⟨S100000x64, .f32⟩ : BufTy).Contents (Elt F)) ]

set_option maxRecDepth 8192 in
theorem segG3_sub : (segG3 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

/-- Stretch M4: 16 operations, ending at main_v170. -/
abbrev segM4 : List (HloOp τ sig (Elt F)) :=
  [ unary main_arg4 main_v158 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v158 main_v159 rfl shapeCasts_S1x64x64_S64x64,
    binary main_v157 main_v159 main_v160 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_22 (constantI S_ 32 0#32),
    unary main_c_22 main_v161 (broadcastInDim S1200000 ![] bcast_S_S1200000 : (⟨S_, .i32⟩ : BufTy).Contents (Elt F) → (⟨S1200000, .i32⟩ : BufTy).Contents (Elt F)),
    binary main_v1 main_v161 main_v162 (cmpi .slt : (⟨S1200000, .i32⟩ : BufTy).Contents (Elt F) → (⟨S1200000, .i32⟩ : BufTy).Contents (Elt F) → (⟨S1200000, .i1⟩ : BufTy).Contents (Elt F)),
    nullary main_c_23 (constantI S_ 32 100000#32),
    unary main_c_23 main_v163 (broadcastInDim S1200000 ![] bcast_S_S1200000 : (⟨S_, .i32⟩ : BufTy).Contents (Elt F) → (⟨S1200000, .i32⟩ : BufTy).Contents (Elt F)),
    binary main_v1 main_v163 main_v164 (addi : (⟨S1200000, .i32⟩ : BufTy).Contents (Elt F) → (⟨S1200000, .i32⟩ : BufTy).Contents (Elt F) → (⟨S1200000, .i32⟩ : BufTy).Contents (Elt F)),
    ternary main_v162 main_v164 main_v1 main_v165 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v165 main_v166 (broadcastInDim S1200000x1 ![0] bcast_S1200000_S1200000x1_0 : (⟨S1200000, .i32⟩ : BufTy).Contents (Elt F) → (⟨S1200000x1, .i32⟩ : BufTy).Contents (Elt F)),
    binary main_v160 main_v166 main_v167 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_24 (constant S_ .f32 0x00000000#32),
    unary main_cst_24 main_v168 (broadcastInDim S100000x64 ![] bcast_S_S100000x64 : (⟨S_, .f32⟩ : BufTy).Contents (Elt F) → (⟨S100000x64, .f32⟩ : BufTy).Contents (Elt F)),
    unary main_v3 main_v169 (broadcastInDim S1200000x1 ![0] bcast_S1200000_S1200000x1_0 : (⟨S1200000, .i32⟩ : BufTy).Contents (Elt F) → (⟨S1200000x1, .i32⟩ : BufTy).Contents (Elt F)),
    ternary main_v168 main_v169 main_v167 main_v170 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

set_option maxRecDepth 8192 in
theorem segM4_sub : (segM4 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- Stretch G4: 43 operations, ending at main_v208. -/
abbrev segG4 : List (HloOp τ sig (Elt F)) :=
  [ unary main_arg5 main_v171 ((transpose S64x192 [1, 0] · transposes_S192x64_S64x192_1_0) : (⟨S192x64, .f32⟩ : BufTy).Contents (Elt F) → (⟨S64x192, .f32⟩ : BufTy).Contents (Elt F)),
    binary main_v170 main_v171 main_v172 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg7 main_v173 (broadcastInDim S1x192 ![1] bcast_S192_S1x192_1 : (⟨S192, .f32⟩ : BufTy).Contents (Elt F) → (⟨S1x192, .f32⟩ : BufTy).Contents (Elt F)),
    unary main_v173 main_v174 (broadcastInDim S100000x192 ![0, 1] bcast_S1x192_S100000x192_0_1 : (⟨S1x192, .f32⟩ : BufTy).Contents (Elt F) → (⟨S100000x192, .f32⟩ : BufTy).Contents (Elt F)),
    binary main_v172 main_v174 main_v175 (addf : (⟨S100000x192, .f32⟩ : BufTy).Contents (Elt F) → (⟨S100000x192, .f32⟩ : BufTy).Contents (Elt F) → (⟨S100000x192, .f32⟩ : BufTy).Contents (Elt F)),
    unary main_arg6 main_v176 ((transpose S64x192 [1, 0] · transposes_S192x64_S64x192_1_0) : (⟨S192x64, .f32⟩ : BufTy).Contents (Elt F) → (⟨S64x192, .f32⟩ : BufTy).Contents (Elt F)),
    binary main_v157 main_v176 main_v177 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg8 main_v178 (broadcastInDim S1x192 ![1] bcast_S192_S1x192_1 : (⟨S192, .f32⟩ : BufTy).Contents (Elt F) → (⟨S1x192, .f32⟩ : BufTy).Contents (Elt F)),
    unary main_v178 main_v179 (broadcastInDim S100000x192 ![0, 1] bcast_S1x192_S100000x192_0_1 : (⟨S1x192, .f32⟩ : BufTy).Contents (Elt F) → (⟨S100000x192, .f32⟩ : BufTy).Contents (Elt F)),
    binary main_v177 main_v179 main_v180 (addf : (⟨S100000x192, .f32⟩ : BufTy).Contents (Elt F) → (⟨S100000x192, .f32⟩ : BufTy).Contents (Elt F) → (⟨S100000x192, .f32⟩ : BufTy).Contents (Elt F)),
    unary main_v175 main_v181 ((extractStridedSlice S100000x64 ![0, 0] · slices_S100000x192_S100000x64_0_0) : (⟨S100000x192, .f32⟩ : BufTy).Contents (Elt F) → (⟨S100000x64, .f32⟩ : BufTy).Contents (Elt F)),
    unary main_v175 main_v182 ((extractStridedSlice S100000x64 ![0, 64] · slices_S100000x192_S100000x64_0_64) : (⟨S100000x192, .f32⟩ : BufTy).Contents (Elt F) → (⟨S100000x64, .f32⟩ : BufTy).Contents (Elt F)),
    unary main_v175 main_v183 ((extractStridedSlice S100000x64 ![0, 128] · slices_S100000x192_S100000x64_0_128) : (⟨S100000x192, .f32⟩ : BufTy).Contents (Elt F) → (⟨S100000x64, .f32⟩ : BufTy).Contents (Elt F)),
    unary main_v180 main_v184 ((extractStridedSlice S100000x64 ![0, 0] · slices_S100000x192_S100000x64_0_0) : (⟨S100000x192, .f32⟩ : BufTy).Contents (Elt F) → (⟨S100000x64, .f32⟩ : BufTy).Contents (Elt F)),
    unary main_v180 main_v185 ((extractStridedSlice S100000x64 ![0, 64] · slices_S100000x192_S100000x64_0_64) : (⟨S100000x192, .f32⟩ : BufTy).Contents (Elt F) → (⟨S100000x64, .f32⟩ : BufTy).Contents (Elt F)),
    unary main_v180 main_v186 ((extractStridedSlice S100000x64 ![0, 128] · slices_S100000x192_S100000x64_0_128) : (⟨S100000x192, .f32⟩ : BufTy).Contents (Elt F) → (⟨S100000x64, .f32⟩ : BufTy).Contents (Elt F)),
    binary main_v181 main_v184 main_v187 (addf : (⟨S100000x64, .f32⟩ : BufTy).Contents (Elt F) → (⟨S100000x64, .f32⟩ : BufTy).Contents (Elt F) → (⟨S100000x64, .f32⟩ : BufTy).Contents (Elt F)),
    unary main_v187 main_v188 (Host.negf : (⟨S100000x64, .f32⟩ : BufTy).Contents (Elt F) → (⟨S100000x64, .f32⟩ : BufTy).Contents (Elt F)),
    unary main_v188 main_v189 (Host.exp : (⟨S100000x64, .f32⟩ : BufTy).Contents (Elt F) → (⟨S100000x64, .f32⟩ : BufTy).Contents (Elt F)),
    nullary main_cst_25 (constant S_ .f32 0x3F800000#32),
    unary main_cst_25 main_v190 (broadcastInDim S100000x64 ![] bcast_S_S100000x64 : (⟨S_, .f32⟩ : BufTy).Contents (Elt F) → (⟨S100000x64, .f32⟩ : BufTy).Contents (Elt F)),
    binary main_v190 main_v189 main_v191 (addf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x3F800000#32),
    unary main_cst_26 main_v192 (broadcastInDim S100000x64 ![] bcast_S_S100000x64 : (⟨S_, .f32⟩ : BufTy).Contents (Elt F) → (⟨S100000x64, .f32⟩ : BufTy).Contents (Elt F)),
    binary main_v192 main_v191 main_v193 (Host.divf : (⟨S100000x64, .f32⟩ : BufTy).Contents (Elt F) → (⟨S100000x64, .f32⟩ : BufTy).Contents (Elt F) → (⟨S100000x64, .f32⟩ : BufTy).Contents (Elt F)),
    binary main_v182 main_v185 main_v194 (addf : (⟨S100000x64, .f32⟩ : BufTy).Contents (Elt F) → (⟨S100000x64, .f32⟩ : BufTy).Contents (Elt F) → (⟨S100000x64, .f32⟩ : BufTy).Contents (Elt F)),
    unary main_v194 main_v195 (Host.negf : (⟨S100000x64, .f32⟩ : BufTy).Contents (Elt F) → (⟨S100000x64, .f32⟩ : BufTy).Contents (Elt F)),
    unary main_v195 main_v196 (Host.exp : (⟨S100000x64, .f32⟩ : BufTy).Contents (Elt F) → (⟨S100000x64, .f32⟩ : BufTy).Contents (Elt F)),
    nullary main_cst_27 (constant S_ .f32 0x3F800000#32),
    unary main_cst_27 main_v197 (broadcastInDim S100000x64 ![] bcast_S_S100000x64 : (⟨S_, .f32⟩ : BufTy).Contents (Elt F) → (⟨S100000x64, .f32⟩ : BufTy).Contents (Elt F)),
    binary main_v197 main_v196 main_v198 (addf : (⟨S100000x64, .f32⟩ : BufTy).Contents (Elt F) → (⟨S100000x64, .f32⟩ : BufTy).Contents (Elt F) → (⟨S100000x64, .f32⟩ : BufTy).Contents (Elt F)),
    nullary main_cst_28 (constant S_ .f32 0x3F800000#32),
    unary main_cst_28 main_v199 (broadcastInDim S100000x64 ![] bcast_S_S100000x64 : (⟨S_, .f32⟩ : BufTy).Contents (Elt F) → (⟨S100000x64, .f32⟩ : BufTy).Contents (Elt F)),
    binary main_v199 main_v198 main_v200 (Host.divf : (⟨S100000x64, .f32⟩ : BufTy).Contents (Elt F) → (⟨S100000x64, .f32⟩ : BufTy).Contents (Elt F) → (⟨S100000x64, .f32⟩ : BufTy).Contents (Elt F)),
    binary main_v193 main_v186 main_v201 (mulf : (⟨S100000x64, .f32⟩ : BufTy).Contents (Elt F) → (⟨S100000x64, .f32⟩ : BufTy).Contents (Elt F) → (⟨S100000x64, .f32⟩ : BufTy).Contents (Elt F)),
    binary main_v183 main_v201 main_v202 (addf : (⟨S100000x64, .f32⟩ : BufTy).Contents (Elt F) → (⟨S100000x64, .f32⟩ : BufTy).Contents (Elt F) → (⟨S100000x64, .f32⟩ : BufTy).Contents (Elt F)),
    unary main_v202 main_v203 (Host.tanh : (⟨S100000x64, .f32⟩ : BufTy).Contents (Elt F) → (⟨S100000x64, .f32⟩ : BufTy).Contents (Elt F)),
    nullary main_cst_29 (constant S_ .f32 0x3F800000#32),
    unary main_cst_29 main_v204 (broadcastInDim S100000x64 ![] bcast_S_S100000x64 : (⟨S_, .f32⟩ : BufTy).Contents (Elt F) → (⟨S100000x64, .f32⟩ : BufTy).Contents (Elt F)),
    binary main_v204 main_v200 main_v205 (subf : (⟨S100000x64, .f32⟩ : BufTy).Contents (Elt F) → (⟨S100000x64, .f32⟩ : BufTy).Contents (Elt F) → (⟨S100000x64, .f32⟩ : BufTy).Contents (Elt F)),
    binary main_v205 main_v203 main_v206 (mulf : (⟨S100000x64, .f32⟩ : BufTy).Contents (Elt F) → (⟨S100000x64, .f32⟩ : BufTy).Contents (Elt F) → (⟨S100000x64, .f32⟩ : BufTy).Contents (Elt F)),
    binary main_v200 main_v157 main_v207 (mulf : (⟨S100000x64, .f32⟩ : BufTy).Contents (Elt F) → (⟨S100000x64, .f32⟩ : BufTy).Contents (Elt F) → (⟨S100000x64, .f32⟩ : BufTy).Contents (Elt F)),
    binary main_v206 main_v207 main_v208 (addf : (⟨S100000x64, .f32⟩ : BufTy).Contents (Elt F) → (⟨S100000x64, .f32⟩ : BufTy).Contents (Elt F) → (⟨S100000x64, .f32⟩ : BufTy).Contents (Elt F)) ]

set_option maxRecDepth 8192 in
theorem segG4_sub : (segG4 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

/-- Stretch OUT: 16 operations, ending at main_v210. -/
abbrev segOUT : List (HloOp τ sig (Elt F)) :=
  [ binary main_v208 main_arg3 main_v209 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    TRef.nullary (TRef.of (T := ⟨S_, .f32⟩) main_call0_cst) (constant S_ .f32 0xFF800000#32),
    TRef.binary (TRef.of (T := ⟨S100000x40, .f32⟩) main_v209) (TRef.of (T := ⟨S_, .f32⟩) main_call0_cst) (TRef.of (T := ⟨S100000, .f32⟩) main_call0_v0) (fun x v => Host.reduce FloatOps.maximumf x v reducesTo_S100000x40_S100000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_call0_v0) (TRef.of (T := ⟨S100000, .f32⟩) main_call0_v2) maximumf,
    TRef.unary (TRef.of (T := ⟨S100000, .f32⟩) main_call0_v2) (TRef.of (T := ⟨S100000x1, .f32⟩) main_call0_v3) (broadcastInDim S100000x1 ![0] bcast_S100000_S100000x1_0),
    TRef.unary (TRef.of (T := ⟨S100000x1, .f32⟩) main_call0_v3) (TRef.of (T := ⟨S100000x40, .f32⟩) main_call0_v4) (broadcastInDim S100000x40 ![0, 1] bcast_S100000x1_S100000x40_0_1),
    TRef.binary (TRef.of (T := ⟨S100000x40, .f32⟩) main_v209) (TRef.of (T := ⟨S100000x40, .f32⟩) main_call0_v4) (TRef.of (T := ⟨S100000x40, .f32⟩) main_call0_v5) subf,
    TRef.unary (TRef.of (T := ⟨S100000x40, .f32⟩) main_call0_v5) (TRef.of (T := ⟨S100000x40, .f32⟩) main_call0_v6) Host.exp,
    TRef.nullary (TRef.of (T := ⟨S_, .f32⟩) main_call0_cst_1) (constant S_ .f32 0x00000000#32),
    TRef.binary (TRef.of (T := ⟨S100000x40, .f32⟩) main_call0_v6) (TRef.of (T := ⟨S_, .f32⟩) main_call0_cst_1) (TRef.of (T := ⟨S100000, .f32⟩) main_call0_v7) (fun x v => Host.reduceAdd x v reducesTo_S100000x40_S100000_d1 h_S_),
    TRef.unary (TRef.of (T := ⟨S100000, .f32⟩) main_call0_v7) (TRef.of (T := ⟨S100000x1, .f32⟩) main_call0_v8) (broadcastInDim S100000x1 ![0] bcast_S100000_S100000x1_0),
    TRef.unary (TRef.of (T := ⟨S100000x1, .f32⟩) main_call0_v8) (TRef.of (T := ⟨S100000x1, .f32⟩) main_call0_v9) Host.log,
    TRef.unary (TRef.of (T := ⟨S100000x1, .f32⟩) main_call0_v9) (TRef.of (T := ⟨S100000x40, .f32⟩) main_call0_v10) (broadcastInDim S100000x40 ![0, 1] bcast_S100000x1_S100000x40_0_1),
    TRef.binary (TRef.of (T := ⟨S100000x40, .f32⟩) main_call0_v5) (TRef.of (T := ⟨S100000x40, .f32⟩) main_call0_v10) (TRef.of (T := ⟨S100000x40, .f32⟩) main_v210) subf ]

set_option maxRecDepth 8192 in
theorem segOUT_sub : (segOUT : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The whole program's operations: the ten stretches joined. -/
abbrev ops : List (HloOp τ sig (Elt F)) :=
  segS0 ++ segM1 ++ segG1 ++ segM2 ++ segG2 ++ segM3 ++ segG3 ++ segM4 ++ segG4 ++ segOUT

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op hop => by
    simp only [ops, List.mem_append] at hop
    rcases hop with ((((((((h | h) | h) | h) | h) | h) | h) | h) | h) | h
    · exact List.forall_iff_forall_mem.mp segS0_sub op h
    · exact List.forall_iff_forall_mem.mp segM1_sub op h
    · exact List.forall_iff_forall_mem.mp segG1_sub op h
    · exact List.forall_iff_forall_mem.mp segM2_sub op h
    · exact List.forall_iff_forall_mem.mp segG2_sub op h
    · exact List.forall_iff_forall_mem.mp segM3_sub op h
    · exact List.forall_iff_forall_mem.mp segG3_sub op h
    · exact List.forall_iff_forall_mem.mp segM4_sub op h
    · exact List.forall_iff_forall_mem.mp segG4_sub op h
    · exact List.forall_iff_forall_mem.mp segOUT_sub op h

/-- The fold of a joined list is the fold of its second part over the fold of its first. -/
theorem after_append (l1 l2 : List (HloOp τ sig (Elt F))) (V : Valuation τ sig (Elt F)) :
    after (l1 ++ l2) V = after l2 (after l1 V) := by
  induction l1 generalizing V with
  | nil => rfl
  | cons op l ih => exact ih _

/-- THE RUN: every weakly fair execution of the reference terminates, every buffer at the fold of the operations over
    the launch contents. -/
theorem run0 (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun d op hop => by
      simp only [ops, List.mem_append] at hop
      rcases hop with ((((((((h | h) | h) | h) | h) | h) | h) | h) | h) | h <;>
      · (repeat (cases h with | head => rfl | tail _ h => ?_)); exact nomatch h)

end Cert.GGNN.R

end
-- ==== Proof.MatRef.lean ====
/-
  The reference's three matrix products, entry by entry.

  Each of the host's products here contracts the second axis of its left operand with the first axis of its right
  operand and has no batch axes, so its entry (p, q) is the sum over c of A (p, c) * B (c, q): the plain matrix product.
-/
import proofs.«167651_j43568148251382_1_alg».proof.Proof.Spec
import proofs.«167651_j43568148251382_1_alg».proof.Proof.Gen.ReferenceIdeal
import proofs.«167651_j43568148251382_1_alg».proof.Proof.LibHostProduct

noncomputable section

open scoped BigOperators

namespace Cert.GGNN.R

open Idealize.ShloMosaic Idealize.ShloMosaic.ValueIdx Cert.ReferenceIdeal

/-- The input projection: a [100000, 256] array against a [256, 64] weight. -/
theorem dot_in (A : FVec Ideal S100000x256 .f32) (B : FVec Ideal S256x64 .f32) :
    Host.dotGeneral (F := Ideal) Cert.ReferenceIdeal.dot_S100000x256_S256x64_S100000x64_1_0_0_1_n_n none A B
      = Cert.GGNN.mm A B := by
  funext i
  obtain ⟨p, q, rfl⟩ : ∃ (p : Fin 100000) (q : Fin 64), i = ix2 p q := ⟨i 0, i 1, eq_ix2 i⟩
  show _ = ∑ c : Fin 256, A (ix2 p c) * B (ix2 c q)
  exact Cert.HostProduct.dotGeneral_nn_apply _ none A B p q

/-- A layer's message product: a [100000, 64] array against a [64, 64] weight. -/
theorem dot_conv (A : FVec Ideal S100000x64 .f32) (B : FVec Ideal S64x64 .f32) :
    Host.dotGeneral (F := Ideal) Cert.ReferenceIdeal.dot_S100000x64_S64x64_S100000x64_1_0_0_1_n_n none A B
      = Cert.GGNN.mm A B := by
  funext i
  obtain ⟨p, q, rfl⟩ : ∃ (p : Fin 100000) (q : Fin 64), i = ix2 p q := ⟨i 0, i 1, eq_ix2 i⟩
  show _ = ∑ c : Fin 64, A (ix2 p c) * B (ix2 c q)
  exact Cert.HostProduct.dotGeneral_nn_apply _ none A B p q

/-- The output projection: a [100000, 64] array against a [64, 40] weight. -/
theorem dot_out (A : FVec Ideal S100000x64 .f32) (B : FVec Ideal S64x40 .f32) :
    Host.dotGeneral (F := Ideal) Cert.ReferenceIdeal.dot_S100000x64_S64x40_S100000x40_1_0_0_1_n_n none A B
      = Cert.GGNN.mm A B := by
  funext i
  obtain ⟨p, q, rfl⟩ : ∃ (p : Fin 100000) (q : Fin 40), i = ix2 p q := ⟨i 0, i 1, eq_ix2 i⟩
  show _ = ∑ c : Fin 64, A (ix2 p c) * B (ix2 c q)
  exact Cert.HostProduct.dotGeneral_nn_apply _ none A B p q

end Cert.GGNN.R

end
-- ==== Proof.LibLogistic.lean ====
/-
  The logistic function as host code spells it, 1 / (1 + exp(-x)) with both ones broadcast scalars, read at an index.
-/
import Idealize.ShloMosaic.PureOps.Ideal
import Idealize.ShloMosaic.Lib.ValueIdx
import Idealize.ShloMosaic.Lib.IdealHost

noncomputable section

namespace Cert.Logistic

open Idealize.ShloMosaic Idealize.ShloMosaic.ValueIdx

/-- The number one as the single-precision word the programs print. -/
abbrev one : EReal := Ideal.ofBits .f32 0x3F800000#32

/-- The logistic function on the extended reals, as spelled. -/
def logistic (x : EReal) : EReal := Ideal.div one (one + Ideal.exp (-x))

/-- The host's spelled logistic at an index. -/
theorem host_apply {s : Shape} (x : FVec Ideal s .f32) (h1 h2 : (⟨0, ![]⟩ : Shape).BroadcastsInDim s ![]) (i : s.Idx) :
    Host.divf (broadcastInDim s ![] h1 (constant (F := Ideal) ⟨0, ![]⟩ .f32 0x3F800000#32))
        (addf (broadcastInDim s ![] h2 (constant (F := Ideal) ⟨0, ![]⟩ .f32 0x3F800000#32)) (Host.exp (Host.negf x))) i
      = logistic (x i) := by
  rw [hostDivf_apply, addf_apply]
  simp only [broadcastInDim_scalar_apply]
  rfl

end Cert.Logistic

end
-- ==== Proof.GruRef.lean ====
/-
  The GRU stage of the reference, entry by entry.

  The reference computes all three input-side pre-activations at once: the aggregated messages against the transposed
  [192, 64] weight plus the length-192 bias repeated down the rows, a [N, 192] array whose column blocks 0..63, 64..127,
  128..191 are the reset, update and candidate pre-activations; the same for the hidden side.  The logistic function is
  spelled 1 / (1 + exp(-x)).  Read at (p, q), column off + q of a pre-activation is the row p against row off + q of the
  weight plus the bias entry off + q, which is the gate of the cut-out transposed weight and bias row.  Each layer's
  stretch of host operations leaves, in the layer's last buffer, this function of the contents of the two buffers it
  starts from and of the four parameter buffers.
-/
import proofs.«167651_j43568148251382_1_alg».proof.Proof.Spec
import proofs.«167651_j43568148251382_1_alg».proof.Proof.LibDenseLayer
import proofs.«167651_j43568148251382_1_alg».proof.Proof.LibLogistic
import proofs.«167651_j43568148251382_1_alg».proof.Proof.LibUnitAxes
import proofs.«167651_j43568148251382_1_alg».proof.Proof.RefOps

noncomputable section

namespace Cert.GGNN.R

open Idealize.ShloMosaic Idealize.ShloMosaic.ValueIdx Cert.ReferenceIdeal Cert.ReferenceIdeal.Gen

/-- All three pre-activations of one side: the rows against the transposed stacked weight, plus the bias down the rows. -/
def gruPre (x : FVec Ideal S100000x64 .f32) (w : FVec Ideal S192x64 .f32) (b : FVec Ideal S192 .f32) :
    FVec Ideal S100000x192 .f32 :=
  addf (Host.dotGeneral (F := Ideal) dot_S100000x64_S64x192_S100000x192_1_0_0_1_n_n none x
      (transpose S64x192 [1, 0] w transposes_S192x64_S64x192_1_0))
    (broadcastInDim S100000x192 ![0, 1] bcast_S1x192_S100000x192_0_1 (broadcastInDim S1x192 ![1] bcast_S192_S1x192_1 b))

/-- The number one repeated over the array. -/
def gruOnes : FVec Ideal S100000x64 .f32 :=
  broadcastInDim S100000x64 ![] bcast_S_S100000x64 (constant (F := Ideal) S_ .f32 0x3F800000#32)

/-- The logistic function as the reference spells it. -/
def gruSigm (x : FVec Ideal S100000x64 .f32) : FVec Ideal S100000x64 .f32 :=
  Host.divf (F := Ideal) gruOnes (addf gruOnes (Host.exp (F := Ideal) (Host.negf (F := Ideal) x)))

/-- The reset-gate columns of a pre-activation array. -/
def gruColR (v : FVec Ideal S100000x192 .f32) : FVec Ideal S100000x64 .f32 :=
  extractStridedSlice S100000x64 ![0, 0] v slices_S100000x192_S100000x64_0_0
/-- The update-gate columns. -/
def gruColZ (v : FVec Ideal S100000x192 .f32) : FVec Ideal S100000x64 .f32 :=
  extractStridedSlice S100000x64 ![0, 64] v slices_S100000x192_S100000x64_0_64
/-- The candidate columns. -/
def gruColN (v : FVec Ideal S100000x192 .f32) : FVec Ideal S100000x64 .f32 :=
  extractStridedSlice S100000x64 ![0, 128] v slices_S100000x192_S100000x64_0_128

/-- One GRU layer as the reference computes it, from the aggregated messages and the hidden states. -/
def gruHost (agg h : FVec Ideal S100000x64 .f32) (w5 w6 : FVec Ideal S192x64 .f32) (b7 b8 : FVec Ideal S192 .f32) :
    FVec Ideal S100000x64 .f32 :=
  addf
    (mulf (subf gruOnes (gruSigm (addf (gruColZ (gruPre agg w5 b7)) (gruColZ (gruPre h w6 b8)))))
      (Host.tanh (F := Ideal) (addf (gruColN (gruPre agg w5 b7))
        (mulf (gruSigm (addf (gruColR (gruPre agg w5 b7)) (gruColR (gruPre h w6 b8)))) (gruColN (gruPre h w6 b8))))))
    (mulf (gruSigm (addf (gruColZ (gruPre agg w5 b7)) (gruColZ (gruPre h w6 b8)))) h)

/-- A pre-activation array at (p, j): row p against row j of the stacked weight, plus the bias entry j. -/
theorem gruPre_apply (x : FVec Ideal S100000x64 .f32) (w : FVec Ideal S192x64 .f32) (b : FVec Ideal S192 .f32)
    (p : Fin 100000) (j : Fin 192) :
    gruPre x w b (ix2 p j) = (∑ c : Fin 64, x (ix2 p c) * w (ix2 j c)) + b (ix1 j) := by
  unfold gruPre
  refine (Cert.DenseLayer.host_affine_apply dot_S100000x64_S64x192_S100000x192_1_0_0_1_n_n.wf bcast_S192_S1x192_1
    bcast_S1x192_S100000x192_0_1 x (transpose S64x192 [1, 0] w transposes_S192x64_S64x192_1_0) b p j).trans ?_
  unfold Cert.DenseLayer.affine
  refine congrArg (· + b (ix1 j)) (Finset.sum_congr rfl fun c _ => ?_)
  rw [Cert.Layout.transpose_ab_apply w transposes_S192x64_S64x192_1_0 c j]

/-- A block of 64 columns starting at column off, at (p, q): the array's entry (p, off + q). -/
theorem gruCols_apply (off : ℕ) (hoff : off + 64 ≤ 192) (v : FVec Ideal S100000x192 .f32)
    (hs : S100000x192.Slices ![0, off] S100000x64) (p : Fin 100000) (q : Fin 64) :
    extractStridedSlice S100000x64 ![0, off] v hs (ix2 p q)
      = v (ix2 p (⟨off + q.val, by have := q.isLt; omega⟩ : Fin 192)) := by
  refine extractStridedSlice_apply ![0, off] v hs (ix2 p q) (ix2 p (⟨off + q.val, by have := q.isLt; omega⟩ : Fin 192)) fun a => ?_
  match a with
  | ⟨0, _⟩ => show p.val = 0 + p.val; omega
  | ⟨1, _⟩ => rfl

theorem gruColR_apply (v : FVec Ideal S100000x192 .f32) (p : Fin 100000) (q : Fin 64) :
    gruColR v (ix2 p q) = v (ix2 p (⟨0 + q.val, by have := q.isLt; omega⟩ : Fin 192)) :=
  gruCols_apply 0 (by omega) v slices_S100000x192_S100000x64_0_0 p q

theorem gruColZ_apply (v : FVec Ideal S100000x192 .f32) (p : Fin 100000) (q : Fin 64) :
    gruColZ v (ix2 p q) = v (ix2 p (⟨64 + q.val, by have := q.isLt; omega⟩ : Fin 192)) :=
  gruCols_apply 64 (by omega) v slices_S100000x192_S100000x64_0_64 p q

theorem gruColN_apply (v : FVec Ideal S100000x192 .f32) (p : Fin 100000) (q : Fin 64) :
    gruColN v (ix2 p q) = v (ix2 p (⟨128 + q.val, by have := q.isLt; omega⟩ : Fin 192)) :=
  gruCols_apply 128 (by omega) v slices_S100000x192_S100000x64_0_128 p q

/-- The repeated one at an index. -/
theorem gruOnes_apply (i : S100000x64.Idx) : gruOnes i = one := by
  unfold gruOnes
  rw [broadcastInDim_scalar_apply]
  rfl

/-- The spelled logistic function is the logistic function. -/
theorem gruSigm_apply (x : FVec Ideal S100000x64 .f32) (i : S100000x64.Idx) : gruSigm x i = Ideal.logistic (x i) := by
  unfold gruSigm gruOnes
  rw [Cert.Logistic.host_apply]
  unfold Cert.Logistic.logistic Ideal.logistic
  rw [show Cert.Logistic.one = 1 from Ideal.ofBits_one_f32]

/-- The host's hyperbolic tangent at an index. -/
theorem gruTanh_apply (x : FVec Ideal S100000x64 .f32) (i : S100000x64.Idx) : Host.tanh (F := Ideal) x i = Ideal.tanh (x i) := rfl

/-- The reference's GRU layer is the layer of cells over the stacked weights. -/
theorem gruHost_eq_layer (agg h : FVec Ideal S100000x64 .f32) (w5 w6 : FVec Ideal S192x64 .f32) (b7 b8 : FVec Ideal S192 .f32) :
    gruHost agg h w5 w6 b7 b8 = Cert.GGNN.layer agg h w5 w6 b7 b8 := by
  funext i
  obtain ⟨p, q, rfl⟩ : ∃ (p : Fin 100000) (q : Fin 64), i = ix2 p q := ⟨i 0, i 1, eq_ix2 i⟩
  unfold gruHost
  simp only [addf_apply, mulf_apply, subf_apply, gruSigm_apply, gruTanh_apply, gruOnes_apply, gruColR_apply, gruColZ_apply, gruColN_apply, gruPre_apply]
  rfl

open Idealize.ShloMosaic.TcCoe Idealize.SL.Sem Idealize.ShloMosaic.StableHlo in
/-- The first layer's GRU stretch leaves `gruHost` of the contents of its aggregation buffer and of the hidden-state
    buffer before it. -/
theorem segG1_val (Wv : Valuation τ sig (Elt Ideal)) :
    StableHlo.after (segG1 (F := Ideal)) Wv (Proc.devRef .tc main_v55)
      = gruHost (Wv (Proc.devRef .tc main_v17)) (Wv (Proc.devRef .tc main_v4)) (Wv (Proc.devRef .tc main_arg5))
          (Wv (Proc.devRef .tc main_arg6)) (Wv (Proc.devRef .tc main_arg7)) (Wv (Proc.devRef .tc main_arg8)) := by
  unfold segG1
  after_results_simp
  rfl

open Idealize.ShloMosaic.TcCoe Idealize.SL.Sem Idealize.ShloMosaic.StableHlo in
/-- The second layer's GRU stretch leaves `gruHost` of the contents of its aggregation buffer and of the hidden-state
    buffer before it. -/
theorem segG2_val (Wv : Valuation τ sig (Elt Ideal)) :
    StableHlo.after (segG2 (F := Ideal)) Wv (Proc.devRef .tc main_v106)
      = gruHost (Wv (Proc.devRef .tc main_v68)) (Wv (Proc.devRef .tc main_v55)) (Wv (Proc.devRef .tc main_arg5))
          (Wv (Proc.devRef .tc main_arg6)) (Wv (Proc.devRef .tc main_arg7)) (Wv (Proc.devRef .tc main_arg8)) := by
  unfold segG2
  after_results_simp
  rfl

open Idealize.ShloMosaic.TcCoe Idealize.SL.Sem Idealize.ShloMosaic.StableHlo in
/-- The third layer's GRU stretch leaves `gruHost` of the contents of its aggregation buffer and of the hidden-state
    buffer before it. -/
theorem segG3_val (Wv : Valuation τ sig (Elt Ideal)) :
    StableHlo.after (segG3 (F := Ideal)) Wv (Proc.devRef .tc main_v157)
      = gruHost (Wv (Proc.devRef .tc main_v119)) (Wv (Proc.devRef .tc main_v106)) (Wv (Proc.devRef .tc main_arg5))
          (Wv (Proc.devRef .tc main_arg6)) (Wv (Proc.devRef .tc main_arg7)) (Wv (Proc.devRef .tc main_arg8)) := by
  unfold segG3
  after_results_simp
  rfl

open Idealize.ShloMosaic.TcCoe Idealize.SL.Sem Idealize.ShloMosaic.StableHlo in
/-- The fourth layer's GRU stretch leaves `gruHost` of the contents of its aggregation buffer and of the hidden-state
    buffer before it. -/
theorem segG4_val (Wv : Valuation τ sig (Elt Ideal)) :
    StableHlo.after (segG4 (F := Ideal)) Wv (Proc.devRef .tc main_v208)
      = gruHost (Wv (Proc.devRef .tc main_v170)) (Wv (Proc.devRef .tc main_v157)) (Wv (Proc.devRef .tc main_arg5))
          (Wv (Proc.devRef .tc main_arg6)) (Wv (Proc.devRef .tc main_arg7)) (Wv (Proc.devRef .tc main_arg8)) := by
  unfold segG4
  after_results_simp
  rfl

end Cert.GGNN.R

end
-- ==== Proof.OutRef.lean ====
/-
  The reference's log-softmax over the rows of a [100000, 40] array of logits, as one function of the logits, and
  its value at an entry.

  The host program takes each row's maximum (a reduction by `max` from `-∞`, then once more `max` against a
  `-∞` vector), places it as a column and repeats it across the forty columns, subtracts it from the logits,
  sums the exponentials of the shifted row from zero, takes the logarithm, repeats it across the columns in the same
  way and subtracts it from the shifted logits.  At entry `(p, q)` this is the second arrangement of the row's
  log-softmax.
-/
import proofs.«167651_j43568148251382_1_alg».proof.Proof.OutSpec
import proofs.«167651_j43568148251382_1_alg».proof.Proof.Gen.ReferenceIdeal
import Idealize.ShloMosaic.Lib.Pipeline.Value
import Idealize.ShloMosaic.Lib.ValueIdx
import Idealize.ShloMosaic.PureOps.Ideal.Laws
import proofs.«167651_j43568148251382_1_alg».proof.Proof.LibRowFolds
import proofs.«167651_j43568148251382_1_alg».proof.Proof.LibHostBroadcast

noncomputable section

open scoped BigOperators

namespace Cert.GGNN.R

open Cert.ReferenceIdeal Cert.ReferenceIdeal.Gen Idealize.ShloMosaic Idealize.ShloMosaic.ValueIdx Idealize.ShloMosaic.StableHlo

/-- Each row's maximum: the reduction by `max` from `-∞`, and `max` once more against `-∞`. -/
def hostMax (L : FVec Ideal S100000x40 .f32) : FVec Ideal S100000 .f32 :=
  maximumf (broadcastInDim S100000 ![] bcast_S_S100000 (constant (F := Ideal) S_ .f32 0xFF800000#32))
    (Host.reduce FloatOps.maximumf L (constant (F := Ideal) S_ .f32 0xFF800000#32) reducesTo_S100000x40_S100000_d1 h_S_)

/-- The logits shifted by their row's maximum. -/
def hostShift (L : FVec Ideal S100000x40 .f32) : FVec Ideal S100000x40 .f32 :=
  subf L (broadcastInDim S100000x40 ![0, 1] bcast_S100000x1_S100000x40_0_1
    (broadcastInDim S100000x1 ![0] bcast_S100000_S100000x1_0 (hostMax L)))

/-- The logarithm of each row's sum of exponentials of the shifted logits, repeated across the columns. -/
def hostLse (L : FVec Ideal S100000x40 .f32) : FVec Ideal S100000x40 .f32 :=
  broadcastInDim S100000x40 ![0, 1] bcast_S100000x1_S100000x40_0_1
    (Host.log (broadcastInDim S100000x1 ![0] bcast_S100000_S100000x1_0
      (Host.reduceAdd (Host.exp (hostShift L)) (constant (F := Ideal) S_ .f32 0x00000000#32)
        reducesTo_S100000x40_S100000_d1 h_S_)))

/-- The reference's log-softmax as one function of the logits. -/
def lsmHost (L : FVec Ideal S100000x40 .f32) : FVec Ideal S100000x40 .f32 :=
  subf (hostShift L) (hostLse L)

/-- The host's logarithm at an index. -/
theorem hostLog_apply {s : Shape} (v : FVec Ideal s .f32) (i : s.Idx) : Host.log v i = Ideal.log (v i) := rfl

/-- The host's exponential at an index. -/
theorem hostExp_apply {s : Shape} (v : FVec Ideal s .f32) (i : s.Idx) : Host.exp v i = Ideal.exp (v i) := rfl

/-- A row's maximum as the host takes it. -/
theorem hostMax_apply (L : FVec Ideal S100000x40 .f32) (p : Fin 100000) :
    hostMax L (ix1 p) = Cert.GGNN.rowMax' (fun j => L (ix2 p j)) := by
  unfold hostMax Cert.GGNN.rowMax' Cert.GGNN.rowMax
  refine (maximumf_apply _ _ (ix1 p)).trans ?_
  refine congrArg₂ max ?_ ?_
  · exact Cert.HostBroadcast.scalar_apply _ _ bcast_S_S100000 (ix1 p)
  · exact Cert.RowFolds.hostFold_apply (α := EReal) max L _ reducesTo_S100000x40_S100000_d1 (by decide) h_S_ p

/-- The shifted logits at an entry. -/
theorem hostShift_apply (L : FVec Ideal S100000x40 .f32) (p : Fin 100000) (q : Fin 40) :
    hostShift L (ix2 p q) = L (ix2 p q) - Cert.GGNN.rowMax' (fun j => L (ix2 p j)) := by
  unfold hostShift
  refine (subf_apply _ _ (ix2 p q)).trans ?_
  refine congrArg (L (ix2 p q) - ·) ?_
  exact (Cert.HostBroadcast.col_apply (hostMax L) bcast_S100000_S100000x1_0 bcast_S100000x1_S100000x40_0_1 p q).trans
    (hostMax_apply L p)

/-- The logarithm of a row's sum of shifted exponentials, at an entry. -/
theorem hostLse_apply (L : FVec Ideal S100000x40 .f32) (p : Fin 100000) (q : Fin 40) :
    hostLse L (ix2 p q)
      = Ideal.log (Ideal.ofBits .f32 0x00000000#32
          + ∑ j : Fin 40, Ideal.exp (L (ix2 p j) - Cert.GGNN.rowMax' (fun j => L (ix2 p j)))) := by
  unfold hostLse
  refine (Cert.HostBroadcast.col_spread_apply _ bcast_S100000x1_S100000x40_0_1 p q).trans ?_
  refine (hostLog_apply _ _).trans (congrArg Ideal.log ?_)
  refine (Cert.HostBroadcast.col_one_apply _ bcast_S100000_S100000x1_0 p).trans ?_
  generalize hE : Host.exp (hostShift L) = E
  simp only [Host.reduceAdd, Ideal.hostReduceAdd_def]
  rw [Ideal.hostReduceAdd_single reducesTo_S100000x40_S100000_d1 (by decide)]
  refine congrArg₂ (· + ·) rfl (Finset.sum_congr rfl fun j _ => ?_)
  subst hE
  exact (congrArg (Host.exp (hostShift L)) (Cert.RowFolds.lift_row _ p j)).trans
    ((hostExp_apply _ _).trans (congrArg Ideal.exp (hostShift_apply L p j)))

/-- The reference's log-softmax at an entry: the second arrangement of the row's log-softmax. -/
theorem lsmHost_apply (L : FVec Ideal S100000x40 .f32) (p : Fin 100000) (q : Fin 40) :
    lsmHost L (ix2 p q) = Cert.GGNN.lsmR (fun j => L (ix2 p j)) q := by
  unfold lsmHost Cert.GGNN.lsmR
  refine (subf_apply _ _ (ix2 p q)).trans ?_
  rw [hostShift_apply, hostLse_apply]

end Cert.GGNN.R

end
-- ==== Proof.OutRun.lean ====
/-
  The reference's output stage as a stretch of host operations: from any contents of the buffers, the stretch leaves in
  its last buffer the log-softmax (as one function of the logits) of the product of the last hidden state with the
  [64, 40] weight.

  The log-softmax operations are stated over references that carry their value's type; their functions are moved to the
  buffers' own types by casts along an equation of types, which here is a definitional one, so a cast there and back
  vanishes and a lone cast is the identity.
-/
import proofs.«167651_j43568148251382_1_alg».proof.Proof.OutRef
import proofs.«167651_j43568148251382_1_alg».proof.Proof.RefOps

set_option maxRecDepth 16384

noncomputable section

namespace Cert.GGNN.R

open Cert.ReferenceIdeal Cert.ReferenceIdeal.Gen
open Idealize.ShloMosaic Idealize.ShloMosaic.TcCoe Idealize.SL.Sem Idealize.ShloMosaic.StableHlo

namespace OutCast

/-- Contents moved to a typed reference's buffer type and back are the contents. -/
theorem ofBuf_toBuf {Val : EltTy → Type} {T : BufTy} (x : TRef sig T) (v : T.Contents Val) : x.ofBuf (x.toBuf v) = v := by
  show cast _ (cast _ v) = v
  rw [cast_cast, cast_eq]

/-- Contents read at a typed reference whose buffer type is the value's type are the contents. -/
theorem ofBuf_eq {Val : EltTy → Type} {T : BufTy} (x : TRef sig T) (v : x.ref.ty.Contents Val) (w : T.Contents Val)
    (h : HEq v w) : x.ofBuf v = w := eq_of_heq ((cast_heq _ v).trans h)

/-- Contents written at a typed reference whose buffer type is the value's type are the contents. -/
theorem toBuf_eq {Val : EltTy → Type} {T : BufTy} (x : TRef sig T) (v : T.Contents Val) (w : x.ref.ty.Contents Val)
    (h : HEq v w) : x.toBuf v = w := eq_of_heq ((cast_heq _ v).trans h)

end OutCast

/-- What the output stretch leaves in its last buffer. -/
theorem segOUT_val (Wv : Valuation τ sig (Elt Ideal)) :
    StableHlo.after (segOUT (F := Ideal)) Wv (Proc.devRef .tc main_v210)
      = lsmHost (Host.dotGeneral (F := Ideal) (φ₁ := .f32) (φ₂ := .f32) dot_S100000x64_S64x40_S100000x40_1_0_0_1_n_n none
          (Wv (Proc.devRef .tc main_v208)) (Wv (Proc.devRef .tc main_arg3))) := by
  unfold segOUT
  after_results
  simp only [OutCast.ofBuf_toBuf]
  have hD : (TRef.of (T := ⟨S100000x40, .f32⟩) main_v209).ofBuf (Val := Elt Ideal)
      (Host.dotGeneral (F := Ideal) (φ₁ := .f32) (φ₂ := .f32) dot_S100000x64_S64x40_S100000x40_1_0_0_1_n_n none
        (Wv (Proc.devRef .tc main_v208)) (Wv (Proc.devRef .tc main_arg3)))
      = Host.dotGeneral (F := Ideal) (φ₁ := .f32) (φ₂ := .f32) dot_S100000x64_S64x40_S100000x40_1_0_0_1_n_n none
        (Wv (Proc.devRef .tc main_v208)) (Wv (Proc.devRef .tc main_arg3)) := OutCast.ofBuf_eq _ _ _ HEq.rfl
  rw [hD]
  exact OutCast.toBuf_eq _ _ _ HEq.rfl

end Cert.GGNN.R

end
-- ==== Proof.RefChain.lean ====
/-
  The reference program read stretch by stretch: its result is the row-wise log-softmax of the last hidden state times
  the output projection.

  The program is ten stretches of host operations run one after the other.  The first cuts the two edge-number vectors
  out of the edge array and forms the first hidden state.  Each layer then has a message stretch (the layer's weight cut
  out of the stacked weights, the product with the hidden state, the aggregation) and a GRU stretch; the last stretch is
  the output projection followed by the log-softmax.  A stretch's value at the buffer it ends in is read off the contents
  it starts from; a buffer a stretch does not write keeps its contents, so the argument arrays, the two edge-number
  vectors and the hidden state a layer starts from are carried along.  By induction along the four layers the buffers
  holding the hidden states hold h0 … h4.  A layer's value is real wherever the previous hidden state is, whatever the
  aggregation gave, so all hidden states are real when the node features and the input projection are.
-/
import proofs.«167651_j43568148251382_1_alg».proof.Proof.RefOps
import proofs.«167651_j43568148251382_1_alg».proof.Proof.Chain
import proofs.«167651_j43568148251382_1_alg».proof.Proof.MatRef
import proofs.«167651_j43568148251382_1_alg».proof.Proof.GruRef
import proofs.«167651_j43568148251382_1_alg».proof.Proof.OutRun
import proofs.«167651_j43568148251382_1_alg».proof.Proof.LibHostKept

noncomputable section

namespace Cert.GGNN.R

open Cert.ReferenceIdeal Cert.ReferenceIdeal.Gen Idealize.ShloMosaic Idealize.ShloMosaic.TcCoe Idealize.SL.Sem
open Idealize.ShloMosaic.StableHlo Idealize.ShloMosaic.ValueIdx

namespace Stretch

/-! ## One stretch at a time, from any contents -/

section Stretches

variable (Wv : Valuation τ sig (Elt Ideal))

/-! ### The first stretch writes no argument buffer -/

theorem segS0_keep_arg3 : after (segS0 (F := Ideal)) Wv (Proc.devRef .tc main_arg3) = Wv (Proc.devRef .tc main_arg3) := by host_kept segS0
theorem segS0_keep_arg4 : after (segS0 (F := Ideal)) Wv (Proc.devRef .tc main_arg4) = Wv (Proc.devRef .tc main_arg4) := by host_kept segS0
theorem segS0_keep_arg5 : after (segS0 (F := Ideal)) Wv (Proc.devRef .tc main_arg5) = Wv (Proc.devRef .tc main_arg5) := by host_kept segS0
theorem segS0_keep_arg6 : after (segS0 (F := Ideal)) Wv (Proc.devRef .tc main_arg6) = Wv (Proc.devRef .tc main_arg6) := by host_kept segS0
theorem segS0_keep_arg7 : after (segS0 (F := Ideal)) Wv (Proc.devRef .tc main_arg7) = Wv (Proc.devRef .tc main_arg7) := by host_kept segS0
theorem segS0_keep_arg8 : after (segS0 (F := Ideal)) Wv (Proc.devRef .tc main_arg8) = Wv (Proc.devRef .tc main_arg8) := by host_kept segS0

/-! ### Layer 1's message stretch writes neither an argument buffer, nor the edge-number vectors, nor the hidden state it reads -/

theorem segM1_keep_arg3 : after (segM1 (F := Ideal)) Wv (Proc.devRef .tc main_arg3) = Wv (Proc.devRef .tc main_arg3) := by host_kept segM1
theorem segM1_keep_arg4 : after (segM1 (F := Ideal)) Wv (Proc.devRef .tc main_arg4) = Wv (Proc.devRef .tc main_arg4) := by host_kept segM1
theorem segM1_keep_arg5 : after (segM1 (F := Ideal)) Wv (Proc.devRef .tc main_arg5) = Wv (Proc.devRef .tc main_arg5) := by host_kept segM1
theorem segM1_keep_arg6 : after (segM1 (F := Ideal)) Wv (Proc.devRef .tc main_arg6) = Wv (Proc.devRef .tc main_arg6) := by host_kept segM1
theorem segM1_keep_arg7 : after (segM1 (F := Ideal)) Wv (Proc.devRef .tc main_arg7) = Wv (Proc.devRef .tc main_arg7) := by host_kept segM1
theorem segM1_keep_arg8 : after (segM1 (F := Ideal)) Wv (Proc.devRef .tc main_arg8) = Wv (Proc.devRef .tc main_arg8) := by host_kept segM1
theorem segM1_keep_v1 : after (segM1 (F := Ideal)) Wv (Proc.devRef .tc main_v1) = Wv (Proc.devRef .tc main_v1) := by host_kept segM1
theorem segM1_keep_v3 : after (segM1 (F := Ideal)) Wv (Proc.devRef .tc main_v3) = Wv (Proc.devRef .tc main_v3) := by host_kept segM1
theorem segM1_keep_v4 : after (segM1 (F := Ideal)) Wv (Proc.devRef .tc main_v4) = Wv (Proc.devRef .tc main_v4) := by host_kept segM1

/-! ### Layer 1's GRU stretch writes neither an argument buffer nor the edge-number vectors -/

theorem segG1_keep_arg3 : after (segG1 (F := Ideal)) Wv (Proc.devRef .tc main_arg3) = Wv (Proc.devRef .tc main_arg3) := by host_kept segG1
theorem segG1_keep_arg4 : after (segG1 (F := Ideal)) Wv (Proc.devRef .tc main_arg4) = Wv (Proc.devRef .tc main_arg4) := by host_kept segG1
theorem segG1_keep_arg5 : after (segG1 (F := Ideal)) Wv (Proc.devRef .tc main_arg5) = Wv (Proc.devRef .tc main_arg5) := by host_kept segG1
theorem segG1_keep_arg6 : after (segG1 (F := Ideal)) Wv (Proc.devRef .tc main_arg6) = Wv (Proc.devRef .tc main_arg6) := by host_kept segG1
theorem segG1_keep_arg7 : after (segG1 (F := Ideal)) Wv (Proc.devRef .tc main_arg7) = Wv (Proc.devRef .tc main_arg7) := by host_kept segG1
theorem segG1_keep_arg8 : after (segG1 (F := Ideal)) Wv (Proc.devRef .tc main_arg8) = Wv (Proc.devRef .tc main_arg8) := by host_kept segG1
theorem segG1_keep_v1 : after (segG1 (F := Ideal)) Wv (Proc.devRef .tc main_v1) = Wv (Proc.devRef .tc main_v1) := by host_kept segG1
theorem segG1_keep_v3 : after (segG1 (F := Ideal)) Wv (Proc.devRef .tc main_v3) = Wv (Proc.devRef .tc main_v3) := by host_kept segG1

/-! ### Layer 2's message stretch writes neither an argument buffer, nor the edge-number vectors, nor the hidden state it reads -/

theorem segM2_keep_arg3 : after (segM2 (F := Ideal)) Wv (Proc.devRef .tc main_arg3) = Wv (Proc.devRef .tc main_arg3) := by host_kept segM2
theorem segM2_keep_arg4 : after (segM2 (F := Ideal)) Wv (Proc.devRef .tc main_arg4) = Wv (Proc.devRef .tc main_arg4) := by host_kept segM2
theorem segM2_keep_arg5 : after (segM2 (F := Ideal)) Wv (Proc.devRef .tc main_arg5) = Wv (Proc.devRef .tc main_arg5) := by host_kept segM2
theorem segM2_keep_arg6 : after (segM2 (F := Ideal)) Wv (Proc.devRef .tc main_arg6) = Wv (Proc.devRef .tc main_arg6) := by host_kept segM2
theorem segM2_keep_arg7 : after (segM2 (F := Ideal)) Wv (Proc.devRef .tc main_arg7) = Wv (Proc.devRef .tc main_arg7) := by host_kept segM2
theorem segM2_keep_arg8 : after (segM2 (F := Ideal)) Wv (Proc.devRef .tc main_arg8) = Wv (Proc.devRef .tc main_arg8) := by host_kept segM2
theorem segM2_keep_v1 : after (segM2 (F := Ideal)) Wv (Proc.devRef .tc main_v1) = Wv (Proc.devRef .tc main_v1) := by host_kept segM2
theorem segM2_keep_v3 : after (segM2 (F := Ideal)) Wv (Proc.devRef .tc main_v3) = Wv (Proc.devRef .tc main_v3) := by host_kept segM2
theorem segM2_keep_v55 : after (segM2 (F := Ideal)) Wv (Proc.devRef .tc main_v55) = Wv (Proc.devRef .tc main_v55) := by host_kept segM2

/-! ### Layer 2's GRU stretch writes neither an argument buffer nor the edge-number vectors -/

theorem segG2_keep_arg3 : after (segG2 (F := Ideal)) Wv (Proc.devRef .tc main_arg3) = Wv (Proc.devRef .tc main_arg3) := by host_kept segG2
theorem segG2_keep_arg4 : after (segG2 (F := Ideal)) Wv (Proc.devRef .tc main_arg4) = Wv (Proc.devRef .tc main_arg4) := by host_kept segG2
theorem segG2_keep_arg5 : after (segG2 (F := Ideal)) Wv (Proc.devRef .tc main_arg5) = Wv (Proc.devRef .tc main_arg5) := by host_kept segG2
theorem segG2_keep_arg6 : after (segG2 (F := Ideal)) Wv (Proc.devRef .tc main_arg6) = Wv (Proc.devRef .tc main_arg6) := by host_kept segG2
theorem segG2_keep_arg7 : after (segG2 (F := Ideal)) Wv (Proc.devRef .tc main_arg7) = Wv (Proc.devRef .tc main_arg7) := by host_kept segG2
theorem segG2_keep_arg8 : after (segG2 (F := Ideal)) Wv (Proc.devRef .tc main_arg8) = Wv (Proc.devRef .tc main_arg8) := by host_kept segG2
theorem segG2_keep_v1 : after (segG2 (F := Ideal)) Wv (Proc.devRef .tc main_v1) = Wv (Proc.devRef .tc main_v1) := by host_kept segG2
theorem segG2_keep_v3 : after (segG2 (F := Ideal)) Wv (Proc.devRef .tc main_v3) = Wv (Proc.devRef .tc main_v3) := by host_kept segG2

/-! ### Layer 3's message stretch writes neither an argument buffer, nor the edge-number vectors, nor the hidden state it reads -/

theorem segM3_keep_arg3 : after (segM3 (F := Ideal)) Wv (Proc.devRef .tc main_arg3) = Wv (Proc.devRef .tc main_arg3) := by host_kept segM3
theorem segM3_keep_arg4 : after (segM3 (F := Ideal)) Wv (Proc.devRef .tc main_arg4) = Wv (Proc.devRef .tc main_arg4) := by host_kept segM3
theorem segM3_keep_arg5 : after (segM3 (F := Ideal)) Wv (Proc.devRef .tc main_arg5) = Wv (Proc.devRef .tc main_arg5) := by host_kept segM3
theorem segM3_keep_arg6 : after (segM3 (F := Ideal)) Wv (Proc.devRef .tc main_arg6) = Wv (Proc.devRef .tc main_arg6) := by host_kept segM3
theorem segM3_keep_arg7 : after (segM3 (F := Ideal)) Wv (Proc.devRef .tc main_arg7) = Wv (Proc.devRef .tc main_arg7) := by host_kept segM3
theorem segM3_keep_arg8 : after (segM3 (F := Ideal)) Wv (Proc.devRef .tc main_arg8) = Wv (Proc.devRef .tc main_arg8) := by host_kept segM3
theorem segM3_keep_v1 : after (segM3 (F := Ideal)) Wv (Proc.devRef .tc main_v1) = Wv (Proc.devRef .tc main_v1) := by host_kept segM3
theorem segM3_keep_v3 : after (segM3 (F := Ideal)) Wv (Proc.devRef .tc main_v3) = Wv (Proc.devRef .tc main_v3) := by host_kept segM3
theorem segM3_keep_v106 : after (segM3 (F := Ideal)) Wv (Proc.devRef .tc main_v106) = Wv (Proc.devRef .tc main_v106) := by host_kept segM3

/-! ### Layer 3's GRU stretch writes neither an argument buffer nor the edge-number vectors -/

theorem segG3_keep_arg3 : after (segG3 (F := Ideal)) Wv (Proc.devRef .tc main_arg3) = Wv (Proc.devRef .tc main_arg3) := by host_kept segG3
theorem segG3_keep_arg4 : after (segG3 (F := Ideal)) Wv (Proc.devRef .tc main_arg4) = Wv (Proc.devRef .tc main_arg4) := by host_kept segG3
theorem segG3_keep_arg5 : after (segG3 (F := Ideal)) Wv (Proc.devRef .tc main_arg5) = Wv (Proc.devRef .tc main_arg5) := by host_kept segG3
theorem segG3_keep_arg6 : after (segG3 (F := Ideal)) Wv (Proc.devRef .tc main_arg6) = Wv (Proc.devRef .tc main_arg6) := by host_kept segG3
theorem segG3_keep_arg7 : after (segG3 (F := Ideal)) Wv (Proc.devRef .tc main_arg7) = Wv (Proc.devRef .tc main_arg7) := by host_kept segG3
theorem segG3_keep_arg8 : after (segG3 (F := Ideal)) Wv (Proc.devRef .tc main_arg8) = Wv (Proc.devRef .tc main_arg8) := by host_kept segG3
theorem segG3_keep_v1 : after (segG3 (F := Ideal)) Wv (Proc.devRef .tc main_v1) = Wv (Proc.devRef .tc main_v1) := by host_kept segG3
theorem segG3_keep_v3 : after (segG3 (F := Ideal)) Wv (Proc.devRef .tc main_v3) = Wv (Proc.devRef .tc main_v3) := by host_kept segG3

/-! ### Layer 4's message stretch writes neither an argument buffer, nor the edge-number vectors, nor the hidden state it reads -/

theorem segM4_keep_arg3 : after (segM4 (F := Ideal)) Wv (Proc.devRef .tc main_arg3) = Wv (Proc.devRef .tc main_arg3) := by host_kept segM4
theorem segM4_keep_arg4 : after (segM4 (F := Ideal)) Wv (Proc.devRef .tc main_arg4) = Wv (Proc.devRef .tc main_arg4) := by host_kept segM4
theorem segM4_keep_arg5 : after (segM4 (F := Ideal)) Wv (Proc.devRef .tc main_arg5) = Wv (Proc.devRef .tc main_arg5) := by host_kept segM4
theorem segM4_keep_arg6 : after (segM4 (F := Ideal)) Wv (Proc.devRef .tc main_arg6) = Wv (Proc.devRef .tc main_arg6) := by host_kept segM4
theorem segM4_keep_arg7 : after (segM4 (F := Ideal)) Wv (Proc.devRef .tc main_arg7) = Wv (Proc.devRef .tc main_arg7) := by host_kept segM4
theorem segM4_keep_arg8 : after (segM4 (F := Ideal)) Wv (Proc.devRef .tc main_arg8) = Wv (Proc.devRef .tc main_arg8) := by host_kept segM4
theorem segM4_keep_v1 : after (segM4 (F := Ideal)) Wv (Proc.devRef .tc main_v1) = Wv (Proc.devRef .tc main_v1) := by host_kept segM4
theorem segM4_keep_v3 : after (segM4 (F := Ideal)) Wv (Proc.devRef .tc main_v3) = Wv (Proc.devRef .tc main_v3) := by host_kept segM4
theorem segM4_keep_v157 : after (segM4 (F := Ideal)) Wv (Proc.devRef .tc main_v157) = Wv (Proc.devRef .tc main_v157) := by host_kept segM4

/-! ### Layer 4's GRU stretch writes neither an argument buffer nor the edge-number vectors -/

theorem segG4_keep_arg3 : after (segG4 (F := Ideal)) Wv (Proc.devRef .tc main_arg3) = Wv (Proc.devRef .tc main_arg3) := by host_kept segG4
theorem segG4_keep_arg4 : after (segG4 (F := Ideal)) Wv (Proc.devRef .tc main_arg4) = Wv (Proc.devRef .tc main_arg4) := by host_kept segG4
theorem segG4_keep_arg5 : after (segG4 (F := Ideal)) Wv (Proc.devRef .tc main_arg5) = Wv (Proc.devRef .tc main_arg5) := by host_kept segG4
theorem segG4_keep_arg6 : after (segG4 (F := Ideal)) Wv (Proc.devRef .tc main_arg6) = Wv (Proc.devRef .tc main_arg6) := by host_kept segG4
theorem segG4_keep_arg7 : after (segG4 (F := Ideal)) Wv (Proc.devRef .tc main_arg7) = Wv (Proc.devRef .tc main_arg7) := by host_kept segG4
theorem segG4_keep_arg8 : after (segG4 (F := Ideal)) Wv (Proc.devRef .tc main_arg8) = Wv (Proc.devRef .tc main_arg8) := by host_kept segG4
theorem segG4_keep_v1 : after (segG4 (F := Ideal)) Wv (Proc.devRef .tc main_v1) = Wv (Proc.devRef .tc main_v1) := by host_kept segG4
theorem segG4_keep_v3 : after (segG4 (F := Ideal)) Wv (Proc.devRef .tc main_v3) = Wv (Proc.devRef .tc main_v3) := by host_kept segG4

/-! ### What the stretches compute -/

/-- The first stretch leaves the source numbers in their buffer. -/
theorem segS0_v1 : after (segS0 (F := Ideal)) Wv (Proc.devRef .tc main_v1) = srcOf (Wv (Proc.devRef .tc main_arg1)) := by
  unfold segS0; after_results_simp; first | done | rfl

/-- The first stretch leaves the destination numbers in their buffer. -/
theorem segS0_v3 : after (segS0 (F := Ideal)) Wv (Proc.devRef .tc main_v3) = dstOf (Wv (Proc.devRef .tc main_arg1)) := by
  unfold segS0; after_results_simp; first | done | rfl

/-- The first stretch leaves the first hidden state in its buffer. -/
theorem segS0_v4 : after (segS0 (F := Ideal)) Wv (Proc.devRef .tc main_v4)
    = h0 (Wv (Proc.devRef .tc main_arg0)) (Wv (Proc.devRef .tc main_arg2)) := by
  refine Eq.trans ?_ (dot_in _ _)
  unfold segS0; after_results_simp; first | done | rfl

/-- Layer 1's message stretch leaves the aggregation of (hidden state times the layer's weight) in its buffer. -/
theorem segM1_val : after (segM1 (F := Ideal)) Wv (Proc.devRef .tc main_v17)
    = agg (Wv (Proc.devRef .tc main_v1)) (Wv (Proc.devRef .tc main_v3)) (Cert.GGNN.mm (Wv (Proc.devRef .tc main_v4)) (cw0 (Wv (Proc.devRef .tc main_arg4)))) := by
  refine Eq.trans ?_ (congrArg (agg _ _) (dot_conv _ _))
  unfold segM1; after_results_simp; first | done | rfl

/-- Layer 2's message stretch leaves the aggregation of (hidden state times the layer's weight) in its buffer. -/
theorem segM2_val : after (segM2 (F := Ideal)) Wv (Proc.devRef .tc main_v68)
    = agg (Wv (Proc.devRef .tc main_v1)) (Wv (Proc.devRef .tc main_v3)) (Cert.GGNN.mm (Wv (Proc.devRef .tc main_v55)) (cw1 (Wv (Proc.devRef .tc main_arg4)))) := by
  refine Eq.trans ?_ (congrArg (agg _ _) (dot_conv _ _))
  unfold segM2; after_results_simp; first | done | rfl

/-- Layer 3's message stretch leaves the aggregation of (hidden state times the layer's weight) in its buffer. -/
theorem segM3_val : after (segM3 (F := Ideal)) Wv (Proc.devRef .tc main_v119)
    = agg (Wv (Proc.devRef .tc main_v1)) (Wv (Proc.devRef .tc main_v3)) (Cert.GGNN.mm (Wv (Proc.devRef .tc main_v106)) (cw2 (Wv (Proc.devRef .tc main_arg4)))) := by
  refine Eq.trans ?_ (congrArg (agg _ _) (dot_conv _ _))
  unfold segM3; after_results_simp; first | done | rfl

/-- Layer 4's message stretch leaves the aggregation of (hidden state times the layer's weight) in its buffer. -/
theorem segM4_val : after (segM4 (F := Ideal)) Wv (Proc.devRef .tc main_v170)
    = agg (Wv (Proc.devRef .tc main_v1)) (Wv (Proc.devRef .tc main_v3)) (Cert.GGNN.mm (Wv (Proc.devRef .tc main_v157)) (cw3 (Wv (Proc.devRef .tc main_arg4)))) := by
  refine Eq.trans ?_ (congrArg (agg _ _) (dot_conv _ _))
  unfold segM4; after_results_simp; first | done | rfl

end Stretches

/-! ## One layer at a time -/

section Layers

variable (V : Valuation τ sig (Elt Ideal))

/-- Layer 1: its two stretches take the hidden state in its buffer to the next one. -/
theorem layer1_val : after (segG1 (F := Ideal)) (after (segM1 (F := Ideal)) V) (Proc.devRef .tc main_v55)
    = next (V (Proc.devRef .tc main_v1)) (V (Proc.devRef .tc main_v3)) (cw0 (V (Proc.devRef .tc main_arg4))) (V (Proc.devRef .tc main_arg5)) (V (Proc.devRef .tc main_arg6))
        (V (Proc.devRef .tc main_arg7)) (V (Proc.devRef .tc main_arg8)) (V (Proc.devRef .tc main_v4)) := by
  rw [segG1_val, segM1_val, segM1_keep_v4, segM1_keep_arg5, segM1_keep_arg6, segM1_keep_arg7, segM1_keep_arg8,
    gruHost_eq_layer]
  rfl

/-- Layer 2: its two stretches take the hidden state in its buffer to the next one. -/
theorem layer2_val : after (segG2 (F := Ideal)) (after (segM2 (F := Ideal)) V) (Proc.devRef .tc main_v106)
    = next (V (Proc.devRef .tc main_v1)) (V (Proc.devRef .tc main_v3)) (cw1 (V (Proc.devRef .tc main_arg4))) (V (Proc.devRef .tc main_arg5)) (V (Proc.devRef .tc main_arg6))
        (V (Proc.devRef .tc main_arg7)) (V (Proc.devRef .tc main_arg8)) (V (Proc.devRef .tc main_v55)) := by
  rw [segG2_val, segM2_val, segM2_keep_v55, segM2_keep_arg5, segM2_keep_arg6, segM2_keep_arg7, segM2_keep_arg8,
    gruHost_eq_layer]
  rfl

/-- Layer 3: its two stretches take the hidden state in its buffer to the next one. -/
theorem layer3_val : after (segG3 (F := Ideal)) (after (segM3 (F := Ideal)) V) (Proc.devRef .tc main_v157)
    = next (V (Proc.devRef .tc main_v1)) (V (Proc.devRef .tc main_v3)) (cw2 (V (Proc.devRef .tc main_arg4))) (V (Proc.devRef .tc main_arg5)) (V (Proc.devRef .tc main_arg6))
        (V (Proc.devRef .tc main_arg7)) (V (Proc.devRef .tc main_arg8)) (V (Proc.devRef .tc main_v106)) := by
  rw [segG3_val, segM3_val, segM3_keep_v106, segM3_keep_arg5, segM3_keep_arg6, segM3_keep_arg7, segM3_keep_arg8,
    gruHost_eq_layer]
  rfl

/-- Layer 4: its two stretches take the hidden state in its buffer to the next one. -/
theorem layer4_val : after (segG4 (F := Ideal)) (after (segM4 (F := Ideal)) V) (Proc.devRef .tc main_v208)
    = next (V (Proc.devRef .tc main_v1)) (V (Proc.devRef .tc main_v3)) (cw3 (V (Proc.devRef .tc main_arg4))) (V (Proc.devRef .tc main_arg5)) (V (Proc.devRef .tc main_arg6))
        (V (Proc.devRef .tc main_arg7)) (V (Proc.devRef .tc main_arg8)) (V (Proc.devRef .tc main_v157)) := by
  rw [segG4_val, segM4_val, segM4_keep_v157, segM4_keep_arg5, segM4_keep_arg6, segM4_keep_arg7, segM4_keep_arg8,
    gruHost_eq_layer]
  rfl

end Layers

/-! ## What is carried from stretch to stretch -/

/-- The contents every stretch after the first finds in the buffers it reads and does not write: the output projection,
    the stacked layer weights, the GRU weights and biases, and the two edge-number vectors. -/
structure Carried (a1 : EdgeArr) (a3 : (⟨S64x40, .f32⟩ : BufTy).Contents (Elt Ideal)) (a4 : ConvArr)
    (a5 a6 : (⟨S192x64, .f32⟩ : BufTy).Contents (Elt Ideal)) (a7 a8 : (⟨S192, .f32⟩ : BufTy).Contents (Elt Ideal))
    (V : Valuation τ sig (Elt Ideal)) : Prop where
  arg3 : V (Proc.devRef .tc main_arg3) = a3
  arg4 : V (Proc.devRef .tc main_arg4) = a4
  arg5 : V (Proc.devRef .tc main_arg5) = a5
  arg6 : V (Proc.devRef .tc main_arg6) = a6
  arg7 : V (Proc.devRef .tc main_arg7) = a7
  arg8 : V (Proc.devRef .tc main_arg8) = a8
  src : V (Proc.devRef .tc main_v1) = srcOf a1
  dst : V (Proc.devRef .tc main_v3) = dstOf a1

/-- After the first stretch. -/
theorem carried_S0 (V0 : Valuation τ sig (Elt Ideal)) :
    Carried (V0 (Proc.devRef .tc main_arg1)) (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8)) (after (segS0 (F := Ideal)) V0) :=
  ⟨segS0_keep_arg3 V0, segS0_keep_arg4 V0, segS0_keep_arg5 V0, segS0_keep_arg6 V0, segS0_keep_arg7 V0, segS0_keep_arg8 V0,
    segS0_v1 V0, segS0_v3 V0⟩

section Induction

variable {a1 : EdgeArr} {a3 : (⟨S64x40, .f32⟩ : BufTy).Contents (Elt Ideal)} {a4 : ConvArr}
  {a5 a6 : (⟨S192x64, .f32⟩ : BufTy).Contents (Elt Ideal)} {a7 a8 : (⟨S192, .f32⟩ : BufTy).Contents (Elt Ideal)}
  {V : Valuation τ sig (Elt Ideal)}

/-- Layer 1 carries them on. -/
theorem carried_layer1 (h : Carried a1 a3 a4 a5 a6 a7 a8 V) :
    Carried a1 a3 a4 a5 a6 a7 a8 (after (segG1 (F := Ideal)) (after (segM1 (F := Ideal)) V)) :=
  ⟨((segG1_keep_arg3 _).trans (segM1_keep_arg3 V)).trans h.arg3,
    ((segG1_keep_arg4 _).trans (segM1_keep_arg4 V)).trans h.arg4,
    ((segG1_keep_arg5 _).trans (segM1_keep_arg5 V)).trans h.arg5,
    ((segG1_keep_arg6 _).trans (segM1_keep_arg6 V)).trans h.arg6,
    ((segG1_keep_arg7 _).trans (segM1_keep_arg7 V)).trans h.arg7,
    ((segG1_keep_arg8 _).trans (segM1_keep_arg8 V)).trans h.arg8,
    ((segG1_keep_v1 _).trans (segM1_keep_v1 V)).trans h.src,
    ((segG1_keep_v3 _).trans (segM1_keep_v3 V)).trans h.dst⟩

/-- Layer 1 takes a hidden state H in its buffer to the next of H. -/
theorem hidden_layer1 (h : Carried a1 a3 a4 a5 a6 a7 a8 V) {H : Cert.GGNN.Arr2 100000 64} (hH : V (Proc.devRef .tc main_v4) = H) :
    after (segG1 (F := Ideal)) (after (segM1 (F := Ideal)) V) (Proc.devRef .tc main_v55)
      = next (srcOf a1) (dstOf a1) (cw0 a4) a5 a6 a7 a8 H := by
  rw [layer1_val, h.src, h.dst, h.arg4, h.arg5, h.arg6, h.arg7, h.arg8, hH]

/-- Layer 2 carries them on. -/
theorem carried_layer2 (h : Carried a1 a3 a4 a5 a6 a7 a8 V) :
    Carried a1 a3 a4 a5 a6 a7 a8 (after (segG2 (F := Ideal)) (after (segM2 (F := Ideal)) V)) :=
  ⟨((segG2_keep_arg3 _).trans (segM2_keep_arg3 V)).trans h.arg3,
    ((segG2_keep_arg4 _).trans (segM2_keep_arg4 V)).trans h.arg4,
    ((segG2_keep_arg5 _).trans (segM2_keep_arg5 V)).trans h.arg5,
    ((segG2_keep_arg6 _).trans (segM2_keep_arg6 V)).trans h.arg6,
    ((segG2_keep_arg7 _).trans (segM2_keep_arg7 V)).trans h.arg7,
    ((segG2_keep_arg8 _).trans (segM2_keep_arg8 V)).trans h.arg8,
    ((segG2_keep_v1 _).trans (segM2_keep_v1 V)).trans h.src,
    ((segG2_keep_v3 _).trans (segM2_keep_v3 V)).trans h.dst⟩

/-- Layer 2 takes a hidden state H in its buffer to the next of H. -/
theorem hidden_layer2 (h : Carried a1 a3 a4 a5 a6 a7 a8 V) {H : Cert.GGNN.Arr2 100000 64} (hH : V (Proc.devRef .tc main_v55) = H) :
    after (segG2 (F := Ideal)) (after (segM2 (F := Ideal)) V) (Proc.devRef .tc main_v106)
      = next (srcOf a1) (dstOf a1) (cw1 a4) a5 a6 a7 a8 H := by
  rw [layer2_val, h.src, h.dst, h.arg4, h.arg5, h.arg6, h.arg7, h.arg8, hH]

/-- Layer 3 carries them on. -/
theorem carried_layer3 (h : Carried a1 a3 a4 a5 a6 a7 a8 V) :
    Carried a1 a3 a4 a5 a6 a7 a8 (after (segG3 (F := Ideal)) (after (segM3 (F := Ideal)) V)) :=
  ⟨((segG3_keep_arg3 _).trans (segM3_keep_arg3 V)).trans h.arg3,
    ((segG3_keep_arg4 _).trans (segM3_keep_arg4 V)).trans h.arg4,
    ((segG3_keep_arg5 _).trans (segM3_keep_arg5 V)).trans h.arg5,
    ((segG3_keep_arg6 _).trans (segM3_keep_arg6 V)).trans h.arg6,
    ((segG3_keep_arg7 _).trans (segM3_keep_arg7 V)).trans h.arg7,
    ((segG3_keep_arg8 _).trans (segM3_keep_arg8 V)).trans h.arg8,
    ((segG3_keep_v1 _).trans (segM3_keep_v1 V)).trans h.src,
    ((segG3_keep_v3 _).trans (segM3_keep_v3 V)).trans h.dst⟩

/-- Layer 3 takes a hidden state H in its buffer to the next of H. -/
theorem hidden_layer3 (h : Carried a1 a3 a4 a5 a6 a7 a8 V) {H : Cert.GGNN.Arr2 100000 64} (hH : V (Proc.devRef .tc main_v106) = H) :
    after (segG3 (F := Ideal)) (after (segM3 (F := Ideal)) V) (Proc.devRef .tc main_v157)
      = next (srcOf a1) (dstOf a1) (cw2 a4) a5 a6 a7 a8 H := by
  rw [layer3_val, h.src, h.dst, h.arg4, h.arg5, h.arg6, h.arg7, h.arg8, hH]

/-- Layer 4 carries them on. -/
theorem carried_layer4 (h : Carried a1 a3 a4 a5 a6 a7 a8 V) :
    Carried a1 a3 a4 a5 a6 a7 a8 (after (segG4 (F := Ideal)) (after (segM4 (F := Ideal)) V)) :=
  ⟨((segG4_keep_arg3 _).trans (segM4_keep_arg3 V)).trans h.arg3,
    ((segG4_keep_arg4 _).trans (segM4_keep_arg4 V)).trans h.arg4,
    ((segG4_keep_arg5 _).trans (segM4_keep_arg5 V)).trans h.arg5,
    ((segG4_keep_arg6 _).trans (segM4_keep_arg6 V)).trans h.arg6,
    ((segG4_keep_arg7 _).trans (segM4_keep_arg7 V)).trans h.arg7,
    ((segG4_keep_arg8 _).trans (segM4_keep_arg8 V)).trans h.arg8,
    ((segG4_keep_v1 _).trans (segM4_keep_v1 V)).trans h.src,
    ((segG4_keep_v3 _).trans (segM4_keep_v3 V)).trans h.dst⟩

/-- Layer 4 takes a hidden state H in its buffer to the next of H. -/
theorem hidden_layer4 (h : Carried a1 a3 a4 a5 a6 a7 a8 V) {H : Cert.GGNN.Arr2 100000 64} (hH : V (Proc.devRef .tc main_v157) = H) :
    after (segG4 (F := Ideal)) (after (segM4 (F := Ideal)) V) (Proc.devRef .tc main_v208)
      = next (srcOf a1) (dstOf a1) (cw3 a4) a5 a6 a7 a8 H := by
  rw [layer4_val, h.src, h.dst, h.arg4, h.arg5, h.arg6, h.arg7, h.arg8, hH]

end Induction

end Stretch

open Stretch

/-! ## The whole program, from any contents -/

section Whole

variable (V0 : Valuation τ sig (Elt Ideal))

/-- The reference's result at (p, q): the log-softmax, in the reference's arrangement, of row p of h4 times the output
    projection. -/
theorem ref_value_gen (p : Fin 100000) (q : Fin 40) :
    after (ops (F := Ideal)) V0 (Proc.devRef .tc main_v210) (ix2 p q)
      = Cert.GGNN.lsmR (fun j => Cert.GGNN.prod (h4 (V0 (Proc.devRef .tc main_arg0)) (V0 (Proc.devRef .tc main_arg1)) (V0 (Proc.devRef .tc main_arg2)) (V0 (Proc.devRef .tc main_arg4)) (V0 (Proc.devRef .tc main_arg5))
          (V0 (Proc.devRef .tc main_arg6)) (V0 (Proc.devRef .tc main_arg7)) (V0 (Proc.devRef .tc main_arg8)))
          (V0 (Proc.devRef .tc main_arg3)) p j) q := by
  have c1 := carried_S0 V0
  have e0 := segS0_v4 V0
  have e1 : _ = h1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) := hidden_layer1 c1 e0
  have c2 := carried_layer1 c1
  have e2 : _ = h2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) := hidden_layer2 c2 e1
  have c3 := carried_layer2 c2
  have e3 : _ = h3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) := hidden_layer3 c3 e2
  have c4 := carried_layer3 c3
  have e4 : _ = h4 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) := hidden_layer4 c4 e3
  have c5 := carried_layer4 c4
  simp only [ops, after_append]
  rw [segOUT_val, lsmHost_apply, e4, c5.arg3, dot_out]
  rfl

end Whole

/-! ## The whole program, from the launch contents -/

section Launch

variable (m : (ℓ : Loc nD τ sig) → Buf (Elt Ideal) ℓ) (d : Dev nD)

/-- The reference's result at (p, q), from the launch contents of the argument arrays. -/
theorem ref_value (p : Fin 100000) (q : Fin 40) :
    after (ops (F := Ideal)) (launchContents m d) (Proc.devRef .tc main_v210) (ix2 p q)
      = Cert.GGNN.lsmR (fun j => Cert.GGNN.prod
          (h4 (m ((d.tc : Thread nD τ).loc main_arg0)) (m ((d.tc : Thread nD τ).loc main_arg1)) (m ((d.tc : Thread nD τ).loc main_arg2)) (m ((d.tc : Thread nD τ).loc main_arg4))
            (m ((d.tc : Thread nD τ).loc main_arg5)) (m ((d.tc : Thread nD τ).loc main_arg6)) (m ((d.tc : Thread nD τ).loc main_arg7)) (m ((d.tc : Thread nD τ).loc main_arg8)))
          (m ((d.tc : Thread nD τ).loc main_arg3)) p j) q :=
  ref_value_gen (launchContents m d) p q

/-- The reference's result as a whole array. -/
theorem ref_value' :
    after (ops (F := Ideal)) (launchContents m d) (Proc.devRef .tc main_v210)
      = fun i : S100000x40.Idx => Cert.GGNN.lsmR (fun j => Cert.GGNN.prod
          (h4 (m ((d.tc : Thread nD τ).loc main_arg0)) (m ((d.tc : Thread nD τ).loc main_arg1)) (m ((d.tc : Thread nD τ).loc main_arg2)) (m ((d.tc : Thread nD τ).loc main_arg4))
            (m ((d.tc : Thread nD τ).loc main_arg5)) (m ((d.tc : Thread nD τ).loc main_arg6)) (m ((d.tc : Thread nD τ).loc main_arg7)) (m ((d.tc : Thread nD τ).loc main_arg8)))
          (m ((d.tc : Thread nD τ).loc main_arg3)) (i 0) j) (i 1) := by
  funext i
  obtain ⟨p, q, rfl⟩ : ∃ (p : Fin 100000) (q : Fin 40), i = ix2 p q := ⟨i 0, i 1, eq_ix2 i⟩
  exact ref_value m d p q

end Launch

/-! ## Real entries -/

/-- A layer's value is real wherever the hidden state it starts from is. -/
theorem next_real (src dst : EdgeVec) (cw : Cert.GGNN.Arr2 64 64) (wi wh : Cert.GGNN.Arr2 192 64)
    (bi bh : Cert.GGNN.Arr1 192) (h : Cert.GGNN.Arr2 100000 64) (hh : ∀ i, Cert.GGNN.IsReal (h i)) (i) :
    Cert.GGNN.IsReal (next src dst cw wi wh bi bh h i) := by
  unfold next Cert.GGNN.layer
  exact Cert.GGNN.isReal_cell _ _ _ (hh _) _ _ _ _ _ _ _ _ _ _ _ _ _

section Real

variable (x0 : (⟨S100000x256, .f32⟩ : BufTy).Contents (Elt Ideal)) (x1 : EdgeArr)
  (x2 : (⟨S256x64, .f32⟩ : BufTy).Contents (Elt Ideal)) (x4 : ConvArr)
  (x5 x6 : (⟨S192x64, .f32⟩ : BufTy).Contents (Elt Ideal)) (x7 x8 : (⟨S192, .f32⟩ : BufTy).Contents (Elt Ideal))

/-- The hidden state before the first layer is real when the node features and the input projection are. -/
theorem h0_real (hx0 : ∀ i, Cert.GGNN.IsReal (x0 i)) (hx2 : ∀ i, Cert.GGNN.IsReal (x2 i)) (i) :
    Cert.GGNN.IsReal (h0 x0 x2 i) :=
  Cert.GGNN.isReal_prod x0 x2 hx0 hx2 (i 0) (i 1)

/-- The last hidden state is real when the node features and the input projection are. -/
theorem h4_real (hx0 : ∀ i, Cert.GGNN.IsReal (x0 i)) (hx2 : ∀ i, Cert.GGNN.IsReal (x2 i)) (i) :
    Cert.GGNN.IsReal (h4 x0 x1 x2 x4 x5 x6 x7 x8 i) := by
  unfold h4
  refine next_real _ _ _ _ _ _ _ _ (fun i => ?_) i
  unfold h3
  refine next_real _ _ _ _ _ _ _ _ (fun i => ?_) i
  unfold h2
  refine next_real _ _ _ _ _ _ _ _ (fun i => ?_) i
  unfold h1
  exact next_real _ _ _ _ _ _ _ _ (h0_real x0 x2 hx0 hx2) i

end Real

end Cert.GGNN.R

end
-- ==== Proof.RefArgs.lean ====
/-
  The reference's argument buffers at the end of the program: no host operation writes an argument, so each holds
  its launch contents.
-/
import proofs.«167651_j43568148251382_1_alg».proof.Proof.RefOps
import proofs.«167651_j43568148251382_1_alg».proof.Proof.LibHostKept

noncomputable section

namespace Cert.GGNN.R

open Cert.ReferenceIdeal Cert.ReferenceIdeal.Gen Idealize.ShloMosaic Idealize.ShloMosaic.TcCoe Idealize.SL.Sem Idealize.ShloMosaic.StableHlo
open Cert.Kept

variable {F : FTy → Type} [FloatOps F]

/-- A buffer that each of the ten stretches keeps is kept by the whole program. -/
theorem kept_all (V : Valuation τ sig (Elt F)) (b : DevRef τ sig)
    (h0 : ∀ W : Valuation τ sig (Elt F), after (segS0 (F := F)) W b = W b)
    (h1 : ∀ W : Valuation τ sig (Elt F), after (segM1 (F := F)) W b = W b)
    (h2 : ∀ W : Valuation τ sig (Elt F), after (segG1 (F := F)) W b = W b)
    (h3 : ∀ W : Valuation τ sig (Elt F), after (segM2 (F := F)) W b = W b)
    (h4 : ∀ W : Valuation τ sig (Elt F), after (segG2 (F := F)) W b = W b)
    (h5 : ∀ W : Valuation τ sig (Elt F), after (segM3 (F := F)) W b = W b)
    (h6 : ∀ W : Valuation τ sig (Elt F), after (segG3 (F := F)) W b = W b)
    (h7 : ∀ W : Valuation τ sig (Elt F), after (segM4 (F := F)) W b = W b)
    (h8 : ∀ W : Valuation τ sig (Elt F), after (segG4 (F := F)) W b = W b)
    (h9 : ∀ W : Valuation τ sig (Elt F), after (segOUT (F := F)) W b = W b) :
    after (ops (F := F)) V b = V b := by
  show after (segS0 ++ segM1 ++ segG1 ++ segM2 ++ segG2 ++ segM3 ++ segG3 ++ segM4 ++ segG4 ++ segOUT) V b = V b
  rw [after_append, after_append, after_append, after_append, after_append, after_append, after_append, after_append,
    after_append, h9, h8, h7, h6, h5, h4, h3, h2, h1, h0]

/-- Argument 0 at the end of the program. -/
theorem ref_arg0 (m : (ℓ : Loc nD τ sig) → Buf (Elt F) ℓ) (d : Dev nD) :
    StableHlo.after (ops (F := F)) (launchContents m d) (Proc.devRef .tc main_arg0) = m ((d.tc : Thread nD τ).loc main_arg0) :=
  kept_all (launchContents m d) (Proc.devRef .tc main_arg0)
    (fun W => by host_kept segS0) (fun W => by host_kept segM1) (fun W => by host_kept segG1) (fun W => by host_kept segM2)
    (fun W => by host_kept segG2) (fun W => by host_kept segM3) (fun W => by host_kept segG3) (fun W => by host_kept segM4)
    (fun W => by host_kept segG4) (fun W => by host_kept segOUT)

/-- Argument 1 at the end of the program. -/
theorem ref_arg1 (m : (ℓ : Loc nD τ sig) → Buf (Elt F) ℓ) (d : Dev nD) :
    StableHlo.after (ops (F := F)) (launchContents m d) (Proc.devRef .tc main_arg1) = m ((d.tc : Thread nD τ).loc main_arg1) :=
  kept_all (launchContents m d) (Proc.devRef .tc main_arg1)
    (fun W => by host_kept segS0) (fun W => by host_kept segM1) (fun W => by host_kept segG1) (fun W => by host_kept segM2)
    (fun W => by host_kept segG2) (fun W => by host_kept segM3) (fun W => by host_kept segG3) (fun W => by host_kept segM4)
    (fun W => by host_kept segG4) (fun W => by host_kept segOUT)

/-- Argument 2 at the end of the program. -/
theorem ref_arg2 (m : (ℓ : Loc nD τ sig) → Buf (Elt F) ℓ) (d : Dev nD) :
    StableHlo.after (ops (F := F)) (launchContents m d) (Proc.devRef .tc main_arg2) = m ((d.tc : Thread nD τ).loc main_arg2) :=
  kept_all (launchContents m d) (Proc.devRef .tc main_arg2)
    (fun W => by host_kept segS0) (fun W => by host_kept segM1) (fun W => by host_kept segG1) (fun W => by host_kept segM2)
    (fun W => by host_kept segG2) (fun W => by host_kept segM3) (fun W => by host_kept segG3) (fun W => by host_kept segM4)
    (fun W => by host_kept segG4) (fun W => by host_kept segOUT)

/-- Argument 3 at the end of the program. -/
theorem ref_arg3 (m : (ℓ : Loc nD τ sig) → Buf (Elt F) ℓ) (d : Dev nD) :
    StableHlo.after (ops (F := F)) (launchContents m d) (Proc.devRef .tc main_arg3) = m ((d.tc : Thread nD τ).loc main_arg3) :=
  kept_all (launchContents m d) (Proc.devRef .tc main_arg3)
    (fun W => by host_kept segS0) (fun W => by host_kept segM1) (fun W => by host_kept segG1) (fun W => by host_kept segM2)
    (fun W => by host_kept segG2) (fun W => by host_kept segM3) (fun W => by host_kept segG3) (fun W => by host_kept segM4)
    (fun W => by host_kept segG4) (fun W => by host_kept segOUT)

/-- Argument 4 at the end of the program. -/
theorem ref_arg4 (m : (ℓ : Loc nD τ sig) → Buf (Elt F) ℓ) (d : Dev nD) :
    StableHlo.after (ops (F := F)) (launchContents m d) (Proc.devRef .tc main_arg4) = m ((d.tc : Thread nD τ).loc main_arg4) :=
  kept_all (launchContents m d) (Proc.devRef .tc main_arg4)
    (fun W => by host_kept segS0) (fun W => by host_kept segM1) (fun W => by host_kept segG1) (fun W => by host_kept segM2)
    (fun W => by host_kept segG2) (fun W => by host_kept segM3) (fun W => by host_kept segG3) (fun W => by host_kept segM4)
    (fun W => by host_kept segG4) (fun W => by host_kept segOUT)

/-- Argument 5 at the end of the program. -/
theorem ref_arg5 (m : (ℓ : Loc nD τ sig) → Buf (Elt F) ℓ) (d : Dev nD) :
    StableHlo.after (ops (F := F)) (launchContents m d) (Proc.devRef .tc main_arg5) = m ((d.tc : Thread nD τ).loc main_arg5) :=
  kept_all (launchContents m d) (Proc.devRef .tc main_arg5)
    (fun W => by host_kept segS0) (fun W => by host_kept segM1) (fun W => by host_kept segG1) (fun W => by host_kept segM2)
    (fun W => by host_kept segG2) (fun W => by host_kept segM3) (fun W => by host_kept segG3) (fun W => by host_kept segM4)
    (fun W => by host_kept segG4) (fun W => by host_kept segOUT)

/-- Argument 6 at the end of the program. -/
theorem ref_arg6 (m : (ℓ : Loc nD τ sig) → Buf (Elt F) ℓ) (d : Dev nD) :
    StableHlo.after (ops (F := F)) (launchContents m d) (Proc.devRef .tc main_arg6) = m ((d.tc : Thread nD τ).loc main_arg6) :=
  kept_all (launchContents m d) (Proc.devRef .tc main_arg6)
    (fun W => by host_kept segS0) (fun W => by host_kept segM1) (fun W => by host_kept segG1) (fun W => by host_kept segM2)
    (fun W => by host_kept segG2) (fun W => by host_kept segM3) (fun W => by host_kept segG3) (fun W => by host_kept segM4)
    (fun W => by host_kept segG4) (fun W => by host_kept segOUT)

/-- Argument 7 at the end of the program. -/
theorem ref_arg7 (m : (ℓ : Loc nD τ sig) → Buf (Elt F) ℓ) (d : Dev nD) :
    StableHlo.after (ops (F := F)) (launchContents m d) (Proc.devRef .tc main_arg7) = m ((d.tc : Thread nD τ).loc main_arg7) :=
  kept_all (launchContents m d) (Proc.devRef .tc main_arg7)
    (fun W => by host_kept segS0) (fun W => by host_kept segM1) (fun W => by host_kept segG1) (fun W => by host_kept segM2)
    (fun W => by host_kept segG2) (fun W => by host_kept segM3) (fun W => by host_kept segG3) (fun W => by host_kept segM4)
    (fun W => by host_kept segG4) (fun W => by host_kept segOUT)

/-- Argument 8 at the end of the program. -/
theorem ref_arg8 (m : (ℓ : Loc nD τ sig) → Buf (Elt F) ℓ) (d : Dev nD) :
    StableHlo.after (ops (F := F)) (launchContents m d) (Proc.devRef .tc main_arg8) = m ((d.tc : Thread nD τ).loc main_arg8) :=
  kept_all (launchContents m d) (Proc.devRef .tc main_arg8)
    (fun W => by host_kept segS0) (fun W => by host_kept segM1) (fun W => by host_kept segG1) (fun W => by host_kept segM2)
    (fun W => by host_kept segG2) (fun W => by host_kept segM3) (fun W => by host_kept segG3) (fun W => by host_kept segM4)
    (fun W => by host_kept segG4) (fun W => by host_kept segOUT)

end Cert.GGNN.R

end
-- ==== Proof.LibRealEntries.lean ====
/-
  Real entries of arrays over the extended reals, and how a finiteness precondition gives them.

  `IsReal x` says the extended real `x` is a real number.  Real numbers are closed under sums, products, maxima and
  finite sums.  A precondition of the usual form — for an input array `x`, the `and`-reduction over all axes, from
  `true`, of the entrywise test `|x| < +∞` came out `true` — makes every entry of `x` real: the reduction met `true`
  at every entry, and an extended real whose absolute value `max x (-x)` is below `+∞` is neither infinity.
-/
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.RealEntries

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The single-precision word of 0.0 denotes a real number. -/
theorem isReal_zero_word : IsReal (Ideal.ofBits .f32 0x00000000#32) := ⟨0, by rw [Ideal.ofBits_zero_f32]; rfl⟩

/-- The single-precision word `0x7F800000` denotes `+∞`. -/
theorem ofBits_inf : Ideal.ofBits .f32 0x7F800000#32 = (⊤ : EReal) := by
  simp [Ideal.ofBits, Ideal.ieee]

/-- An extended real with `|x| < +∞`, as the ordered comparison of `max x (-x)` with the word of `+∞` reads it, is a
    real number. -/
theorem isReal_of_abs_lt (x : EReal)
    (h : Ideal.cmp .olt (Max.max x (-x)) (Ideal.ofBits .f32 0x7F800000#32) = 1#1) : IsReal x := by
  rw [ofBits_inf] at h
  have hlt : Max.max x (-x) < (⊤ : EReal) := by
    by_contra hc
    have h0 : Ideal.cmp .olt (Max.max x (-x)) (⊤ : EReal) = 0#1 := by
      show BitVec.ofBool (decide (Max.max x (-x) < (⊤ : EReal))) = 0#1
      rw [decide_eq_false hc]; rfl
    rw [h0] at h
    exact absurd h (by decide)
  induction x using EReal.rec with
  | bot => exact absurd hlt (by simp)
  | coe r => exact ⟨r, rfl⟩
  | top => exact absurd hlt (by simp)

instance : Subsingleton (⟨0, ![]⟩ : Shape).Idx := ⟨fun a b => funext fun d => d.elim0⟩

/-- ONE INPUT'S SHARE OF A FINITENESS PRECONDITION: when the `and`-reduction of `|x| < +∞` over the whole array `x`,
    started from `true`, came out `true`, every entry of `x` is real.  Any shape, any list of reduced axes. -/
theorem entries_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : IsReal (x i) := by
  have h := Host.reduce_andi_all _ _ hr hu ValueIdx.ix0 e i
  refine isReal_of_abs_lt (x i) ?_
  have hb' : broadcastInDim s ![] hb (constant (F := Ideal) ⟨0, ![]⟩ .f32 0x7F800000#32) i = Ideal.ofBits .f32 0x7F800000#32 :=
    broadcastInDim_apply _ hb _ i (fun a => a.elim0) (fun a => a.elim0)
  rw [← hb']
  exact h

end Cert.RealEntries

end
-- ==== Proof.PreReal.lean ====
/-
  From the finiteness precondition to real entries.

  The precondition is a conjunction, one conjunct per floating-point input: the `and`-reduction over the whole array of
  the entrywise test |x| < +∞ came out true.  A conjunction of single bits is 1 exactly when every conjunct is 1, and
  one conjunct makes every entry of its array a real number.  The three arrays read here are the node features, the
  input projection and the output projection.
-/
import proofs.«167651_j43568148251382_1_alg».proof.Proof.Spec
import proofs.«167651_j43568148251382_1_alg».proof.Defs
import proofs.«167651_j43568148251382_1_alg».proof.Proof.LibRealEntries
import Idealize.ShloMosaic.Lib.Affine

noncomputable section

namespace Cert.GGNN

open Idealize.ShloMosaic Idealize.ShloMosaic.TcCoe Idealize.SL.Sem

/-- The two spellings of "is a real number" are the same proposition. -/
theorem isReal_of_entries {x : EReal} (h : Cert.RealEntries.IsReal x) : IsReal x := h

/-- Under the finiteness precondition the node features, the input projection and the output projection have real
    entries, on every device. -/
theorem pre_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i)) := by
  have e := congrFun (h c) ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h0, h2⟩, h3⟩, -⟩, -⟩, -⟩, -⟩, -⟩ := e
  exact ⟨fun i => isReal_of_entries (Cert.RealEntries.entries_real _ _ _ _ h0 i),
    fun i => isReal_of_entries (Cert.RealEntries.entries_real _ _ _ _ h2 i),
    fun i => isReal_of_entries (Cert.RealEntries.entries_real _ _ _ _ h3 i)⟩

end Cert.GGNN

end
-- ==== Proof.lean ====
/-
  The certificate of a gated graph network kernel against its reference, over the extended reals.

  The network: h0 = x · W_in; four layers, each sending a hidden state h to the GRU layer of (the edge-wise aggregation
  of h · W_layer, h); the result is the row-wise log-softmax of h4 · W_out.  The kernel's program computes the products,
  the GRU layers and the output stage in ten regions of fifty points of 2000 rows each, with the aggregations on the host
  between them; the reference computes everything on the host.  Both sides are read as the same chain h0 … h4 of arrays:
  a matrix product is a plain sum on either side, a GRU cell the same cell (the reference's stacked, transposed weights
  cut and read entry by entry; the spelled 1/(1+exp(-x)) the logistic function), the aggregation one function carried
  unopened.  The two arrangements of the log-softmax, x - (M + l) and (x - M) - l, agree when x and the row maximum M are
  real numbers; they are because the hidden states are: a cell's value is real as soon as the node's own hidden entry
  is (the logistic function and the hyperbolic tangent take every extended real to a real), so only x, W_in and W_out
  need the precondition.
-/
import proofs.«167651_j43568148251382_1_alg».proof.Defs
import proofs.«167651_j43568148251382_1_alg».proof.Proof.Gen.Kernel
import proofs.«167651_j43568148251382_1_alg».proof.Proof.Gen.Kernel.Skeleton
import proofs.«167651_j43568148251382_1_alg».proof.Proof.Gen.Kernel.Launch
import proofs.«167651_j43568148251382_1_alg».proof.Proof.Gen.Kernel.Points
import proofs.«167651_j43568148251382_1_alg».proof.Proof.Gen.Kernel.Frame
import proofs.«167651_j43568148251382_1_alg».proof.Proof.Gen.KernelIdeal
import proofs.«167651_j43568148251382_1_alg».proof.Proof.Gen.KernelIdeal.Skeleton
import proofs.«167651_j43568148251382_1_alg».proof.Proof.Gen.KernelIdeal.Launch
import proofs.«167651_j43568148251382_1_alg».proof.Proof.Gen.KernelIdeal.Points
import proofs.«167651_j43568148251382_1_alg».proof.Proof.Gen.KernelIdeal.Frame
import proofs.«167651_j43568148251382_1_alg».proof.Proof.Gen.ReferenceIdeal
import proofs.«167651_j43568148251382_1_alg».proof.Proof.Gen.Pre_finite_inputs
import proofs.«167651_j43568148251382_1_alg».proof.Proof.KChain
import proofs.«167651_j43568148251382_1_alg».proof.Proof.RefChain
import proofs.«167651_j43568148251382_1_alg».proof.Proof.RefArgs
import proofs.«167651_j43568148251382_1_alg».proof.Proof.PreReal
import proofs.«167651_j43568148251382_1_alg».proof.Proof.OutSpec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs, and no stretch of it writes an argument. -/
theorem frame_ri : Cert.frame_ReferenceIdeal := fun m ρ _ =>
  (θ_run Cert.ReferenceIdeal.defs _ _).mono (fun r h c =>
    ⟨(h c Cert.ReferenceIdeal.main_arg0).trans (Cert.GGNN.R.ref_arg0 m c),
     (h c Cert.ReferenceIdeal.main_arg1).trans (Cert.GGNN.R.ref_arg1 m c),
     (h c Cert.ReferenceIdeal.main_arg2).trans (Cert.GGNN.R.ref_arg2 m c),
     (h c Cert.ReferenceIdeal.main_arg3).trans (Cert.GGNN.R.ref_arg3 m c),
     (h c Cert.ReferenceIdeal.main_arg4).trans (Cert.GGNN.R.ref_arg4 m c),
     (h c Cert.ReferenceIdeal.main_arg5).trans (Cert.GGNN.R.ref_arg5 m c),
     (h c Cert.ReferenceIdeal.main_arg6).trans (Cert.GGNN.R.ref_arg6 m c),
     (h c Cert.ReferenceIdeal.main_arg7).trans (Cert.GGNN.R.ref_arg7 m c),
     (h c Cert.ReferenceIdeal.main_arg8).trans (Cert.GGNN.R.ref_arg8 m c)⟩)
    (Cert.GGNN.R.run0 (F := Ideal) m ρ)

/-- From memories agreeing on the arguments both programs end with the same result array: the kernel's arrangement of
    the log-softmax of h4 · W_out, which for real logits is the reference's. -/
theorem algebraic : Cert.algebraic_KernelIdeal_ReferenceIdeal := by
  intro m ρ m' ρ' hpre hagree
  refine ⟨fun c => Cert.GGNN.K.outArr (Cert.GGNN.R.h4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.GGNN.K.result m ρ c), (h c).2⟩)
      (Cert.GGNN.K.run_main (F := Ideal) m ρ)
  · refine (θ_run Cert.ReferenceIdeal.defs _ _).mono (fun r h c => ?_) (Cert.GGNN.R.run0 (F := Ideal) m' ρ')
    obtain ⟨e0, e1, e2, e3, e4, e5, e6, e7, e8⟩ := hagree c
    obtain ⟨hr0, hr2, hr3⟩ := Cert.GGNN.pre_real m hpre c
    refine ⟨?_, (h c Cert.ReferenceIdeal.main_arg0).trans (Cert.GGNN.R.ref_arg0 m' c),
      (h c Cert.ReferenceIdeal.main_arg1).trans (Cert.GGNN.R.ref_arg1 m' c),
      (h c Cert.ReferenceIdeal.main_arg2).trans (Cert.GGNN.R.ref_arg2 m' c),
      (h c Cert.ReferenceIdeal.main_arg3).trans (Cert.GGNN.R.ref_arg3 m' c),
      (h c Cert.ReferenceIdeal.main_arg4).trans (Cert.GGNN.R.ref_arg4 m' c),
      (h c Cert.ReferenceIdeal.main_arg5).trans (Cert.GGNN.R.ref_arg5 m' c),
      (h c Cert.ReferenceIdeal.main_arg6).trans (Cert.GGNN.R.ref_arg6 m' c),
      (h c Cert.ReferenceIdeal.main_arg7).trans (Cert.GGNN.R.ref_arg7 m' c),
      (h c Cert.ReferenceIdeal.main_arg8).trans (Cert.GGNN.R.ref_arg8 m' c)⟩
    rw [h c Cert.ReferenceIdeal.main_v210]
    funext i
    obtain ⟨p, q, rfl⟩ : ∃ (p : Fin 100000) (q : Fin 40), i = ix2 p q := ⟨i 0, i 1, eq_ix2 i⟩
    rw [Cert.GGNN.R.ref_value m' c p q, e0, e1, e2, e3, e4, e5, e6, e7, e8]
    exact (Cert.GGNN.lsm_law _ (fun j => Cert.GGNN.isReal_prod _ _
      (Cert.GGNN.R.h4_real _ _ _ _ _ _ _ _ hr0 hr2) hr3 p j) q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
